-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v117)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v117) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S50000x1 : Shape := ⟨2, ![50000, 1]⟩
abbrev S800000x1 : Shape := ⟨2, ![800000, 1]⟩
abbrev S64x128 : Shape := ⟨2, ![64, 128]⟩
abbrev S128 : Shape := ⟨1, ![128]⟩
abbrev S4x256x128 : Shape := ⟨3, ![4, 256, 128]⟩
abbrev S4x128 : Shape := ⟨2, ![4, 128]⟩
abbrev S256x128 : Shape := ⟨2, ![256, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x1 : S_.BroadcastsInDim S50000x1 (![] : Fin 0 → Fin S50000x1.rank)
  reducesTo_S50000x1_S_d0_1 : S50000x1.ReducesTo [0, 1] S_
  bcast_S_S800000x1 : S_.BroadcastsInDim S800000x1 (![] : Fin 0 → Fin S800000x1.rank)
  reducesTo_S800000x1_S_d0_1 : S800000x1.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S4x256x128 : S_.BroadcastsInDim S4x256x128 (![] : Fin 0 → Fin S4x256x128.rank)
  reducesTo_S4x256x128_S_d0_1_2 : S4x256x128.ReducesTo [0, 1, 2] S_
  bcast_S_S4x128 : S_.BroadcastsInDim S4x128 (![] : Fin 0 → Fin S4x128.rank)
  reducesTo_S4x128_S_d0_1 : S4x128.ReducesTo [0, 1] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg13 : FVec F S64x2 .f32) (main_arg14 : FVec F S2 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x2 .f32 := Host.absf main_arg13
  let main_cst_20 : FVec F S_ .f32 := constant S_ .f32 0x7F800000#32
  let main_v55 : FVec F S64x2 .f32 := broadcastInDim S64x2 ![] bcast_S_S64x2 main_cst_20
  let main_v56 : IVec S64x2 1 := cmpf .olt main_v54 main_v55
  let main_c_21 : IVec S_ 1 := constantI S_ 1 1#1
  let main_v57 : IVec S_ 1 := (fun x v => Host.reduce IntOp.andi x v reducesTo_S64x2_S_d0_1 h_S_) main_v56 main_c_21
  let main_v58 : IVec S_ 1 := andi main_v53 main_v57
  let main_v59 : FVec F S2 .f32 := Host.absf main_arg14
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg9 : FVec F S256x128 .f32) (main_arg10 : FVec F S128 .f32) (main_arg11 : FVec F S128x64 .f32) (main_arg12 : FVec F S64 .f32) (main_arg13 : FVec F S64x2 .f32) (main_arg14 : FVec F S2 .f32) (main_v33 : IVec S_ 1) : IVec S_ 1 :=
  let main_v34 : FVec F S256x128 .f32 := Host.absf main_arg9
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_v48 main_v49 main_v50

def fn_part1 {F : FTy → Type} [FloatOps F] (main_arg6 : FVec F S128 .f32) (main_arg7 : FVec F S4x256x128 .f32) (main_arg8 : FVec F S4x128 .f32) (main_arg9 : FVec F S256x128 .f32) (main_arg10 : FVec F S128 .f32) (main_arg11 : FVec F S128x64 .f32) (main_arg12 : FVec F S64 .f32) (main_arg13 : FVec F S64x2 .f32) (main_arg14 : FVec F S2 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S4x256x128 .f32 := Host.absf main_arg7
  let main_cst_8 : FVec F S_ .f32 := constant S_ .f32 0x7F800000#32
  let main_v25 : FVec F S4x256x128 .f32 := broadcastInDim S4x256x128 ![] bcast_S_S4x256x128 main_cst_8
  let main_v26 : IVec S4x256x128 1 := cmpf .olt main_v24 main_v25
  let main_c_9 : IVec S_ 1 := constantI S_ 1 1#1
  let main_v27 : IVec S_ 1 := (fun x v => Host.reduce IntOp.andi x v reducesTo_S4x256x128_S_d0_1_2 h_S_) main_v26 main_c_9
  let main_v28 : IVec S_ 1 := andi main_v23 main_v27
  let main_v29 : FVec F S4x128 .f32 := Host.absf main_arg8
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x64 .f32) (main_arg1 : IVec S800000 32) (main_arg2 : IVec S800000 32) (main_arg3 : FVec F S50000x1 .f32) (main_arg4 : FVec F S800000x1 .f32) (main_arg5 : FVec F S64x128 .f32) (main_arg6 : FVec F S128 .f32) (main_arg7 : FVec F S4x256x128 .f32) (main_arg8 : FVec F S4x128 .f32) (main_arg9 : FVec F S256x128 .f32) (main_arg10 : FVec F S128 .f32) (main_arg11 : FVec F S128x64 .f32) (main_arg12 : FVec F S64 .f32) (main_arg13 : FVec F S64x2 .f32) (main_arg14 : FVec F S2 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x1 .f32 := Host.absf main_arg3
  let main_cst_0 : FVec F S_ .f32 := constant S_ .f32 0x7F800000#32
  let main_v5 : FVec F S50000x1 .f32 := broadcastInDim S50000x1 ![] bcast_S_S50000x1 main_cst_0
  let main_v6 : IVec S50000x1 1 := cmpf .olt main_v4 main_v5
  let main_c_1 : IVec S_ 1 := constantI S_ 1 1#1
  let main_v7 : IVec S_ 1 := (fun x v => Host.reduce IntOp.andi x v reducesTo_S50000x1_S_d0_1 h_S_) main_v6 main_c_1
  let main_v8 : IVec S_ 1 := andi main_v3 main_v7
  let main_v9 : FVec F S800000x1 .f32 := Host.absf main_arg4
  let main_cst_2 : FVec F S_ .f32 := constant S_ .f32 0x7F800000#32
  let main_v10 : FVec F S800000x1 .f32 := broadcastInDim S800000x1 ![] bcast_S_S800000x1 main_cst_2
  let main_v11 : IVec S800000x1 1 := cmpf .olt main_v9 main_v10
  let main_c_3 : IVec S_ 1 := constantI S_ 1 1#1
  let main_v12 : IVec S_ 1 := (fun x v => Host.reduce IntOp.andi x v reducesTo_S800000x1_S_d0_1 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg6 main_arg7 main_arg8 main_arg9 main_arg10 main_arg11 main_arg12 main_arg13 main_arg14 main_v13 main_v16
-- ==== Kernel.lean ====
abbrev S50000x64 : Shape := ⟨2, ![50000, 64]⟩
abbrev S800000 : Shape := ⟨1, ![800000]⟩
abbrev S50000x1 : Shape := ⟨2, ![50000, 1]⟩
abbrev S800000x1 : Shape := ⟨2, ![800000, 1]⟩
abbrev S64x128 : Shape := ⟨2, ![64, 128]⟩
abbrev S128 : Shape := ⟨1, ![128]⟩
abbrev S4x256x128 : Shape := ⟨3, ![4, 256, 128]⟩
abbrev S4x128 : Shape := ⟨2, ![4, 128]⟩
abbrev S256x128 : Shape := ⟨2, ![256, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x128 : Shape := ⟨2, ![1, 128]⟩
abbrev S50000x128 : Shape := ⟨2, ![50000, 128]⟩
abbrev S2000x64 : Shape := ⟨2, ![2000, 64]⟩
abbrev S2000x128 : Shape := ⟨2, ![2000, 128]⟩
abbrev S_ : Shape := ⟨0, ![]⟩
abbrev S4x128x128 : Shape := ⟨3, ![4, 128, 128]⟩
abbrev S800000x128 : Shape := ⟨2, ![800000, 128]⟩
abbrev S1x128x128 : Shape := ⟨3, ![1, 128, 128]⟩
abbrev S128x128 : Shape := ⟨2, ![128, 128]⟩
abbrev S2000x1 : Shape := ⟨2, ![2000, 1]⟩
abbrev S2000 : Shape := ⟨1, ![2000]⟩
abbrev S1x64 : Shape := ⟨2, ![1, 64]⟩
abbrev S1x2 : Shape := ⟨2, ![1, 2]⟩
abbrev S800000x2 : Shape := ⟨2, ![800000, 2]⟩
abbrev S5000x128 : Shape := ⟨2, ![5000, 128]⟩
abbrev S5000x2 : Shape := ⟨2, ![5000, 2]⟩
abbrev S5000x64 : Shape := ⟨2, ![5000, 64]⟩

abbrev nBuf : Space → Nat
  | .hbm => 158
  | .vmem => 63
  | .smem => 0
  | _ => 0

abbrev hbmTy0_0 (i : Nat) : BufTy := match i % 128 with
  | 0 => ⟨S50000x64, .f32⟩
  | 1 => ⟨S800000, .i32⟩
  | 2 => ⟨S800000, .i32⟩
  | 3 => ⟨S50000x1, .f32⟩
  | 4 => ⟨S800000x1, .f32⟩
  | 5 => ⟨S64x128, .f32⟩
  | 6 => ⟨S128, .f32⟩
  | 7 => ⟨S4x256x128, .f32⟩
  | 8 => ⟨S4x128, .f32⟩
  | 9 => ⟨S256x128, .f32⟩
  | 10 => ⟨S128, .f32⟩
  | 11 => ⟨S128x64, .f32⟩
  | 12 => ⟨S64, .f32⟩
  | 13 => ⟨S64x2, .f32⟩
  | 14 => ⟨S2, .f32⟩
  | 15 => ⟨S1x128, .f32⟩
  | 16 => ⟨S50000x128, .f32⟩
  | 17 => ⟨S800000, .i32⟩
  | 18 => ⟨S800000, .i32⟩
  | 19 => ⟨S800000, .i32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000, .i32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000, .i32⟩
  | 38 => ⟨S_, .f32⟩
  | 39 => ⟨S800000x1, .f32⟩
  | 40 => ⟨S_, .f32⟩
  | 41 => ⟨S50000x1, .f32⟩
  | 42 => ⟨S800000x1, .i32⟩
  | 43 => ⟨S50000x1, .f32⟩
  | 44 => ⟨S_, .f32⟩
  | 45 => ⟨S50000x1, .f32⟩
  | 46 => ⟨S50000x1, .f32⟩
  | 47 => ⟨S4x128x128, .f32⟩
  | 48 => ⟨S4x128x128, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x128, .f32⟩
  | 58 => ⟨S_, .f32⟩
  | 59 => ⟨S50000x128, .f32⟩
  | 60 => ⟨S800000x1, .i32⟩
  | 61 => ⟨S50000x128, .f32⟩
  | 62 => ⟨S1x128x128, .f32⟩
  | 63 => ⟨S128x128, .f32⟩
  | 64 => ⟨S1x128x128, .f32⟩
  | 65 => ⟨S128x128, .f32⟩
  | 66 => ⟨S1x128, .f32⟩
  | 67 => ⟨S128, .f32⟩
  | 68 => ⟨S1x128, .f32⟩
  | 69 => ⟨S50000x128, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x128, .f32⟩
  | 79 => ⟨S_, .f32⟩
  | 80 => ⟨S50000x128, .f32⟩
  | 81 => ⟨S800000x1, .i32⟩
  | 82 => ⟨S50000x128, .f32⟩
  | 83 => ⟨S1x128x128, .f32⟩
  | 84 => ⟨S128x128, .f32⟩
  | 85 => ⟨S1x128x128, .f32⟩
  | 86 => ⟨S128x128, .f32⟩
  | 87 => ⟨S1x128, .f32⟩
  | 88 => ⟨S128, .f32⟩
  | 89 => ⟨S1x128, .f32⟩
  | 90 => ⟨S50000x128, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x128, .f32⟩
  | 100 => ⟨S_, .f32⟩
  | 101 => ⟨S50000x128, .f32⟩
  | 102 => ⟨S800000x1, .i32⟩
  | 103 => ⟨S50000x128, .f32⟩
  | 104 => ⟨S1x128x128, .f32⟩
  | 105 => ⟨S128x128, .f32⟩
  | 106 => ⟨S1x128x128, .f32⟩
  | 107 => ⟨S128x128, .f32⟩
  | 108 => ⟨S1x128, .f32⟩
  | 109 => ⟨S128, .f32⟩
  | 110 => ⟨S1x128, .f32⟩
  | 111 => ⟨S50000x128, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x128, .f32⟩
  | 121 => ⟨S_, .f32⟩
  | 122 => ⟨S50000x128, .f32⟩
  | 123 => ⟨S800000x1, .i32⟩
  | 124 => ⟨S50000x128, .f32⟩
  | 125 => ⟨S1x128x128, .f32⟩
  | 126 => ⟨S128x128, .f32⟩
  | 127 => ⟨S1x128x128, .f32⟩
  | _ => ⟨S50000x64, .f32⟩

abbrev hbmTy0_1 (i : Nat) : BufTy := match i % 128 with
  | 0 => ⟨S128x128, .f32⟩
  | 1 => ⟨S1x128, .f32⟩
  | 2 => ⟨S128, .f32⟩
  | 3 => ⟨S1x128, .f32⟩
  | 4 => ⟨S50000x128, .f32⟩
  | 5 => ⟨S50000x128, .bf16⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S800000x128, .bf16⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x128, .bf16⟩
  | 24 => ⟨S128x128, .f32⟩
  | 25 => ⟨S128x128, .f32⟩
  | 26 => ⟨S1x128, .f32⟩
  | 27 => ⟨S1x64, .f32⟩
  | 28 => ⟨S1x2, .f32⟩
  | 29 => ⟨S800000x2, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S64x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x1, .f32⟩
  | .local _ .vmem, ⟨11, _⟩ => ⟨S2000x1, .f32⟩
  | .local _ .vmem, ⟨12, _⟩ => ⟨S128x128, .f32⟩
  | .local _ .vmem, ⟨13, _⟩ => ⟨S128x128, .f32⟩
  | .local _ .vmem, ⟨14, _⟩ => ⟨S1x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x1, .f32⟩
  | .local _ .vmem, ⟨22, _⟩ => ⟨S2000x1, .f32⟩
  | .local _ .vmem, ⟨23, _⟩ => ⟨S128x128, .f32⟩
  | .local _ .vmem, ⟨24, _⟩ => ⟨S128x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x1, .f32⟩
  | .local _ .vmem, ⟨33, _⟩ => ⟨S2000x1, .f32⟩
  | .local _ .vmem, ⟨34, _⟩ => ⟨S128x128, .f32⟩
  | .local _ .vmem, ⟨35, _⟩ => ⟨S128x128, .f32⟩
  | .local _ .vmem, ⟨36, _⟩ => ⟨S1x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x1, .f32⟩
  | .local _ .vmem, ⟨44, _⟩ => ⟨S2000x1, .f32⟩
  | .local _ .vmem, ⟨45, _⟩ => ⟨S128x128, .f32⟩
  | .local _ .vmem, ⟨46, _⟩ => ⟨S128x128, .f32⟩
  | .local _ .vmem, ⟨47, _⟩ => ⟨S1x128, .f32⟩
  | .local _ .vmem, ⟨48, _⟩ => ⟨S2000x128, .f32⟩
  | .local _ .vmem, ⟨49, _⟩ => ⟨S2000x128, .f32⟩
  | .local _ .vmem, ⟨50, _⟩ => ⟨S5000x128, .bf16⟩
  | .local _ .vmem, ⟨51, _⟩ => ⟨S5000x128, .bf16⟩
  | .local _ .vmem, ⟨52, _⟩ => ⟨S5000x128, .bf16⟩
  | .local _ .vmem, ⟨53, _⟩ => ⟨S5000x128, .bf16⟩
  | .local _ .vmem, ⟨54, _⟩ => ⟨S128x128, .f32⟩
  | .local _ .vmem, ⟨55, _⟩ => ⟨S128x128, .f32⟩
  | .local _ .vmem, ⟨56, _⟩ => ⟨S1x128, .f32⟩
  | .local _ .vmem, ⟨57, _⟩ => ⟨S128x64, .f32⟩
  | .local _ .vmem, ⟨58, _⟩ => ⟨S1x64, .f32⟩
  | .local _ .vmem, ⟨59, _⟩ => ⟨S64x2, .f32⟩
  | .local _ .vmem, ⟨60, _⟩ => ⟨S1x2, .f32⟩
  | .local _ .vmem, ⟨61, _⟩ => ⟨S5000x2, .f32⟩
  | .local _ .vmem, ⟨62, _⟩ => ⟨S5000x2, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_call0_v0 : Ref sig .tc := ⟨.hbm, 17, rfl⟩
abbrev main_call0_v1_0 : Ref sig .tc := ⟨.hbm, 18, rfl⟩
abbrev main_v2 : Ref sig .tc := ⟨.hbm, 19, rfl⟩
abbrev main_c : Ref sig .tc := ⟨.hbm, 20, rfl⟩
abbrev main_v3 : Ref sig .tc := ⟨.hbm, 21, rfl⟩
abbrev main_v4 : Ref sig .tc := ⟨.hbm, 22, rfl⟩
abbrev main_c_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_c_1 : Ref sig .tc := ⟨.hbm, 29, rfl⟩
abbrev main_v10 : Ref sig .tc := ⟨.hbm, 30, rfl⟩
abbrev main_v11 : Ref sig .tc := ⟨.hbm, 31, rfl⟩
abbrev main_c_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_4 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_c_5 : Ref sig .tc := ⟨.hbm, 49, rfl⟩
abbrev main_v25 : Ref sig .tc := ⟨.hbm, 50, rfl⟩
abbrev main_v26 : Ref sig .tc := ⟨.hbm, 51, rfl⟩
abbrev main_c_6 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_7 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_8 : Ref sig .tc := ⟨.hbm, 70, rfl⟩
abbrev main_v43 : Ref sig .tc := ⟨.hbm, 71, rfl⟩
abbrev main_v44 : Ref sig .tc := ⟨.hbm, 72, rfl⟩
abbrev main_c_9 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_10 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_c_11 : Ref sig .tc := ⟨.hbm, 91, rfl⟩
abbrev main_v61 : Ref sig .tc := ⟨.hbm, 92, rfl⟩
abbrev main_v62 : Ref sig .tc := ⟨.hbm, 93, rfl⟩
abbrev main_c_12 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_13 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_14 : Ref sig .tc := ⟨.hbm, 112, rfl⟩
abbrev main_v79 : Ref sig .tc := ⟨.hbm, 113, rfl⟩
abbrev main_v80 : Ref sig .tc := ⟨.hbm, 114, rfl⟩
abbrev main_c_15 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_16 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_c_17 : Ref sig .tc := ⟨.hbm, 134, rfl⟩
abbrev main_v98 : Ref sig .tc := ⟨.hbm, 135, rfl⟩
abbrev main_v99 : Ref sig .tc := ⟨.hbm, 136, rfl⟩
abbrev main_c_18 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_c_19 : Ref sig .tc := ⟨.hbm, 143, rfl⟩
abbrev main_v105 : Ref sig .tc := ⟨.hbm, 144, rfl⟩
abbrev main_v106 : Ref sig .tc := ⟨.hbm, 145, rfl⟩
abbrev main_c_20 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg6_1 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg1_1 : Ref sig .tc := ⟨.vmem, 42, rfl⟩
abbrev cc4_stg2_0 : Ref sig .tc := ⟨.vmem, 43, rfl⟩
abbrev cc4_stg2_1 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg3_0 : Ref sig .tc := ⟨.vmem, 55, rfl⟩
abbrev cc5_stg4_0 : Ref sig .tc := ⟨.vmem, 56, rfl⟩
abbrev cc5_stg5_0 : Ref sig .tc := ⟨.vmem, 57, rfl⟩
abbrev cc5_stg6_0 : Ref sig .tc := ⟨.vmem, 58, rfl⟩
abbrev cc5_stg7_0 : Ref sig .tc := ⟨.vmem, 59, rfl⟩
abbrev cc5_stg8_0 : Ref sig .tc := ⟨.vmem, 60, rfl⟩
abbrev cc5_stg9_0 : Ref sig .tc := ⟨.vmem, 61, rfl⟩
abbrev cc5_stg9_1 : Ref sig .tc := ⟨.vmem, 62, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem6_1 : DmaSem sig := 38
abbrev cc4_sem0_0 : DmaSem sig := 39
abbrev cc4_sem0_1 : DmaSem sig := 40
abbrev cc4_sem1_0 : DmaSem sig := 41
abbrev cc4_sem1_1 : DmaSem sig := 42
abbrev cc4_sem2_0 : DmaSem sig := 43
abbrev cc4_sem2_1 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc5_sem0_0 : DmaSem sig := 50
abbrev cc5_sem0_1 : DmaSem sig := 51
abbrev cc5_sem1_0 : DmaSem sig := 52
abbrev cc5_sem1_1 : DmaSem sig := 53
abbrev cc5_sem2_0 : DmaSem sig := 54
abbrev cc5_sem3_0 : DmaSem sig := 55
abbrev cc5_sem4_0 : DmaSem sig := 56
abbrev cc5_sem5_0 : DmaSem sig := 57
abbrev cc5_sem6_0 : DmaSem sig := 58
abbrev cc5_sem7_0 : DmaSem sig := 59
abbrev cc5_sem8_0 : DmaSem sig := 60
abbrev cc5_sem9_0 : DmaSem sig := 61
abbrev cc5_sem9_1 : DmaSem sig := 62

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![160], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S64x2 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x2 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 2 → Memref sig .tc .vmem S5000x2 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

class Facts₀ : Prop where
  shapeCasts_S128_S1x128 : S128.ShapeCasts S1x128
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S_S50000x1 : S_.BroadcastsInDim S50000x1 (![] : Fin 0 → Fin S50000x1.rank)
  slices_S4x256x128_S4x128x128_0_0_0 : S4x256x128.Slices ![0, 0, 0] S4x128x128
  slices_S4x256x128_S4x128x128_0_128_0 : S4x256x128.Slices ![0, 128, 0] S4x128x128
  bcast_S_S50000x128 : S_.BroadcastsInDim S50000x128 (![] : Fin 0 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S2000x128_S2000 : S2000x128.Reduces [1] S2000
  shapeCasts_S2000_S2000x1 : S2000.ShapeCasts S2000x1
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  slices_S256x128_S128x128_0_0 : S256x128.Slices ![0, 0] S128x128
  slices_S256x128_S128x128_128_0 : S256x128.Slices ![128, 0] S128x128
  shapeCasts_S64_S1x64 : S64.ShapeCasts S1x64
  shapeCasts_S2_S1x2 : S2.ShapeCasts S1x2
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  dot_S2000x64_S64x128_S2000x128_1_0_0_1_n_n_wf : DotDims.WF S2000x64 S64x128 S2000x128 [1] [0] [0] [1] [] []
  gather_S800000_S800000x1_S800000_n_0_n_n_0_1_1_wf : GatherDims.WF S800000 S800000x1 S800000 [] [0] [] [0] [] 1 ![1]
  scatter_S50000x1_S800000x1_S800000x1_1_0_0_1_wf : ScatterDims.WF S50000x1 S800000x1 S800000x1 [1] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S50000x128.size a
  hwx3_6 : ∀ i : grid3.Coords, EltTy.bits .f32 = 32 ∨ (Rect.block (s := S50000x128) S2000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S50000x1.size a
  hwx4_2 : ∀ i : grid4.Coords, EltTy.bits .f32 = 32 ∨ (Rect.block (s := S50000x1) S2000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x128.size a ≤ S50000x128.size a
  hwx4_6 : ∀ i : grid4.Coords, EltTy.bits .f32 = 32 ∨ (Rect.block (s := S50000x128) S2000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S800000x128.size a
  hwx5_0 : ∀ i : grid5.Coords, EltTy.bits .bf16 = 32 ∨ (Rect.block (s := S800000x128) S5000x128.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S800000x128.size a
  hwx5_1 : ∀ i : grid5.Coords, EltTy.bits .bf16 = 32 ∨ (Rect.block (s := S800000x128) S5000x128.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x64.size a ≤ S128x64.size a
  hwx5_5 : ∀ i : grid5.Coords, EltTy.bits .f32 = 32 ∨ (Rect.block (s := S128x64) S128x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x64.size a ≤ S1x64.size a
  hwx5_6 : ∀ i : grid5.Coords, EltTy.bits .f32 = 32 ∨ (Rect.block (s := S1x64) S1x64.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S64x2.size a ≤ S64x2.size a
  hwx5_7 : ∀ i : grid5.Coords, EltTy.bits .f32 = 32 ∨ (Rect.block (s := S64x2) S64x2.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x2.size a ≤ S1x2.size a
  hwx5_8 : ∀ i : grid5.Coords, EltTy.bits .f32 = 32 ∨ (Rect.block (s := S1x2) S1x2.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S5000x2.size a ≤ S800000x2.size a
  hwx5_9 : ∀ i : grid5.Coords, EltTy.bits .f32 = 32 ∨ (Rect.block (s := S800000x2) S5000x2.size (cc5_transform_9 i) (hinb5_9 i)).WholeWords (EltTy.packing .f32)

variable [Facts₀]

def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def comparator_i32_i32_d0 : BitVec 32 × BitVec 32 → BitVec 32 × BitVec 32 → BitVec 1 :=
  fun l r =>
    let v2 := IntOp.cmpi .slt l.1 r.1
    v2
def gather_S800000_S800000x1_S800000_n_0_n_n_0_1_1 : GatherDims S800000 S800000x1 S800000 where
  offsetDims := []
  collapsedSliceDims := [0]
  operandBatchingDims := []
  startIndicesBatchingDims := []
  startIndexMap := [0]
  indexVectorDim := 1
  sliceSizes := ![1]
  wf := gather_S800000_S800000x1_S800000_n_0_n_n_0_1_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v42) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v42) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v22) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v54) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v56) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v60) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v60) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v70) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v22) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v72) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v74) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v77) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v78) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v78) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v88) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v22) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v90) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v92) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v95) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v96) S2000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v104) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v111) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v112) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v113) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v114) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg11) S128x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v115) S1x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_arg13) S64x2.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v116) S1x2.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v117) S5000x2.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

class Facts : Prop extends Facts₀ where

variable [Facts]
-- ==== ReferenceIdeal.lean ====
abbrev S50000x64 : Shape := ⟨2, ![50000, 64]⟩
abbrev S800000 : Shape := ⟨1, ![800000]⟩
abbrev S50000x1 : Shape := ⟨2, ![50000, 1]⟩
abbrev S800000x1 : Shape := ⟨2, ![800000, 1]⟩
abbrev S64x128 : Shape := ⟨2, ![64, 128]⟩
abbrev S128 : Shape := ⟨1, ![128]⟩
abbrev S4x256x128 : Shape := ⟨3, ![4, 256, 128]⟩
abbrev S4x128 : Shape := ⟨2, ![4, 128]⟩
abbrev S256x128 : Shape := ⟨2, ![256, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S50000x128 : Shape := ⟨2, ![50000, 128]⟩
abbrev S1x128 : Shape := ⟨2, ![1, 128]⟩
abbrev S1x256x128 : Shape := ⟨3, ![1, 256, 128]⟩
abbrev S_ : Shape := ⟨0, ![]⟩
abbrev S800000x128 : Shape := ⟨2, ![800000, 128]⟩
abbrev S50000x256 : Shape := ⟨2, ![50000, 256]⟩
abbrev S50000 : Shape := ⟨1, ![50000]⟩
abbrev S800000x256 : Shape := ⟨2, ![800000, 256]⟩
abbrev S800000x64 : Shape := ⟨2, ![800000, 64]⟩
abbrev S1x64 : Shape := ⟨2, ![1, 64]⟩
abbrev S800000x2 : Shape := ⟨2, ![800000, 2]⟩
abbrev S1x2 : Shape := ⟨2, ![1, 2]⟩

abbrev nBuf : Space → Nat
  | .hbm => 244
  | .vmem => 0
  | .smem => 0
  | _ => 0

abbrev hbmTy0_0 (i : Nat) : BufTy := match i % 128 with
  | 0 => ⟨S50000x64, .f32⟩
  | 1 => ⟨S800000, .i32⟩
  | 2 => ⟨S800000, .i32⟩
  | 3 => ⟨S50000x1, .f32⟩
  | 4 => ⟨S800000x1, .f32⟩
  | 5 => ⟨S64x128, .f32⟩
  | 6 => ⟨S128, .f32⟩
  | 7 => ⟨S4x256x128, .f32⟩
  | 8 => ⟨S4x128, .f32⟩
  | 9 => ⟨S256x128, .f32⟩
  | 10 => ⟨S128, .f32⟩
  | 11 => ⟨S128x64, .f32⟩
  | 12 => ⟨S64, .f32⟩
  | 13 => ⟨S64x2, .f32⟩
  | 14 => ⟨S2, .f32⟩
  | 15 => ⟨S50000x128, .f32⟩
  | 16 => ⟨S1x128, .f32⟩
  | 17 => ⟨S50000x128, .f32⟩
  | 18 => ⟨S50000x128, .f32⟩
  | 19 => ⟨S1x256x128, .f32⟩
  | 20 => ⟨S256x128, .f32⟩
  | 21 => ⟨S1x128, .f32⟩
  | 22 => ⟨S128, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x128, .f32⟩
  | 32 => ⟨S_, .f32⟩
  | 33 => ⟨S50000x128, .f32⟩
  | 34 => ⟨S800000x1, .i32⟩
  | 35 => ⟨S50000x128, .f32⟩
  | 36 => ⟨S_, .f32⟩
  | 37 => ⟨S800000x1, .f32⟩
  | 38 => ⟨S_, .f32⟩
  | 39 => ⟨S50000x1, .f32⟩
  | 40 => ⟨S800000x1, .i32⟩
  | 41 => ⟨S50000x1, .f32⟩
  | 42 => ⟨S_, .f32⟩
  | 43 => ⟨S50000x1, .f32⟩
  | 44 => ⟨S50000x1, .f32⟩
  | 45 => ⟨S50000x128, .f32⟩
  | 46 => ⟨S50000x128, .f32⟩
  | 47 => ⟨S50000x256, .f32⟩
  | 48 => ⟨S50000x128, .f32⟩
  | 49 => ⟨S1x128, .f32⟩
  | 50 => ⟨S50000x128, .f32⟩
  | 51 => ⟨S50000x128, .f32⟩
  | 52 => ⟨S50000x128, .f32⟩
  | 53 => ⟨S_, .f32⟩
  | 54 => ⟨S50000, .f32⟩
  | 55 => ⟨S50000x1, .f32⟩
  | 56 => ⟨S50000x1, .f32⟩
  | 57 => ⟨S_, .f32⟩
  | 58 => ⟨S50000x1, .f32⟩
  | 59 => ⟨S50000x1, .f32⟩
  | 60 => ⟨S50000x128, .f32⟩
  | 61 => ⟨S50000x128, .f32⟩
  | 62 => ⟨S_, .f32⟩
  | 63 => ⟨S50000x128, .f32⟩
  | 64 => ⟨S50000x128, .f32⟩
  | 65 => ⟨S50000x128, .f32⟩
  | 66 => ⟨S1x256x128, .f32⟩
  | 67 => ⟨S256x128, .f32⟩
  | 68 => ⟨S1x128, .f32⟩
  | 69 => ⟨S128, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x128, .f32⟩
  | 79 => ⟨S_, .f32⟩
  | 80 => ⟨S50000x128, .f32⟩
  | 81 => ⟨S800000x1, .i32⟩
  | 82 => ⟨S50000x128, .f32⟩
  | 83 => ⟨S_, .f32⟩
  | 84 => ⟨S800000x1, .f32⟩
  | 85 => ⟨S_, .f32⟩
  | 86 => ⟨S50000x1, .f32⟩
  | 87 => ⟨S800000x1, .i32⟩
  | 88 => ⟨S50000x1, .f32⟩
  | 89 => ⟨S_, .f32⟩
  | 90 => ⟨S50000x1, .f32⟩
  | 91 => ⟨S50000x1, .f32⟩
  | 92 => ⟨S50000x128, .f32⟩
  | 93 => ⟨S50000x128, .f32⟩
  | 94 => ⟨S50000x256, .f32⟩
  | 95 => ⟨S50000x128, .f32⟩
  | 96 => ⟨S1x128, .f32⟩
  | 97 => ⟨S50000x128, .f32⟩
  | 98 => ⟨S50000x128, .f32⟩
  | 99 => ⟨S50000x128, .f32⟩
  | 100 => ⟨S_, .f32⟩
  | 101 => ⟨S50000, .f32⟩
  | 102 => ⟨S50000x1, .f32⟩
  | 103 => ⟨S50000x1, .f32⟩
  | 104 => ⟨S_, .f32⟩
  | 105 => ⟨S50000x1, .f32⟩
  | 106 => ⟨S50000x1, .f32⟩
  | 107 => ⟨S50000x128, .f32⟩
  | 108 => ⟨S50000x128, .f32⟩
  | 109 => ⟨S_, .f32⟩
  | 110 => ⟨S50000x128, .f32⟩
  | 111 => ⟨S50000x128, .f32⟩
  | 112 => ⟨S50000x128, .f32⟩
  | 113 => ⟨S1x256x128, .f32⟩
  | 114 => ⟨S256x128, .f32⟩
  | 115 => ⟨S1x128, .f32⟩
  | 116 => ⟨S128, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000x128, .f32⟩
  | 126 => ⟨S_, .f32⟩
  | 127 => ⟨S50000x128, .f32⟩
  | _ => ⟨S50000x64, .f32⟩

abbrev hbmTy0_1 (i : Nat) : BufTy := match i % 128 with
  | 0 => ⟨S800000x1, .i32⟩
  | 1 => ⟨S50000x128, .f32⟩
  | 2 => ⟨S_, .f32⟩
  | 3 => ⟨S800000x1, .f32⟩
  | 4 => ⟨S_, .f32⟩
  | 5 => ⟨S50000x1, .f32⟩
  | 6 => ⟨S800000x1, .i32⟩
  | 7 => ⟨S50000x1, .f32⟩
  | 8 => ⟨S_, .f32⟩
  | 9 => ⟨S50000x1, .f32⟩
  | 10 => ⟨S50000x1, .f32⟩
  | 11 => ⟨S50000x128, .f32⟩
  | 12 => ⟨S50000x128, .f32⟩
  | 13 => ⟨S50000x256, .f32⟩
  | 14 => ⟨S50000x128, .f32⟩
  | 15 => ⟨S1x128, .f32⟩
  | 16 => ⟨S50000x128, .f32⟩
  | 17 => ⟨S50000x128, .f32⟩
  | 18 => ⟨S50000x128, .f32⟩
  | 19 => ⟨S_, .f32⟩
  | 20 => ⟨S50000, .f32⟩
  | 21 => ⟨S50000x1, .f32⟩
  | 22 => ⟨S50000x1, .f32⟩
  | 23 => ⟨S_, .f32⟩
  | 24 => ⟨S50000x1, .f32⟩
  | 25 => ⟨S50000x1, .f32⟩
  | 26 => ⟨S50000x128, .f32⟩
  | 27 => ⟨S50000x128, .f32⟩
  | 28 => ⟨S_, .f32⟩
  | 29 => ⟨S50000x128, .f32⟩
  | 30 => ⟨S50000x128, .f32⟩
  | 31 => ⟨S50000x128, .f32⟩
  | 32 => ⟨S1x256x128, .f32⟩
  | 33 => ⟨S256x128, .f32⟩
  | 34 => ⟨S1x128, .f32⟩
  | 35 => ⟨S128, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x128, .f32⟩
  | 45 => ⟨S_, .f32⟩
  | 46 => ⟨S50000x128, .f32⟩
  | 47 => ⟨S800000x1, .i32⟩
  | 48 => ⟨S50000x128, .f32⟩
  | 49 => ⟨S_, .f32⟩
  | 50 => ⟨S800000x1, .f32⟩
  | 51 => ⟨S_, .f32⟩
  | 52 => ⟨S50000x1, .f32⟩
  | 53 => ⟨S800000x1, .i32⟩
  | 54 => ⟨S50000x1, .f32⟩
  | 55 => ⟨S_, .f32⟩
  | 56 => ⟨S50000x1, .f32⟩
  | 57 => ⟨S50000x1, .f32⟩
  | 58 => ⟨S50000x128, .f32⟩
  | 59 => ⟨S50000x128, .f32⟩
  | 60 => ⟨S50000x256, .f32⟩
  | 61 => ⟨S50000x128, .f32⟩
  | 62 => ⟨S1x128, .f32⟩
  | 63 => ⟨S50000x128, .f32⟩
  | 64 => ⟨S50000x128, .f32⟩
  | 65 => ⟨S50000x128, .f32⟩
  | 66 => ⟨S_, .f32⟩
  | 67 => ⟨S50000, .f32⟩
  | 68 => ⟨S50000x1, .f32⟩
  | 69 => ⟨S50000x1, .f32⟩
  | 70 => ⟨S_, .f32⟩
  | 71 => ⟨S50000x1, .f32⟩
  | 72 => ⟨S50000x1, .f32⟩
  | 73 => ⟨S50000x128, .f32⟩
  | 74 => ⟨S50000x128, .f32⟩
  | 75 => ⟨S_, .f32⟩
  | 76 => ⟨S50000x128, .f32⟩
  | 77 => ⟨S50000x128, .f32⟩
  | 78 => ⟨S50000x128, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x128, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x128, .f32⟩
  | 97 => ⟨S800000x256, .f32⟩
  | 98 => ⟨S800000x128, .f32⟩
  | 99 => ⟨S1x128, .f32⟩
  | 100 => ⟨S800000x128, .f32⟩
  | 101 => ⟨S800000x128, .f32⟩
  | 102 => ⟨S_, .f32⟩
  | 103 => ⟨S800000x128, .f32⟩
  | 104 => ⟨S800000x128, .f32⟩
  | 105 => ⟨S800000x64, .f32⟩
  | 106 => ⟨S1x64, .f32⟩
  | 107 => ⟨S800000x64, .f32⟩
  | 108 => ⟨S800000x64, .f32⟩
  | 109 => ⟨S_, .f32⟩
  | 110 => ⟨S800000x64, .f32⟩
  | 111 => ⟨S800000x64, .f32⟩
  | 112 => ⟨S800000x2, .f32⟩
  | 113 => ⟨S1x2, .f32⟩
  | 114 => ⟨S800000x2, .f32⟩
  | 115 => ⟨S800000x2, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_c_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_1 : Ref sig .tc := ⟨.hbm, 36, rfl⟩
abbrev main_v18 : Ref sig .tc := ⟨.hbm, 37, rfl⟩
abbrev main_cst_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call0_v0 : Ref sig .tc := ⟨.hbm, 52, rfl⟩
abbrev main_call0_cst : Ref sig .tc := ⟨.hbm, 53, rfl⟩
abbrev main_call0_v1 : Ref sig .tc := ⟨.hbm, 54, rfl⟩
abbrev main_call0_v2 : Ref sig .tc := ⟨.hbm, 55, rfl⟩
abbrev main_v31 : Ref sig .tc := ⟨.hbm, 56, rfl⟩
abbrev main_cst_4 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_call1_cst : Ref sig .tc := ⟨.hbm, 62, rfl⟩
abbrev main_call1_v0 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c_5 : Ref sig .tc := ⟨.hbm, 70, rfl⟩
abbrev main_v42 : Ref sig .tc := ⟨.hbm, 71, rfl⟩
abbrev main_v43 : Ref sig .tc := ⟨.hbm, 72, rfl⟩
abbrev main_c_6 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_7 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_8 : Ref sig .tc := ⟨.hbm, 83, rfl⟩
abbrev main_v52 : Ref sig .tc := ⟨.hbm, 84, rfl⟩
abbrev main_cst_9 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_10 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_call2_v0 : Ref sig .tc := ⟨.hbm, 99, rfl⟩
abbrev main_call2_cst : Ref sig .tc := ⟨.hbm, 100, rfl⟩
abbrev main_call2_v1 : Ref sig .tc := ⟨.hbm, 101, rfl⟩
abbrev main_call2_v2 : Ref sig .tc := ⟨.hbm, 102, rfl⟩
abbrev main_v65 : Ref sig .tc := ⟨.hbm, 103, rfl⟩
abbrev main_cst_11 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_call3_cst : Ref sig .tc := ⟨.hbm, 109, rfl⟩
abbrev main_call3_v0 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_c_12 : Ref sig .tc := ⟨.hbm, 117, rfl⟩
abbrev main_v76 : Ref sig .tc := ⟨.hbm, 118, rfl⟩
abbrev main_v77 : Ref sig .tc := ⟨.hbm, 119, rfl⟩
abbrev main_c_13 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_cst_14 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_cst_15 : Ref sig .tc := ⟨.hbm, 130, rfl⟩
abbrev main_v86 : Ref sig .tc := ⟨.hbm, 131, rfl⟩
abbrev main_cst_16 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_cst_17 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_call4_v0 : Ref sig .tc := ⟨.hbm, 146, rfl⟩
abbrev main_call4_cst : Ref sig .tc := ⟨.hbm, 147, rfl⟩
abbrev main_call4_v1 : Ref sig .tc := ⟨.hbm, 148, rfl⟩
abbrev main_call4_v2 : Ref sig .tc := ⟨.hbm, 149, rfl⟩
abbrev main_v99 : Ref sig .tc := ⟨.hbm, 150, rfl⟩
abbrev main_cst_18 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_call5_cst : Ref sig .tc := ⟨.hbm, 156, rfl⟩
abbrev main_call5_v0 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_c_19 : Ref sig .tc := ⟨.hbm, 164, rfl⟩
abbrev main_v110 : Ref sig .tc := ⟨.hbm, 165, rfl⟩
abbrev main_v111 : Ref sig .tc := ⟨.hbm, 166, rfl⟩
abbrev main_c_20 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_cst_21 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_cst_22 : Ref sig .tc := ⟨.hbm, 177, rfl⟩
abbrev main_v120 : Ref sig .tc := ⟨.hbm, 178, rfl⟩
abbrev main_cst_23 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_cst_24 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_call6_v0 : Ref sig .tc := ⟨.hbm, 193, rfl⟩
abbrev main_call6_cst : Ref sig .tc := ⟨.hbm, 194, rfl⟩
abbrev main_call6_v1 : Ref sig .tc := ⟨.hbm, 195, rfl⟩
abbrev main_call6_v2 : Ref sig .tc := ⟨.hbm, 196, rfl⟩
abbrev main_v133 : Ref sig .tc := ⟨.hbm, 197, rfl⟩
abbrev main_cst_25 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_call7_cst : Ref sig .tc := ⟨.hbm, 203, rfl⟩
abbrev main_call7_v0 : Ref sig .tc := ⟨.hbm, 204, rfl⟩
abbrev main_v138 : Ref sig .tc := ⟨.hbm, 205, rfl⟩
abbrev main_v139 : Ref sig .tc := ⟨.hbm, 206, rfl⟩
abbrev main_c_26 : Ref sig .tc := ⟨.hbm, 207, rfl⟩
abbrev main_v140 : Ref sig .tc := ⟨.hbm, 208, rfl⟩
abbrev main_v141 : Ref sig .tc := ⟨.hbm, 209, rfl⟩
abbrev main_c_27 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_c_28 : Ref sig .tc := ⟨.hbm, 216, rfl⟩
abbrev main_v147 : Ref sig .tc := ⟨.hbm, 217, rfl⟩
abbrev main_v148 : Ref sig .tc := ⟨.hbm, 218, rfl⟩
abbrev main_c_29 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_call8_cst : Ref sig .tc := ⟨.hbm, 230, rfl⟩
abbrev main_call8_v0 : Ref sig .tc := ⟨.hbm, 231, rfl⟩
abbrev main_v159 : Ref sig .tc := ⟨.hbm, 232, rfl⟩
abbrev main_v160 : Ref sig .tc := ⟨.hbm, 233, rfl⟩
abbrev main_v161 : Ref sig .tc := ⟨.hbm, 234, rfl⟩
abbrev main_v162 : Ref sig .tc := ⟨.hbm, 235, rfl⟩
abbrev main_v163 : Ref sig .tc := ⟨.hbm, 236, rfl⟩
abbrev main_call9_cst : Ref sig .tc := ⟨.hbm, 237, rfl⟩
abbrev main_call9_v0 : Ref sig .tc := ⟨.hbm, 238, rfl⟩
abbrev main_v164 : Ref sig .tc := ⟨.hbm, 239, rfl⟩
abbrev main_v165 : Ref sig .tc := ⟨.hbm, 240, rfl⟩
abbrev main_v166 : Ref sig .tc := ⟨.hbm, 241, rfl⟩
abbrev main_v167 : Ref sig .tc := ⟨.hbm, 242, rfl⟩
abbrev main_v168 : Ref sig .tc := ⟨.hbm, 243, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S4x256x128_S1x256x128_0_0_0 : S4x256x128.Slices ![0, 0, 0] S1x256x128
  shapeCasts_S1x256x128_S256x128 : S1x256x128.ShapeCasts S256x128
  slices_S4x128_S1x128_0_0 : S4x128.Slices ![0, 0] S1x128
  shapeCasts_S1x128_S128 : S1x128.ShapeCasts S128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  reducesTo_S50000x128_S50000_d1 : S50000x128.ReducesTo [1] S50000
  h_S_ : 0 < S_.numel
  bcast_S50000_S50000x1_0 : S50000.BroadcastsInDim S50000x1 (![0] : Fin 1 → Fin S50000x1.rank)
  slices_S4x256x128_S1x256x128_1_0_0 : S4x256x128.Slices ![1, 0, 0] S1x256x128
  slices_S4x128_S1x128_1_0 : S4x128.Slices ![1, 0] S1x128
  slices_S4x256x128_S1x256x128_2_0_0 : S4x256x128.Slices ![2, 0, 0] S1x256x128
  slices_S4x128_S1x128_2_0 : S4x128.Slices ![2, 0] S1x128
  slices_S4x256x128_S1x256x128_3_0_0 : S4x256x128.Slices ![3, 0, 0] S1x256x128
  slices_S4x128_S1x128_3_0 : S4x128.Slices ![3, 0] S1x128
  concatenates_S800000x128_S800000x128_S800000x256_d1 : Shape.Concatenates [S800000x128, S800000x128] S800000x256 1
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S2_S1x2_1 : S2.BroadcastsInDim S1x2 (![1] : Fin 1 → Fin S1x2.rank)
  bcast_S1x2_S800000x2_0_1 : S1x2.BroadcastsInDim S800000x2 (![0, 1] : Fin 2 → Fin S800000x2.rank)
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S50000x256_S256x128_S50000x128_1_0_0_1_n_n_wf : DotDims.WF S50000x256 S256x128 S50000x128 [1] [0] [0] [1] [] []
  dot_S800000x256_S256x128_S800000x128_1_0_0_1_n_n_wf : DotDims.WF S800000x256 S256x128 S800000x128 [1] [0] [0] [1] [] []
  dot_S800000x128_S128x64_S800000x64_1_0_0_1_n_n_wf : DotDims.WF S800000x128 S128x64 S800000x64 [1] [0] [0] [1] [] []
  dot_S800000x64_S64x2_S800000x2_1_0_0_1_n_n_wf : DotDims.WF S800000x64 S64x2 S800000x2 [1] [0] [0] [1] [] []

variable [Facts₀]

def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def dot_S800000x64_S64x2_S800000x2_1_0_0_1_n_n : DotDims S800000x64 S64x2 S800000x2 where
  lhsContracting := [1]
  rhsContracting := [0]
  lhsNonContracting := [0]
  rhsNonContracting := [1]
  lhsBatch := []
  rhsBatch := []
  wf := dot_S800000x64_S64x2_S800000x2_1_0_0_1_n_n_wf

class Facts : Prop extends Facts₀ where

variable [Facts]
-- ==== Proof.LibRows.lean ====
/-
  ROW-WISE OPERATIONS ON A TABLE, AT THE EXTENDED REALS.

  A table of `n` rows whose operations act row by row: a product with a weight matrix (`mv`), a normalisation of a
  row of 128 channels by its own mean and variance, scaled and shifted (`gn`: mean and variance by division by 128,
  the variance offset by the word 0x3727C5AC, the reciprocal square root), a maximum with zero (`relu`).
  The module names those row functions and reads the block-level vector operations of a kernel body at a row: if a
  block's rows are known, the rows of the operation's result are the row function of them —
  `rowAt_matmul` (a `tpu.matmul` of plain dimension numbers into the zero accumulator), `rowAt_gnBlock` (the
  normalisation spelt with a lane reduction, a cast to a column, a division, two broadcasts: `meanCol`, `devBlock`,
  `varCol`, `gnBlock`), `rowAt_relu`, `rowAt_broadcastRow`, and the column forms `laneSum_apply`,
  `shapeCast_a_a1_apply` ([n] → [n, 1]), `broadcastTo_a1_ab_apply` ([n, 1] → [n, b]).
  All extents are generic; nothing enumerates an index range.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Rows

open Idealize.ShloMosaic Idealize.ShloMosaic.ValueIdx

/-! ## Row functions -/

/-- The divisor of a mean over 128 channels, as the word both programs carry. -/
abbrev c128 : EReal := Ideal.ofBits .f32 0x43000000#32
/-- The variance's offset, as the word both programs carry. -/
abbrev eps : EReal := Ideal.ofBits .f32 0x3727C5AC#32

/-- Row `p` of a table. -/
def rowAt {n m : Nat} (X : (⟨2, ![n, m]⟩ : Shape).Idx → EReal) (p : Fin n) : Fin m → EReal := fun k => X (ix2 p k)

/-- A vector of length `m` as a function of its coordinate. -/
def vecOf {m : Nat} (x : (⟨1, ![m]⟩ : Shape).Idx → EReal) : Fin m → EReal := fun k => x (ix1 k)

/-- A row times a matrix. -/
def mv {K N : Nat} (x : Fin K → EReal) (W : (⟨2, ![K, N]⟩ : Shape).Idx → EReal) : Fin N → EReal :=
  fun j => ∑ k : Fin K, x k * W (ix2 k j)

/-- A row's mean over its 128 channels. -/
def mean (x : Fin 128 → EReal) : EReal := Ideal.div (∑ k : Fin 128, x k) c128

/-- A row normalised by its own mean and variance, scaled and shifted channel by channel. -/
def gn (x g b : Fin 128 → EReal) : Fin 128 → EReal := fun j =>
  (x j - mean x) * Ideal.rsqrt (Ideal.div (∑ k : Fin 128, (x k - mean x) * (x k - mean x)) c128 + eps) * g j + b j

/-- The maximum with zero, channel by channel. -/
def relu {m : Nat} (x : Fin m → EReal) : Fin m → EReal := fun j => max (x j) 0

/-! ## Elementwise operations at a row (definitional) -/

theorem rowAt_apply {n m : Nat} (X : (⟨2, ![n, m]⟩ : Shape).Idx → EReal) (p : Fin n) (k : Fin m) :
    rowAt X p k = X (ix2 p k) := rfl

theorem rowAt_addf {n m : Nat} (X Y : FVec Ideal ⟨2, ![n, m]⟩ .f32) (p : Fin n) :
    rowAt (addf X Y) p = fun k => rowAt X p k + rowAt Y p k := rfl

theorem rowAt_truncf {n m : Nat} {φ ψ : FTy} (X : FVec Ideal ⟨2, ![n, m]⟩ φ) (h : ψ.bits < φ.bits) (p : Fin n) :
    rowAt (truncf ψ X h : FVec Ideal ⟨2, ![n, m]⟩ ψ) p = rowAt X p := rfl

theorem rowAt_extf {n m : Nat} {φ ψ : FTy} (X : FVec Ideal ⟨2, ![n, m]⟩ φ) (h : φ.bits < ψ.bits) (p : Fin n) :
    rowAt (extf ψ X h : FVec Ideal ⟨2, ![n, m]⟩ ψ) p = rowAt X p := rfl

/-- A maximum with the zero splat is the row's `relu`. -/
theorem rowAt_relu {n m : Nat} (X : FVec Ideal ⟨2, ![n, m]⟩ .f32) (p : Fin n) :
    rowAt (maximumf X (broadcast ⟨2, ![n, m]⟩ (Scalar.ofBits .f32 0x00000000#32))) p = relu (rowAt X p) := by
  funext k
  show max (X (ix2 p k)) (Ideal.ofBits .f32 0x00000000#32) = max (X (ix2 p k)) 0
  rw [Ideal.ofBits_zero_f32]

/-! ## A matrix product at a row -/

/-- A `tpu.matmul` of an `M × K` block by a `K × N` block into the zero accumulator: row `p` of the result is
    row `p` of the left operand times the right operand. The contraction index is re-indexed by its one coordinate. -/
theorem rowAt_matmul {M K N : Nat} {φ₁ φ₂ : FTy} (d : DotDims ⟨2, ![M, K]⟩ ⟨2, ![K, N]⟩ ⟨2, ![M, N]⟩)
    (hd : d = DotDims.plain M K N) (lhs : FVec Ideal ⟨2, ![M, K]⟩ φ₁) (rhs : FVec Ideal ⟨2, ![K, N]⟩ φ₂) (p : Fin M) :
    rowAt (matmul d none lhs rhs (constant ⟨2, ![M, N]⟩ .f32 0x00000000#32)) p = mv (rowAt lhs p) rhs := by
  subst hd
  funext q
  show FloatOps.matmul (DotDims.plain M K N) none lhs rhs (constant ⟨2, ![M, N]⟩ .f32 0x00000000#32) (ix2 p q)
    = ∑ k : Fin K, lhs (ix2 p k) * rhs (ix2 k q)
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ =>
        show ((DotDims.plain M K N).lhsIdx (ix2 p q) _ 0).val = p.val
        unfold DotDims.lhsIdx
        rw [dif_neg (show ¬(0 : Fin 2) ∈ (DotDims.plain M K N).lhsBatch from List.not_mem_nil),
          dif_pos (show (0 : Fin 2) ∈ (DotDims.plain M K N).lhsNonContracting from List.mem_singleton.mpr rfl)]
        rfl
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ =>
        show ((DotDims.plain M K N).rhsIdx (ix2 p q) _ 1).val = q.val
        unfold DotDims.rhsIdx
        rw [dif_neg (show ¬(1 : Fin 2) ∈ (DotDims.plain M K N).rhsBatch from List.not_mem_nil),
          dif_pos (show (1 : Fin 2) ∈ (DotDims.plain M K N).rhsNonContracting from List.mem_singleton.mpr rfl)]
        rfl)
  rw [el, er]

/-! ## The column forms of a row statistic -/

/-- A lane sum of an `n × 128` block at row `p`: the sum of that row. -/
theorem laneSum_apply {n : Nat} (X : FVec Ideal ⟨2, ![n, 128]⟩ .f32)
    (hr : (⟨2, ![n, 128]⟩ : Shape).Reduces [1] ⟨1, ![n]⟩) (p : Fin n) :
    multiReduction .add [1] ⟨1, ![n]⟩ X 0x00000000#32 hr (.inl rfl) rfl (ix1 p) = ∑ k : Fin 128, X (ix2 p k) := by
  refine (Ideal.multiReduction_add_single X 0x00000000#32 hr (.inl rfl) rfl (ix1 p)).trans ?_
  refine Finset.sum_congr rfl fun k _ => congrArg X (funext fun a => Fin.ext ?_)
  match a with
  | ⟨0, _⟩ => rfl
  | ⟨1, _⟩ => rfl

/-- A vector of `n` row statistics cast to a column `[n, 1]` reads, at `(p, u)`, the statistic of row `p`. -/
theorem shapeCast_a_a1_apply {α : Type} {n : Nat} (x : (⟨1, ![n]⟩ : Shape).Idx → α)
    (h : (⟨1, ![n]⟩ : Shape).ShapeCasts ⟨2, ![n, 1]⟩) (p : Fin n) (u : Fin 1) :
    shapeCast ⟨2, ![n, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[n, 1]` broadcast along the channels reads, at `(p, c)`, the column's entry of row `p`. -/
theorem broadcastTo_a1_ab_apply {α : Type} {n b : Nat} (hb1 : b ≠ 1) (v : (⟨2, ![n, 1]⟩ : Shape).Idx → α)
    (h : (⟨2, ![n, 1]⟩ : Shape).Broadcasts ⟨2, ![n, b]⟩) (p : Fin n) (c : Fin b) :
    broadcastTo ⟨2, ![n, b]⟩ v h (ix2 p c) = v (ix2 p (0 : Fin 1)) := by
  refine broadcastTo_apply v h (ix2 p c) (ix2 p (0 : Fin 1)) fun ax => ?_
  match ax with
  | ⟨0, _⟩ =>
    show p.val = if n = 1 then 0 else p.val
    split
    · have := p.isLt; omega
    · rfl
  | ⟨1, _⟩ => rfl

/-- A `[1, m]` block's one row broadcast over `n` rows: every row of the result is that row. -/
theorem rowAt_broadcastRow {n m : Nat} (v : FVec Ideal ⟨2, ![1, m]⟩ .f32)
    (h : (⟨2, ![1, m]⟩ : Shape).Broadcasts ⟨2, ![n, m]⟩) (p : Fin n) :
    rowAt (broadcastTo ⟨2, ![n, m]⟩ v h) p = rowAt v 0 := by
  funext c
  exact broadcastTo_1b_ab_apply v h p c

/-! ## The normalisation of a block's rows -/

section Norm
variable {n : Nat} (X : FVec Ideal ⟨2, ![n, 128]⟩ .f32)
  (hr : (⟨2, ![n, 128]⟩ : Shape).Reduces [1] ⟨1, ![n]⟩) (hc : (⟨1, ![n]⟩ : Shape).ShapeCasts ⟨2, ![n, 1]⟩)
  (hb : (⟨2, ![n, 1]⟩ : Shape).Broadcasts ⟨2, ![n, 128]⟩)

/-- The column of a block's row means: row sums by a lane reduction, made a column, divided by 128. -/
def meanCol : FVec Ideal ⟨2, ![n, 1]⟩ .f32 :=
  divf (shapeCast ⟨2, ![n, 1]⟩ (multiReduction .add [1] ⟨1, ![n]⟩ X 0x00000000#32 hr (.inl rfl) rfl) hc)
    (broadcast ⟨2, ![n, 1]⟩ (Scalar.ofBits .f32 0x43000000#32))

/-- The block's deviation from its rows' means. -/
def devBlock : FVec Ideal ⟨2, ![n, 128]⟩ .f32 := subf X (broadcastTo ⟨2, ![n, 128]⟩ (meanCol X hr hc) hb)

/-- The column of row variances: the mean column of the squared deviation. -/
def varCol : FVec Ideal ⟨2, ![n, 1]⟩ .f32 :=
  divf (shapeCast ⟨2, ![n, 1]⟩ (multiReduction .add [1] ⟨1, ![n]⟩ (mulf (devBlock X hr hc hb) (devBlock X hr hc hb))
      0x00000000#32 hr (.inl rfl) rfl) hc)
    (broadcast ⟨2, ![n, 1]⟩ (Scalar.ofBits .f32 0x43000000#32))

/-- The body's normalisation of an `n × 128` block `X` with scale row `g` and shift row `b`, as the kernels spell it:
    the deviation times the reciprocal square root of the variance plus the offset, scaled and shifted. -/
def gnBlock (g b : FVec Ideal ⟨2, ![1, 128]⟩ .f32) (hg : (⟨2, ![1, 128]⟩ : Shape).Broadcasts ⟨2, ![n, 128]⟩) :
    FVec Ideal ⟨2, ![n, 128]⟩ .f32 :=
  addf (mulf (mulf (devBlock X hr hc hb)
      (broadcastTo ⟨2, ![n, 128]⟩ (rsqrt (addf (varCol X hr hc hb) (broadcast ⟨2, ![n, 1]⟩ (Scalar.ofBits .f32 0x3727C5AC#32)))) hb))
    (broadcastTo ⟨2, ![n, 128]⟩ g hg)) (broadcastTo ⟨2, ![n, 128]⟩ b hg)

theorem meanCol_apply (p : Fin n) : meanCol X hr hc (ix2 p (0 : Fin 1)) = mean (rowAt X p) :=
  congrArg (fun s => Ideal.div s c128) ((shapeCast_a_a1_apply _ hc p 0).trans (laneSum_apply X hr p))

theorem devBlock_apply (p : Fin n) (k : Fin 128) : devBlock X hr hc hb (ix2 p k) = rowAt X p k - mean (rowAt X p) :=
  congrArg (fun s => X (ix2 p k) - s)
    ((broadcastTo_a1_ab_apply (by decide) (meanCol X hr hc) hb p k).trans (meanCol_apply X hr hc p))

theorem varCol_apply (p : Fin n) : varCol X hr hc hb (ix2 p (0 : Fin 1))
    = Ideal.div (∑ k : Fin 128, (rowAt X p k - mean (rowAt X p)) * (rowAt X p k - mean (rowAt X p))) c128 :=
  congrArg (fun s => Ideal.div s c128) (((shapeCast_a_a1_apply _ hc p 0).trans
    (laneSum_apply (mulf (devBlock X hr hc hb) (devBlock X hr hc hb)) hr p)).trans
    (Finset.sum_congr rfl fun k _ => by
      show devBlock X hr hc hb (ix2 p k) * devBlock X hr hc hb (ix2 p k) = _
      rw [devBlock_apply]))

/-- Row `p` of the normalised block is the normalisation of row `p`. -/
theorem rowAt_gnBlock (g b : FVec Ideal ⟨2, ![1, 128]⟩ .f32) (hg : (⟨2, ![1, 128]⟩ : Shape).Broadcasts ⟨2, ![n, 128]⟩)
    (p : Fin n) : rowAt (gnBlock X hr hc hb g b hg) p = gn (rowAt X p) (rowAt g 0) (rowAt b 0) := by
  funext q
  show devBlock X hr hc hb (ix2 p q)
      * broadcastTo ⟨2, ![n, 128]⟩ (rsqrt (addf (varCol X hr hc hb) (broadcast ⟨2, ![n, 1]⟩ (Scalar.ofBits .f32 0x3727C5AC#32)))) hb (ix2 p q)
      * broadcastTo ⟨2, ![n, 128]⟩ g hg (ix2 p q) + broadcastTo ⟨2, ![n, 128]⟩ b hg (ix2 p q) = _
  rw [devBlock_apply, broadcastTo_a1_ab_apply (by decide), broadcastTo_1b_ab_apply, broadcastTo_1b_ab_apply]
  show (rowAt X p q - mean (rowAt X p)) * Ideal.rsqrt (varCol X hr hc hb (ix2 p (0 : Fin 1)) + eps) * g (ix2 (0 : Fin 1) q)
      + b (ix2 (0 : Fin 1) q) = _
  rw [varCol_apply]
  rfl

end Norm

end Cert.Rows

end
-- ==== Proof.Spec.lean ====
/-
  THE NETWORK BOTH PROGRAMS COMPUTE, ROW BY ROW, ON THE EXTENDED REALS.

  A graph network over 50000 nodes and 800000 edges. A node's embedding is its feature row times a weight matrix plus a
  bias (`embedRow`). A layer takes a node's row `h`, the sum `ms` of the rows of the sources of its incoming edges and
  the clamped number `dg` of those edges; it forms the mean `ms / dg`, the affine image `h·Wh + mean·Wc + b`
  (`bundleRow`: the weight matrix of the concatenation `[h, mean]` split into its upper and lower halves), divides that
  row by its Euclidean norm clamped below (`normalise`), takes the maximum with zero and adds `h` back (`sageRow`).
  An edge's output is a three-layer perceptron of the rows of its two end nodes, the first weight matrix again split into
  the halves that meet the source's row and the target's row (`mlpRow`).
  A table is a function of its two coordinates; `ofRows` builds one from its rows, and the whole-table forms
  `embedT`, `sageT`, `mlpT` apply the row functions at every row.
-/
import proofs.«141839_j76785425318033_2_alg».proof.Proof.LibRows

noncomputable section

open scoped BigOperators

namespace Cert.Net

open Idealize.ShloMosaic Idealize.ShloMosaic.ValueIdx Cert.Rows

/-- A table of `n` rows and `m` columns of extended reals. -/
abbrev Tbl (n m : Nat) : Type := (⟨2, ![n, m]⟩ : Shape).Idx → EReal

/-- The lower clamp of a row's norm, as the word both programs carry. -/
abbrev tiny : EReal := Ideal.ofBits .f32 0x2B8CBCCC#32

/-- The lower clamp of a node's edge count, as the word both programs carry. -/
abbrev one : EReal := Ideal.ofBits .f32 0x3F800000#32

/-- A table from its rows. -/
def ofRows {n m : Nat} (f : Fin n → Fin m → EReal) : Tbl n m := fun i => f (i 0) (i 1)

theorem ofRows_apply {n m : Nat} (f : Fin n → Fin m → EReal) (p : Fin n) (q : Fin m) : ofRows f (ix2 p q) = f p q := rfl

/-- A table is the table of its rows. -/
theorem eq_ofRows {n m : Nat} (X : Tbl n m) (f : Fin n → Fin m → EReal) (h : ∀ p q, X (ix2 p q) = f p q) : X = ofRows f := by
  funext i
  obtain ⟨p, q, rfl⟩ : ∃ (p : Fin n) (q : Fin m), i = ix2 p q := ⟨i 0, i 1, eq_ix2 i⟩
  exact h p q

theorem rowAt_ofRows {n m : Nat} (f : Fin n → Fin m → EReal) (p : Fin n) : rowAt (ofRows f) p = f p := rfl

/-- A node's embedding: its feature row times the weights, plus the bias. -/
def embedRow (x : Fin 64 → EReal) (W : Tbl 64 128) (b : Fin 128 → EReal) : Fin 128 → EReal :=
  fun j => mv x W j + b j

/-- The affine image of the concatenation `[h, c]`: the weight matrix split into the half meeting `h` and the half meeting `c`. -/
def bundleRow (h c : Fin 128 → EReal) (Wh Wc : Tbl 128 128) (b : Fin 128 → EReal) : Fin 128 → EReal :=
  fun j => mv h Wh j + mv c Wc j + b j

/-- A row divided by its Euclidean norm, the norm clamped below. -/
def normalise (u : Fin 128 → EReal) : Fin 128 → EReal :=
  fun j => Ideal.div (u j) (max (Ideal.sqrt (∑ k : Fin 128, u k * u k)) tiny)

/-- One layer at a node: `h` plus the positive part of the normalised affine image of `[h, ms / dg]`. -/
def sageRow (h ms : Fin 128 → EReal) (dg : EReal) (Wh Wc : Tbl 128 128) (b : Fin 128 → EReal) : Fin 128 → EReal :=
  fun j => h j + relu (normalise (bundleRow h (fun k => Ideal.div (ms k) dg) Wh Wc b)) j

/-- The edge read-out: three affine layers with the maximum with zero between them, on the rows of the edge's two ends. -/
def mlpRow (hs hd : Fin 128 → EReal) (W0s W0d : Tbl 128 128) (b0 : Fin 128 → EReal) (W1 : Tbl 128 64) (b1 : Fin 64 → EReal)
    (W2 : Tbl 64 2) (b2 : Fin 2 → EReal) : Fin 2 → EReal :=
  fun j => mv (relu fun a => mv (relu fun i => mv hs W0s i + mv hd W0d i + b0 i) W1 a + b1 a) W2 j + b2 j

/-- The embedding of every node. -/
def embedT (x : Tbl 50000 64) (W : Tbl 64 128) (b : Fin 128 → EReal) : Tbl 50000 128 :=
  ofRows fun p => embedRow (rowAt x p) W b

/-- One layer at every node; `dg` is the column of clamped edge counts. -/
def sageT (h ms : Tbl 50000 128) (dg : Tbl 50000 1) (Wh Wc : Tbl 128 128) (b : Fin 128 → EReal) : Tbl 50000 128 :=
  ofRows fun p => sageRow (rowAt h p) (rowAt ms p) (dg (ix2 p (0 : Fin 1))) Wh Wc b

/-- The read-out of every edge from the tables of its source rows and target rows. -/
def mlpT (hs hd : Tbl 800000 128) (W0s W0d : Tbl 128 128) (b0 : Fin 128 → EReal) (W1 : Tbl 128 64) (b1 : Fin 64 → EReal)
    (W2 : Tbl 64 2) (b2 : Fin 2 → EReal) : Tbl 800000 2 :=
  ofRows fun e => mlpRow (rowAt hs e) (rowAt hd e) W0s W0d b0 W1 b1 W2 b2

/-- Layer `l`'s weights meeting `h`: rows `0 … 127` of slab `l` of the stacked weights. -/
def whOf (W : (⟨3, ![4, 256, 128]⟩ : Shape).Idx → EReal) (l : Fin 4) : Tbl 128 128 :=
  ofRows fun k q => W (ix3 l (⟨k.val, by omega⟩ : Fin 256) q)

/-- Layer `l`'s weights meeting the neighbours' mean: rows `128 … 255` of slab `l`. -/
def wcOf (W : (⟨3, ![4, 256, 128]⟩ : Shape).Idx → EReal) (l : Fin 4) : Tbl 128 128 :=
  ofRows fun k q => W (ix3 l (⟨k.val + 128, by omega⟩ : Fin 256) q)

/-- The upper and lower halves of the read-out's first weight matrix. -/
def topOf (W : Tbl 256 128) : Tbl 128 128 := ofRows fun k q => W (ix2 (⟨k.val, by omega⟩ : Fin 256) q)
def botOf (W : Tbl 256 128) : Tbl 128 128 := ofRows fun k q => W (ix2 (⟨k.val + 128, by omega⟩ : Fin 256) q)

/-- A sum over `256` indices is the sum over the first `128` plus the sum over the last `128`. -/
theorem sum_256_split (f : Fin 256 → EReal) :
    ∑ k : Fin 256, f k = ∑ k : Fin 128, f ⟨k.val, by omega⟩ + ∑ k : Fin 128, f ⟨k.val + 128, by omega⟩ := by
  have h := Fin.sum_univ_add (fun k : Fin (128 + 128) => f k)
  refine h.trans (congrArg₂ (· + ·) (Finset.sum_congr rfl fun k _ => congrArg f (Fin.ext rfl))
      (Finset.sum_congr rfl fun k _ => congrArg f (Fin.ext ?_)))
  show 128 + k.val = k.val + 128
  omega

end Cert.Net

end
-- ==== Proof.KWeights.lean ====
/-
  THE WEIGHT TABLES THE REGIONS READ, AS PARTS OF THE ARGUMENTS.

  The host cuts the stacked layer weights `[4, 256, 128]` into an upper and a lower half along the middle axis and then
  into slabs, and reshapes a slab to a `[128, 128]` table: read at `(k, q)` it is the stacked weights at
  `(l, k + r₀, q)`, `r₀` the half's first row. A layer's bias is row `l` of `[4, 128]` cut out, flattened and
  reshaped to one row; a bias vector reshaped to one row is the vector; the halves of the read-out's first matrix are its
  upper and lower 128 rows.
-/
import proofs.«141839_j76785425318033_2_alg».proof.Proof.Spec
import Idealize.ShloMosaic.Lib.Pipeline.Value
import Idealize.ShloMosaic.Lib.ValueIdx

noncomputable section

namespace Cert.KWeights

open Idealize.ShloMosaic Idealize.ShloMosaic.ValueIdx Cert.Rows Cert.Net

/-- Slab `l`, rows `r₀ … r₀ + 127`, of the stacked weights, cut out in two slices and reshaped to a table. -/
theorem slab_rows (W : (⟨3, ![4, 256, 128]⟩ : Shape).Idx → EReal) (l : Fin 4) (r0 : Nat) (hr0 : r0 + 128 ≤ 256)
    (off1 : Fin 3 → Nat) (h1 : (⟨3, ![4, 256, 128]⟩ : Shape).Slices off1 ⟨3, ![4, 128, 128]⟩)
    (e10 : off1 0 = 0) (e11 : off1 1 = r0) (e12 : off1 2 = 0)
    (off2 : Fin 3 → Nat) (h2 : (⟨3, ![4, 128, 128]⟩ : Shape).Slices off2 ⟨3, ![1, 128, 128]⟩)
    (e20 : off2 0 = l.val) (e21 : off2 1 = 0) (e22 : off2 2 = 0)
    (hc : (⟨3, ![1, 128, 128]⟩ : Shape).ShapeCasts ⟨2, ![128, 128]⟩) :
    shapeCast ⟨2, ![128, 128]⟩ (extractStridedSlice ⟨3, ![1, 128, 128]⟩ off2 (extractStridedSlice ⟨3, ![4, 128, 128]⟩ off1 W h1) h2) hc
      = ofRows fun k q => W (ix3 l (⟨k.val + r0, by omega⟩ : Fin 256) q) := by
  refine eq_ofRows _ _ fun k q => ?_
  refine (shapeCast_dropUnit_apply (n := 2) ![128, 128] _ hc (ix2 k q)).trans ?_
  refine (extractStridedSlice_apply off2 _ h2 _ (ix3 l k q) fun a => ?_).trans ?_
  · match a with
    | ⟨0, _⟩ => show l.val = off2 0 + 0; rw [e20]; omega
    | ⟨1, _⟩ => show k.val = off2 1 + k.val; rw [e21]; omega
    | ⟨2, _⟩ => show q.val = off2 2 + q.val; rw [e22]; omega
  · refine extractStridedSlice_apply off1 W h1 (ix3 l k q) (ix3 l (⟨k.val + r0, by omega⟩ : Fin 256) q) fun a => ?_
    match a with
    | ⟨0, _⟩ => show l.val = off1 0 + l.val; rw [e10]; omega
    | ⟨1, _⟩ => show k.val + r0 = off1 1 + k.val; rw [e11]; omega
    | ⟨2, _⟩ => show q.val = off1 2 + q.val; rw [e12]; omega

/-- Row `l` of the stacked biases, cut out, flattened and reshaped to one row. -/
theorem bias_row (B : Tbl 4 128) (l : Fin 4) (off : Fin 2 → Nat) (h : (⟨2, ![4, 128]⟩ : Shape).Slices off ⟨2, ![1, 128]⟩)
    (e0 : off 0 = l.val) (e1 : off 1 = 0) (hc1 : (⟨2, ![1, 128]⟩ : Shape).ShapeCasts ⟨1, ![128]⟩)
    (hc2 : (⟨1, ![128]⟩ : Shape).ShapeCasts ⟨2, ![1, 128]⟩) :
    rowAt (shapeCast ⟨2, ![1, 128]⟩ (shapeCast ⟨1, ![128]⟩ (extractStridedSlice ⟨2, ![1, 128]⟩ off B h) hc1) hc2) 0 = rowAt B l := by
  rw [shapeCast_shapeCast]
  funext q
  refine extractStridedSlice_apply off B h (ix2 (0 : Fin 1) q) (ix2 l q) fun a => ?_
  match a with
  | ⟨0, _⟩ => show l.val = off 0 + 0; rw [e0]; omega
  | ⟨1, _⟩ => show q.val = off 1 + q.val; rw [e1]; omega

/-- A vector reshaped to one row is the vector. -/
theorem row_of_vec {n : Nat} (b : (⟨1, ![n]⟩ : Shape).Idx → EReal) (hc : (⟨1, ![n]⟩ : Shape).ShapeCasts ⟨2, ![1, n]⟩) :
    rowAt (shapeCast ⟨2, ![1, n]⟩ b hc) 0 = vecOf b := by
  funext q
  refine (shapeCast_addUnit_apply (n := 1) ![n] b hc (ix2 (0 : Fin 1) q)).trans ?_
  exact congrArg b (funext fun a => match a with | ⟨0, _⟩ => rfl)

/-- The rows `r₀ … r₀ + 127` of the read-out's first matrix. -/
theorem half_rows (W : Tbl 256 128) (r0 : Nat) (hr0 : r0 + 128 ≤ 256) (off : Fin 2 → Nat)
    (h : (⟨2, ![256, 128]⟩ : Shape).Slices off ⟨2, ![128, 128]⟩) (e0 : off 0 = r0) (e1 : off 1 = 0) :
    extractStridedSlice ⟨2, ![128, 128]⟩ off W h = ofRows fun k q => W (ix2 (⟨k.val + r0, by omega⟩ : Fin 256) q) := by
  refine eq_ofRows _ _ fun k q => ?_
  refine extractStridedSlice_apply off W h (ix2 k q) (ix2 (⟨k.val + r0, by omega⟩ : Fin 256) q) fun a => ?_
  match a with
  | ⟨0, _⟩ => show k.val + r0 = off 0 + k.val; rw [e0]; omega
  | ⟨1, _⟩ => show q.val = off 1 + q.val; rw [e1]; omega

end Cert.KWeights

end
-- ==== Proof.KGlue1.lean ====
/-
  THE HOST OPERATIONS BETWEEN THE REGIONS, AS FUNCTIONS OF THE TABLES THEY READ.

  Before the first layer the host sorts the edge numbers by target, reorders sources and targets by that order
  (`sortedWith`, a function of the sorted edge numbers `p`), counts each node's incoming edges and clamps the count
  below by one (`degOf`), and cuts the stacked weights into an upper and a lower half. Before every layer it gathers the
  rows of the current table at the edges' sources and adds them up at the edges' targets (`msumOf`), and cuts the
  layer's slab and bias row out.
  Each lemma says what one buffer holds after a stretch of host operations, as a function of what the buffers it reads
  held before; a buffer no operation of the stretch writes holds what it held.
-/
import proofs.«141839_j76785425318033_2_alg».proof.Proof.Gen.KernelIdeal.Frame
import proofs.«141839_j76785425318033_2_alg».proof.Proof.Spec
import proofs.«141839_j76785425318033_2_alg».proof.Proof.KWeights
import Idealize.ShloMosaic.PureOps.Ideal

set_option maxRecDepth 16384

noncomputable section

namespace Cert.KGlue

open Idealize.ShloMosaic Idealize.ShloMosaic.TcCoe Idealize.ShloMosaic.StableHlo Idealize.ShloMosaic.ValueIdx Idealize.SL.Sem
open Cert.KernelIdeal Cert.KernelIdeal.Gen Cert.Rows Cert.Net

abbrev IV : Type := (⟨S800000, .i32⟩ : BufTy).Contents (Elt Ideal)
abbrev NodeTbl : Type := (⟨S50000x128, .f32⟩ : BufTy).Contents (Elt Ideal)

/-- An index vector as a column. -/
abbrev col (a : IV) : (⟨S800000x1, .i32⟩ : BufTy).Contents (Elt Ideal) := broadcastInDim S800000x1 ![0] bcast_S800000_S800000x1_0 a

/-- A negative index counted from the end of an axis of extent `n`. -/
abbrev wrap (n : BitVec 32) (a : IV) : IV :=
  select (cmpi .slt a (broadcastInDim S800000 ![] bcast_S_S800000 (constantI S_ 32 0#32)))
    (addi a (broadcastInDim S800000 ![] bcast_S_S800000 (constantI S_ 32 n))) a

/-- An edge attribute reordered by the sorted edge numbers `p`. -/
def sortedWith (a p : IV) : IV := Host.gather gather_S800000_S800000x1_S800000_n_0_n_n_0_1_1 a (col (wrap 800000#32 p))

/-- The sum, at every node, of the rows of `H` at the sources `s` of the edges whose target `t` is the node. -/
def msumOf (H : NodeTbl) (s t : IV) : NodeTbl :=
  Host.scatterAdd (F := Ideal) scatter_S50000x128_S800000x1_S800000x128_1_0_0_1
    (broadcastInDim S50000x128 ![] bcast_S_S50000x128 (constant (F := Ideal) S_ .f32 0x00000000#32)) (col t)
    (Host.gather gather_S50000x128_S800000x1_S800000x128_1_0_n_n_0_1_1128 H (col (wrap 50000#32 s)))

/-- The number of edges into every node, clamped below by one. -/
def degOf (t : IV) : (⟨S50000x1, .f32⟩ : BufTy).Contents (Elt Ideal) :=
  maximumf (F := Ideal) (Host.scatterAdd (F := Ideal) scatter_S50000x1_S800000x1_S800000x1_1_0_0_1
      (broadcastInDim S50000x1 ![] bcast_S_S50000x1 (constant (F := Ideal) S_ .f32 0x00000000#32)) (col t)
      (broadcastInDim S800000x1 ![] bcast_S_S800000x1 (constant (F := Ideal) S_ .f32 0x3F800000#32)))
    (broadcastInDim S50000x1 ![] bcast_S_S50000x1 (constant (F := Ideal) S_ .f32 0x3F800000#32))

/-- The two halves of the stacked weights along the middle axis. -/
abbrev topHalf (W7 : (⟨S4x256x128, .f32⟩ : BufTy).Contents (Elt Ideal)) : (⟨S4x128x128, .f32⟩ : BufTy).Contents (Elt Ideal) :=
  extractStridedSlice S4x128x128 ![0, 0, 0] W7 slices_S4x256x128_S4x128x128_0_0_0
abbrev botHalf (W7 : (⟨S4x256x128, .f32⟩ : BufTy).Contents (Elt Ideal)) : (⟨S4x128x128, .f32⟩ : BufTy).Contents (Elt Ideal) :=
  extractStridedSlice S4x128x128 ![0, 128, 0] W7 slices_S4x256x128_S4x128x128_0_128_0

variable (W : Valuation τ sig (Elt Ideal))

/-! ## The sort leaves everything but its own three buffers as it was -/
theorem s0_keep_main_arg1 : StableHlo.after (hostOps1 (F := Ideal)) W (Proc.devRef .tc main_arg1) = W (Proc.devRef .tc main_arg1) := by
  after_results_simp
theorem s0_keep_main_arg2 : StableHlo.after (hostOps1 (F := Ideal)) W (Proc.devRef .tc main_arg2) = W (Proc.devRef .tc main_arg2) := by
  after_results_simp
theorem s0_keep_main_arg7 : StableHlo.after (hostOps1 (F := Ideal)) W (Proc.devRef .tc main_arg7) = W (Proc.devRef .tc main_arg7) := by
  after_results_simp
theorem s0_keep_main_arg8 : StableHlo.after (hostOps1 (F := Ideal)) W (Proc.devRef .tc main_arg8) = W (Proc.devRef .tc main_arg8) := by
  after_results_simp
theorem s0_keep_main_arg9 : StableHlo.after (hostOps1 (F := Ideal)) W (Proc.devRef .tc main_arg9) = W (Proc.devRef .tc main_arg9) := by
  after_results_simp
theorem s0_keep_main_arg10 : StableHlo.after (hostOps1 (F := Ideal)) W (Proc.devRef .tc main_arg10) = W (Proc.devRef .tc main_arg10) := by
  after_results_simp
theorem s0_keep_main_arg11 : StableHlo.after (hostOps1 (F := Ideal)) W (Proc.devRef .tc main_arg11) = W (Proc.devRef .tc main_arg11) := by
  after_results_simp
theorem s0_keep_main_arg12 : StableHlo.after (hostOps1 (F := Ideal)) W (Proc.devRef .tc main_arg12) = W (Proc.devRef .tc main_arg12) := by
  after_results_simp
theorem s0_keep_main_arg13 : StableHlo.after (hostOps1 (F := Ideal)) W (Proc.devRef .tc main_arg13) = W (Proc.devRef .tc main_arg13) := by
  after_results_simp
theorem s0_keep_main_arg14 : StableHlo.after (hostOps1 (F := Ideal)) W (Proc.devRef .tc main_arg14) = W (Proc.devRef .tc main_arg14) := by
  after_results_simp
theorem s0_keep_main_v1 : StableHlo.after (hostOps1 (F := Ideal)) W (Proc.devRef .tc main_v1) = W (Proc.devRef .tc main_v1) := by
  after_results_simp

/-! ## The stretch after the sort; `main_v2` holds the sorted edge numbers -/

theorem s1_sdst : StableHlo.after (hostOps1_1 (F := Ideal)) W (Proc.devRef .tc main_v9) = sortedWith (W (Proc.devRef .tc main_arg2)) (W (Proc.devRef .tc main_v2)) := by
  after_results_simp <;> rfl
theorem s1_ssrc : StableHlo.after (hostOps1_1 (F := Ideal)) W (Proc.devRef .tc main_v16) = sortedWith (W (Proc.devRef .tc main_arg1)) (W (Proc.devRef .tc main_v2)) := by
  after_results_simp <;> rfl
theorem s1_deg : StableHlo.after (hostOps1_1 (F := Ideal)) W (Proc.devRef .tc main_v22) = degOf (sortedWith (W (Proc.devRef .tc main_arg2)) (W (Proc.devRef .tc main_v2))) := by
  after_results_simp <;> rfl
theorem s1_top : StableHlo.after (hostOps1_1 (F := Ideal)) W (Proc.devRef .tc main_v23) = topHalf (W (Proc.devRef .tc main_arg7)) := by
  after_results_simp <;> rfl
theorem s1_bot : StableHlo.after (hostOps1_1 (F := Ideal)) W (Proc.devRef .tc main_v24) = botHalf (W (Proc.devRef .tc main_arg7)) := by
  after_results_simp <;> rfl
theorem s1_msum : StableHlo.after (hostOps1_1 (F := Ideal)) W (Proc.devRef .tc main_v34) = msumOf (W (Proc.devRef .tc main_v1))
    (sortedWith (W (Proc.devRef .tc main_arg1)) (W (Proc.devRef .tc main_v2))) (sortedWith (W (Proc.devRef .tc main_arg2)) (W (Proc.devRef .tc main_v2))) := by
  after_results_simp <;> rfl
theorem s1_wh : (StableHlo.after (hostOps1_1 (F := Ideal)) W (Proc.devRef .tc main_v36) : Tbl 128 128) = whOf (W (Proc.devRef .tc main_arg7)) 0 := by
  refine Eq.trans (by after_results_simp <;> rfl) (KWeights.slab_rows (W (Proc.devRef .tc main_arg7)) 0 0 (by omega) ![0, 0, 0] slices_S4x256x128_S4x128x128_0_0_0 rfl rfl rfl
    ![0, 0, 0] slices_S4x128x128_S1x128x128_0_0_0 rfl rfl rfl shapeCasts_S1x128x128_S128x128)
theorem s1_wc : (StableHlo.after (hostOps1_1 (F := Ideal)) W (Proc.devRef .tc main_v38) : Tbl 128 128) = wcOf (W (Proc.devRef .tc main_arg7)) 0 := by
  refine Eq.trans (by after_results_simp <;> rfl) (KWeights.slab_rows (W (Proc.devRef .tc main_arg7)) 0 128 (by omega) ![0, 128, 0] slices_S4x256x128_S4x128x128_0_128_0 rfl rfl rfl
    ![0, 0, 0] slices_S4x128x128_S1x128x128_0_0_0 rfl rfl rfl shapeCasts_S1x128x128_S128x128)
theorem s1_b : rowAt (StableHlo.after (hostOps1_1 (F := Ideal)) W (Proc.devRef .tc main_v41) : Tbl 1 128) 0 = rowAt (W (Proc.devRef .tc main_arg8) : Tbl 4 128) 0 := by
  refine Eq.trans (congrArg (fun X : Tbl 1 128 => rowAt X 0) (by after_results_simp <;> rfl))
    (KWeights.bias_row (W (Proc.devRef .tc main_arg8)) 0 ![0, 0] slices_S4x128_S1x128_0_0 rfl rfl shapeCasts_S1x128_S128 shapeCasts_S128_S1x128)
theorem s1_keep_main_arg1 : StableHlo.after (hostOps1_1 (F := Ideal)) W (Proc.devRef .tc main_arg1) = W (Proc.devRef .tc main_arg1) := by
  after_results_simp
theorem s1_keep_main_arg2 : StableHlo.after (hostOps1_1 (F := Ideal)) W (Proc.devRef .tc main_arg2) = W (Proc.devRef .tc main_arg2) := by
  after_results_simp
theorem s1_keep_main_arg7 : StableHlo.after (hostOps1_1 (F := Ideal)) W (Proc.devRef .tc main_arg7) = W (Proc.devRef .tc main_arg7) := by
  after_results_simp
theorem s1_keep_main_arg8 : StableHlo.after (hostOps1_1 (F := Ideal)) W (Proc.devRef .tc main_arg8) = W (Proc.devRef .tc main_arg8) := by
  after_results_simp
theorem s1_keep_main_arg9 : StableHlo.after (hostOps1_1 (F := Ideal)) W (Proc.devRef .tc main_arg9) = W (Proc.devRef .tc main_arg9) := by
  after_results_simp
theorem s1_keep_main_arg10 : StableHlo.after (hostOps1_1 (F := Ideal)) W (Proc.devRef .tc main_arg10) = W (Proc.devRef .tc main_arg10) := by
  after_results_simp
theorem s1_keep_main_arg11 : StableHlo.after (hostOps1_1 (F := Ideal)) W (Proc.devRef .tc main_arg11) = W (Proc.devRef .tc main_arg11) := by
  after_results_simp
theorem s1_keep_main_arg12 : StableHlo.after (hostOps1_1 (F := Ideal)) W (Proc.devRef .tc main_arg12) = W (Proc.devRef .tc main_arg12) := by
  after_results_simp
theorem s1_keep_main_arg13 : StableHlo.after (hostOps1_1 (F := Ideal)) W (Proc.devRef .tc main_arg13) = W (Proc.devRef .tc main_arg13) := by
  after_results_simp
theorem s1_keep_main_arg14 : StableHlo.after (hostOps1_1 (F := Ideal)) W (Proc.devRef .tc main_arg14) = W (Proc.devRef .tc main_arg14) := by
  after_results_simp
theorem s1_keep_main_v1 : StableHlo.after (hostOps1_1 (F := Ideal)) W (Proc.devRef .tc main_v1) = W (Proc.devRef .tc main_v1) := by
  after_results_simp

end Cert.KGlue

end
-- ==== Proof.KGlue5.lean ====
/-
  THE HOST OPERATIONS BEFORE THE READ-OUT: the final table's rows gathered at every edge's source and at its target (the
  table first rounded to the shorter float format, which changes nothing on the extended reals), the two halves of the
  read-out's first weight matrix, and the three bias vectors as rows.
-/
import proofs.«141839_j76785425318033_2_alg».proof.Proof.Gen.KernelIdeal.Frame
import proofs.«141839_j76785425318033_2_alg».proof.Proof.Spec
import proofs.«141839_j76785425318033_2_alg».proof.Proof.KWeights
import Idealize.ShloMosaic.PureOps.Ideal
import proofs.«141839_j76785425318033_2_alg».proof.Proof.KGlue1

set_option maxRecDepth 16384

noncomputable section

namespace Cert.KGlue

open Idealize.ShloMosaic Idealize.ShloMosaic.TcCoe Idealize.ShloMosaic.StableHlo Idealize.ShloMosaic.ValueIdx Idealize.SL.Sem
open Cert.KernelIdeal Cert.KernelIdeal.Gen Cert.Rows Cert.Net

/-- The rows of `H` at the nodes the index vector names. -/
def rowsAt (H : (⟨S50000x128, .f32⟩ : BufTy).Contents (Elt Ideal)) (s : IV) : (⟨S800000x128, .bf16⟩ : BufTy).Contents (Elt Ideal) :=
  Host.gather gather_S50000x128_S800000x1_S800000x128_1_0_n_n_0_1_1128 (truncf (F := Ideal) .bf16 (H : FVec Ideal S50000x128 .f32) bitsLt_bf16_f32) (col (wrap 50000#32 s))

variable (W : Valuation τ sig (Elt Ideal))

theorem s5_hs : StableHlo.after (hostOps5 (F := Ideal)) W (Proc.devRef .tc main_v104) = rowsAt (W (Proc.devRef .tc main_v96)) (W (Proc.devRef .tc main_arg1)) := by
  after_results_simp <;> rfl
theorem s5_hd : StableHlo.after (hostOps5 (F := Ideal)) W (Proc.devRef .tc main_v111) = rowsAt (W (Proc.devRef .tc main_v96)) (W (Proc.devRef .tc main_arg2)) := by
  after_results_simp <;> rfl
theorem s5_w0s : (StableHlo.after (hostOps5 (F := Ideal)) W (Proc.devRef .tc main_v112) : Tbl 128 128) = topOf (W (Proc.devRef .tc main_arg9)) := by
  refine Eq.trans (by after_results_simp <;> rfl) (KWeights.half_rows (W (Proc.devRef .tc main_arg9)) 0 (by omega) ![0, 0] slices_S256x128_S128x128_0_0 rfl rfl)
theorem s5_w0d : (StableHlo.after (hostOps5 (F := Ideal)) W (Proc.devRef .tc main_v113) : Tbl 128 128) = botOf (W (Proc.devRef .tc main_arg9)) := by
  refine Eq.trans (by after_results_simp <;> rfl) (KWeights.half_rows (W (Proc.devRef .tc main_arg9)) 128 (by omega) ![128, 0] slices_S256x128_S128x128_128_0 rfl rfl)
theorem s5_b0 : rowAt (StableHlo.after (hostOps5 (F := Ideal)) W (Proc.devRef .tc main_v114) : Tbl 1 128) 0 = vecOf (W (Proc.devRef .tc main_arg10)) := by
  refine Eq.trans (congrArg (fun X : Tbl 1 128 => rowAt X 0) (by after_results_simp <;> rfl)) (KWeights.row_of_vec (W (Proc.devRef .tc main_arg10)) shapeCasts_S128_S1x128)
theorem s5_b1 : rowAt (StableHlo.after (hostOps5 (F := Ideal)) W (Proc.devRef .tc main_v115) : Tbl 1 64) 0 = vecOf (W (Proc.devRef .tc main_arg12)) := by
  refine Eq.trans (congrArg (fun X : Tbl 1 64 => rowAt X 0) (by after_results_simp <;> rfl)) (KWeights.row_of_vec (W (Proc.devRef .tc main_arg12)) shapeCasts_S64_S1x64)
theorem s5_b2 : rowAt (StableHlo.after (hostOps5 (F := Ideal)) W (Proc.devRef .tc main_v116) : Tbl 1 2) 0 = vecOf (W (Proc.devRef .tc main_arg14)) := by
  refine Eq.trans (congrArg (fun X : Tbl 1 2 => rowAt X 0) (by after_results_simp <;> rfl)) (KWeights.row_of_vec (W (Proc.devRef .tc main_arg14)) shapeCasts_S2_S1x2)
theorem s5_w1 : StableHlo.after (hostOps5 (F := Ideal)) W (Proc.devRef .tc main_arg11) = W (Proc.devRef .tc main_arg11) := by
  after_results_simp
theorem s5_w2 : StableHlo.after (hostOps5 (F := Ideal)) W (Proc.devRef .tc main_arg13) = W (Proc.devRef .tc main_arg13) := by
  after_results_simp

end Cert.KGlue

end
-- ==== Proof.KDefs.lean ====
/-
  THE KERNEL'S RESULT AS A FUNCTION OF ITS ARGUMENTS: the definitions.

  `p` stands for the edge numbers sorted by target. The embedding `H0`; `layer l` of a node table, the neighbour
  sums taken over the edges reordered by `p`; the four tables `H1 … H4`; and the read-out `out` of the final table's rows
  at every edge's two ends.
-/
import proofs.«141839_j76785425318033_2_alg».proof.Proof.Gen.KernelIdeal.Frame
import proofs.«141839_j76785425318033_2_alg».proof.Proof.Spec
import proofs.«141839_j76785425318033_2_alg».proof.Proof.KGlue1
import proofs.«141839_j76785425318033_2_alg».proof.Proof.KGlue5
import Idealize.ShloMosaic.PureOps.Ideal

noncomputable section

namespace Cert.KChain

open Idealize.ShloMosaic Idealize.ShloMosaic.TcCoe Idealize.ShloMosaic.StableHlo Idealize.ShloMosaic.ValueIdx Idealize.SL.Sem
open Cert.KernelIdeal Cert.KernelIdeal.Gen Cert.Rows Cert.Net Cert.KGlue

variable (m : (ℓ : Loc nD τ sig) → Buf (Elt Ideal) ℓ) (c : Dev nD) (p : IV)

/-- An argument's launch contents. -/
abbrev arg (b : Ref sig .tc) : Buf (Elt Ideal) ((c : Thread nD τ).loc b) := m ((c : Thread nD τ).loc b)

theorem embedT_congr {x x' : Tbl 50000 64} {w w' : Tbl 64 128} {b b' : Fin 128 → EReal} (e1 : x = x') (e2 : w = w') (e3 : b = b') :
    embedT x w b = embedT x' w' b' := by subst e1 e2 e3; rfl

theorem sageT_congr {h h' ms ms' : Tbl 50000 128} {dg dg' : Tbl 50000 1} {wh wh' wc wc' : Tbl 128 128} {b b' : Fin 128 → EReal}
    (e1 : h = h') (e2 : ms = ms') (e3 : dg = dg') (e4 : wh = wh') (e5 : wc = wc') (e6 : b = b') :
    sageT h ms dg wh wc b = sageT h' ms' dg' wh' wc' b' := by subst e1 e2 e3 e4 e5 e6; rfl

theorem mlpT_congr {hs hs' hd hd' : Tbl 800000 128} {w0s w0s' w0d w0d' : Tbl 128 128} {b0 b0' : Fin 128 → EReal} {w1 w1' : Tbl 128 64}
    {b1 b1' : Fin 64 → EReal} {w2 w2' : Tbl 64 2} {b2 b2' : Fin 2 → EReal}
    (e1 : hs = hs') (e2 : hd = hd') (e3 : w0s = w0s') (e4 : w0d = w0d') (e5 : b0 = b0') (e6 : w1 = w1') (e7 : b1 = b1') (e8 : w2 = w2') (e9 : b2 = b2') :
    mlpT hs hd w0s w0d b0 w1 b1 w2 b2 = mlpT hs' hd' w0s' w0d' b0' w1' b1' w2' b2' := by subst e1 e2 e3 e4 e5 e6 e7 e8 e9; rfl

/-- The edges' sources and targets in the sorted order. -/
abbrev ssrc : IV := sortedWith (arg m c main_arg1) p
abbrev sdst : IV := sortedWith (arg m c main_arg2) p

/-- The embedding of every node. -/
def H0 : Tbl 50000 128 := embedT (arg m c main_arg0) (arg m c main_arg5) (vecOf (arg m c main_arg6))

/-- Layer `l` applied to a node table, the neighbour sums taken over the sorted edges. -/
def layer (l : Fin 4) (H : Tbl 50000 128) : Tbl 50000 128 :=
  sageT H (msumOf H (ssrc m c p) (sdst m c p)) (degOf (sdst m c p)) (whOf (arg m c main_arg7) l) (wcOf (arg m c main_arg7) l) (rowAt ((arg m c main_arg8) : Tbl 4 128) l)

def H1 : Tbl 50000 128 := layer m c p 0 (H0 m c)
def H2 : Tbl 50000 128 := layer m c p 1 (H1 m c p)
def H3 : Tbl 50000 128 := layer m c p 2 (H2 m c p)
def H4 : Tbl 50000 128 := layer m c p 3 (H3 m c p)

/-- The read-out of every edge. -/
def out : Tbl 800000 2 :=
  mlpT (rowsAt (H4 m c p) (arg m c main_arg1)) (rowsAt (H4 m c p) (arg m c main_arg2)) (topOf (arg m c main_arg9)) (botOf (arg m c main_arg9)) (vecOf (arg m c main_arg10)) (arg m c main_arg11) (vecOf (arg m c main_arg12)) (arg m c main_arg13) (vecOf (arg m c main_arg14))

end Cert.KChain

end
-- ==== Proof.KGlue2.lean ====
/-
  THE HOST OPERATIONS BEFORE LAYER 1: the sums of the current table's rows over the sorted edges, and the layer's slab of
  each half of the stacked weights and its bias row; everything else is left as it was.
-/
import proofs.«141839_j76785425318033_2_alg».proof.Proof.Gen.KernelIdeal.Frame
import proofs.«141839_j76785425318033_2_alg».proof.Proof.Spec
import proofs.«141839_j76785425318033_2_alg».proof.Proof.KWeights
import Idealize.ShloMosaic.PureOps.Ideal
import proofs.«141839_j76785425318033_2_alg».proof.Proof.KGlue1

set_option maxRecDepth 16384

noncomputable section

namespace Cert.KGlue

open Idealize.ShloMosaic Idealize.ShloMosaic.TcCoe Idealize.ShloMosaic.StableHlo Idealize.ShloMosaic.ValueIdx Idealize.SL.Sem
open Cert.KernelIdeal Cert.KernelIdeal.Gen Cert.Rows Cert.Net

variable (W : Valuation τ sig (Elt Ideal))

theorem s2_msum : StableHlo.after (hostOps2 (F := Ideal)) W (Proc.devRef .tc main_v52) = msumOf (W (Proc.devRef .tc main_v42)) (W (Proc.devRef .tc main_v16)) (W (Proc.devRef .tc main_v9)) := by
  after_results_simp; rfl
theorem s2_wh : (StableHlo.after (hostOps2 (F := Ideal)) W (Proc.devRef .tc main_v54) : Tbl 128 128)
    = shapeCast S128x128 (extractStridedSlice S1x128x128 ![1, 0, 0] (W (Proc.devRef .tc main_v23)) slices_S4x128x128_S1x128x128_1_0_0) shapeCasts_S1x128x128_S128x128 := by
  after_results_simp; rfl
theorem s2_wc : (StableHlo.after (hostOps2 (F := Ideal)) W (Proc.devRef .tc main_v56) : Tbl 128 128)
    = shapeCast S128x128 (extractStridedSlice S1x128x128 ![1, 0, 0] (W (Proc.devRef .tc main_v24)) slices_S4x128x128_S1x128x128_1_0_0) shapeCasts_S1x128x128_S128x128 := by
  after_results_simp; rfl
theorem s2_b : rowAt (StableHlo.after (hostOps2 (F := Ideal)) W (Proc.devRef .tc main_v59) : Tbl 1 128) 0 = rowAt (W (Proc.devRef .tc main_arg8) : Tbl 4 128) 1 := by
  refine Eq.trans (congrArg (fun X : Tbl 1 128 => rowAt X 0) (by after_results_simp; rfl))
    (KWeights.bias_row (W (Proc.devRef .tc main_arg8)) 1 ![1, 0] slices_S4x128_S1x128_1_0 rfl rfl shapeCasts_S1x128_S128 shapeCasts_S128_S1x128)
theorem s2_keep_main_v9 : StableHlo.after (hostOps2 (F := Ideal)) W (Proc.devRef .tc main_v9) = W (Proc.devRef .tc main_v9) := by
  after_results_simp
theorem s2_keep_main_v16 : StableHlo.after (hostOps2 (F := Ideal)) W (Proc.devRef .tc main_v16) = W (Proc.devRef .tc main_v16) := by
  after_results_simp
theorem s2_keep_main_v22 : StableHlo.after (hostOps2 (F := Ideal)) W (Proc.devRef .tc main_v22) = W (Proc.devRef .tc main_v22) := by
  after_results_simp
theorem s2_keep_main_v23 : StableHlo.after (hostOps2 (F := Ideal)) W (Proc.devRef .tc main_v23) = W (Proc.devRef .tc main_v23) := by
  after_results_simp
theorem s2_keep_main_v24 : StableHlo.after (hostOps2 (F := Ideal)) W (Proc.devRef .tc main_v24) = W (Proc.devRef .tc main_v24) := by
  after_results_simp
theorem s2_keep_main_v42 : StableHlo.after (hostOps2 (F := Ideal)) W (Proc.devRef .tc main_v42) = W (Proc.devRef .tc main_v42) := by
  after_results_simp
theorem s2_keep_main_arg1 : StableHlo.after (hostOps2 (F := Ideal)) W (Proc.devRef .tc main_arg1) = W (Proc.devRef .tc main_arg1) := by
  after_results_simp
theorem s2_keep_main_arg2 : StableHlo.after (hostOps2 (F := Ideal)) W (Proc.devRef .tc main_arg2) = W (Proc.devRef .tc main_arg2) := by
  after_results_simp
theorem s2_keep_main_arg7 : StableHlo.after (hostOps2 (F := Ideal)) W (Proc.devRef .tc main_arg7) = W (Proc.devRef .tc main_arg7) := by
  after_results_simp
theorem s2_keep_main_arg8 : StableHlo.after (hostOps2 (F := Ideal)) W (Proc.devRef .tc main_arg8) = W (Proc.devRef .tc main_arg8) := by
  after_results_simp
theorem s2_keep_main_arg9 : StableHlo.after (hostOps2 (F := Ideal)) W (Proc.devRef .tc main_arg9) = W (Proc.devRef .tc main_arg9) := by
  after_results_simp
theorem s2_keep_main_arg10 : StableHlo.after (hostOps2 (F := Ideal)) W (Proc.devRef .tc main_arg10) = W (Proc.devRef .tc main_arg10) := by
  after_results_simp
theorem s2_keep_main_arg11 : StableHlo.after (hostOps2 (F := Ideal)) W (Proc.devRef .tc main_arg11) = W (Proc.devRef .tc main_arg11) := by
  after_results_simp
theorem s2_keep_main_arg12 : StableHlo.after (hostOps2 (F := Ideal)) W (Proc.devRef .tc main_arg12) = W (Proc.devRef .tc main_arg12) := by
  after_results_simp
theorem s2_keep_main_arg13 : StableHlo.after (hostOps2 (F := Ideal)) W (Proc.devRef .tc main_arg13) = W (Proc.devRef .tc main_arg13) := by
  after_results_simp
theorem s2_keep_main_arg14 : StableHlo.after (hostOps2 (F := Ideal)) W (Proc.devRef .tc main_arg14) = W (Proc.devRef .tc main_arg14) := by
  after_results_simp

end Cert.KGlue

end
-- ==== Proof.KGlue3.lean ====
/-
  THE HOST OPERATIONS BEFORE LAYER 2: the sums of the current table's rows over the sorted edges, and the layer's slab of
  each half of the stacked weights and its bias row; everything else is left as it was.
-/
import proofs.«141839_j76785425318033_2_alg».proof.Proof.Gen.KernelIdeal.Frame
import proofs.«141839_j76785425318033_2_alg».proof.Proof.Spec
import proofs.«141839_j76785425318033_2_alg».proof.Proof.KWeights
import Idealize.ShloMosaic.PureOps.Ideal
import proofs.«141839_j76785425318033_2_alg».proof.Proof.KGlue1

set_option maxRecDepth 16384

noncomputable section

namespace Cert.KGlue

open Idealize.ShloMosaic Idealize.ShloMosaic.TcCoe Idealize.ShloMosaic.StableHlo Idealize.ShloMosaic.ValueIdx Idealize.SL.Sem
open Cert.KernelIdeal Cert.KernelIdeal.Gen Cert.Rows Cert.Net

variable (W : Valuation τ sig (Elt Ideal))

theorem s3_msum : StableHlo.after (hostOps3 (F := Ideal)) W (Proc.devRef .tc main_v70) = msumOf (W (Proc.devRef .tc main_v60)) (W (Proc.devRef .tc main_v16)) (W (Proc.devRef .tc main_v9)) := by
  after_results_simp; rfl
theorem s3_wh : (StableHlo.after (hostOps3 (F := Ideal)) W (Proc.devRef .tc main_v72) : Tbl 128 128)
    = shapeCast S128x128 (extractStridedSlice S1x128x128 ![2, 0, 0] (W (Proc.devRef .tc main_v23)) slices_S4x128x128_S1x128x128_2_0_0) shapeCasts_S1x128x128_S128x128 := by
  after_results_simp; rfl
theorem s3_wc : (StableHlo.after (hostOps3 (F := Ideal)) W (Proc.devRef .tc main_v74) : Tbl 128 128)
    = shapeCast S128x128 (extractStridedSlice S1x128x128 ![2, 0, 0] (W (Proc.devRef .tc main_v24)) slices_S4x128x128_S1x128x128_2_0_0) shapeCasts_S1x128x128_S128x128 := by
  after_results_simp; rfl
theorem s3_b : rowAt (StableHlo.after (hostOps3 (F := Ideal)) W (Proc.devRef .tc main_v77) : Tbl 1 128) 0 = rowAt (W (Proc.devRef .tc main_arg8) : Tbl 4 128) 2 := by
  refine Eq.trans (congrArg (fun X : Tbl 1 128 => rowAt X 0) (by after_results_simp; rfl))
    (KWeights.bias_row (W (Proc.devRef .tc main_arg8)) 2 ![2, 0] slices_S4x128_S1x128_2_0 rfl rfl shapeCasts_S1x128_S128 shapeCasts_S128_S1x128)
theorem s3_keep_main_v9 : StableHlo.after (hostOps3 (F := Ideal)) W (Proc.devRef .tc main_v9) = W (Proc.devRef .tc main_v9) := by
  after_results_simp
theorem s3_keep_main_v16 : StableHlo.after (hostOps3 (F := Ideal)) W (Proc.devRef .tc main_v16) = W (Proc.devRef .tc main_v16) := by
  after_results_simp
theorem s3_keep_main_v22 : StableHlo.after (hostOps3 (F := Ideal)) W (Proc.devRef .tc main_v22) = W (Proc.devRef .tc main_v22) := by
  after_results_simp
theorem s3_keep_main_v23 : StableHlo.after (hostOps3 (F := Ideal)) W (Proc.devRef .tc main_v23) = W (Proc.devRef .tc main_v23) := by
  after_results_simp
theorem s3_keep_main_v24 : StableHlo.after (hostOps3 (F := Ideal)) W (Proc.devRef .tc main_v24) = W (Proc.devRef .tc main_v24) := by
  after_results_simp
theorem s3_keep_main_v60 : StableHlo.after (hostOps3 (F := Ideal)) W (Proc.devRef .tc main_v60) = W (Proc.devRef .tc main_v60) := by
  after_results_simp
theorem s3_keep_main_arg1 : StableHlo.after (hostOps3 (F := Ideal)) W (Proc.devRef .tc main_arg1) = W (Proc.devRef .tc main_arg1) := by
  after_results_simp
theorem s3_keep_main_arg2 : StableHlo.after (hostOps3 (F := Ideal)) W (Proc.devRef .tc main_arg2) = W (Proc.devRef .tc main_arg2) := by
  after_results_simp
theorem s3_keep_main_arg7 : StableHlo.after (hostOps3 (F := Ideal)) W (Proc.devRef .tc main_arg7) = W (Proc.devRef .tc main_arg7) := by
  after_results_simp
theorem s3_keep_main_arg8 : StableHlo.after (hostOps3 (F := Ideal)) W (Proc.devRef .tc main_arg8) = W (Proc.devRef .tc main_arg8) := by
  after_results_simp
theorem s3_keep_main_arg9 : StableHlo.after (hostOps3 (F := Ideal)) W (Proc.devRef .tc main_arg9) = W (Proc.devRef .tc main_arg9) := by
  after_results_simp
theorem s3_keep_main_arg10 : StableHlo.after (hostOps3 (F := Ideal)) W (Proc.devRef .tc main_arg10) = W (Proc.devRef .tc main_arg10) := by
  after_results_simp
theorem s3_keep_main_arg11 : StableHlo.after (hostOps3 (F := Ideal)) W (Proc.devRef .tc main_arg11) = W (Proc.devRef .tc main_arg11) := by
  after_results_simp
theorem s3_keep_main_arg12 : StableHlo.after (hostOps3 (F := Ideal)) W (Proc.devRef .tc main_arg12) = W (Proc.devRef .tc main_arg12) := by
  after_results_simp
theorem s3_keep_main_arg13 : StableHlo.after (hostOps3 (F := Ideal)) W (Proc.devRef .tc main_arg13) = W (Proc.devRef .tc main_arg13) := by
  after_results_simp
theorem s3_keep_main_arg14 : StableHlo.after (hostOps3 (F := Ideal)) W (Proc.devRef .tc main_arg14) = W (Proc.devRef .tc main_arg14) := by
  after_results_simp

end Cert.KGlue

end
-- ==== Proof.KGlue4.lean ====
/-
  THE HOST OPERATIONS BEFORE LAYER 3: the sums of the current table's rows over the sorted edges, and the layer's slab of
  each half of the stacked weights and its bias row; everything else is left as it was.
-/
import proofs.«141839_j76785425318033_2_alg».proof.Proof.Gen.KernelIdeal.Frame
import proofs.«141839_j76785425318033_2_alg».proof.Proof.Spec
import proofs.«141839_j76785425318033_2_alg».proof.Proof.KWeights
import Idealize.ShloMosaic.PureOps.Ideal
import proofs.«141839_j76785425318033_2_alg».proof.Proof.KGlue1

set_option maxRecDepth 16384

noncomputable section

namespace Cert.KGlue

open Idealize.ShloMosaic Idealize.ShloMosaic.TcCoe Idealize.ShloMosaic.StableHlo Idealize.ShloMosaic.ValueIdx Idealize.SL.Sem
open Cert.KernelIdeal Cert.KernelIdeal.Gen Cert.Rows Cert.Net

variable (W : Valuation τ sig (Elt Ideal))

theorem s4_msum : StableHlo.after (hostOps4 (F := Ideal)) W (Proc.devRef .tc main_v88) = msumOf (W (Proc.devRef .tc main_v78)) (W (Proc.devRef .tc main_v16)) (W (Proc.devRef .tc main_v9)) := by
  after_results_simp; rfl
theorem s4_wh : (StableHlo.after (hostOps4 (F := Ideal)) W (Proc.devRef .tc main_v90) : Tbl 128 128)
    = shapeCast S128x128 (extractStridedSlice S1x128x128 ![3, 0, 0] (W (Proc.devRef .tc main_v23)) slices_S4x128x128_S1x128x128_3_0_0) shapeCasts_S1x128x128_S128x128 := by
  after_results_simp; rfl
theorem s4_wc : (StableHlo.after (hostOps4 (F := Ideal)) W (Proc.devRef .tc main_v92) : Tbl 128 128)
    = shapeCast S128x128 (extractStridedSlice S1x128x128 ![3, 0, 0] (W (Proc.devRef .tc main_v24)) slices_S4x128x128_S1x128x128_3_0_0) shapeCasts_S1x128x128_S128x128 := by
  after_results_simp; rfl
theorem s4_b : rowAt (StableHlo.after (hostOps4 (F := Ideal)) W (Proc.devRef .tc main_v95) : Tbl 1 128) 0 = rowAt (W (Proc.devRef .tc main_arg8) : Tbl 4 128) 3 := by
  refine Eq.trans (congrArg (fun X : Tbl 1 128 => rowAt X 0) (by after_results_simp; rfl))
    (KWeights.bias_row (W (Proc.devRef .tc main_arg8)) 3 ![3, 0] slices_S4x128_S1x128_3_0 rfl rfl shapeCasts_S1x128_S128 shapeCasts_S128_S1x128)
theorem s4_keep_main_v9 : StableHlo.after (hostOps4 (F := Ideal)) W (Proc.devRef .tc main_v9) = W (Proc.devRef .tc main_v9) := by
  after_results_simp
theorem s4_keep_main_v16 : StableHlo.after (hostOps4 (F := Ideal)) W (Proc.devRef .tc main_v16) = W (Proc.devRef .tc main_v16) := by
  after_results_simp
theorem s4_keep_main_v22 : StableHlo.after (hostOps4 (F := Ideal)) W (Proc.devRef .tc main_v22) = W (Proc.devRef .tc main_v22) := by
  after_results_simp
theorem s4_keep_main_v23 : StableHlo.after (hostOps4 (F := Ideal)) W (Proc.devRef .tc main_v23) = W (Proc.devRef .tc main_v23) := by
  after_results_simp
theorem s4_keep_main_v24 : StableHlo.after (hostOps4 (F := Ideal)) W (Proc.devRef .tc main_v24) = W (Proc.devRef .tc main_v24) := by
  after_results_simp
theorem s4_keep_main_v78 : StableHlo.after (hostOps4 (F := Ideal)) W (Proc.devRef .tc main_v78) = W (Proc.devRef .tc main_v78) := by
  after_results_simp
theorem s4_keep_main_arg1 : StableHlo.after (hostOps4 (F := Ideal)) W (Proc.devRef .tc main_arg1) = W (Proc.devRef .tc main_arg1) := by
  after_results_simp
theorem s4_keep_main_arg2 : StableHlo.after (hostOps4 (F := Ideal)) W (Proc.devRef .tc main_arg2) = W (Proc.devRef .tc main_arg2) := by
  after_results_simp
theorem s4_keep_main_arg7 : StableHlo.after (hostOps4 (F := Ideal)) W (Proc.devRef .tc main_arg7) = W (Proc.devRef .tc main_arg7) := by
  after_results_simp
theorem s4_keep_main_arg8 : StableHlo.after (hostOps4 (F := Ideal)) W (Proc.devRef .tc main_arg8) = W (Proc.devRef .tc main_arg8) := by
  after_results_simp
theorem s4_keep_main_arg9 : StableHlo.after (hostOps4 (F := Ideal)) W (Proc.devRef .tc main_arg9) = W (Proc.devRef .tc main_arg9) := by
  after_results_simp
theorem s4_keep_main_arg10 : StableHlo.after (hostOps4 (F := Ideal)) W (Proc.devRef .tc main_arg10) = W (Proc.devRef .tc main_arg10) := by
  after_results_simp
theorem s4_keep_main_arg11 : StableHlo.after (hostOps4 (F := Ideal)) W (Proc.devRef .tc main_arg11) = W (Proc.devRef .tc main_arg11) := by
  after_results_simp
theorem s4_keep_main_arg12 : StableHlo.after (hostOps4 (F := Ideal)) W (Proc.devRef .tc main_arg12) = W (Proc.devRef .tc main_arg12) := by
  after_results_simp
theorem s4_keep_main_arg13 : StableHlo.after (hostOps4 (F := Ideal)) W (Proc.devRef .tc main_arg13) = W (Proc.devRef .tc main_arg13) := by
  after_results_simp
theorem s4_keep_main_arg14 : StableHlo.after (hostOps4 (F := Ideal)) W (Proc.devRef .tc main_arg14) = W (Proc.devRef .tc main_arg14) := by
  after_results_simp

end Cert.KGlue

end
-- ==== Proof.KEmbed.lean ====
/-
  THE EMBEDDING REGION'S VALUE, AS A WHOLE TABLE.

  The region walks the 50000 feature rows in 25 blocks of 2000. At each block it multiplies the block by the weight
  matrix, adds the bias row to every row of the product, and writes the block of the result back. Row by row this is
  the node embedding `embedRow`; block `t` of the features is rows `2000 t … 2000 t + 1999`, the weights and the
  bias are read whole at every block, and the 25 output blocks tile the output, which therefore ends as `embedT` of
  the region's three inputs as the region finds them.
-/
import proofs.«141839_j76785425318033_2_alg».proof.Proof.Gen.KernelIdeal.Frame
import proofs.«141839_j76785425318033_2_alg».proof.Proof.Spec

noncomputable section

open scoped BigOperators

namespace Cert.KVal.Embed

open Idealize.ShloMosaic Idealize.ShloMosaic.ValueIdx Idealize.ShloMosaic.TcCoe Cert.Rows Cert.Net
open Cert.KernelIdeal Cert.KernelIdeal.Gen
open Idealize.ShloMosaic.Pipeline (Dat)

/-! ## The body's result at a row -/

/-- Row `p` of the block the body stores: the embedding of row `p` of the feature block. -/
theorem pay_row (x : Vec Ideal S2000x64 .f32) (W : Vec Ideal S64x128 .f32) (b : Vec Ideal S1x128 .f32) (p : Fin 2000) :
    rowAt (k0_pay1 x W b) p = embedRow (rowAt x p) W (rowAt b 0) := by
  unfold k0_pay1
  rw [rowAt_addf, rowAt_matmul dot_S2000x64_S64x128_S2000x128_1_0_0_1_n_n rfl, rowAt_broadcastRow, shapeCast_self]
  rfl

/-! ## The blocks of the region's arrays -/

-- the region's arrays when it is entered
variable (V : (c : Dev nD) → (b : Ref sig .tc) → Buf (Elt Ideal) ((c : Thread nD τ).loc b))

theorem zeros : (![0, 0] : Fin 2 → Nat) = fun _ => 0 := funext fun a => by fin_cases a <;> rfl

/-- The block indices over the grid: the features and the output move with the point along the rows; the weights
    and the bias stay at their one block. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the feature block at point `t` is row `2000 t + p` of the features. -/
theorem x_block (c : Dev nD) (t : Fin cfg0.N) (p : Fin 2000) (h : t.val * 2000 + p.val < 50000) :
    rowAt (iblk0 V c 0 t : Vec Ideal S2000x64 .f32) p
      = rowAt (V c (Pipeline.arrRef spec0 0) : Tbl 50000 64) ⟨t.val * 2000 + p.val, h⟩ := by
  obtain ⟨e0, e1, -⟩ := block_index t
  funext k
  show (V c (Pipeline.arrRef spec0 0) : Tbl 50000 64) (((cfg0.win 0).blk t).view.emb (ix2 p k))
    = (V c (Pipeline.arrRef spec0 0) : Tbl 50000 64) (ix2 ⟨t.val * 2000 + p.val, h⟩ k)
  refine congrArg _ (funext fun a => Fin.ext ?_)
  match a with
  | ⟨0, _⟩ => show win0_0.index t (0 : Fin 2) * 2000 + 1 * p.val = t.val * 2000 + p.val; omega
  | ⟨1, _⟩ => show win0_0.index t (1 : Fin 2) * 64 + 1 * k.val = k.val; omega

/-- The weight block at every point is the weight matrix. -/
theorem w_block (c : Dev nD) (t : Fin cfg0.N) :
    (iblk0 V c 1 t : Vec Ideal S64x128 .f32) = (V c (Pipeline.arrRef spec0 1) : Tbl 64 128) := by
  obtain ⟨-, -, e2, e3, -⟩ := block_index t
  funext j
  show (V c (Pipeline.arrRef spec0 1) : Tbl 64 128) (((cfg0.win 1).blk t).view.emb j) = (V c (Pipeline.arrRef spec0 1) : Tbl 64 128) j
  refine congrArg _ (funext fun a => Fin.ext ?_)
  match a with
  | ⟨0, _⟩ => show win0_1.index t (0 : Fin 2) * 64 + 1 * (j 0).val = (j 0).val; omega
  | ⟨1, _⟩ => show win0_1.index t (1 : Fin 2) * 128 + 1 * (j 1).val = (j 1).val; omega

/-- The bias block at every point is the bias row. -/
theorem b_block (c : Dev nD) (t : Fin cfg0.N) :
    (iblk0 V c 2 t : Vec Ideal S1x128 .f32) = (V c (Pipeline.arrRef spec0 2) : Tbl 1 128) := by
  obtain ⟨-, -, -, -, e4, e5, -⟩ := block_index t
  funext j
  show (V c (Pipeline.arrRef spec0 2) : Tbl 1 128) (((cfg0.win 2).blk t).view.emb j) = (V c (Pipeline.arrRef spec0 2) : Tbl 1 128) j
  refine congrArg _ (funext fun a => Fin.ext ?_)
  match a with
  | ⟨0, _⟩ => show win0_2.index t (0 : Fin 2) * 1 + 1 * (j 0).val = (j 0).val; omega
  | ⟨1, _⟩ => show win0_2.index t (1 : Fin 2) * 128 + 1 * (j 1).val = (j 1).val; omega

/-! ## What a point writes back -/

/-- The table of embeddings of the region's inputs. -/
abbrev result (c : Dev nD) : Tbl 50000 128 :=
  embedT (V c (Pipeline.arrRef spec0 0)) (V c (Pipeline.arrRef spec0 1)) (rowAt (V c (Pipeline.arrRef spec0 2) : Tbl 1 128) 0)

/-- Point `t` writes back block `t` of the table of embeddings. -/
theorem flushed_eq (c : Dev nD) (t : Fin cfg0.N) :
    (dat0 (F := Ideal) V c).flushed 3 t = ((cfg0.win 3).blk t).view.read (Elt Ideal) (result V c) := by
  have ht : t.val < 25 := lt_of_lt_of_eq t.isLt N_0
  obtain ⟨-, -, -, -, -, -, e6, e7⟩ := block_index t
  show (cfg0.win 3).cut (grid0.coords t) ((dat0 V c).after 3 t) = _
  rw [after0_3]
  unfold out0_3
  rw [View.canon_unit_zero zeros]
  simp only [View.ld_unit_zero (S := S2000x64) zeros, View.ld_unit_zero (S := S64x128) zeros,
    View.ld_unit_zero (S := S1x128) zeros]
  refine (eq_ofRows (n := 2000) (m := 128) _ (fun p => embedRow
      (rowAt (V c (Pipeline.arrRef spec0 0) : Tbl 50000 64) ⟨t.val * 2000 + p.val, by have := p.isLt; omega⟩)
      (V c (Pipeline.arrRef spec0 1)) (rowAt (V c (Pipeline.arrRef spec0 2) : Tbl 1 128) 0)) fun p q => ?_).trans
    (eq_ofRows (n := 2000) (m := 128) _ _ fun p q => ?_).symm
  · show rowAt (k0_pay1 (iblk0 V c 0 t) (iblk0 V c 1 t) (iblk0 V c 2 t)) p q = _
    rw [pay_row, x_block V c t p (by have := p.isLt; omega), w_block V c t, b_block V c t]
  · show result V c (((cfg0.win 3).blk t).view.emb (ix2 p q)) = _
    have hj : ((cfg0.win 3).blk t).view.emb (ix2 p q)
        = (ix2 (⟨t.val * 2000 + p.val, by have := p.isLt; omega⟩ : Fin 50000) q : (⟨2, ![50000, 128]⟩ : Shape).Idx) :=
      funext fun a => Fin.ext (by
        match a with
        | ⟨0, _⟩ => show win0_3.index t (0 : Fin 2) * 2000 + 1 * p.val = t.val * 2000 + p.val; omega
        | ⟨1, _⟩ => show win0_3.index t (1 : Fin 2) * 128 + 1 * q.val = q.val; omega)
    rw [hj]
    rfl

/-! ## The blocks tile the output -/

/-- A row is in point `t`'s block iff it lies in the block's range on each axis. -/
theorem mem_block (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v1).slice (win0_3.rect t)).set ↔ _
  rw [View.set_slice_whole, Rect.mem_set_unit]
  exact Iff.rfl

/-- Row `r` of the output is in the block of point `r / 2000`. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, -, -, e6, e7⟩ := block_index t
  refine ⟨t, flush0_3 t, ?_⟩
  rw [mem_block]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 128 ≤ (i 1).val ∧ (i 1).val < win0_3.index t (1 : Fin 2) * 128 + 128
    omega

/-! ## The output after the region -/

/-- After the region the output is the table of embeddings of the region's inputs. -/
theorem embed_arr (c : Dev nD) : (dat0 (F := Ideal) V c).arrAt 3 cfg0.N
    = embedT (V c (Pipeline.arrRef spec0 0)) (V c (Pipeline.arrRef spec0 1)) (rowAt (V c (Pipeline.arrRef spec0 2) : Tbl 1 128) 0) :=
  (dat0 (F := Ideal) V c).arrAt_eq_of_cover 3 (result V c) (fun t _ => flushed_eq V c t) covered

end Cert.KVal.Embed

end
-- ==== Proof.KSage1.lean ====
/-
  THE FIRST LAYER'S REGION OF THE KERNEL, AS ONE TABLE.

  The region runs over 25 points; point `t` reads rows `2000 t … 2000 t + 1999` of the node table `h`, of the table
  `ms` of summed neighbour rows and of the column `dg` of clamped edge counts, reads the two weight matrices and the
  bias row whole, and writes the same rows of the output. Its body forms the block of affine images
  `h·Wh + (ms / dg)·Wc + b`, divides each row by its Euclidean norm clamped below, takes the maximum with zero and
  adds `h` back. The module reads the body at a row (`pay_row`: a row of the payload is `sageRow` of the rows it is
  made of), reads what a point writes back as the block of the whole-table function `sageT` (`flushed_eq`), and, the
  25 blocks covering the 50000 rows, concludes that the output array ends holding `sageT` of the six arrays the region
  finds (`sage_arr`). The region's entry contents are a parameter throughout.
-/
import proofs.«141839_j76785425318033_2_alg».proof.Proof.Gen.KernelIdeal.Frame
import proofs.«141839_j76785425318033_2_alg».proof.Proof.Spec

noncomputable section

open scoped BigOperators

namespace Cert.KVal.Sage1

open Idealize.ShloMosaic Idealize.ShloMosaic.TcCoe Idealize.ShloMosaic.ValueIdx Cert.Rows Cert.Net
open Idealize.ShloMosaic.Pipeline (Dat)
open Cert.KernelIdeal Cert.KernelIdeal.Gen

/-! ## The body's value at a row -/

section Body
variable (h ms : FVec Ideal S2000x128 .f32) (dg : FVec Ideal S2000x1 .f32) (Wh Wc : FVec Ideal S128x128 .f32)
  (b : FVec Ideal S1x128 .f32)

/-- The block of affine images of `[h, ms / dg]` as the body spells it: the block `h` times `Wh` and the block of means
    `ms / dg` times `Wc`, each a product into the zero accumulator, added, plus the bias row on every row. -/
def bundleBlk : FVec Ideal S2000x128 .f32 :=
  addf (addf
      (matmul dot_S2000x128_S128x128_S2000x128_1_0_0_1_n_n none (truncf .bf16 h bitsLt_bf16_f32)
        (truncf .bf16 Wh bitsLt_bf16_f32) (constant (F := Ideal) S2000x128 .f32 0x00000000#32))
      (matmul dot_S2000x128_S128x128_S2000x128_1_0_0_1_n_n none
        (truncf .bf16 (divf ms (broadcastTo S2000x128 dg broadcasts_S2000x1_S2000x128)) bitsLt_bf16_f32)
        (truncf .bf16 Wc bitsLt_bf16_f32) (constant (F := Ideal) S2000x128 .f32 0x00000000#32)))
    (broadcastTo S2000x128 b broadcasts_S1x128_S2000x128)

/-- Row `p` of that block is the affine image of row `p` of `h` and of the mean `ms / dg` of row `p`. -/
theorem rowAt_bundleBlk (p : Fin 2000) :
    rowAt (bundleBlk h ms dg Wh Wc b) p
      = bundleRow (rowAt h p) (fun k => Ideal.div (rowAt ms p k) (dg (ix2 p (0 : Fin 1)))) Wh Wc (rowAt b 0) := by
  funext q
  show rowAt (matmul dot_S2000x128_S128x128_S2000x128_1_0_0_1_n_n none (truncf .bf16 h bitsLt_bf16_f32)
        (truncf .bf16 Wh bitsLt_bf16_f32) (constant (F := Ideal) S2000x128 .f32 0x00000000#32)) p q
      + rowAt (matmul dot_S2000x128_S128x128_S2000x128_1_0_0_1_n_n none
        (truncf .bf16 (divf ms (broadcastTo S2000x128 dg broadcasts_S2000x1_S2000x128)) bitsLt_bf16_f32)
        (truncf .bf16 Wc bitsLt_bf16_f32) (constant (F := Ideal) S2000x128 .f32 0x00000000#32)) p q
      + rowAt (broadcastTo S2000x128 b broadcasts_S1x128_S2000x128) p q = _
  rw [rowAt_matmul dot_S2000x128_S128x128_S2000x128_1_0_0_1_n_n rfl, rowAt_matmul dot_S2000x128_S128x128_S2000x128_1_0_0_1_n_n rfl,
    rowAt_broadcastRow]
  show mv (rowAt h p) Wh q
      + mv (fun k => Ideal.div (ms (ix2 p k)) (broadcastTo S2000x128 dg broadcasts_S2000x1_S2000x128 (ix2 p k))) Wc q
      + rowAt b 0 q = _
  simp only [broadcastTo_a1_ab_apply (by decide : (128 : Nat) ≠ 1) dg broadcasts_S2000x1_S2000x128 p]
  rfl

end Body

/-- The payload is the block `h` plus the positive part of the block of affine images divided, row by row, by the
    clamped norm of the row: the casts of a block to its own shape are the identity. -/
theorem pay_eq (h ms : FVec Ideal S2000x128 .f32) (dg : FVec Ideal S2000x1 .f32) (Wh Wc : FVec Ideal S128x128 .f32)
    (b : FVec Ideal S1x128 .f32) :
    k1_pay1 (F := Ideal) h ms dg Wh Wc b
      = addf h (maximumf
          (divf (bundleBlk h ms dg Wh Wc b)
            (broadcastTo S2000x128
              (maximumf
                (sqrt (shapeCast S2000x1
                  (multiReduction .add [1] S2000 (mulf (bundleBlk h ms dg Wh Wc b) (bundleBlk h ms dg Wh Wc b))
                    0x00000000#32 reduces_S2000x128_S2000 (.inl rfl) rfl) shapeCasts_S2000_S2000x1))
                (broadcast S2000x1 (Scalar.ofBits .f32 0x2B8CBCCC#32)))
              broadcasts_S2000x1_S2000x128))
          (broadcast S2000x128 (Scalar.ofBits .f32 0x00000000#32))) := by
  unfold k1_pay1
  simp only [shapeCast_self]
  rfl

/-- ROW `p` OF THE PAYLOAD is the layer's row function of row `p` of `h`, row `p` of `ms` and entry `p` of `dg`. -/
theorem pay_row (h ms : FVec Ideal S2000x128 .f32) (dg : FVec Ideal S2000x1 .f32) (Wh Wc : FVec Ideal S128x128 .f32)
    (b : FVec Ideal S1x128 .f32) (p : Fin 2000) :
    rowAt (k1_pay1 (F := Ideal) h ms dg Wh Wc b) p
      = sageRow (rowAt h p) (rowAt ms p) (dg (ix2 p (0 : Fin 1))) Wh Wc (rowAt b 0) := by
  rw [pay_eq]
  funext q
  show h (ix2 p q) + max (Ideal.div (bundleBlk h ms dg Wh Wc b (ix2 p q))
      (broadcastTo S2000x128
        (maximumf
          (sqrt (shapeCast S2000x1
            (multiReduction .add [1] S2000 (mulf (bundleBlk h ms dg Wh Wc b) (bundleBlk h ms dg Wh Wc b))
              0x00000000#32 reduces_S2000x128_S2000 (.inl rfl) rfl) shapeCasts_S2000_S2000x1))
          (broadcast S2000x1 (Scalar.ofBits .f32 0x2B8CBCCC#32)))
        broadcasts_S2000x1_S2000x128 (ix2 p q))) (Ideal.ofBits .f32 0x00000000#32) = _
  rw [broadcastTo_a1_ab_apply (by decide : (128 : Nat) ≠ 1), Ideal.ofBits_zero_f32]
  show h (ix2 p q) + max (Ideal.div (bundleBlk h ms dg Wh Wc b (ix2 p q))
      (max (Ideal.sqrt (shapeCast S2000x1
            (multiReduction .add [1] S2000 (mulf (bundleBlk h ms dg Wh Wc b) (bundleBlk h ms dg Wh Wc b))
              0x00000000#32 reduces_S2000x128_S2000 (.inl rfl) rfl) shapeCasts_S2000_S2000x1 (ix2 p (0 : Fin 1)))) tiny)) 0 = _
  rw [shapeCast_a_a1_apply, laneSum_apply]
  show rowAt h p q + max (Ideal.div (rowAt (bundleBlk h ms dg Wh Wc b) p q)
      (max (Ideal.sqrt (∑ k : Fin 128, rowAt (bundleBlk h ms dg Wh Wc b) p k * rowAt (bundleBlk h ms dg Wh Wc b) p k)) tiny)) 0 = _
  rw [rowAt_bundleBlk]
  rfl

/-- The payload of blocks whose rows are rows of six tables, at row `p` of the block sitting at row `r` of the
    tables, is the layer's table of those tables at row `r`. -/
theorem pay_at (A0 A1 : Tbl 50000 128) (A2 : Tbl 50000 1) (A3 A4 : Tbl 128 128) (A5 : Tbl 1 128)
    (x0 x1 : FVec Ideal S2000x128 .f32) (x2 : FVec Ideal S2000x1 .f32) (x3 x4 : FVec Ideal S128x128 .f32)
    (x5 : FVec Ideal S1x128 .f32) (p : Fin 2000) (q : Fin 128) (r : Fin 50000)
    (h0 : rowAt x0 p = rowAt A0 r) (h1 : rowAt x1 p = rowAt A1 r)
    (h2 : x2 (ix2 p (0 : Fin 1)) = A2 (ix2 r (0 : Fin 1))) (h3 : x3 = A3) (h4 : x4 = A4) (h5 : x5 = A5) :
    k1_pay1 (F := Ideal) x0 x1 x2 x3 x4 x5 (ix2 p q) = sageT A0 A1 A2 A3 A4 (rowAt A5 0) (ix2 r q) := by
  subst h3 h4 h5
  refine (congrFun (pay_row x0 x1 x2 x3 x4 x5 p) q).trans ?_
  rw [h0, h1, h2]
  rfl

/-! ## What a point writes back -/

section Region
variable (V : (c : Dev nD) → (b : Ref sig .tc) → Buf (Elt Ideal) ((c : Thread nD τ).loc b))

theorem zero_off : (![0, 0] : Fin 2 → Nat) = fun _ => 0 := funext fun a => by fin_cases a <;> rfl

/-- The index maps over the 25 points: the three row-blocked inputs move with the output, whose block index is
    the point; the weights and the bias stay at block zero. -/
theorem idx_facts : ∀ t : Fin cfg1.N,
    win1_6.index t (0 : Fin 2) = t.val ∧ win1_6.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Row `p` of the block of `h` at point `t` is row `2000 t + p` of `h`. -/
theorem blk_h_row (c : Dev nD) (t : Fin cfg1.N) (p : Fin 2000) (r : Fin 50000) (hr : r.val = t.val * 2000 + p.val) :
    rowAt (iblk1 (F := Ideal) V c 0 t : FVec Ideal S2000x128 .f32) p
      = rowAt (V c (Pipeline.arrRef spec1 0) : FVec Ideal S50000x128 .f32) r := by
  obtain ⟨-, -, e0, e1, -⟩ := idx_facts t
  funext k
  show (V c (Pipeline.arrRef spec1 0) : FVec Ideal S50000x128 .f32) (((cfg1.win 0).blk t).view.emb (ix2 p k))
    = (V c (Pipeline.arrRef spec1 0) : FVec Ideal S50000x128 .f32) (ix2 r k)
  refine congrArg _ (funext fun a => Fin.ext ?_)
  match a with
  | ⟨0, _⟩ => show win1_0.index t (0 : Fin 2) * 2000 + 1 * p.val = r.val; omega
  | ⟨1, _⟩ => show win1_0.index t (1 : Fin 2) * 128 + 1 * k.val = k.val; omega

/-- Row `p` of the block of `ms` at point `t` is row `2000 t + p` of `ms`. -/
theorem blk_ms_row (c : Dev nD) (t : Fin cfg1.N) (p : Fin 2000) (r : Fin 50000) (hr : r.val = t.val * 2000 + p.val) :
    rowAt (iblk1 (F := Ideal) V c 1 t : FVec Ideal S2000x128 .f32) p
      = rowAt (V c (Pipeline.arrRef spec1 1) : FVec Ideal S50000x128 .f32) r := by
  obtain ⟨-, -, -, -, e0, e1, -⟩ := idx_facts t
  funext k
  show (V c (Pipeline.arrRef spec1 1) : FVec Ideal S50000x128 .f32) (((cfg1.win 1).blk t).view.emb (ix2 p k))
    = (V c (Pipeline.arrRef spec1 1) : FVec Ideal S50000x128 .f32) (ix2 r k)
  refine congrArg _ (funext fun a => Fin.ext ?_)
  match a with
  | ⟨0, _⟩ => show win1_1.index t (0 : Fin 2) * 2000 + 1 * p.val = r.val; omega
  | ⟨1, _⟩ => show win1_1.index t (1 : Fin 2) * 128 + 1 * k.val = k.val; omega

/-- Entry `p` of the block of `dg` at point `t` is entry `2000 t + p` of `dg`. -/
theorem blk_dg_apply (c : Dev nD) (t : Fin cfg1.N) (p : Fin 2000) (r : Fin 50000) (hr : r.val = t.val * 2000 + p.val) :
    (iblk1 (F := Ideal) V c 2 t : FVec Ideal S2000x1 .f32) (ix2 p (0 : Fin 1))
      = (V c (Pipeline.arrRef spec1 2) : FVec Ideal S50000x1 .f32) (ix2 r (0 : Fin 1)) := by
  obtain ⟨-, -, -, -, -, -, e0, e1, -⟩ := idx_facts t
  show (V c (Pipeline.arrRef spec1 2) : FVec Ideal S50000x1 .f32) (((cfg1.win 2).blk t).view.emb (ix2 p (0 : Fin 1)))
    = (V c (Pipeline.arrRef spec1 2) : FVec Ideal S50000x1 .f32) (ix2 r (0 : Fin 1))
  refine congrArg _ (funext fun a => Fin.ext ?_)
  match a with
  | ⟨0, _⟩ => show win1_2.index t (0 : Fin 2) * 2000 + 1 * p.val = r.val; omega
  | ⟨1, _⟩ => show win1_2.index t (1 : Fin 2) * 1 + 1 * 0 = 0; omega

/-- The block of `Wh` at every point is `Wh`. -/
theorem blk_Wh (c : Dev nD) (t : Fin cfg1.N) :
    (iblk1 (F := Ideal) V c 3 t : FVec Ideal S128x128 .f32) = (V c (Pipeline.arrRef spec1 3) : FVec Ideal S128x128 .f32) := by
  obtain ⟨-, -, -, -, -, -, -, -, e0, e1, -⟩ := idx_facts t
  funext x
  show (V c (Pipeline.arrRef spec1 3) : FVec Ideal S128x128 .f32) (((cfg1.win 3).blk t).view.emb x)
    = (V c (Pipeline.arrRef spec1 3) : FVec Ideal S128x128 .f32) x
  refine congrArg _ (funext fun a => Fin.ext ?_)
  match a with
  | ⟨0, _⟩ => show win1_3.index t (0 : Fin 2) * 128 + 1 * (x 0).val = (x 0).val; omega
  | ⟨1, _⟩ => show win1_3.index t (1 : Fin 2) * 128 + 1 * (x 1).val = (x 1).val; omega

/-- The block of `Wc` at every point is `Wc`. -/
theorem blk_Wc (c : Dev nD) (t : Fin cfg1.N) :
    (iblk1 (F := Ideal) V c 4 t : FVec Ideal S128x128 .f32) = (V c (Pipeline.arrRef spec1 4) : FVec Ideal S128x128 .f32) := by
  obtain ⟨-, -, -, -, -, -, -, -, -, -, e0, e1, -⟩ := idx_facts t
  funext x
  show (V c (Pipeline.arrRef spec1 4) : FVec Ideal S128x128 .f32) (((cfg1.win 4).blk t).view.emb x)
    = (V c (Pipeline.arrRef spec1 4) : FVec Ideal S128x128 .f32) x
  refine congrArg _ (funext fun a => Fin.ext ?_)
  match a with
  | ⟨0, _⟩ => show win1_4.index t (0 : Fin 2) * 128 + 1 * (x 0).val = (x 0).val; omega
  | ⟨1, _⟩ => show win1_4.index t (1 : Fin 2) * 128 + 1 * (x 1).val = (x 1).val; omega

/-- The block of the bias row at every point is the bias row. -/
theorem blk_b (c : Dev nD) (t : Fin cfg1.N) :
    (iblk1 (F := Ideal) V c 5 t : FVec Ideal S1x128 .f32) = (V c (Pipeline.arrRef spec1 5) : FVec Ideal S1x128 .f32) := by
  obtain ⟨-, -, -, -, -, -, -, -, -, -, -, -, e0, e1⟩ := idx_facts t
  funext x
  show (V c (Pipeline.arrRef spec1 5) : FVec Ideal S1x128 .f32) (((cfg1.win 5).blk t).view.emb x)
    = (V c (Pipeline.arrRef spec1 5) : FVec Ideal S1x128 .f32) x
  refine congrArg _ (funext fun a => Fin.ext ?_)
  match a with
  | ⟨0, _⟩ => show win1_5.index t (0 : Fin 2) * 1 + 1 * (x 0).val = (x 0).val; omega
  | ⟨1, _⟩ => show win1_5.index t (1 : Fin 2) * 128 + 1 * (x 1).val = (x 1).val; omega

/-- The payload of the six blocks of point `t`, at row `p` of the block, is the layer's table of the six arrays at
    row `2000 t + p`. -/
theorem pay_blk (c : Dev nD) (t : Fin cfg1.N) (p : Fin 2000) (q : Fin 128) (r : Fin 50000)
    (hr : r.val = t.val * 2000 + p.val) :
    k1_pay1 (F := Ideal) (iblk1 V c 0 t) (iblk1 V c 1 t) (iblk1 V c 2 t) (iblk1 V c 3 t) (iblk1 V c 4 t) (iblk1 V c 5 t)
        (ix2 p q)
      = sageT (V c (Pipeline.arrRef spec1 0)) (V c (Pipeline.arrRef spec1 1)) (V c (Pipeline.arrRef spec1 2))
        (V c (Pipeline.arrRef spec1 3)) (V c (Pipeline.arrRef spec1 4)) (rowAt (V c (Pipeline.arrRef spec1 5)) 0)
        (ix2 r q) :=
  pay_at _ _ _ _ _ _ _ _ _ _ _ _ p q r (blk_h_row V c t p r hr) (blk_ms_row V c t p r hr) (blk_dg_apply V c t p r hr)
    (blk_Wh V c t) (blk_Wc V c t) (blk_b V c t)

/-- What point `t` writes back is the payload of the six blocks of point `t`: the body's one store fills the whole
    staging buffer, and each load reads a whole block. -/
theorem stored_eq (c : Dev nD) (t : Fin cfg1.N) :
    (dat1 (F := Ideal) V c).flushed 6 t = (cfg1.win 6).cut (grid1.coords t)
      (k1_pay1 (F := Ideal) (iblk1 V c 0 t) (iblk1 V c 1 t) (iblk1 V c 2 t) (iblk1 V c 3 t) (iblk1 V c 4 t) (iblk1 V c 5 t)) := by
  show (cfg1.win 6).cut (grid1.coords t) ((dat1 V c).after 6 t) = _
  rw [after1_6]
  unfold out1_6
  rw [View.canon_unit_zero zero_off]
  simp only [View.ld_unit_zero (S := S2000x128) zero_off, View.ld_unit_zero (S := S2000x1) zero_off,
    View.ld_unit_zero (S := S128x128) zero_off, View.ld_unit_zero (S := S1x128) zero_off]

/-- Element `(p, q)` of the output's block at point `t` sits at `(2000 t + p, q)` of the array. -/
theorem emb_out (t : Fin cfg1.N) (j : ((cfg1.win 6).xblock (grid1.coords t)).Idx)
    (hr : t.val * 2000 + (j 0).val < 50000) :
    (((cfg1.win 6).blk t).view.emb j : S50000x128.Idx)
      = ix2 (⟨t.val * 2000 + (j 0).val, hr⟩ : Fin 50000) (⟨(j 1).val, (j 1).isLt⟩ : Fin 128) := by
  obtain ⟨e0, e1, -⟩ := idx_facts t
  refine funext fun a => Fin.ext ?_
  match a with
  | ⟨0, _⟩ => show win1_6.index t (0 : Fin 2) * 2000 + 1 * (j 0).val = t.val * 2000 + (j 0).val; omega
  | ⟨1, _⟩ => show win1_6.index t (1 : Fin 2) * 128 + 1 * (j 1).val = (j 1).val; omega

/-- WHAT POINT `t` WRITES BACK is block `t` of the layer's table of the six arrays the region finds. -/
theorem flushed_eq (c : Dev nD) (t : Fin cfg1.N) :
    (dat1 (F := Ideal) V c).flushed 6 t = ((cfg1.win 6).blk t).view.read (Elt Ideal)
      (sageT (V c (Pipeline.arrRef spec1 0)) (V c (Pipeline.arrRef spec1 1)) (V c (Pipeline.arrRef spec1 2))
        (V c (Pipeline.arrRef spec1 3)) (V c (Pipeline.arrRef spec1 4)) (rowAt (V c (Pipeline.arrRef spec1 5)) 0)) := by
  refine (stored_eq V c t).trans (funext fun j => ?_)
  have hN : t.val < 25 := lt_of_lt_of_eq t.isLt N_1
  have hp : (j 0).val < 2000 := (j 0).isLt
  have hr : t.val * 2000 + (j 0).val < 50000 := by omega
  exact ((congrArg (k1_pay1 (F := Ideal) _ _ _ _ _ _)
      (eq_ix2 ((cfg1.win 6).xinj (grid1.coords t) j : S2000x128.Idx))).trans
    (pay_blk V c t _ _ ⟨t.val * 2000 + (j 0).val, hr⟩ rfl)).trans
    (congrArg (sageT _ _ _ _ _ _) (emb_out t j hr).symm)

/-! ## The 25 blocks cover the 50000 rows -/

/-- An index of the output array is in point `t`'s block iff each coordinate is in the block's range on its axis. -/
theorem mem_blk (t : Fin cfg1.N) (i : S50000x128.Idx) :
    i ∈ ((cfg1.win 6).blk t).view.set ↔ ∀ a : Fin 2, win1_6.index t a * S2000x128.size a ≤ (i a).val
      ∧ (i a).val < win1_6.index t a * S2000x128.size a + S2000x128.size a := by
  show i ∈ ((View.whole main_v42).slice (win1_6.rect t)).set ↔ _
  rw [View.set_slice_whole, Rect.mem_set_unit]
  exact Iff.rfl

/-- Row `r` of the output is in the block of point `r / 2000`. -/
theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ : ∃ t : Fin cfg1.N, t.val = (i 0).val / 2000 :=
    ⟨⟨(i 0).val / 2000, lt_of_lt_of_eq (show (i 0).val / 2000 < 25 by omega) N_1.symm⟩, rfl⟩
  obtain ⟨e0, e1, -⟩ := idx_facts t
  refine ⟨t, flush1_6 t, ?_⟩
  rw [mem_blk]
  intro a
  match a with
  | ⟨0, _⟩ =>
    show win1_6.index t (0 : Fin 2) * 2000 ≤ (i 0).val ∧ (i 0).val < win1_6.index t (0 : Fin 2) * 2000 + 2000
    omega
  | ⟨1, _⟩ =>
    show win1_6.index t (1 : Fin 2) * 128 ≤ (i 1).val ∧ (i 1).val < win1_6.index t (1 : Fin 2) * 128 + 128
    omega

/-! ## The region's output array -/

/-- THE OUTPUT ARRAY AFTER THE REGION is the layer's table of the six arrays the region finds: node table, summed
    neighbour rows, clamped edge counts, the two weight matrices and the bias row. -/
theorem sage_arr (c : Dev nD) :
    (dat1 (F := Ideal) V c).arrAt 6 cfg1.N
      = sageT (V c (Pipeline.arrRef spec1 0)) (V c (Pipeline.arrRef spec1 1)) (V c (Pipeline.arrRef spec1 2))
        (V c (Pipeline.arrRef spec1 3)) (V c (Pipeline.arrRef spec1 4)) (rowAt (V c (Pipeline.arrRef spec1 5)) 0) :=
  (dat1 (F := Ideal) V c).arrAt_eq_of_cover 6 _ (fun t _ => flushed_eq V c t) cover

end Region

end Cert.KVal.Sage1

end
-- ==== Proof.KSage2.lean ====
/-
  THE SECOND LAYER'S REGION OF THE KERNEL, AS ONE TABLE.

  The region runs over 25 points; point `t` reads rows `2000 t … 2000 t + 1999` of the node table `h`, of the table
  `ms` of summed neighbour rows and of the column `dg` of clamped edge counts, reads the two weight matrices and the
  bias row whole, and writes the same rows of the output. Its body forms the block of affine images
  `h·Wh + (ms / dg)·Wc + b`, divides each row by its Euclidean norm clamped below, takes the maximum with zero and
  adds `h` back. The module reads the body at a row (`pay_row`: a row of the payload is `sageRow` of the rows it is
  made of), reads what a point writes back as the block of the whole-table function `sageT` (`flushed_eq`), and, the
  25 blocks covering the 50000 rows, concludes that the output array ends holding `sageT` of the six arrays the region
  finds (`sage_arr`). The region's entry contents are a parameter throughout.
-/
import proofs.«141839_j76785425318033_2_alg».proof.Proof.Gen.KernelIdeal.Frame
import proofs.«141839_j76785425318033_2_alg».proof.Proof.Spec

noncomputable section

open scoped BigOperators

namespace Cert.KVal.Sage2

open Idealize.ShloMosaic Idealize.ShloMosaic.TcCoe Idealize.ShloMosaic.ValueIdx Cert.Rows Cert.Net
open Idealize.ShloMosaic.Pipeline (Dat)
open Cert.KernelIdeal Cert.KernelIdeal.Gen

/-! ## The body's value at a row -/

section Body
variable (h ms : FVec Ideal S2000x128 .f32) (dg : FVec Ideal S2000x1 .f32) (Wh Wc : FVec Ideal S128x128 .f32)
  (b : FVec Ideal S1x128 .f32)

/-- The block of affine images of `[h, ms / dg]` as the body spells it: the block `h` times `Wh` and the block of means
    `ms / dg` times `Wc`, each a product into the zero accumulator, added, plus the bias row on every row. -/
def bundleBlk : FVec Ideal S2000x128 .f32 :=
  addf (addf
      (matmul dot_S2000x128_S128x128_S2000x128_1_0_0_1_n_n none (truncf .bf16 h bitsLt_bf16_f32)
        (truncf .bf16 Wh bitsLt_bf16_f32) (constant (F := Ideal) S2000x128 .f32 0x00000000#32))
      (matmul dot_S2000x128_S128x128_S2000x128_1_0_0_1_n_n none
        (truncf .bf16 (divf ms (broadcastTo S2000x128 dg broadcasts_S2000x1_S2000x128)) bitsLt_bf16_f32)
        (truncf .bf16 Wc bitsLt_bf16_f32) (constant (F := Ideal) S2000x128 .f32 0x00000000#32)))
    (broadcastTo S2000x128 b broadcasts_S1x128_S2000x128)

/-- Row `p` of that block is the affine image of row `p` of `h` and of the mean `ms / dg` of row `p`. -/
theorem rowAt_bundleBlk (p : Fin 2000) :
    rowAt (bundleBlk h ms dg Wh Wc b) p
      = bundleRow (rowAt h p) (fun k => Ideal.div (rowAt ms p k) (dg (ix2 p (0 : Fin 1)))) Wh Wc (rowAt b 0) := by
  funext q
  show rowAt (matmul dot_S2000x128_S128x128_S2000x128_1_0_0_1_n_n none (truncf .bf16 h bitsLt_bf16_f32)
        (truncf .bf16 Wh bitsLt_bf16_f32) (constant (F := Ideal) S2000x128 .f32 0x00000000#32)) p q
      + rowAt (matmul dot_S2000x128_S128x128_S2000x128_1_0_0_1_n_n none
        (truncf .bf16 (divf ms (broadcastTo S2000x128 dg broadcasts_S2000x1_S2000x128)) bitsLt_bf16_f32)
        (truncf .bf16 Wc bitsLt_bf16_f32) (constant (F := Ideal) S2000x128 .f32 0x00000000#32)) p q
      + rowAt (broadcastTo S2000x128 b broadcasts_S1x128_S2000x128) p q = _
  rw [rowAt_matmul dot_S2000x128_S128x128_S2000x128_1_0_0_1_n_n rfl, rowAt_matmul dot_S2000x128_S128x128_S2000x128_1_0_0_1_n_n rfl,
    rowAt_broadcastRow]
  show mv (rowAt h p) Wh q
      + mv (fun k => Ideal.div (ms (ix2 p k)) (broadcastTo S2000x128 dg broadcasts_S2000x1_S2000x128 (ix2 p k))) Wc q
      + rowAt b 0 q = _
  simp only [broadcastTo_a1_ab_apply (by decide : (128 : Nat) ≠ 1) dg broadcasts_S2000x1_S2000x128 p]
  rfl

end Body

/-- The payload is the block `h` plus the positive part of the block of affine images divided, row by row, by the
    clamped norm of the row: the casts of a block to its own shape are the identity. -/
theorem pay_eq (h ms : FVec Ideal S2000x128 .f32) (dg : FVec Ideal S2000x1 .f32) (Wh Wc : FVec Ideal S128x128 .f32)
    (b : FVec Ideal S1x128 .f32) :
    k2_pay1 (F := Ideal) h ms dg Wh Wc b
      = addf h (maximumf
          (divf (bundleBlk h ms dg Wh Wc b)
            (broadcastTo S2000x128
              (maximumf
                (sqrt (shapeCast S2000x1
                  (multiReduction .add [1] S2000 (mulf (bundleBlk h ms dg Wh Wc b) (bundleBlk h ms dg Wh Wc b))
                    0x00000000#32 reduces_S2000x128_S2000 (.inl rfl) rfl) shapeCasts_S2000_S2000x1))
                (broadcast S2000x1 (Scalar.ofBits .f32 0x2B8CBCCC#32)))
              broadcasts_S2000x1_S2000x128))
          (broadcast S2000x128 (Scalar.ofBits .f32 0x00000000#32))) := by
  unfold k2_pay1
  simp only [shapeCast_self]
  rfl

/-- ROW `p` OF THE PAYLOAD is the layer's row function of row `p` of `h`, row `p` of `ms` and entry `p` of `dg`. -/
theorem pay_row (h ms : FVec Ideal S2000x128 .f32) (dg : FVec Ideal S2000x1 .f32) (Wh Wc : FVec Ideal S128x128 .f32)
    (b : FVec Ideal S1x128 .f32) (p : Fin 2000) :
    rowAt (k2_pay1 (F := Ideal) h ms dg Wh Wc b) p
      = sageRow (rowAt h p) (rowAt ms p) (dg (ix2 p (0 : Fin 1))) Wh Wc (rowAt b 0) := by
  rw [pay_eq]
  funext q
  show h (ix2 p q) + max (Ideal.div (bundleBlk h ms dg Wh Wc b (ix2 p q))
      (broadcastTo S2000x128
        (maximumf
          (sqrt (shapeCast S2000x1
            (multiReduction .add [1] S2000 (mulf (bundleBlk h ms dg Wh Wc b) (bundleBlk h ms dg Wh Wc b))
              0x00000000#32 reduces_S2000x128_S2000 (.inl rfl) rfl) shapeCasts_S2000_S2000x1))
          (broadcast S2000x1 (Scalar.ofBits .f32 0x2B8CBCCC#32)))
        broadcasts_S2000x1_S2000x128 (ix2 p q))) (Ideal.ofBits .f32 0x00000000#32) = _
  rw [broadcastTo_a1_ab_apply (by decide : (128 : Nat) ≠ 1), Ideal.ofBits_zero_f32]
  show h (ix2 p q) + max (Ideal.div (bundleBlk h ms dg Wh Wc b (ix2 p q))
      (max (Ideal.sqrt (shapeCast S2000x1
            (multiReduction .add [1] S2000 (mulf (bundleBlk h ms dg Wh Wc b) (bundleBlk h ms dg Wh Wc b))
              0x00000000#32 reduces_S2000x128_S2000 (.inl rfl) rfl) shapeCasts_S2000_S2000x1 (ix2 p (0 : Fin 1)))) tiny)) 0 = _
  rw [shapeCast_a_a1_apply, laneSum_apply]
  show rowAt h p q + max (Ideal.div (rowAt (bundleBlk h ms dg Wh Wc b) p q)
      (max (Ideal.sqrt (∑ k : Fin 128, rowAt (bundleBlk h ms dg Wh Wc b) p k * rowAt (bundleBlk h ms dg Wh Wc b) p k)) tiny)) 0 = _
  rw [rowAt_bundleBlk]
  rfl

/-- The payload of blocks whose rows are rows of six tables, at row `p` of the block sitting at row `r` of the
    tables, is the layer's table of those tables at row `r`. -/
theorem pay_at (A0 A1 : Tbl 50000 128) (A2 : Tbl 50000 1) (A3 A4 : Tbl 128 128) (A5 : Tbl 1 128)
    (x0 x1 : FVec Ideal S2000x128 .f32) (x2 : FVec Ideal S2000x1 .f32) (x3 x4 : FVec Ideal S128x128 .f32)
    (x5 : FVec Ideal S1x128 .f32) (p : Fin 2000) (q : Fin 128) (r : Fin 50000)
    (h0 : rowAt x0 p = rowAt A0 r) (h1 : rowAt x1 p = rowAt A1 r)
    (h2 : x2 (ix2 p (0 : Fin 1)) = A2 (ix2 r (0 : Fin 1))) (h3 : x3 = A3) (h4 : x4 = A4) (h5 : x5 = A5) :
    k2_pay1 (F := Ideal) x0 x1 x2 x3 x4 x5 (ix2 p q) = sageT A0 A1 A2 A3 A4 (rowAt A5 0) (ix2 r q) := by
  subst h3 h4 h5
  refine (congrFun (pay_row x0 x1 x2 x3 x4 x5 p) q).trans ?_
  rw [h0, h1, h2]
  rfl

/-! ## What a point writes back -/

section Region
variable (V : (c : Dev nD) → (b : Ref sig .tc) → Buf (Elt Ideal) ((c : Thread nD τ).loc b))

theorem zero_off : (![0, 0] : Fin 2 → Nat) = fun _ => 0 := funext fun a => by fin_cases a <;> rfl

/-- The index maps over the 25 points: the three row-blocked inputs move with the output, whose block index is
    the point; the weights and the bias stay at block zero. -/
theorem idx_facts : ∀ t : Fin cfg2.N,
    win2_6.index t (0 : Fin 2) = t.val ∧ win2_6.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- Row `p` of the block of `h` at point `t` is row `2000 t + p` of `h`. -/
theorem blk_h_row (c : Dev nD) (t : Fin cfg2.N) (p : Fin 2000) (r : Fin 50000) (hr : r.val = t.val * 2000 + p.val) :
    rowAt (iblk2 (F := Ideal) V c 0 t : FVec Ideal S2000x128 .f32) p
      = rowAt (V c (Pipeline.arrRef spec2 0) : FVec Ideal S50000x128 .f32) r := by
  obtain ⟨-, -, e0, e1, -⟩ := idx_facts t
  funext k
  show (V c (Pipeline.arrRef spec2 0) : FVec Ideal S50000x128 .f32) (((cfg2.win 0).blk t).view.emb (ix2 p k))
    = (V c (Pipeline.arrRef spec2 0) : FVec Ideal S50000x128 .f32) (ix2 r k)
  refine congrArg _ (funext fun a => Fin.ext ?_)
  match a with
  | ⟨0, _⟩ => show win2_0.index t (0 : Fin 2) * 2000 + 1 * p.val = r.val; omega
  | ⟨1, _⟩ => show win2_0.index t (1 : Fin 2) * 128 + 1 * k.val = k.val; omega

/-- Row `p` of the block of `ms` at point `t` is row `2000 t + p` of `ms`. -/
theorem blk_ms_row (c : Dev nD) (t : Fin cfg2.N) (p : Fin 2000) (r : Fin 50000) (hr : r.val = t.val * 2000 + p.val) :
    rowAt (iblk2 (F := Ideal) V c 1 t : FVec Ideal S2000x128 .f32) p
      = rowAt (V c (Pipeline.arrRef spec2 1) : FVec Ideal S50000x128 .f32) r := by
  obtain ⟨-, -, -, -, e0, e1, -⟩ := idx_facts t
  funext k
  show (V c (Pipeline.arrRef spec2 1) : FVec Ideal S50000x128 .f32) (((cfg2.win 1).blk t).view.emb (ix2 p k))
    = (V c (Pipeline.arrRef spec2 1) : FVec Ideal S50000x128 .f32) (ix2 r k)
  refine congrArg _ (funext fun a => Fin.ext ?_)
  match a with
  | ⟨0, _⟩ => show win2_1.index t (0 : Fin 2) * 2000 + 1 * p.val = r.val; omega
  | ⟨1, _⟩ => show win2_1.index t (1 : Fin 2) * 128 + 1 * k.val = k.val; omega

/-- Entry `p` of the block of `dg` at point `t` is entry `2000 t + p` of `dg`. -/
theorem blk_dg_apply (c : Dev nD) (t : Fin cfg2.N) (p : Fin 2000) (r : Fin 50000) (hr : r.val = t.val * 2000 + p.val) :
    (iblk2 (F := Ideal) V c 2 t : FVec Ideal S2000x1 .f32) (ix2 p (0 : Fin 1))
      = (V c (Pipeline.arrRef spec2 2) : FVec Ideal S50000x1 .f32) (ix2 r (0 : Fin 1)) := by
  obtain ⟨-, -, -, -, -, -, e0, e1, -⟩ := idx_facts t
  show (V c (Pipeline.arrRef spec2 2) : FVec Ideal S50000x1 .f32) (((cfg2.win 2).blk t).view.emb (ix2 p (0 : Fin 1)))
    = (V c (Pipeline.arrRef spec2 2) : FVec Ideal S50000x1 .f32) (ix2 r (0 : Fin 1))
  refine congrArg _ (funext fun a => Fin.ext ?_)
  match a with
  | ⟨0, _⟩ => show win2_2.index t (0 : Fin 2) * 2000 + 1 * p.val = r.val; omega
  | ⟨1, _⟩ => show win2_2.index t (1 : Fin 2) * 1 + 1 * 0 = 0; omega

/-- The block of `Wh` at every point is `Wh`. -/
theorem blk_Wh (c : Dev nD) (t : Fin cfg2.N) :
    (iblk2 (F := Ideal) V c 3 t : FVec Ideal S128x128 .f32) = (V c (Pipeline.arrRef spec2 3) : FVec Ideal S128x128 .f32) := by
  obtain ⟨-, -, -, -, -, -, -, -, e0, e1, -⟩ := idx_facts t
  funext x
  show (V c (Pipeline.arrRef spec2 3) : FVec Ideal S128x128 .f32) (((cfg2.win 3).blk t).view.emb x)
    = (V c (Pipeline.arrRef spec2 3) : FVec Ideal S128x128 .f32) x
  refine congrArg _ (funext fun a => Fin.ext ?_)
  match a with
  | ⟨0, _⟩ => show win2_3.index t (0 : Fin 2) * 128 + 1 * (x 0).val = (x 0).val; omega
  | ⟨1, _⟩ => show win2_3.index t (1 : Fin 2) * 128 + 1 * (x 1).val = (x 1).val; omega

/-- The block of `Wc` at every point is `Wc`. -/
theorem blk_Wc (c : Dev nD) (t : Fin cfg2.N) :
    (iblk2 (F := Ideal) V c 4 t : FVec Ideal S128x128 .f32) = (V c (Pipeline.arrRef spec2 4) : FVec Ideal S128x128 .f32) := by
  obtain ⟨-, -, -, -, -, -, -, -, -, -, e0, e1, -⟩ := idx_facts t
  funext x
  show (V c (Pipeline.arrRef spec2 4) : FVec Ideal S128x128 .f32) (((cfg2.win 4).blk t).view.emb x)
    = (V c (Pipeline.arrRef spec2 4) : FVec Ideal S128x128 .f32) x
  refine congrArg _ (funext fun a => Fin.ext ?_)
  match a with
  | ⟨0, _⟩ => show win2_4.index t (0 : Fin 2) * 128 + 1 * (x 0).val = (x 0).val; omega
  | ⟨1, _⟩ => show win2_4.index t (1 : Fin 2) * 128 + 1 * (x 1).val = (x 1).val; omega

/-- The block of the bias row at every point is the bias row. -/
theorem blk_b (c : Dev nD) (t : Fin cfg2.N) :
    (iblk2 (F := Ideal) V c 5 t : FVec Ideal S1x128 .f32) = (V c (Pipeline.arrRef spec2 5) : FVec Ideal S1x128 .f32) := by
  obtain ⟨-, -, -, -, -, -, -, -, -, -, -, -, e0, e1⟩ := idx_facts t
  funext x
  show (V c (Pipeline.arrRef spec2 5) : FVec Ideal S1x128 .f32) (((cfg2.win 5).blk t).view.emb x)
    = (V c (Pipeline.arrRef spec2 5) : FVec Ideal S1x128 .f32) x
  refine congrArg _ (funext fun a => Fin.ext ?_)
  match a with
  | ⟨0, _⟩ => show win2_5.index t (0 : Fin 2) * 1 + 1 * (x 0).val = (x 0).val; omega
  | ⟨1, _⟩ => show win2_5.index t (1 : Fin 2) * 128 + 1 * (x 1).val = (x 1).val; omega

/-- The payload of the six blocks of point `t`, at row `p` of the block, is the layer's table of the six arrays at
    row `2000 t + p`. -/
theorem pay_blk (c : Dev nD) (t : Fin cfg2.N) (p : Fin 2000) (q : Fin 128) (r : Fin 50000)
    (hr : r.val = t.val * 2000 + p.val) :
    k2_pay1 (F := Ideal) (iblk2 V c 0 t) (iblk2 V c 1 t) (iblk2 V c 2 t) (iblk2 V c 3 t) (iblk2 V c 4 t) (iblk2 V c 5 t)
        (ix2 p q)
      = sageT (V c (Pipeline.arrRef spec2 0)) (V c (Pipeline.arrRef spec2 1)) (V c (Pipeline.arrRef spec2 2))
        (V c (Pipeline.arrRef spec2 3)) (V c (Pipeline.arrRef spec2 4)) (rowAt (V c (Pipeline.arrRef spec2 5)) 0)
        (ix2 r q) :=
  pay_at _ _ _ _ _ _ _ _ _ _ _ _ p q r (blk_h_row V c t p r hr) (blk_ms_row V c t p r hr) (blk_dg_apply V c t p r hr)
    (blk_Wh V c t) (blk_Wc V c t) (blk_b V c t)

/-- What point `t` writes back is the payload of the six blocks of point `t`: the body's one store fills the whole
    staging buffer, and each load reads a whole block. -/
theorem stored_eq (c : Dev nD) (t : Fin cfg2.N) :
    (dat2 (F := Ideal) V c).flushed 6 t = (cfg2.win 6).cut (grid2.coords t)
      (k2_pay1 (F := Ideal) (iblk2 V c 0 t) (iblk2 V c 1 t) (iblk2 V c 2 t) (iblk2 V c 3 t) (iblk2 V c 4 t) (iblk2 V c 5 t)) := by
  show (cfg2.win 6).cut (grid2.coords t) ((dat2 V c).after 6 t) = _
  rw [after2_6]
  unfold out2_6
  rw [View.canon_unit_zero zero_off]
  simp only [View.ld_unit_zero (S := S2000x128) zero_off, View.ld_unit_zero (S := S2000x1) zero_off,
    View.ld_unit_zero (S := S128x128) zero_off, View.ld_unit_zero (S := S1x128) zero_off]

/-- Element `(p, q)` of the output's block at point `t` sits at `(2000 t + p, q)` of the array. -/
theorem emb_out (t : Fin cfg2.N) (j : ((cfg2.win 6).xblock (grid2.coords t)).Idx)
    (hr : t.val * 2000 + (j 0).val < 50000) :
    (((cfg2.win 6).blk t).view.emb j : S50000x128.Idx)
      = ix2 (⟨t.val * 2000 + (j 0).val, hr⟩ : Fin 50000) (⟨(j 1).val, (j 1).isLt⟩ : Fin 128) := by
  obtain ⟨e0, e1, -⟩ := idx_facts t
  refine funext fun a => Fin.ext ?_
  match a with
  | ⟨0, _⟩ => show win2_6.index t (0 : Fin 2) * 2000 + 1 * (j 0).val = t.val * 2000 + (j 0).val; omega
  | ⟨1, _⟩ => show win2_6.index t (1 : Fin 2) * 128 + 1 * (j 1).val = (j 1).val; omega

/-- WHAT POINT `t` WRITES BACK is block `t` of the layer's table of the six arrays the region finds. -/
theorem flushed_eq (c : Dev nD) (t : Fin cfg2.N) :
    (dat2 (F := Ideal) V c).flushed 6 t = ((cfg2.win 6).blk t).view.read (Elt Ideal)
      (sageT (V c (Pipeline.arrRef spec2 0)) (V c (Pipeline.arrRef spec2 1)) (V c (Pipeline.arrRef spec2 2))
        (V c (Pipeline.arrRef spec2 3)) (V c (Pipeline.arrRef spec2 4)) (rowAt (V c (Pipeline.arrRef spec2 5)) 0)) := by
  refine (stored_eq V c t).trans (funext fun j => ?_)
  have hN : t.val < 25 := lt_of_lt_of_eq t.isLt N_2
  have hp : (j 0).val < 2000 := (j 0).isLt
  have hr : t.val * 2000 + (j 0).val < 50000 := by omega
  exact ((congrArg (k2_pay1 (F := Ideal) _ _ _ _ _ _)
      (eq_ix2 ((cfg2.win 6).xinj (grid2.coords t) j : S2000x128.Idx))).trans
    (pay_blk V c t _ _ ⟨t.val * 2000 + (j 0).val, hr⟩ rfl)).trans
    (congrArg (sageT _ _ _ _ _ _) (emb_out t j hr).symm)

/-! ## The 25 blocks cover the 50000 rows -/

/-- An index of the output array is in point `t`'s block iff each coordinate is in the block's range on its axis. -/
theorem mem_blk (t : Fin cfg2.N) (i : S50000x128.Idx) :
    i ∈ ((cfg2.win 6).blk t).view.set ↔ ∀ a : Fin 2, win2_6.index t a * S2000x128.size a ≤ (i a).val
      ∧ (i a).val < win2_6.index t a * S2000x128.size a + S2000x128.size a := by
  show i ∈ ((View.whole main_v60).slice (win2_6.rect t)).set ↔ _
  rw [View.set_slice_whole, Rect.mem_set_unit]
  exact Iff.rfl

/-- Row `r` of the output is in the block of point `r / 2000`. -/
theorem cover (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  obtain ⟨t, ht⟩ : ∃ t : Fin cfg2.N, t.val = (i 0).val / 2000 :=
    ⟨⟨(i 0).val / 2000, lt_of_lt_of_eq (show (i 0).val / 2000 < 25 by omega) N_2.symm⟩, rfl⟩
  obtain ⟨e0, e1, -⟩ := idx_facts t
  refine ⟨t, flush2_6 t, ?_⟩
  rw [mem_blk]
  intro a
  match a with
  | ⟨0, _⟩ =>
    show win2_6.index t (0 : Fin 2) * 2000 ≤ (i 0).val ∧ (i 0).val < win2_6.index t (0 : Fin 2) * 2000 + 2000
    omega
  | ⟨1, _⟩ =>
    show win2_6.index t (1 : Fin 2) * 128 ≤ (i 1).val ∧ (i 1).val < win2_6.index t (1 : Fin 2) * 128 + 128
    omega

/-! ## The region's output array -/

/-- THE OUTPUT ARRAY AFTER THE REGION is the layer's table of the six arrays the region finds: node table, summed
    neighbour rows, clamped edge counts, the two weight matrices and the bias row. -/
theorem sage_arr (c : Dev nD) :
    (dat2 (F := Ideal) V c).arrAt 6 cfg2.N
      = sageT (V c (Pipeline.arrRef spec2 0)) (V c (Pipeline.arrRef spec2 1)) (V c (Pipeline.arrRef spec2 2))
        (V c (Pipeline.arrRef spec2 3)) (V c (Pipeline.arrRef spec2 4)) (rowAt (V c (Pipeline.arrRef spec2 5)) 0) :=
  (dat2 (F := Ideal) V c).arrAt_eq_of_cover 6 _ (fun t _ => flushed_eq V c t) cover

end Region

end Cert.KVal.Sage2

end
-- ==== Proof.KSage3.lean ====
/-
  THE THIRD LAYER'S REGION OF THE KERNEL, AS ONE TABLE.

  The region runs over 25 points; point `t` reads rows `2000 t … 2000 t + 1999` of the node table `h`, of the table
  `ms` of summed neighbour rows and of the column `dg` of clamped edge counts, reads the two weight matrices and the
  bias row whole, and writes the same rows of the output. Its body forms the block of affine images
  `h·Wh + (ms / dg)·Wc + b`, divides each row by its Euclidean norm clamped below, takes the maximum with zero and
  adds `h` back. The module reads the body at a row (`pay_row`: a row of the payload is `sageRow` of the rows it is
  made of), reads what a point writes back as the block of the whole-table function `sageT` (`flushed_eq`), and, the
  25 blocks covering the 50000 rows, concludes that the output array ends holding `sageT` of the six arrays the region
  finds (`sage_arr`). The region's entry contents are a parameter throughout.
-/
import proofs.«141839_j76785425318033_2_alg».proof.Proof.Gen.KernelIdeal.Frame
import proofs.«141839_j76785425318033_2_alg».proof.Proof.Spec

noncomputable section

open scoped BigOperators

namespace Cert.KVal.Sage3

open Idealize.ShloMosaic Idealize.ShloMosaic.TcCoe Idealize.ShloMosaic.ValueIdx Cert.Rows Cert.Net
open Idealize.ShloMosaic.Pipeline (Dat)
open Cert.KernelIdeal Cert.KernelIdeal.Gen

/-! ## The body's value at a row -/

section Body
variable (h ms : FVec Ideal S2000x128 .f32) (dg : FVec Ideal S2000x1 .f32) (Wh Wc : FVec Ideal S128x128 .f32)
  (b : FVec Ideal S1x128 .f32)

/-- The block of affine images of `[h, ms / dg]` as the body spells it: the block `h` times `Wh` and the block of means
    `ms / dg` times `Wc`, each a product into the zero accumulator, added, plus the bias row on every row. -/
def bundleBlk : FVec Ideal S2000x128 .f32 :=
  addf (addf
      (matmul dot_S2000x128_S128x128_S2000x128_1_0_0_1_n_n none (truncf .bf16 h bitsLt_bf16_f32)
        (truncf .bf16 Wh bitsLt_bf16_f32) (constant (F := Ideal) S2000x128 .f32 0x00000000#32))
      (matmul dot_S2000x128_S128x128_S2000x128_1_0_0_1_n_n none
        (truncf .bf16 (divf ms (broadcastTo S2000x128 dg broadcasts_S2000x1_S2000x128)) bitsLt_bf16_f32)
        (truncf .bf16 Wc bitsLt_bf16_f32) (constant (F := Ideal) S2000x128 .f32 0x00000000#32)))
    (broadcastTo S2000x128 b broadcasts_S1x128_S2000x128)

/-- Row `p` of that block is the affine image of row `p` of `h` and of the mean `ms / dg` of row `p`. -/
theorem rowAt_bundleBlk (p : Fin 2000) :
    rowAt (bundleBlk h ms dg Wh Wc b) p
      = bundleRow (rowAt h p) (fun k => Ideal.div (rowAt ms p k) (dg (ix2 p (0 : Fin 1)))) Wh Wc (rowAt b 0) := by
  funext q
  show rowAt (matmul dot_S2000x128_S128x128_S2000x128_1_0_0_1_n_n none (truncf .bf16 h bitsLt_bf16_f32)
        (truncf .bf16 Wh bitsLt_bf16_f32) (constant (F := Ideal) S2000x128 .f32 0x00000000#32)) p q
      + rowAt (matmul dot_S2000x128_S128x128_S2000x128_1_0_0_1_n_n none
        (truncf .bf16 (divf ms (broadcastTo S2000x128 dg broadcasts_S2000x1_S2000x128)) bitsLt_bf16_f32)
        (truncf .bf16 Wc bitsLt_bf16_f32) (constant (F := Ideal) S2000x128 .f32 0x00000000#32)) p q
      + rowAt (broadcastTo S2000x128 b broadcasts_S1x128_S2000x128) p q = _
  rw [rowAt_matmul dot_S2000x128_S128x128_S2000x128_1_0_0_1_n_n rfl, rowAt_matmul dot_S2000x128_S128x128_S2000x128_1_0_0_1_n_n rfl,
    rowAt_broadcastRow]
  show mv (rowAt h p) Wh q
      + mv (fun k => Ideal.div (ms (ix2 p k)) (broadcastTo S2000x128 dg broadcasts_S2000x1_S2000x128 (ix2 p k))) Wc q
      + rowAt b 0 q = _
  simp only [broadcastTo_a1_ab_apply (by decide : (128 : Nat) ≠ 1) dg broadcasts_S2000x1_S2000x128 p]
  rfl

end Body

/-- The payload is the block `h` plus the positive part of the block of affine images divided, row by row, by the
    clamped norm of the row: the casts of a block to its own shape are the identity. -/
theorem pay_eq (h ms : FVec Ideal S2000x128 .f32) (dg : FVec Ideal S2000x1 .f32) (Wh Wc : FVec Ideal S128x128 .f32)
    (b : FVec Ideal S1x128 .f32) :
    k3_pay1 (F := Ideal) h ms dg Wh Wc b
      = addf h (maximumf
          (divf (bundleBlk h ms dg Wh Wc b)
            (broadcastTo S2000x128
              (maximumf
                (sqrt (shapeCast S2000x1
                  (multiReduction .add [1] S2000 (mulf (bundleBlk h ms dg Wh Wc b) (bundleBlk h ms dg Wh Wc b))
                    0x00000000#32 reduces_S2000x128_S2000 (.inl rfl) rfl) shapeCasts_S2000_S2000x1))
                (broadcast S2000x1 (Scalar.ofBits .f32 0x2B8CBCCC#32)))
              broadcasts_S2000x1_S2000x128))
          (broadcast S2000x128 (Scalar.ofBits .f32 0x00000000#32))) := by
  unfold k3_pay1
  simp only [shapeCast_self]
  rfl

/-- ROW `p` OF THE PAYLOAD is the layer's row function of row `p` of `h`, row `p` of `ms` and entry `p` of `dg`. -/
theorem pay_row (h ms : FVec Ideal S2000x128 .f32) (dg : FVec Ideal S2000x1 .f32) (Wh Wc : FVec Ideal S128x128 .f32)
    (b : FVec Ideal S1x128 .f32) (p : Fin 2000) :
    rowAt (k3_pay1 (F := Ideal) h ms dg Wh Wc b) p
      = sageRow (rowAt h p) (rowAt ms p) (dg (ix2 p (0 : Fin 1))) Wh Wc (rowAt b 0) := by
  rw [pay_eq]
  funext q
  show h (ix2 p q) + max (Ideal.div (bundleBlk h ms dg Wh Wc b (ix2 p q))
      (broadcastTo S2000x128
        (maximumf
          (sqrt (shapeCast S2000x1
            (multiReduction .add [1] S2000 (mulf (bundleBlk h ms dg Wh Wc b) (bundleBlk h ms dg Wh Wc b))
              0x00000000#32 reduces_S2000x128_S2000 (.inl rfl) rfl) shapeCasts_S2000_S2000x1))
          (broadcast S2000x1 (Scalar.ofBits .f32 0x2B8CBCCC#32)))
        broadcasts_S2000x1_S2000x128 (ix2 p q))) (Ideal.ofBits .f32 0x00000000#32) = _
  rw [broadcastTo_a1_ab_apply (by decide : (128 : Nat) ≠ 1), Ideal.ofBits_zero_f32]
  show h (ix2 p q) + max (Ideal.div (bundleBlk h ms dg Wh Wc b (ix2 p q))
      (max (Ideal.sqrt (shapeCast S2000x1
            (multiReduction .add [1] S2000 (mulf (bundleBlk h ms dg Wh Wc b) (bundleBlk h ms dg Wh Wc b))
              0x00000000#32 reduces_S2000x128_S2000 (.inl rfl) rfl) shapeCasts_S2000_S2000x1 (ix2 p (0 : Fin 1)))) tiny)) 0 = _
  rw [shapeCast_a_a1_apply, laneSum_apply]
  show rowAt h p q + max (Ideal.div (rowAt (bundleBlk h ms dg Wh Wc b) p q)
      (max (Ideal.sqrt (∑ k : Fin 128, rowAt (bundleBlk h ms dg Wh Wc b) p k * rowAt (bundleBlk h ms dg Wh Wc b) p k)) tiny)) 0 = _
  rw [rowAt_bundleBlk]
  rfl

/-- The payload of blocks whose rows are rows of six tables, at row `p` of the block sitting at row `r` of the
    tables, is the layer's table of those tables at row `r`. -/
theorem pay_at (A0 A1 : Tbl 50000 128) (A2 : Tbl 50000 1) (A3 A4 : Tbl 128 128) (A5 : Tbl 1 128)
    (x0 x1 : FVec Ideal S2000x128 .f32) (x2 : FVec Ideal S2000x1 .f32) (x3 x4 : FVec Ideal S128x128 .f32)
    (x5 : FVec Ideal S1x128 .f32) (p : Fin 2000) (q : Fin 128) (r : Fin 50000)
    (h0 : rowAt x0 p = rowAt A0 r) (h1 : rowAt x1 p = rowAt A1 r)
    (h2 : x2 (ix2 p (0 : Fin 1)) = A2 (ix2 r (0 : Fin 1))) (h3 : x3 = A3) (h4 : x4 = A4) (h5 : x5 = A5) :
    k3_pay1 (F := Ideal) x0 x1 x2 x3 x4 x5 (ix2 p q) = sageT A0 A1 A2 A3 A4 (rowAt A5 0) (ix2 r q) := by
  subst h3 h4 h5
  refine (congrFun (pay_row x0 x1 x2 x3 x4 x5 p) q).trans ?_
  rw [h0, h1, h2]
  rfl

/-! ## What a point writes back -/

section Region
variable (V : (c : Dev nD) → (b : Ref sig .tc) → Buf (Elt Ideal) ((c : Thread nD τ).loc b))

theorem zero_off : (![0, 0] : Fin 2 → Nat) = fun _ => 0 := funext fun a => by fin_cases a <;> rfl

/-- The index maps over the 25 points: the three row-blocked inputs move with the output, whose block index is
    the point; the weights and the bias stay at block zero. -/
theorem idx_facts : ∀ t : Fin cfg3.N,
    win3_6.index t (0 : Fin 2) = t.val ∧ win3_6.index t (1 : Fin 2) = 0
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- Row `p` of the block of `h` at point `t` is row `2000 t + p` of `h`. -/
theorem blk_h_row (c : Dev nD) (t : Fin cfg3.N) (p : Fin 2000) (r : Fin 50000) (hr : r.val = t.val * 2000 + p.val) :
    rowAt (iblk3 (F := Ideal) V c 0 t : FVec Ideal S2000x128 .f32) p
      = rowAt (V c (Pipeline.arrRef spec3 0) : FVec Ideal S50000x128 .f32) r := by
  obtain ⟨-, -, e0, e1, -⟩ := idx_facts t
  funext k
  show (V c (Pipeline.arrRef spec3 0) : FVec Ideal S50000x128 .f32) (((cfg3.win 0).blk t).view.emb (ix2 p k))
    = (V c (Pipeline.arrRef spec3 0) : FVec Ideal S50000x128 .f32) (ix2 r k)
  refine congrArg _ (funext fun a => Fin.ext ?_)
  match a with
  | ⟨0, _⟩ => show win3_0.index t (0 : Fin 2) * 2000 + 1 * p.val = r.val; omega
  | ⟨1, _⟩ => show win3_0.index t (1 : Fin 2) * 128 + 1 * k.val = k.val; omega

/-- Row `p` of the block of `ms` at point `t` is row `2000 t + p` of `ms`. -/
theorem blk_ms_row (c : Dev nD) (t : Fin cfg3.N) (p : Fin 2000) (r : Fin 50000) (hr : r.val = t.val * 2000 + p.val) :
    rowAt (iblk3 (F := Ideal) V c 1 t : FVec Ideal S2000x128 .f32) p
      = rowAt (V c (Pipeline.arrRef spec3 1) : FVec Ideal S50000x128 .f32) r := by
  obtain ⟨-, -, -, -, e0, e1, -⟩ := idx_facts t
  funext k
  show (V c (Pipeline.arrRef spec3 1) : FVec Ideal S50000x128 .f32) (((cfg3.win 1).blk t).view.emb (ix2 p k))
    = (V c (Pipeline.arrRef spec3 1) : FVec Ideal S50000x128 .f32) (ix2 r k)
  refine congrArg _ (funext fun a => Fin.ext ?_)
  match a with
  | ⟨0, _⟩ => show win3_1.index t (0 : Fin 2) * 2000 + 1 * p.val = r.val; omega
  | ⟨1, _⟩ => show win3_1.index t (1 : Fin 2) * 128 + 1 * k.val = k.val; omega

/-- Entry `p` of the block of `dg` at point `t` is entry `2000 t + p` of `dg`. -/
theorem blk_dg_apply (c : Dev nD) (t : Fin cfg3.N) (p : Fin 2000) (r : Fin 50000) (hr : r.val = t.val * 2000 + p.val) :
    (iblk3 (F := Ideal) V c 2 t : FVec Ideal S2000x1 .f32) (ix2 p (0 : Fin 1))
      = (V c (Pipeline.arrRef spec3 2) : FVec Ideal S50000x1 .f32) (ix2 r (0 : Fin 1)) := by
  obtain ⟨-, -, -, -, -, -, e0, e1, -⟩ := idx_facts t
  show (V c (Pipeline.arrRef spec3 2) : FVec Ideal S50000x1 .f32) (((cfg3.win 2).blk t).view.emb (ix2 p (0 : Fin 1)))
    = (V c (Pipeline.arrRef spec3 2) : FVec Ideal S50000x1 .f32) (ix2 r (0 : Fin 1))
  refine congrArg _ (funext fun a => Fin.ext ?_)
  match a with
  | ⟨0, _⟩ => show win3_2.index t (0 : Fin 2) * 2000 + 1 * p.val = r.val; omega
  | ⟨1, _⟩ => show win3_2.index t (1 : Fin 2) * 1 + 1 * 0 = 0; omega

/-- The block of `Wh` at every point is `Wh`. -/
theorem blk_Wh (c : Dev nD) (t : Fin cfg3.N) :
    (iblk3 (F := Ideal) V c 3 t : FVec Ideal S128x128 .f32) = (V c (Pipeline.arrRef spec3 3) : FVec Ideal S128x128 .f32) := by
  obtain ⟨-, -, -, -, -, -, -, -, e0, e1, -⟩ := idx_facts t
  funext x
  show (V c (Pipeline.arrRef spec3 3) : FVec Ideal S128x128 .f32) (((cfg3.win 3).blk t).view.emb x)
    = (V c (Pipeline.arrRef spec3 3) : FVec Ideal S128x128 .f32) x
  refine congrArg _ (funext fun a => Fin.ext ?_)
  match a with
  | ⟨0, _⟩ => show win3_3.index t (0 : Fin 2) * 128 + 1 * (x 0).val = (x 0).val; omega
  | ⟨1, _⟩ => show win3_3.index t (1 : Fin 2) * 128 + 1 * (x 1).val = (x 1).val; omega

/-- The block of `Wc` at every point is `Wc`. -/
theorem blk_Wc (c : Dev nD) (t : Fin cfg3.N) :
    (iblk3 (F := Ideal) V c 4 t : FVec Ideal S128x128 .f32) = (V c (Pipeline.arrRef spec3 4) : FVec Ideal S128x128 .f32) := by
  obtain ⟨-, -, -, -, -, -, -, -, -, -, e0, e1, -⟩ := idx_facts t
  funext x
  show (V c (Pipeline.arrRef spec3 4) : FVec Ideal S128x128 .f32) (((cfg3.win 4).blk t).view.emb x)
    = (V c (Pipeline.arrRef spec3 4) : FVec Ideal S128x128 .f32) x
  refine congrArg _ (funext fun a => Fin.ext ?_)
  match a with
  | ⟨0, _⟩ => show win3_4.index t (0 : Fin 2) * 128 + 1 * (x 0).val = (x 0).val; omega
  | ⟨1, _⟩ => show win3_4.index t (1 : Fin 2) * 128 + 1 * (x 1).val = (x 1).val; omega

/-- The block of the bias row at every point is the bias row. -/
theorem blk_b (c : Dev nD) (t : Fin cfg3.N) :
    (iblk3 (F := Ideal) V c 5 t : FVec Ideal S1x128 .f32) = (V c (Pipeline.arrRef spec3 5) : FVec Ideal S1x128 .f32) := by
  obtain ⟨-, -, -, -, -, -, -, -, -, -, -, -, e0, e1⟩ := idx_facts t
  funext x
  show (V c (Pipeline.arrRef spec3 5) : FVec Ideal S1x128 .f32) (((cfg3.win 5).blk t).view.emb x)
    = (V c (Pipeline.arrRef spec3 5) : FVec Ideal S1x128 .f32) x
  refine congrArg _ (funext fun a => Fin.ext ?_)
  match a with
  | ⟨0, _⟩ => show win3_5.index t (0 : Fin 2) * 1 + 1 * (x 0).val = (x 0).val; omega
  | ⟨1, _⟩ => show win3_5.index t (1 : Fin 2) * 128 + 1 * (x 1).val = (x 1).val; omega

/-- The payload of the six blocks of point `t`, at row `p` of the block, is the layer's table of the six arrays at
    row `2000 t + p`. -/
theorem pay_blk (c : Dev nD) (t : Fin cfg3.N) (p : Fin 2000) (q : Fin 128) (r : Fin 50000)
    (hr : r.val = t.val * 2000 + p.val) :
    k3_pay1 (F := Ideal) (iblk3 V c 0 t) (iblk3 V c 1 t) (iblk3 V c 2 t) (iblk3 V c 3 t) (iblk3 V c 4 t) (iblk3 V c 5 t)
        (ix2 p q)
      = sageT (V c (Pipeline.arrRef spec3 0)) (V c (Pipeline.arrRef spec3 1)) (V c (Pipeline.arrRef spec3 2))
        (V c (Pipeline.arrRef spec3 3)) (V c (Pipeline.arrRef spec3 4)) (rowAt (V c (Pipeline.arrRef spec3 5)) 0)
        (ix2 r q) :=
  pay_at _ _ _ _ _ _ _ _ _ _ _ _ p q r (blk_h_row V c t p r hr) (blk_ms_row V c t p r hr) (blk_dg_apply V c t p r hr)
    (blk_Wh V c t) (blk_Wc V c t) (blk_b V c t)

/-- What point `t` writes back is the payload of the six blocks of point `t`: the body's one store fills the whole
    staging buffer, and each load reads a whole block. -/
theorem stored_eq (c : Dev nD) (t : Fin cfg3.N) :
    (dat3 (F := Ideal) V c).flushed 6 t = (cfg3.win 6).cut (grid3.coords t)
      (k3_pay1 (F := Ideal) (iblk3 V c 0 t) (iblk3 V c 1 t) (iblk3 V c 2 t) (iblk3 V c 3 t) (iblk3 V c 4 t) (iblk3 V c 5 t)) := by
  show (cfg3.win 6).cut (grid3.coords t) ((dat3 V c).after 6 t) = _
  rw [after3_6]
  unfold out3_6
  rw [View.canon_unit_zero zero_off]
  simp only [View.ld_unit_zero (S := S2000x128) zero_off, View.ld_unit_zero (S := S2000x1) zero_off,
    View.ld_unit_zero (S := S128x128) zero_off, View.ld_unit_zero (S := S1x128) zero_off]

/-- Element `(p, q)` of the output's block at point `t` sits at `(2000 t + p, q)` of the array. -/
theorem emb_out (t : Fin cfg3.N) (j : ((cfg3.win 6).xblock (grid3.coords t)).Idx)
    (hr : t.val * 2000 + (j 0).val < 50000) :
    (((cfg3.win 6).blk t).view.emb j : S50000x128.Idx)
      = ix2 (⟨t.val * 2000 + (j 0).val, hr⟩ : Fin 50000) (⟨(j 1).val, (j 1).isLt⟩ : Fin 128) := by
  obtain ⟨e0, e1, -⟩ := idx_facts t
  refine funext fun a => Fin.ext ?_
  match a with
  | ⟨0, _⟩ => show win3_6.index t (0 : Fin 2) * 2000 + 1 * (j 0).val = t.val * 2000 + (j 0).val; omega
  | ⟨1, _⟩ => show win3_6.index t (1 : Fin 2) * 128 + 1 * (j 1).val = (j 1).val; omega

/-- WHAT POINT `t` WRITES BACK is block `t` of the layer's table of the six arrays the region finds. -/
theorem flushed_eq (c : Dev nD) (t : Fin cfg3.N) :
    (dat3 (F := Ideal) V c).flushed 6 t = ((cfg3.win 6).blk t).view.read (Elt Ideal)
      (sageT (V c (Pipeline.arrRef spec3 0)) (V c (Pipeline.arrRef spec3 1)) (V c (Pipeline.arrRef spec3 2))
        (V c (Pipeline.arrRef spec3 3)) (V c (Pipeline.arrRef spec3 4)) (rowAt (V c (Pipeline.arrRef spec3 5)) 0)) := by
  refine (stored_eq V c t).trans (funext fun j => ?_)
  have hN : t.val < 25 := lt_of_lt_of_eq t.isLt N_3
  have hp : (j 0).val < 2000 := (j 0).isLt
  have hr : t.val * 2000 + (j 0).val < 50000 := by omega
  exact ((congrArg (k3_pay1 (F := Ideal) _ _ _ _ _ _)
      (eq_ix2 ((cfg3.win 6).xinj (grid3.coords t) j : S2000x128.Idx))).trans
    (pay_blk V c t _ _ ⟨t.val * 2000 + (j 0).val, hr⟩ rfl)).trans
    (congrArg (sageT _ _ _ _ _ _) (emb_out t j hr).symm)

/-! ## The 25 blocks cover the 50000 rows -/

/-- An index of the output array is in point `t`'s block iff each coordinate is in the block's range on its axis. -/
theorem mem_blk (t : Fin cfg3.N) (i : S50000x128.Idx) :
    i ∈ ((cfg3.win 6).blk t).view.set ↔ ∀ a : Fin 2, win3_6.index t a * S2000x128.size a ≤ (i a).val
      ∧ (i a).val < win3_6.index t a * S2000x128.size a + S2000x128.size a := by
  show i ∈ ((View.whole main_v78).slice (win3_6.rect t)).set ↔ _
  rw [View.set_slice_whole, Rect.mem_set_unit]
  exact Iff.rfl

/-- Row `r` of the output is in the block of point `r / 2000`. -/
theorem cover (i : S50000x128.Idx) :
    ∃ t : Fin cfg3.N, (cfg3.win 6).flush t = true ∧ i ∈ ((cfg3.win 6).blk t).view.set := by
  have hi0 : (i 0).val < 50000 := (i 0).isLt
  have hi1 : (i 1).val < 128 := (i 1).isLt
  obtain ⟨t, ht⟩ : ∃ t : Fin cfg3.N, t.val = (i 0).val / 2000 :=
    ⟨⟨(i 0).val / 2000, lt_of_lt_of_eq (show (i 0).val / 2000 < 25 by omega) N_3.symm⟩, rfl⟩
  obtain ⟨e0, e1, -⟩ := idx_facts t
  refine ⟨t, flush3_6 t, ?_⟩
  rw [mem_blk]
  intro a
  match a with
  | ⟨0, _⟩ =>
    show win3_6.index t (0 : Fin 2) * 2000 ≤ (i 0).val ∧ (i 0).val < win3_6.index t (0 : Fin 2) * 2000 + 2000
    omega
  | ⟨1, _⟩ =>
    show win3_6.index t (1 : Fin 2) * 128 ≤ (i 1).val ∧ (i 1).val < win3_6.index t (1 : Fin 2) * 128 + 128
    omega

/-! ## The region's output array -/

/-- THE OUTPUT ARRAY AFTER THE REGION is the layer's table of the six arrays the region finds: node table, summed
    neighbour rows, clamped edge counts, the two weight matrices and the bias row. -/
theorem sage_arr (c : Dev nD) :
    (dat3 (F := Ideal) V c).arrAt 6 cfg3.N
      = sageT (V c (Pipeline.arrRef spec3 0)) (V c (Pipeline.arrRef spec3 1)) (V c (Pipeline.arrRef spec3 2))
        (V c (Pipeline.arrRef spec3 3)) (V c (Pipeline.arrRef spec3 4)) (rowAt (V c (Pipeline.arrRef spec3 5)) 0) :=
  (dat3 (F := Ideal) V c).arrAt_eq_of_cover 6 _ (fun t _ => flushed_eq V c t) cover

end Region

end Cert.KVal.Sage3

end
-- ==== Proof.KSage4.lean ====
/-
  THE FOURTH LAYER'S REGION OF THE KERNEL, AS ONE TABLE.

  The region runs over 25 points; point `t` reads rows `2000 t … 2000 t + 1999` of the node table `h`, of the table
  `ms` of summed neighbour rows and of the column `dg` of clamped edge counts, reads the two weight matrices and the
  bias row whole, and writes the same rows of the output. Its body forms the block of affine images
  `h·Wh + (ms / dg)·Wc + b`, divides each row by its Euclidean norm clamped below, takes the maximum with zero and
  adds `h` back. The module reads the body at a row (`pay_row`: a row of the payload is `sageRow` of the rows it is
  made of), reads what a point writes back as the block of the whole-table function `sageT` (`flushed_eq`), and, the
  25 blocks covering the 50000 rows, concludes that the output array ends holding `sageT` of the six arrays the region
  finds (`sage_arr`). The region's entry contents are a parameter throughout.
-/
import proofs.«141839_j76785425318033_2_alg».proof.Proof.Gen.KernelIdeal.Frame
import proofs.«141839_j76785425318033_2_alg».proof.Proof.Spec

noncomputable section

open scoped BigOperators

namespace Cert.KVal.Sage4

open Idealize.ShloMosaic Idealize.ShloMosaic.TcCoe Idealize.ShloMosaic.ValueIdx Cert.Rows Cert.Net
open Idealize.ShloMosaic.Pipeline (Dat)
open Cert.KernelIdeal Cert.KernelIdeal.Gen

/-! ## The body's value at a row -/

section Body
variable (h ms : FVec Ideal S2000x128 .f32) (dg : FVec Ideal S2000x1 .f32) (Wh Wc : FVec Ideal S128x128 .f32)
  (b : FVec Ideal S1x128 .f32)

/-- The block of affine images of `[h, ms / dg]` as the body spells it: the block `h` times `Wh` and the block of means
    `ms / dg` times `Wc`, each a product into the zero accumulator, added, plus the bias row on every row. -/
def bundleBlk : FVec Ideal S2000x128 .f32 :=
  addf (addf
      (matmul dot_S2000x128_S128x128_S2000x128_1_0_0_1_n_n none (truncf .bf16 h bitsLt_bf16_f32)
        (truncf .bf16 Wh bitsLt_bf16_f32) (constant (F := Ideal) S2000x128 .f32 0x00000000#32))
      (matmul dot_S2000x128_S128x128_S2000x128_1_0_0_1_n_n none
        (truncf .bf16 (divf ms (broadcastTo S2000x128 dg broadcasts_S2000x1_S2000x128)) bitsLt_bf16_f32)
        (truncf .bf16 Wc bitsLt_bf16_f32) (constant (F := Ideal) S2000x128 .f32 0x00000000#32)))
    (broadcastTo S2000x128 b broadcasts_S1x128_S2000x128)

/-- Row `p` of that block is the affine image of row `p` of `h` and of the mean `ms / dg` of row `p`. -/
theorem rowAt_bundleBlk (p : Fin 2000) :
    rowAt (bundleBlk h ms dg Wh Wc b) p
      = bundleRow (rowAt h p) (fun k => Ideal.div (rowAt ms p k) (dg (ix2 p (0 : Fin 1)))) Wh Wc (rowAt b 0) := by
  funext q
  show rowAt (matmul dot_S2000x128_S128x128_S2000x128_1_0_0_1_n_n none (truncf .bf16 h bitsLt_bf16_f32)
        (truncf .bf16 Wh bitsLt_bf16_f32) (constant (F := Ideal) S2000x128 .f32 0x00000000#32)) p q
      + rowAt (matmul dot_S2000x128_S128x128_S2000x128_1_0_0_1_n_n none
        (truncf .bf16 (divf ms (broadcastTo S2000x128 dg broadcasts_S2000x1_S2000x128)) bitsLt_bf16_f32)
        (truncf .bf16 Wc bitsLt_bf16_f32) (constant (F := Ideal) S2000x128 .f32 0x00000000#32)) p q
      + rowAt (broadcastTo S2000x128 b broadcasts_S1x128_S2000x128) p q = _
  rw [rowAt_matmul dot_S2000x128_S128x128_S2000x128_1_0_0_1_n_n rfl, rowAt_matmul dot_S2000x128_S128x128_S2000x128_1_0_0_1_n_n rfl,
    rowAt_broadcastRow]
  show mv (rowAt h p) Wh q
      + mv (fun k => Ideal.div (ms (ix2 p k)) (broadcastTo S2000x128 dg broadcasts_S2000x1_S2000x128 (ix2 p k))) Wc q
      + rowAt b 0 q = _
  simp only [broadcastTo_a1_ab_apply (by decide : (128 : Nat) ≠ 1) dg broadcasts_S2000x1_S2000x128 p]
  rfl

end Body

/-- The payload is the block `h` plus the positive part of the block of affine images divided, row by row, by the
    clamped norm of the row: the casts of a block to its own shape are the identity. -/
theorem pay_eq (h ms : FVec Ideal S2000x128 .f32) (dg : FVec Ideal S2000x1 .f32) (Wh Wc : FVec Ideal S128x128 .f32)
    (b : FVec Ideal S1x128 .f32) :
    k4_pay1 (F := Ideal) h ms dg Wh Wc b
      = addf h (maximumf
          (divf (bundleBlk h ms dg Wh Wc b)
            (broadcastTo S2000x128
              (maximumf
                (sqrt (shapeCast S2000x1
                  (multiReduction .add [1] S2000 (mulf (bundleBlk h ms dg Wh Wc b) (bundleBlk h ms dg Wh Wc b))
                    0x00000000#32 reduces_S2000x128_S2000 (.inl rfl) rfl) shapeCasts_S2000_S2000x1))
                (broadcast S2000x1 (Scalar.ofBits .f32 0x2B8CBCCC#32)))
              broadcasts_S2000x1_S2000x128))
          (broadcast S2000x128 (Scalar.ofBits .f32 0x00000000#32))) := by
  unfold k4_pay1
  simp only [shapeCast_self]
  rfl

/-- ROW `p` OF THE PAYLOAD is the layer's row function of row `p` of `h`, row `p` of `ms` and entry `p` of `dg`. -/
theorem pay_row (h ms : FVec Ideal S2000x128 .f32) (dg : FVec Ideal S2000x1 .f32) (Wh Wc : FVec Ideal S128x128 .f32)
    (b : FVec Ideal S1x128 .f32) (p : Fin 2000) :
    rowAt (k4_pay1 (F := Ideal) h ms dg Wh Wc b) p
      = sageRow (rowAt h p) (rowAt ms p) (dg (ix2 p (0 : Fin 1))) Wh Wc (rowAt b 0) := by
  rw [pay_eq]
  funext q
  show h (ix2 p q) + max (Ideal.div (bundleBlk h ms dg Wh Wc b (ix2 p q))
      (broadcastTo S2000x128
        (maximumf
          (sqrt (shapeCast S2000x1
            (multiReduction .add [1] S2000 (mulf (bundleBlk h ms dg Wh Wc b) (bundleBlk h ms dg Wh Wc b))
              0x00000000#32 reduces_S2000x128_S2000 (.inl rfl) rfl) shapeCasts_S2000_S2000x1))
          (broadcast S2000x1 (Scalar.ofBits .f32 0x2B8CBCCC#32)))
        broadcasts_S2000x1_S2000x128 (ix2 p q))) (Ideal.ofBits .f32 0x00000000#32) = _
  rw [broadcastTo_a1_ab_apply (by decide : (128 : Nat) ≠ 1), Ideal.ofBits_zero_f32]
  show h (ix2 p q) + max (Ideal.div (bundleBlk h ms dg Wh Wc b (ix2 p q))
      (max (Ideal.sqrt (shapeCast S2000x1
            (multiReduction .add [1] S2000 (mulf (bundleBlk h ms dg Wh Wc b) (bundleBlk h ms dg Wh Wc b))
              0x00000000#32 reduces_S2000x128_S2000 (.inl rfl) rfl) shapeCasts_S2000_S2000x1 (ix2 p (0 : Fin 1)))) tiny)) 0 = _
  rw [shapeCast_a_a1_apply, laneSum_apply]
  show rowAt h p q + max (Ideal.div (rowAt (bundleBlk h ms dg Wh Wc b) p q)
      (max (Ideal.sqrt (∑ k : Fin 128, rowAt (bundleBlk h ms dg Wh Wc b) p k * rowAt (bundleBlk h ms dg Wh Wc b) p k)) tiny)) 0 = _
  rw [rowAt_bundleBlk]
  rfl

/-- The payload of blocks whose rows are rows of six tables, at row `p` of the block sitting at row `r` of the
    tables, is the layer's table of those tables at row `r`. -/
theorem pay_at (A0 A1 : Tbl 50000 128) (A2 : Tbl 50000 1) (A3 A4 : Tbl 128 128) (A5 : Tbl 1 128)
    (x0 x1 : FVec Ideal S2000x128 .f32) (x2 : FVec Ideal S2000x1 .f32) (x3 x4 : FVec Ideal S128x128 .f32)
    (x5 : FVec Ideal S1x128 .f32) (p : Fin 2000) (q : Fin 128) (r : Fin 50000)
    (h0 : rowAt x0 p = rowAt A0 r) (h1 : rowAt x1 p = rowAt A1 r)
    (h2 : x2 (ix2 p (0 : Fin 1)) = A2 (ix2 r (0 : Fin 1))) (h3 : x3 = A3) (h4 : x4 = A4) (h5 : x5 = A5) :
    k4_pay1 (F := Ideal) x0 x1 x2 x3 x4 x5 (ix2 p q) = sageT A0 A1 A2 A3 A4 (rowAt A5 0) (ix2 r q) := by
  subst h3 h4 h5
  refine (congrFun (pay_row x0 x1 x2 x3 x4 x5 p) q).trans ?_
  rw [h0, h1, h2]
  rfl

/-! ## What a point writes back -/

section Region
variable (V : (c : Dev nD) → (b : Ref sig .tc) → Buf (Elt Ideal) ((c : Thread nD τ).loc b))

theorem zero_off : (![0, 0] : Fin 2 → Nat) = fun _ => 0 := funext fun a => by fin_cases a <;> rfl

/-- The index maps over the 25 points: the three row-blocked inputs move with the output, whose block index is
    the point; the weights and the bias stay at block zero. -/
theorem idx_facts : ∀ t : Fin cfg4.N,
    win4_6.index t (0 : Fin 2) = t.val ∧ win4_6.index t (1 : Fin 2) = 0
    ∧ win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- Row `p` of the block of `h` at point `t` is row `2000 t + p` of `h`. -/
theorem blk_h_row (c : Dev nD) (t : Fin cfg4.N) (p : Fin 2000) (r : Fin 50000) (hr : r.val = t.val * 2000 + p.val) :
    rowAt (iblk4 (F := Ideal) V c 0 t : FVec Ideal S2000x128 .f32) p
      = rowAt (V c (Pipeline.arrRef spec4 0) : FVec Ideal S50000x128 .f32) r := by
  obtain ⟨-, -, e0, e1, -⟩ := idx_facts t
  funext k
  show (V c (Pipeline.arrRef spec4 0) : FVec Ideal S50000x128 .f32) (((cfg4.win 0).blk t).view.emb (ix2 p k))
    = (V c (Pipeline.arrRef spec4 0) : FVec Ideal S50000x128 .f32) (ix2 r k)
  refine congrArg _ (funext fun a => Fin.ext ?_)
  match a with
  | ⟨0, _⟩ => show win4_0.index t (0 : Fin 2) * 2000 + 1 * p.val = r.val; omega
  | ⟨1, _⟩ => show win4_0.index t (1 : Fin 2) * 128 + 1 * k.val = k.val; omega

/-- Row `p` of the block of `ms` at point `t` is row `2000 t + p` of `ms`. -/
theorem blk_ms_row (c : Dev nD) (t : Fin cfg4.N) (p : Fin 2000) (r : Fin 50000) (hr : r.val = t.val * 2000 + p.val) :
    rowAt (iblk4 (F := Ideal) V c 1 t : FVec Ideal S2000x128 .f32) p
      = rowAt (V c (Pipeline.arrRef spec4 1) : FVec Ideal S50000x128 .f32) r := by
  obtain ⟨-, -, -, -, e0, e1, -⟩ := idx_facts t
  funext k
  show (V c (Pipeline.arrRef spec4 1) : FVec Ideal S50000x128 .f32) (((cfg4.win 1).blk t).view.emb (ix2 p k))
    = (V c (Pipeline.arrRef spec4 1) : FVec Ideal S50000x128 .f32) (ix2 r k)
  refine congrArg _ (funext fun a => Fin.ext ?_)
  match a with
  | ⟨0, _⟩ => show win4_1.index t (0 : Fin 2) * 2000 + 1 * p.val = r.val; omega
  | ⟨1, _⟩ => show win4_1.index t (1 : Fin 2) * 128 + 1 * k.val = k.val; omega

/-- Entry `p` of the block of `dg` at point `t` is entry `2000 t + p` of `dg`. -/
theorem blk_dg_apply (c : Dev nD) (t : Fin cfg4.N) (p : Fin 2000) (r : Fin 50000) (hr : r.val = t.val * 2000 + p.val) :
    (iblk4 (F := Ideal) V c 2 t : FVec Ideal S2000x1 .f32) (ix2 p (0 : Fin 1))
      = (V c (Pipeline.arrRef spec4 2) : FVec Ideal S50000x1 .f32) (ix2 r (0 : Fin 1)) := by
  obtain ⟨-, -, -, -, -, -, e0, e1, -⟩ := idx_facts t
  show (V c (Pipeline.arrRef spec4 2) : FVec Ideal S50000x1 .f32) (((cfg4.win 2).blk t).view.emb (ix2 p (0 : Fin 1)))
    = (V c (Pipeline.arrRef spec4 2) : FVec Ideal S50000x1 .f32) (ix2 r (0 : Fin 1))
  refine congrArg _ (funext fun a => Fin.ext ?_)
  match a with
  | ⟨0, _⟩ => show win4_2.index t (0 : Fin 2) * 2000 + 1 * p.val = r.val; omega
  | ⟨1, _⟩ => show win4_2.index t (1 : Fin 2) * 1 + 1 * 0 = 0; omega

/-- The block of `Wh` at every point is `Wh`. -/
theorem blk_Wh (c : Dev nD) (t : Fin cfg4.N) :
    (iblk4 (F := Ideal) V c 3 t : FVec Ideal S128x128 .f32) = (V c (Pipeline.arrRef spec4 3) : FVec Ideal S128x128 .f32) := by
  obtain ⟨-, -, -, -, -, -, -, -, e0, e1, -⟩ := idx_facts t
  funext x
  show (V c (Pipeline.arrRef spec4 3) : FVec Ideal S128x128 .f32) (((cfg4.win 3).blk t).view.emb x)
    = (V c (Pipeline.arrRef spec4 3) : FVec Ideal S128x128 .f32) x
  refine congrArg _ (funext fun a => Fin.ext ?_)
  match a with
  | ⟨0, _⟩ => show win4_3.index t (0 : Fin 2) * 128 + 1 * (x 0).val = (x 0).val; omega
  | ⟨1, _⟩ => show win4_3.index t (1 : Fin 2) * 128 + 1 * (x 1).val = (x 1).val; omega

/-- The block of `Wc` at every point is `Wc`. -/
theorem blk_Wc (c : Dev nD) (t : Fin cfg4.N) :
    (iblk4 (F := Ideal) V c 4 t : FVec Ideal S128x128 .f32) = (V c (Pipeline.arrRef spec4 4) : FVec Ideal S128x128 .f32) := by
  obtain ⟨-, -, -, -, -, -, -, -, -, -, e0, e1, -⟩ := idx_facts t
  funext x
  show (V c (Pipeline.arrRef spec4 4) : FVec Ideal S128x128 .f32) (((cfg4.win 4).blk t).view.emb x)
    = (V c (Pipeline.arrRef spec4 4) : FVec Ideal S128x128 .f32) x
  refine congrArg _ (funext fun a => Fin.ext ?_)
  match a with
  | ⟨0, _⟩ => show win4_4.index t (0 : Fin 2) * 128 + 1 * (x 0).val = (x 0).val; omega
  | ⟨1, _⟩ => show win4_4.index t (1 : Fin 2) * 128 + 1 * (x 1).val = (x 1).val; omega

/-- The block of the bias row at every point is the bias row. -/
theorem blk_b (c : Dev nD) (t : Fin cfg4.N) :
    (iblk4 (F := Ideal) V c 5 t : FVec Ideal S1x128 .f32) = (V c (Pipeline.arrRef spec4 5) : FVec Ideal S1x128 .f32) := by
  obtain ⟨-, -, -, -, -, -, -, -, -, -, -, -, e0, e1⟩ := idx_facts t
  funext x
  show (V c (Pipeline.arrRef spec4 5) : FVec Ideal S1x128 .f32) (((cfg4.win 5).blk t).view.emb x)
    = (V c (Pipeline.arrRef spec4 5) : FVec Ideal S1x128 .f32) x
  refine congrArg _ (funext fun a => Fin.ext ?_)
  match a with
  | ⟨0, _⟩ => show win4_5.index t (0 : Fin 2) * 1 + 1 * (x 0).val = (x 0).val; omega
  | ⟨1, _⟩ => show win4_5.index t (1 : Fin 2) * 128 + 1 * (x 1).val = (x 1).val; omega

/-- The payload of the six blocks of point `t`, at row `p` of the block, is the layer's table of the six arrays at
    row `2000 t + p`. -/
theorem pay_blk (c : Dev nD) (t : Fin cfg4.N) (p : Fin 2000) (q : Fin 128) (r : Fin 50000)
    (hr : r.val = t.val * 2000 + p.val) :
    k4_pay1 (F := Ideal) (iblk4 V c 0 t) (iblk4 V c 1 t) (iblk4 V c 2 t) (iblk4 V c 3 t) (iblk4 V c 4 t) (iblk4 V c 5 t)
        (ix2 p q)
      = sageT (V c (Pipeline.arrRef spec4 0)) (V c (Pipeline.arrRef spec4 1)) (V c (Pipeline.arrRef spec4 2))
        (V c (Pipeline.arrRef spec4 3)) (V c (Pipeline.arrRef spec4 4)) (rowAt (V c (Pipeline.arrRef spec4 5)) 0)
        (ix2 r q) :=
  pay_at _ _ _ _ _ _ _ _ _ _ _ _ p q r (blk_h_row V c t p r hr) (blk_ms_row V c t p r hr) (blk_dg_apply V c t p r hr)
    (blk_Wh V c t) (blk_Wc V c t) (blk_b V c t)

/-- What point `t` writes back is the payload of the six blocks of point `t`: the body's one store fills the whole
    staging buffer, and each load reads a whole block. -/
theorem stored_eq (c : Dev nD) (t : Fin cfg4.N) :
    (dat4 (F := Ideal) V c).flushed 6 t = (cfg4.win 6).cut (grid4.coords t)
      (k4_pay1 (F := Ideal) (iblk4 V c 0 t) (iblk4 V c 1 t) (iblk4 V c 2 t) (iblk4 V c 3 t) (iblk4 V c 4 t) (iblk4 V c 5 t)) := by
  show (cfg4.win 6).cut (grid4.coords t) ((dat4 V c).after 6 t) = _
  rw [after4_6]
  unfold out4_6
  rw [View.canon_unit_zero zero_off]
  simp only [View.ld_unit_zero (S := S2000x128) zero_off, View.ld_unit_zero (S := S2000x1) zero_off,
    View.ld_unit_zero (S := S128x128) zero_off, View.ld_unit_zero (S := S1x128) zero_off]

/-- Element `(p, q)` of the output's block at point `t` sits at `(2000 t + p, q)` of the array. -/
theorem emb_out (t : Fin cfg4.N) (j : ((cfg4.win 6).xblock (grid4.coords t)).Idx)
    (hr : t.val * 2000 + (j 0).val < 50000) :
    (((cfg4.win 6).blk t).view.emb j : S50000x128.Idx)
      = ix2 (⟨t.val * 2000 + (j 0).val, hr⟩ : Fin 50000) (⟨(j 1).val, (j 1).isLt⟩ : Fin 128) := by
  obtain ⟨e0, e1, -⟩ := idx_facts t
  refine funext fun a => Fin.ext ?_
  match a with
  | ⟨0, _⟩ => show win4_6.index t (0 : Fin 2) * 2000 + 1 * (j 0).val = t.val * 2000 + (j 0).val; omega
  | ⟨1, _⟩ => show win4_6.index t (1 : Fin 2) * 128 + 1 * (j 1).val = (j 1).val; omega

/-- WHAT POINT `t` WRITES BACK is block `t` of the layer's table of the six arrays the region finds. -/
theorem flushed_eq (c : Dev nD) (t : Fin cfg4.N) :
    (dat4 (F := Ideal) V c).flushed 6 t = ((cfg4.win 6).blk t).view.read (Elt Ideal)
      (sageT (V c (Pipeline.arrRef spec4 0)) (V c (Pipeline.arrRef spec4 1)) (V c (Pipeline.arrRef spec4 2))
        (V c (Pipeline.arrRef spec4 3)) (V c (Pipeline.arrRef spec4 4)) (rowAt (V c (Pipeline.arrRef spec4 5)) 0)) := by
  refine (stored_eq V c t).trans (funext fun j => ?_)
  have hN : t.val < 25 := lt_of_lt_of_eq t.isLt N_4
  have hp : (j 0).val < 2000 := (j 0).isLt
  have hr : t.val * 2000 + (j 0).val < 50000 := by omega
  exact ((congrArg (k4_pay1 (F := Ideal) _ _ _ _ _ _)
      (eq_ix2 ((cfg4.win 6).xinj (grid4.coords t) j : S2000x128.Idx))).trans
    (pay_blk V c t _ _ ⟨t.val * 2000 + (j 0).val, hr⟩ rfl)).trans
    (congrArg (sageT _ _ _ _ _ _) (emb_out t j hr).symm)

/-! ## The 25 blocks cover the 50000 rows -/

/-- An index of the output array is in point `t`'s block iff each coordinate is in the block's range on its axis. -/
theorem mem_blk (t : Fin cfg4.N) (i : S50000x128.Idx) :
    i ∈ ((cfg4.win 6).blk t).view.set ↔ ∀ a : Fin 2, win4_6.index t a * S2000x128.size a ≤ (i a).val
      ∧ (i a).val < win4_6.index t a * S2000x128.size a + S2000x128.size a := by
  show i ∈ ((View.whole main_v96).slice (win4_6.rect t)).set ↔ _
  rw [View.set_slice_whole, Rect.mem_set_unit]
  exact Iff.rfl

/-- Row `r` of the output is in the block of point `r / 2000`. -/
theorem cover (i : S50000x128.Idx) :
    ∃ t : Fin cfg4.N, (cfg4.win 6).flush t = true ∧ i ∈ ((cfg4.win 6).blk t).view.set := by
  have hi0 : (i 0).val < 50000 := (i 0).isLt
  have hi1 : (i 1).val < 128 := (i 1).isLt
  obtain ⟨t, ht⟩ : ∃ t : Fin cfg4.N, t.val = (i 0).val / 2000 :=
    ⟨⟨(i 0).val / 2000, lt_of_lt_of_eq (show (i 0).val / 2000 < 25 by omega) N_4.symm⟩, rfl⟩
  obtain ⟨e0, e1, -⟩ := idx_facts t
  refine ⟨t, flush4_6 t, ?_⟩
  rw [mem_blk]
  intro a
  match a with
  | ⟨0, _⟩ =>
    show win4_6.index t (0 : Fin 2) * 2000 ≤ (i 0).val ∧ (i 0).val < win4_6.index t (0 : Fin 2) * 2000 + 2000
    omega
  | ⟨1, _⟩ =>
    show win4_6.index t (1 : Fin 2) * 128 ≤ (i 1).val ∧ (i 1).val < win4_6.index t (1 : Fin 2) * 128 + 128
    omega

/-! ## The region's output array -/

/-- THE OUTPUT ARRAY AFTER THE REGION is the layer's table of the six arrays the region finds: node table, summed
    neighbour rows, clamped edge counts, the two weight matrices and the bias row. -/
theorem sage_arr (c : Dev nD) :
    (dat4 (F := Ideal) V c).arrAt 6 cfg4.N
      = sageT (V c (Pipeline.arrRef spec4 0)) (V c (Pipeline.arrRef spec4 1)) (V c (Pipeline.arrRef spec4 2))
        (V c (Pipeline.arrRef spec4 3)) (V c (Pipeline.arrRef spec4 4)) (rowAt (V c (Pipeline.arrRef spec4 5)) 0) :=
  (dat4 (F := Ideal) V c).arrAt_eq_of_cover 6 _ (fun t _ => flushed_eq V c t) cover

end Region

end Cert.KVal.Sage4

end
-- ==== Proof.KMlp.lean ====
/-
  THE EDGE READ-OUT REGION'S VALUE, AS A WHOLE TABLE.

  The region walks the 800000 edges in 160 blocks of 5000. At each block it takes the block of source rows and the
  block of target rows, multiplies them by the two halves of the first weight matrix, adds the two products and the
  bias row, takes the maximum with zero, and passes the result through two more affine layers, the maximum with zero
  between them; it writes the block of two-channel results back. Row by row this is `mlpRow`; block `t` of the two
  row tables is rows `5000 t … 5000 t + 4999`, the weights and biases are read whole at every block, and the 160 output
  blocks tile the output, which therefore ends as `mlpT` of the region's nine inputs as the region finds them.
-/
import proofs.«141839_j76785425318033_2_alg».proof.Proof.Gen.KernelIdeal.Frame
import proofs.«141839_j76785425318033_2_alg».proof.Proof.Spec

noncomputable section

open scoped BigOperators

namespace Cert.KVal.Mlp

open Idealize.ShloMosaic Idealize.ShloMosaic.ValueIdx Idealize.ShloMosaic.TcCoe Cert.Rows Cert.Net
open Cert.KernelIdeal Cert.KernelIdeal.Gen
open Idealize.ShloMosaic.Pipeline (Dat)

/-! ## The body's result at a row -/

/-- Row `p` of the last product: the third layer's product of the twice-rectified affine images of the two rows. -/
theorem hidden_row (hs hd : FVec Ideal S5000x128 .bf16) (W0s W0d : Vec Ideal S128x128 .f32) (b0 : Vec Ideal S1x128 .f32)
    (W1 : Vec Ideal S128x64 .f32) (b1 : Vec Ideal S1x64 .f32) (W2 : Vec Ideal S64x2 .f32) (p : Fin 5000) :
    rowAt (k5_pay2 hs hd W0s W0d b0 W1 b1 W2) p
      = mv (relu fun a => mv (relu fun i => mv (rowAt hs p) W0s i + mv (rowAt hd p) W0d i + rowAt b0 0 i) W1 a + rowAt b1 0 a) W2 := by
  unfold k5_pay2
  simp only [shapeCast_self]
  rw [rowAt_matmul dot_S5000x64_S64x2_S5000x2_1_0_0_1_n_n rfl, rowAt_truncf, rowAt_relu, rowAt_addf, rowAt_broadcastRow,
    rowAt_matmul dot_S5000x128_S128x64_S5000x64_1_0_0_1_n_n rfl, rowAt_truncf, rowAt_relu, rowAt_addf, rowAt_broadcastRow,
    rowAt_addf, rowAt_matmul dot_S5000x128_S128x128_S5000x128_1_0_0_1_n_n rfl,
    rowAt_matmul dot_S5000x128_S128x128_S5000x128_1_0_0_1_n_n rfl]
  rfl

/-- Row `p` of the block the body stores: the read-out of row `p` of the source block and row `p` of the target block. -/
theorem pay_row (hs hd : FVec Ideal S5000x128 .bf16) (W0s W0d : Vec Ideal S128x128 .f32) (b0 : Vec Ideal S1x128 .f32)
    (W1 : Vec Ideal S128x64 .f32) (b1 : Vec Ideal S1x64 .f32) (W2 : Vec Ideal S64x2 .f32) (b2 : Vec Ideal S1x2 .f32) (p : Fin 5000) :
    rowAt (k5_pay1 (k5_pay2 hs hd W0s W0d b0 W1 b1 W2) (k5_pay3 b2)) p
      = mlpRow (rowAt hs p) (rowAt hd p) W0s W0d (rowAt b0 0) W1 (rowAt b1 0) W2 (rowAt b2 0) := by
  unfold k5_pay1 k5_pay3
  rw [rowAt_addf, rowAt_broadcastRow, shapeCast_self, hidden_row]
  rfl

/-! ## The blocks of the region's arrays -/

-- the region's arrays when it is entered
variable (V : (c : Dev nD) → (b : Ref sig .tc) → Buf (Elt Ideal) ((c : Thread nD τ).loc b))

theorem zeros : (![0, 0] : Fin 2 → Nat) = fun _ => 0 := funext fun a => by fin_cases a <;> rfl

/-- The block indices over the grid: the two row tables and the output move with the point along the rows; the
    weights and the biases stay at their one block. -/
theorem block_index : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = 0 ∧ win5_8.index t (1 : Fin 2) = 0
    ∧ win5_9.index t (0 : Fin 2) = t.val ∧ win5_9.index t (1 : Fin 2) = 0 :=
  (by decide +kernel : ∀ t : Fin grid5.N, _)

/-- Row `p` of the source block at point `t` is row `5000 t + p` of the source rows. -/
theorem src_block (c : Dev nD) (t : Fin cfg5.N) (p : Fin 5000) (h : t.val * 5000 + p.val < 800000) :
    rowAt (iblk5 V c 0 t : FVec Ideal S5000x128 .bf16) p
      = rowAt (V c (Pipeline.arrRef spec5 0) : Tbl 800000 128) ⟨t.val * 5000 + p.val, h⟩ := by
  have e := block_index t
  funext k
  show (V c (Pipeline.arrRef spec5 0) : Tbl 800000 128) (((cfg5.win 0).blk t).view.emb (ix2 p k))
    = (V c (Pipeline.arrRef spec5 0) : Tbl 800000 128) (ix2 ⟨t.val * 5000 + p.val, h⟩ k)
  refine congrArg _ (funext fun a => Fin.ext ?_)
  match a with
  | ⟨0, _⟩ => show win5_0.index t (0 : Fin 2) * 5000 + 1 * p.val = t.val * 5000 + p.val; omega
  | ⟨1, _⟩ => show win5_0.index t (1 : Fin 2) * 128 + 1 * k.val = k.val; omega

/-- Row `p` of the target block at point `t` is row `5000 t + p` of the target rows. -/
theorem dst_block (c : Dev nD) (t : Fin cfg5.N) (p : Fin 5000) (h : t.val * 5000 + p.val < 800000) :
    rowAt (iblk5 V c 1 t : FVec Ideal S5000x128 .bf16) p
      = rowAt (V c (Pipeline.arrRef spec5 1) : Tbl 800000 128) ⟨t.val * 5000 + p.val, h⟩ := by
  have e := block_index t
  funext k
  show (V c (Pipeline.arrRef spec5 1) : Tbl 800000 128) (((cfg5.win 1).blk t).view.emb (ix2 p k))
    = (V c (Pipeline.arrRef spec5 1) : Tbl 800000 128) (ix2 ⟨t.val * 5000 + p.val, h⟩ k)
  refine congrArg _ (funext fun a => Fin.ext ?_)
  match a with
  | ⟨0, _⟩ => show win5_1.index t (0 : Fin 2) * 5000 + 1 * p.val = t.val * 5000 + p.val; omega
  | ⟨1, _⟩ => show win5_1.index t (1 : Fin 2) * 128 + 1 * k.val = k.val; omega

/-! Each weight matrix and bias row is read whole at every point. -/

theorem whole_2 (c : Dev nD) (t : Fin cfg5.N) :
    (iblk5 V c 2 t : Vec Ideal S128x128 .f32) = (V c (Pipeline.arrRef spec5 2) : Tbl 128 128) := by
  have e := block_index t
  funext j
  show (V c (Pipeline.arrRef spec5 2) : Tbl 128 128) (((cfg5.win 2).blk t).view.emb j) = (V c (Pipeline.arrRef spec5 2) : Tbl 128 128) j
  refine congrArg _ (funext fun a => Fin.ext ?_)
  match a with
  | ⟨0, _⟩ => show win5_2.index t (0 : Fin 2) * 128 + 1 * (j 0).val = (j 0).val; omega
  | ⟨1, _⟩ => show win5_2.index t (1 : Fin 2) * 128 + 1 * (j 1).val = (j 1).val; omega

theorem whole_3 (c : Dev nD) (t : Fin cfg5.N) :
    (iblk5 V c 3 t : Vec Ideal S128x128 .f32) = (V c (Pipeline.arrRef spec5 3) : Tbl 128 128) := by
  have e := block_index t
  funext j
  show (V c (Pipeline.arrRef spec5 3) : Tbl 128 128) (((cfg5.win 3).blk t).view.emb j) = (V c (Pipeline.arrRef spec5 3) : Tbl 128 128) j
  refine congrArg _ (funext fun a => Fin.ext ?_)
  match a with
  | ⟨0, _⟩ => show win5_3.index t (0 : Fin 2) * 128 + 1 * (j 0).val = (j 0).val; omega
  | ⟨1, _⟩ => show win5_3.index t (1 : Fin 2) * 128 + 1 * (j 1).val = (j 1).val; omega

theorem whole_4 (c : Dev nD) (t : Fin cfg5.N) :
    (iblk5 V c 4 t : Vec Ideal S1x128 .f32) = (V c (Pipeline.arrRef spec5 4) : Tbl 1 128) := by
  have e := block_index t
  funext j
  show (V c (Pipeline.arrRef spec5 4) : Tbl 1 128) (((cfg5.win 4).blk t).view.emb j) = (V c (Pipeline.arrRef spec5 4) : Tbl 1 128) j
  refine congrArg _ (funext fun a => Fin.ext ?_)
  match a with
  | ⟨0, _⟩ => show win5_4.index t (0 : Fin 2) * 1 + 1 * (j 0).val = (j 0).val; omega
  | ⟨1, _⟩ => show win5_4.index t (1 : Fin 2) * 128 + 1 * (j 1).val = (j 1).val; omega

theorem whole_5 (c : Dev nD) (t : Fin cfg5.N) :
    (iblk5 V c 5 t : Vec Ideal S128x64 .f32) = (V c (Pipeline.arrRef spec5 5) : Tbl 128 64) := by
  have e := block_index t
  funext j
  show (V c (Pipeline.arrRef spec5 5) : Tbl 128 64) (((cfg5.win 5).blk t).view.emb j) = (V c (Pipeline.arrRef spec5 5) : Tbl 128 64) j
  refine congrArg _ (funext fun a => Fin.ext ?_)
  match a with
  | ⟨0, _⟩ => show win5_5.index t (0 : Fin 2) * 128 + 1 * (j 0).val = (j 0).val; omega
  | ⟨1, _⟩ => show win5_5.index t (1 : Fin 2) * 64 + 1 * (j 1).val = (j 1).val; omega

theorem whole_6 (c : Dev nD) (t : Fin cfg5.N) :
    (iblk5 V c 6 t : Vec Ideal S1x64 .f32) = (V c (Pipeline.arrRef spec5 6) : Tbl 1 64) := by
  have e := block_index t
  funext j
  show (V c (Pipeline.arrRef spec5 6) : Tbl 1 64) (((cfg5.win 6).blk t).view.emb j) = (V c (Pipeline.arrRef spec5 6) : Tbl 1 64) j
  refine congrArg _ (funext fun a => Fin.ext ?_)
  match a with
  | ⟨0, _⟩ => show win5_6.index t (0 : Fin 2) * 1 + 1 * (j 0).val = (j 0).val; omega
  | ⟨1, _⟩ => show win5_6.index t (1 : Fin 2) * 64 + 1 * (j 1).val = (j 1).val; omega

theorem whole_7 (c : Dev nD) (t : Fin cfg5.N) :
    (iblk5 V c 7 t : Vec Ideal S64x2 .f32) = (V c (Pipeline.arrRef spec5 7) : Tbl 64 2) := by
  have e := block_index t
  funext j
  show (V c (Pipeline.arrRef spec5 7) : Tbl 64 2) (((cfg5.win 7).blk t).view.emb j) = (V c (Pipeline.arrRef spec5 7) : Tbl 64 2) j
  refine congrArg _ (funext fun a => Fin.ext ?_)
  match a with
  | ⟨0, _⟩ => show win5_7.index t (0 : Fin 2) * 64 + 1 * (j 0).val = (j 0).val; omega
  | ⟨1, _⟩ => show win5_7.index t (1 : Fin 2) * 2 + 1 * (j 1).val = (j 1).val; omega

theorem whole_8 (c : Dev nD) (t : Fin cfg5.N) :
    (iblk5 V c 8 t : Vec Ideal S1x2 .f32) = (V c (Pipeline.arrRef spec5 8) : Tbl 1 2) := by
  have e := block_index t
  funext j
  show (V c (Pipeline.arrRef spec5 8) : Tbl 1 2) (((cfg5.win 8).blk t).view.emb j) = (V c (Pipeline.arrRef spec5 8) : Tbl 1 2) j
  refine congrArg _ (funext fun a => Fin.ext ?_)
  match a with
  | ⟨0, _⟩ => show win5_8.index t (0 : Fin 2) * 1 + 1 * (j 0).val = (j 0).val; omega
  | ⟨1, _⟩ => show win5_8.index t (1 : Fin 2) * 2 + 1 * (j 1).val = (j 1).val; omega

/-! ## What a point writes back -/

/-- The table of read-outs of the region's inputs. -/
abbrev result (c : Dev nD) : Tbl 800000 2 :=
  mlpT (V c (Pipeline.arrRef spec5 0)) (V c (Pipeline.arrRef spec5 1)) (V c (Pipeline.arrRef spec5 2)) (V c (Pipeline.arrRef spec5 3))
    (rowAt (V c (Pipeline.arrRef spec5 4) : Tbl 1 128) 0) (V c (Pipeline.arrRef spec5 5))
    (rowAt (V c (Pipeline.arrRef spec5 6) : Tbl 1 64) 0) (V c (Pipeline.arrRef spec5 7))
    (rowAt (V c (Pipeline.arrRef spec5 8) : Tbl 1 2) 0)

/-- What point `t` leaves to be written back: the body's result of the nine blocks at `t`. -/
theorem stored_eq (c : Dev nD) (t : Fin cfg5.N) :
    (dat5 (F := Ideal) V c).flushed 9 t
      = k5_pay1 (k5_pay2 (iblk5 V c 0 t) (iblk5 V c 1 t) (iblk5 V c 2 t) (iblk5 V c 3 t) (iblk5 V c 4 t)
          (iblk5 V c 5 t) (iblk5 V c 6 t) (iblk5 V c 7 t)) (k5_pay3 (iblk5 V c 8 t)) := by
  show (cfg5.win 9).cut (grid5.coords t) ((dat5 V c).after 9 t) = _
  rw [after5_9]
  unfold out5_9
  rw [View.canon_unit_zero zeros]
  simp only [View.ld_unit_zero (S := S5000x128) zeros, View.ld_unit_zero (S := S128x128) zeros,
    View.ld_unit_zero (S := S1x128) zeros, View.ld_unit_zero (S := S128x64) zeros, View.ld_unit_zero (S := S1x64) zeros,
    View.ld_unit_zero (S := S64x2) zeros, View.ld_unit_zero (S := S1x2) zeros]
  rfl

/-- The read-out of edge `5000 t + p`, from the region's arrays. -/
abbrev rowOf (c : Dev nD) (t : Fin cfg5.N) (p : Fin 5000) (h : t.val * 5000 + p.val < 800000) : Fin 2 → EReal :=
  mlpRow (rowAt (V c (Pipeline.arrRef spec5 0) : Tbl 800000 128) ⟨t.val * 5000 + p.val, h⟩)
    (rowAt (V c (Pipeline.arrRef spec5 1) : Tbl 800000 128) ⟨t.val * 5000 + p.val, h⟩)
    (V c (Pipeline.arrRef spec5 2)) (V c (Pipeline.arrRef spec5 3)) (rowAt (V c (Pipeline.arrRef spec5 4) : Tbl 1 128) 0)
    (V c (Pipeline.arrRef spec5 5)) (rowAt (V c (Pipeline.arrRef spec5 6) : Tbl 1 64) 0) (V c (Pipeline.arrRef spec5 7))
    (rowAt (V c (Pipeline.arrRef spec5 8) : Tbl 1 2) 0)

/-- Row `p` of what point `t` stores is the read-out of edge `5000 t + p`. -/
theorem stored_row (c : Dev nD) (t : Fin cfg5.N) (p : Fin 5000) (h : t.val * 5000 + p.val < 800000) :
    rowAt (k5_pay1 (k5_pay2 (iblk5 V c 0 t) (iblk5 V c 1 t) (iblk5 V c 2 t) (iblk5 V c 3 t) (iblk5 V c 4 t)
          (iblk5 V c 5 t) (iblk5 V c 6 t) (iblk5 V c 7 t)) (k5_pay3 (iblk5 V c 8 t))) p = rowOf V c t p h := by
  rw [pay_row, src_block V c t p h, dst_block V c t p h,
    whole_2 V c t, whole_3 V c t, whole_4 V c t, whole_5 V c t, whole_6 V c t, whole_7 V c t, whole_8 V c t]

/-- Row `p` of block `t` of the table of read-outs is the read-out of edge `5000 t + p`. -/
theorem result_row (c : Dev nD) (t : Fin cfg5.N) (p : Fin 5000) (q : Fin 2) (h : t.val * 5000 + p.val < 800000) :
    ((cfg5.win 9).blk t).view.read (Elt Ideal) (result V c) (ix2 p q) = rowOf V c t p h q := by
  have e := block_index t
  have hj : ((cfg5.win 9).blk t).view.emb (ix2 p q)
      = (ix2 (⟨t.val * 5000 + p.val, h⟩ : Fin 800000) q : (⟨2, ![800000, 2]⟩ : Shape).Idx) :=
    funext fun a => Fin.ext (by
      match a with
      | ⟨0, _⟩ => show win5_9.index t (0 : Fin 2) * 5000 + 1 * p.val = t.val * 5000 + p.val; omega
      | ⟨1, _⟩ => show win5_9.index t (1 : Fin 2) * 2 + 1 * q.val = q.val; omega)
  show result V c (((cfg5.win 9).blk t).view.emb (ix2 p q)) = _
  rw [hj]
  rfl

/-- Point `t` writes back block `t` of the table of read-outs. -/
theorem flushed_eq (c : Dev nD) (t : Fin cfg5.N) :
    (dat5 (F := Ideal) V c).flushed 9 t = ((cfg5.win 9).blk t).view.read (Elt Ideal) (result V c) := by
  have ht : t.val < 160 := lt_of_lt_of_eq t.isLt N_5
  rw [stored_eq]
  refine (eq_ofRows (n := 5000) (m := 2) _ (fun p => rowOf V c t p (by have := p.isLt; omega)) fun p q => ?_).trans
    (eq_ofRows (n := 5000) (m := 2) _ _ fun p q => ?_).symm
  · exact congrFun (stored_row V c t p _) q
  · exact result_row V c t p q _

/-! ## The blocks tile the output -/

/-- A row is in point `t`'s block iff it lies in the block's range on each axis. -/
theorem mem_block (t : Fin cfg5.N) (i : S800000x2.Idx) :
    i ∈ ((cfg5.win 9).blk t).view.set ↔ ∀ a : Fin 2, win5_9.index t a * S5000x2.size a ≤ (i a).val
      ∧ (i a).val < win5_9.index t a * S5000x2.size a + S5000x2.size a := by
  show i ∈ ((View.whole main_v117).slice (win5_9.rect t)).set ↔ _
  rw [View.set_slice_whole, Rect.mem_set_unit]
  exact Iff.rfl

/-- Row `r` of the output is in the block of point `r / 5000`. -/
theorem covered (i : S800000x2.Idx) :
    ∃ t : Fin cfg5.N, (cfg5.win 9).flush t = true ∧ i ∈ ((cfg5.win 9).blk t).view.set := by
  have hi0 : (i 0).val < 800000 := (i 0).isLt
  have hi1 : (i 1).val < 2 := (i 1).isLt
  have hN : cfg5.N = 160 := N_5
  obtain ⟨t, ht⟩ : ∃ t : Fin cfg5.N, t.val = (i 0).val / 5000 := ⟨⟨(i 0).val / 5000, by rw [hN]; omega⟩, rfl⟩
  have e := block_index t
  refine ⟨t, flush5_9 t, ?_⟩
  rw [mem_block]
  intro a
  match a with
  | ⟨0, _⟩ =>
    show win5_9.index t (0 : Fin 2) * 5000 ≤ (i 0).val ∧ (i 0).val < win5_9.index t (0 : Fin 2) * 5000 + 5000
    omega
  | ⟨1, _⟩ =>
    show win5_9.index t (1 : Fin 2) * 2 ≤ (i 1).val ∧ (i 1).val < win5_9.index t (1 : Fin 2) * 2 + 2
    omega

/-! ## The output after the region -/

/-- After the region the output is the table of read-outs of the region's inputs. -/
theorem mlp_arr (c : Dev nD) : (dat5 (F := Ideal) V c).arrAt 9 cfg5.N
    = mlpT (V c (Pipeline.arrRef spec5 0)) (V c (Pipeline.arrRef spec5 1)) (V c (Pipeline.arrRef spec5 2)) (V c (Pipeline.arrRef spec5 3))
        (rowAt (V c (Pipeline.arrRef spec5 4) : Tbl 1 128) 0) (V c (Pipeline.arrRef spec5 5))
        (rowAt (V c (Pipeline.arrRef spec5 6) : Tbl 1 64) 0) (V c (Pipeline.arrRef spec5 7))
        (rowAt (V c (Pipeline.arrRef spec5 8) : Tbl 1 2) 0) :=
  (dat5 (F := Ideal) V c).arrAt_eq_of_cover 9 (result V c) (fun t _ => flushed_eq V c t) covered

end Cert.KVal.Mlp

end
-- ==== Proof.KChain.lean ====
/-
  THE KERNEL'S RESULT AS A FUNCTION OF ITS ARGUMENTS: the walk.

  Walking the kernel program's segments from the launch: the first region leaves the embedding `H0`; each of the four
  layer regions leaves `layer l` of the table before it; the last region leaves the read-out. Between regions the
  arguments, the sorted edge lists, the degree column and the halves of the stacked weights stay what they were: no
  later segment writes them. Each lemma says what one live buffer holds at one region's exit.
-/
import proofs.«141839_j76785425318033_2_alg».proof.Proof.KDefs
import proofs.«141839_j76785425318033_2_alg».proof.Proof.KWeights
import proofs.«141839_j76785425318033_2_alg».proof.Proof.KGlue2
import proofs.«141839_j76785425318033_2_alg».proof.Proof.KGlue3
import proofs.«141839_j76785425318033_2_alg».proof.Proof.KGlue4
import proofs.«141839_j76785425318033_2_alg».proof.Proof.KEmbed
import proofs.«141839_j76785425318033_2_alg».proof.Proof.KSage1
import proofs.«141839_j76785425318033_2_alg».proof.Proof.KSage2
import proofs.«141839_j76785425318033_2_alg».proof.Proof.KSage3
import proofs.«141839_j76785425318033_2_alg».proof.Proof.KSage4
import proofs.«141839_j76785425318033_2_alg».proof.Proof.KMlp

set_option maxRecDepth 16384

noncomputable section

namespace Cert.KChain

open Idealize.ShloMosaic Idealize.ShloMosaic.TcCoe Idealize.ShloMosaic.StableHlo Idealize.ShloMosaic.ValueIdx Idealize.SL.Sem
open Cert.KernelIdeal Cert.KernelIdeal.Gen Cert.Rows Cert.Net Cert.KGlue

variable (m : (ℓ : Loc nD τ sig) → Buf (Elt Ideal) ℓ) (ρ : Dev nD → PrngReg) (c : Dev nD)

/-- The sorted edge numbers, as the sort leaves them. -/
abbrev pK : IV := W3 m ρ c (Proc.devRef .tc main_v2)

/-! ## Up to the first region's exit -/
theorem W1_a0 : W1 m ρ c (Proc.devRef .tc main_arg0) = (arg m c main_arg0) := by
  show StableHlo.after (hostOps0 (F := Ideal)) (W0 m ρ c) _ = _
  after_results_simp <;> rfl
theorem W1_a5 : W1 m ρ c (Proc.devRef .tc main_arg5) = (arg m c main_arg5) := by
  show StableHlo.after (hostOps0 (F := Ideal)) (W0 m ρ c) _ = _
  after_results_simp <;> rfl
theorem W1_a1 : W1 m ρ c (Proc.devRef .tc main_arg1) = (arg m c main_arg1) := by
  show StableHlo.after (hostOps0 (F := Ideal)) (W0 m ρ c) _ = _
  after_results_simp <;> rfl
theorem W1_a2 : W1 m ρ c (Proc.devRef .tc main_arg2) = (arg m c main_arg2) := by
  show StableHlo.after (hostOps0 (F := Ideal)) (W0 m ρ c) _ = _
  after_results_simp <;> rfl
theorem W1_a7 : W1 m ρ c (Proc.devRef .tc main_arg7) = (arg m c main_arg7) := by
  show StableHlo.after (hostOps0 (F := Ideal)) (W0 m ρ c) _ = _
  after_results_simp <;> rfl
theorem W1_a8 : W1 m ρ c (Proc.devRef .tc main_arg8) = (arg m c main_arg8) := by
  show StableHlo.after (hostOps0 (F := Ideal)) (W0 m ρ c) _ = _
  after_results_simp <;> rfl
theorem W1_a9 : W1 m ρ c (Proc.devRef .tc main_arg9) = (arg m c main_arg9) := by
  show StableHlo.after (hostOps0 (F := Ideal)) (W0 m ρ c) _ = _
  after_results_simp <;> rfl
theorem W1_a10 : W1 m ρ c (Proc.devRef .tc main_arg10) = (arg m c main_arg10) := by
  show StableHlo.after (hostOps0 (F := Ideal)) (W0 m ρ c) _ = _
  after_results_simp <;> rfl
theorem W1_a11 : W1 m ρ c (Proc.devRef .tc main_arg11) = (arg m c main_arg11) := by
  show StableHlo.after (hostOps0 (F := Ideal)) (W0 m ρ c) _ = _
  after_results_simp <;> rfl
theorem W1_a12 : W1 m ρ c (Proc.devRef .tc main_arg12) = (arg m c main_arg12) := by
  show StableHlo.after (hostOps0 (F := Ideal)) (W0 m ρ c) _ = _
  after_results_simp <;> rfl
theorem W1_a13 : W1 m ρ c (Proc.devRef .tc main_arg13) = (arg m c main_arg13) := by
  show StableHlo.after (hostOps0 (F := Ideal)) (W0 m ρ c) _ = _
  after_results_simp <;> rfl
theorem W1_a14 : W1 m ρ c (Proc.devRef .tc main_arg14) = (arg m c main_arg14) := by
  show StableHlo.after (hostOps0 (F := Ideal)) (W0 m ρ c) _ = _
  after_results_simp <;> rfl
theorem W1_b : rowAt (W1 m ρ c (Proc.devRef .tc main_v0) : Tbl 1 128) 0 = vecOf (arg m c main_arg6) := by
  refine Eq.trans (congrArg (fun X : Tbl 1 128 => rowAt X 0)
    (by show StableHlo.after (hostOps0 (F := Ideal)) (W0 m ρ c) _ = _; after_results_simp <;> rfl))
    (KWeights.row_of_vec (arg m c main_arg6) shapeCasts_S128_S1x128)
theorem W2_a1 : W2 m ρ c (Proc.devRef .tc main_arg1) = (arg m c main_arg1) :=
  (W2_of_ne m ρ c main_arg1 (by decide)).trans (W1_a1 m ρ c)
theorem W2_a2 : W2 m ρ c (Proc.devRef .tc main_arg2) = (arg m c main_arg2) :=
  (W2_of_ne m ρ c main_arg2 (by decide)).trans (W1_a2 m ρ c)
theorem W2_a7 : W2 m ρ c (Proc.devRef .tc main_arg7) = (arg m c main_arg7) :=
  (W2_of_ne m ρ c main_arg7 (by decide)).trans (W1_a7 m ρ c)
theorem W2_a8 : W2 m ρ c (Proc.devRef .tc main_arg8) = (arg m c main_arg8) :=
  (W2_of_ne m ρ c main_arg8 (by decide)).trans (W1_a8 m ρ c)
theorem W2_a9 : W2 m ρ c (Proc.devRef .tc main_arg9) = (arg m c main_arg9) :=
  (W2_of_ne m ρ c main_arg9 (by decide)).trans (W1_a9 m ρ c)
theorem W2_a10 : W2 m ρ c (Proc.devRef .tc main_arg10) = (arg m c main_arg10) :=
  (W2_of_ne m ρ c main_arg10 (by decide)).trans (W1_a10 m ρ c)
theorem W2_a11 : W2 m ρ c (Proc.devRef .tc main_arg11) = (arg m c main_arg11) :=
  (W2_of_ne m ρ c main_arg11 (by decide)).trans (W1_a11 m ρ c)
theorem W2_a12 : W2 m ρ c (Proc.devRef .tc main_arg12) = (arg m c main_arg12) :=
  (W2_of_ne m ρ c main_arg12 (by decide)).trans (W1_a12 m ρ c)
theorem W2_a13 : W2 m ρ c (Proc.devRef .tc main_arg13) = (arg m c main_arg13) :=
  (W2_of_ne m ρ c main_arg13 (by decide)).trans (W1_a13 m ρ c)
theorem W2_a14 : W2 m ρ c (Proc.devRef .tc main_arg14) = (arg m c main_arg14) :=
  (W2_of_ne m ρ c main_arg14 (by decide)).trans (W1_a14 m ρ c)
theorem W2_h : W2 m ρ c (Proc.devRef .tc main_v1) = H0 m c :=
  (W2_arr m ρ c 3).trans ((Cert.KVal.Embed.embed_arr (V1 m ρ) c).trans
    (embedT_congr (W1_a0 m ρ c) (W1_a5 m ρ c) (W1_b m ρ c)))

/-! ## After the sort -/
theorem W3_a1 : W3 m ρ c (Proc.devRef .tc main_arg1) = (arg m c main_arg1) :=
  (s0_keep_main_arg1 (W2 m ρ c)).trans (W2_a1 m ρ c)
theorem W3_a2 : W3 m ρ c (Proc.devRef .tc main_arg2) = (arg m c main_arg2) :=
  (s0_keep_main_arg2 (W2 m ρ c)).trans (W2_a2 m ρ c)
theorem W3_a7 : W3 m ρ c (Proc.devRef .tc main_arg7) = (arg m c main_arg7) :=
  (s0_keep_main_arg7 (W2 m ρ c)).trans (W2_a7 m ρ c)
theorem W3_a8 : W3 m ρ c (Proc.devRef .tc main_arg8) = (arg m c main_arg8) :=
  (s0_keep_main_arg8 (W2 m ρ c)).trans (W2_a8 m ρ c)
theorem W3_a9 : W3 m ρ c (Proc.devRef .tc main_arg9) = (arg m c main_arg9) :=
  (s0_keep_main_arg9 (W2 m ρ c)).trans (W2_a9 m ρ c)
theorem W3_a10 : W3 m ρ c (Proc.devRef .tc main_arg10) = (arg m c main_arg10) :=
  (s0_keep_main_arg10 (W2 m ρ c)).trans (W2_a10 m ρ c)
theorem W3_a11 : W3 m ρ c (Proc.devRef .tc main_arg11) = (arg m c main_arg11) :=
  (s0_keep_main_arg11 (W2 m ρ c)).trans (W2_a11 m ρ c)
theorem W3_a12 : W3 m ρ c (Proc.devRef .tc main_arg12) = (arg m c main_arg12) :=
  (s0_keep_main_arg12 (W2 m ρ c)).trans (W2_a12 m ρ c)
theorem W3_a13 : W3 m ρ c (Proc.devRef .tc main_arg13) = (arg m c main_arg13) :=
  (s0_keep_main_arg13 (W2 m ρ c)).trans (W2_a13 m ρ c)
theorem W3_a14 : W3 m ρ c (Proc.devRef .tc main_arg14) = (arg m c main_arg14) :=
  (s0_keep_main_arg14 (W2 m ρ c)).trans (W2_a14 m ρ c)
theorem W3_h : W3 m ρ c (Proc.devRef .tc main_v1) = H0 m c := (s0_keep_main_v1 (W2 m ρ c)).trans (W2_h m ρ c)

/-! ## The exit of layer 0's region -/
theorem W5_a1 : W5 m ρ c (Proc.devRef .tc main_arg1) = (arg m c main_arg1) :=
  (W5_of_ne m ρ c main_arg1 (by decide)).trans ((s1_keep_main_arg1 (W3 m ρ c)).trans (W3_a1 m ρ c))
theorem W5_a2 : W5 m ρ c (Proc.devRef .tc main_arg2) = (arg m c main_arg2) :=
  (W5_of_ne m ρ c main_arg2 (by decide)).trans ((s1_keep_main_arg2 (W3 m ρ c)).trans (W3_a2 m ρ c))
theorem W5_a7 : W5 m ρ c (Proc.devRef .tc main_arg7) = (arg m c main_arg7) :=
  (W5_of_ne m ρ c main_arg7 (by decide)).trans ((s1_keep_main_arg7 (W3 m ρ c)).trans (W3_a7 m ρ c))
theorem W5_a8 : W5 m ρ c (Proc.devRef .tc main_arg8) = (arg m c main_arg8) :=
  (W5_of_ne m ρ c main_arg8 (by decide)).trans ((s1_keep_main_arg8 (W3 m ρ c)).trans (W3_a8 m ρ c))
theorem W5_a9 : W5 m ρ c (Proc.devRef .tc main_arg9) = (arg m c main_arg9) :=
  (W5_of_ne m ρ c main_arg9 (by decide)).trans ((s1_keep_main_arg9 (W3 m ρ c)).trans (W3_a9 m ρ c))
theorem W5_a10 : W5 m ρ c (Proc.devRef .tc main_arg10) = (arg m c main_arg10) :=
  (W5_of_ne m ρ c main_arg10 (by decide)).trans ((s1_keep_main_arg10 (W3 m ρ c)).trans (W3_a10 m ρ c))
theorem W5_a11 : W5 m ρ c (Proc.devRef .tc main_arg11) = (arg m c main_arg11) :=
  (W5_of_ne m ρ c main_arg11 (by decide)).trans ((s1_keep_main_arg11 (W3 m ρ c)).trans (W3_a11 m ρ c))
theorem W5_a12 : W5 m ρ c (Proc.devRef .tc main_arg12) = (arg m c main_arg12) :=
  (W5_of_ne m ρ c main_arg12 (by decide)).trans ((s1_keep_main_arg12 (W3 m ρ c)).trans (W3_a12 m ρ c))
theorem W5_a13 : W5 m ρ c (Proc.devRef .tc main_arg13) = (arg m c main_arg13) :=
  (W5_of_ne m ρ c main_arg13 (by decide)).trans ((s1_keep_main_arg13 (W3 m ρ c)).trans (W3_a13 m ρ c))
theorem W5_a14 : W5 m ρ c (Proc.devRef .tc main_arg14) = (arg m c main_arg14) :=
  (W5_of_ne m ρ c main_arg14 (by decide)).trans ((s1_keep_main_arg14 (W3 m ρ c)).trans (W3_a14 m ρ c))
theorem W5_s9 : W5 m ρ c (Proc.devRef .tc main_v9) = sdst m c (pK m ρ c) :=
  (W5_of_ne m ρ c main_v9 (by decide)).trans ((s1_sdst (W3 m ρ c)).trans (by rw [W3_a2 m ρ c]))
theorem W5_s16 : W5 m ρ c (Proc.devRef .tc main_v16) = ssrc m c (pK m ρ c) :=
  (W5_of_ne m ρ c main_v16 (by decide)).trans ((s1_ssrc (W3 m ρ c)).trans (by rw [W3_a1 m ρ c]))
theorem W5_top : W5 m ρ c (Proc.devRef .tc main_v23) = topHalf (arg m c main_arg7) :=
  (W5_of_ne m ρ c main_v23 (by decide)).trans ((s1_top (W3 m ρ c)).trans (by rw [W3_a7 m ρ c]))
theorem W5_bot : W5 m ρ c (Proc.devRef .tc main_v24) = botHalf (arg m c main_arg7) :=
  (W5_of_ne m ρ c main_v24 (by decide)).trans ((s1_bot (W3 m ρ c)).trans (by rw [W3_a7 m ρ c]))
theorem E1_dg : W4 m ρ c (Proc.devRef .tc main_v22) = degOf (sdst m c (pK m ρ c)) :=
  (s1_deg (W3 m ρ c)).trans (by rw [W3_a2 m ρ c])
theorem W5_dg : W5 m ρ c (Proc.devRef .tc main_v22) = degOf (sdst m c (pK m ρ c)) :=
  ((W5_arr m ρ c 2).trans (((dat1 (V4 m ρ) c).arrAt_in 2 rfl _).trans (A_eq1 (V4 m ρ) c 2))).trans (E1_dg m ρ c)
theorem W5_h : W5 m ρ c (Proc.devRef .tc main_v42) = H1 m c (pK m ρ c) :=
  (W5_arr m ρ c 6).trans ((Cert.KVal.Sage1.sage_arr (V4 m ρ) c).trans
    (sageT_congr ((s1_keep_main_v1 (W3 m ρ c)).trans (W3_h m ρ c))
      ((s1_msum (W3 m ρ c)).trans (by rw [W3_h m ρ c, W3_a1 m ρ c, W3_a2 m ρ c]))
      (E1_dg m ρ c)
      ((s1_wh (W3 m ρ c)).trans (by rw [W3_a7 m ρ c]))
      ((s1_wc (W3 m ρ c)).trans (by rw [W3_a7 m ρ c]))
      ((s1_b (W3 m ρ c)).trans (by rw [W3_a8 m ρ c]))))

/-! ## The exit of layer 1's region -/
theorem W7_a1 : W7 m ρ c (Proc.devRef .tc main_arg1) = (arg m c main_arg1) :=
  (W7_of_ne m ρ c main_arg1 (by decide)).trans ((s2_keep_main_arg1 (W5 m ρ c)).trans (W5_a1 m ρ c))
theorem W7_a2 : W7 m ρ c (Proc.devRef .tc main_arg2) = (arg m c main_arg2) :=
  (W7_of_ne m ρ c main_arg2 (by decide)).trans ((s2_keep_main_arg2 (W5 m ρ c)).trans (W5_a2 m ρ c))
theorem W7_a7 : W7 m ρ c (Proc.devRef .tc main_arg7) = (arg m c main_arg7) :=
  (W7_of_ne m ρ c main_arg7 (by decide)).trans ((s2_keep_main_arg7 (W5 m ρ c)).trans (W5_a7 m ρ c))
theorem W7_a8 : W7 m ρ c (Proc.devRef .tc main_arg8) = (arg m c main_arg8) :=
  (W7_of_ne m ρ c main_arg8 (by decide)).trans ((s2_keep_main_arg8 (W5 m ρ c)).trans (W5_a8 m ρ c))
theorem W7_a9 : W7 m ρ c (Proc.devRef .tc main_arg9) = (arg m c main_arg9) :=
  (W7_of_ne m ρ c main_arg9 (by decide)).trans ((s2_keep_main_arg9 (W5 m ρ c)).trans (W5_a9 m ρ c))
theorem W7_a10 : W7 m ρ c (Proc.devRef .tc main_arg10) = (arg m c main_arg10) :=
  (W7_of_ne m ρ c main_arg10 (by decide)).trans ((s2_keep_main_arg10 (W5 m ρ c)).trans (W5_a10 m ρ c))
theorem W7_a11 : W7 m ρ c (Proc.devRef .tc main_arg11) = (arg m c main_arg11) :=
  (W7_of_ne m ρ c main_arg11 (by decide)).trans ((s2_keep_main_arg11 (W5 m ρ c)).trans (W5_a11 m ρ c))
theorem W7_a12 : W7 m ρ c (Proc.devRef .tc main_arg12) = (arg m c main_arg12) :=
  (W7_of_ne m ρ c main_arg12 (by decide)).trans ((s2_keep_main_arg12 (W5 m ρ c)).trans (W5_a12 m ρ c))
theorem W7_a13 : W7 m ρ c (Proc.devRef .tc main_arg13) = (arg m c main_arg13) :=
  (W7_of_ne m ρ c main_arg13 (by decide)).trans ((s2_keep_main_arg13 (W5 m ρ c)).trans (W5_a13 m ρ c))
theorem W7_a14 : W7 m ρ c (Proc.devRef .tc main_arg14) = (arg m c main_arg14) :=
  (W7_of_ne m ρ c main_arg14 (by decide)).trans ((s2_keep_main_arg14 (W5 m ρ c)).trans (W5_a14 m ρ c))
theorem W7_s9 : W7 m ρ c (Proc.devRef .tc main_v9) = sdst m c (pK m ρ c) :=
  (W7_of_ne m ρ c main_v9 (by decide)).trans ((s2_keep_main_v9 (W5 m ρ c)).trans (W5_s9 m ρ c))
theorem W7_s16 : W7 m ρ c (Proc.devRef .tc main_v16) = ssrc m c (pK m ρ c) :=
  (W7_of_ne m ρ c main_v16 (by decide)).trans ((s2_keep_main_v16 (W5 m ρ c)).trans (W5_s16 m ρ c))
theorem W7_top : W7 m ρ c (Proc.devRef .tc main_v23) = topHalf (arg m c main_arg7) :=
  (W7_of_ne m ρ c main_v23 (by decide)).trans ((s2_keep_main_v23 (W5 m ρ c)).trans (W5_top m ρ c))
theorem W7_bot : W7 m ρ c (Proc.devRef .tc main_v24) = botHalf (arg m c main_arg7) :=
  (W7_of_ne m ρ c main_v24 (by decide)).trans ((s2_keep_main_v24 (W5 m ρ c)).trans (W5_bot m ρ c))
theorem E2_dg : W6 m ρ c (Proc.devRef .tc main_v22) = degOf (sdst m c (pK m ρ c)) :=
  (s2_keep_main_v22 (W5 m ρ c)).trans (W5_dg m ρ c)
theorem W7_dg : W7 m ρ c (Proc.devRef .tc main_v22) = degOf (sdst m c (pK m ρ c)) :=
  ((W7_arr m ρ c 2).trans (((dat2 (V6 m ρ) c).arrAt_in 2 rfl _).trans (A_eq2 (V6 m ρ) c 2))).trans (E2_dg m ρ c)
theorem W7_h : W7 m ρ c (Proc.devRef .tc main_v60) = H2 m c (pK m ρ c) :=
  (W7_arr m ρ c 6).trans ((Cert.KVal.Sage2.sage_arr (V6 m ρ) c).trans
    (sageT_congr ((s2_keep_main_v42 (W5 m ρ c)).trans (W5_h m ρ c))
      ((s2_msum (W5 m ρ c)).trans (by rw [W5_h m ρ c, W5_s16 m ρ c, W5_s9 m ρ c]))
      (E2_dg m ρ c)
      ((s2_wh (W5 m ρ c)).trans (by rw [W5_top m ρ c]; exact KWeights.slab_rows (arg m c main_arg7) 1 0 (by omega) ![0, 0, 0] slices_S4x256x128_S4x128x128_0_0_0 rfl rfl rfl ![1, 0, 0] slices_S4x128x128_S1x128x128_1_0_0 rfl rfl rfl shapeCasts_S1x128x128_S128x128))
      ((s2_wc (W5 m ρ c)).trans (by rw [W5_bot m ρ c]; exact KWeights.slab_rows (arg m c main_arg7) 1 128 (by omega) ![0, 128, 0] slices_S4x256x128_S4x128x128_0_128_0 rfl rfl rfl ![1, 0, 0] slices_S4x128x128_S1x128x128_1_0_0 rfl rfl rfl shapeCasts_S1x128x128_S128x128))
      ((s2_b (W5 m ρ c)).trans (by rw [W5_a8 m ρ c]))))

/-! ## The exit of layer 2's region -/
theorem W9_a1 : W9 m ρ c (Proc.devRef .tc main_arg1) = (arg m c main_arg1) :=
  (W9_of_ne m ρ c main_arg1 (by decide)).trans ((s3_keep_main_arg1 (W7 m ρ c)).trans (W7_a1 m ρ c))
theorem W9_a2 : W9 m ρ c (Proc.devRef .tc main_arg2) = (arg m c main_arg2) :=
  (W9_of_ne m ρ c main_arg2 (by decide)).trans ((s3_keep_main_arg2 (W7 m ρ c)).trans (W7_a2 m ρ c))
theorem W9_a7 : W9 m ρ c (Proc.devRef .tc main_arg7) = (arg m c main_arg7) :=
  (W9_of_ne m ρ c main_arg7 (by decide)).trans ((s3_keep_main_arg7 (W7 m ρ c)).trans (W7_a7 m ρ c))
theorem W9_a8 : W9 m ρ c (Proc.devRef .tc main_arg8) = (arg m c main_arg8) :=
  (W9_of_ne m ρ c main_arg8 (by decide)).trans ((s3_keep_main_arg8 (W7 m ρ c)).trans (W7_a8 m ρ c))
theorem W9_a9 : W9 m ρ c (Proc.devRef .tc main_arg9) = (arg m c main_arg9) :=
  (W9_of_ne m ρ c main_arg9 (by decide)).trans ((s3_keep_main_arg9 (W7 m ρ c)).trans (W7_a9 m ρ c))
theorem W9_a10 : W9 m ρ c (Proc.devRef .tc main_arg10) = (arg m c main_arg10) :=
  (W9_of_ne m ρ c main_arg10 (by decide)).trans ((s3_keep_main_arg10 (W7 m ρ c)).trans (W7_a10 m ρ c))
theorem W9_a11 : W9 m ρ c (Proc.devRef .tc main_arg11) = (arg m c main_arg11) :=
  (W9_of_ne m ρ c main_arg11 (by decide)).trans ((s3_keep_main_arg11 (W7 m ρ c)).trans (W7_a11 m ρ c))
theorem W9_a12 : W9 m ρ c (Proc.devRef .tc main_arg12) = (arg m c main_arg12) :=
  (W9_of_ne m ρ c main_arg12 (by decide)).trans ((s3_keep_main_arg12 (W7 m ρ c)).trans (W7_a12 m ρ c))
theorem W9_a13 : W9 m ρ c (Proc.devRef .tc main_arg13) = (arg m c main_arg13) :=
  (W9_of_ne m ρ c main_arg13 (by decide)).trans ((s3_keep_main_arg13 (W7 m ρ c)).trans (W7_a13 m ρ c))
theorem W9_a14 : W9 m ρ c (Proc.devRef .tc main_arg14) = (arg m c main_arg14) :=
  (W9_of_ne m ρ c main_arg14 (by decide)).trans ((s3_keep_main_arg14 (W7 m ρ c)).trans (W7_a14 m ρ c))
theorem W9_s9 : W9 m ρ c (Proc.devRef .tc main_v9) = sdst m c (pK m ρ c) :=
  (W9_of_ne m ρ c main_v9 (by decide)).trans ((s3_keep_main_v9 (W7 m ρ c)).trans (W7_s9 m ρ c))
theorem W9_s16 : W9 m ρ c (Proc.devRef .tc main_v16) = ssrc m c (pK m ρ c) :=
  (W9_of_ne m ρ c main_v16 (by decide)).trans ((s3_keep_main_v16 (W7 m ρ c)).trans (W7_s16 m ρ c))
theorem W9_top : W9 m ρ c (Proc.devRef .tc main_v23) = topHalf (arg m c main_arg7) :=
  (W9_of_ne m ρ c main_v23 (by decide)).trans ((s3_keep_main_v23 (W7 m ρ c)).trans (W7_top m ρ c))
theorem W9_bot : W9 m ρ c (Proc.devRef .tc main_v24) = botHalf (arg m c main_arg7) :=
  (W9_of_ne m ρ c main_v24 (by decide)).trans ((s3_keep_main_v24 (W7 m ρ c)).trans (W7_bot m ρ c))
theorem E3_dg : W8 m ρ c (Proc.devRef .tc main_v22) = degOf (sdst m c (pK m ρ c)) :=
  (s3_keep_main_v22 (W7 m ρ c)).trans (W7_dg m ρ c)
theorem W9_dg : W9 m ρ c (Proc.devRef .tc main_v22) = degOf (sdst m c (pK m ρ c)) :=
  ((W9_arr m ρ c 2).trans (((dat3 (V8 m ρ) c).arrAt_in 2 rfl _).trans (A_eq3 (V8 m ρ) c 2))).trans (E3_dg m ρ c)
theorem W9_h : W9 m ρ c (Proc.devRef .tc main_v78) = H3 m c (pK m ρ c) :=
  (W9_arr m ρ c 6).trans ((Cert.KVal.Sage3.sage_arr (V8 m ρ) c).trans
    (sageT_congr ((s3_keep_main_v60 (W7 m ρ c)).trans (W7_h m ρ c))
      ((s3_msum (W7 m ρ c)).trans (by rw [W7_h m ρ c, W7_s16 m ρ c, W7_s9 m ρ c]))
      (E3_dg m ρ c)
      ((s3_wh (W7 m ρ c)).trans (by rw [W7_top m ρ c]; exact KWeights.slab_rows (arg m c main_arg7) 2 0 (by omega) ![0, 0, 0] slices_S4x256x128_S4x128x128_0_0_0 rfl rfl rfl ![2, 0, 0] slices_S4x128x128_S1x128x128_2_0_0 rfl rfl rfl shapeCasts_S1x128x128_S128x128))
      ((s3_wc (W7 m ρ c)).trans (by rw [W7_bot m ρ c]; exact KWeights.slab_rows (arg m c main_arg7) 2 128 (by omega) ![0, 128, 0] slices_S4x256x128_S4x128x128_0_128_0 rfl rfl rfl ![2, 0, 0] slices_S4x128x128_S1x128x128_2_0_0 rfl rfl rfl shapeCasts_S1x128x128_S128x128))
      ((s3_b (W7 m ρ c)).trans (by rw [W7_a8 m ρ c]))))

/-! ## The exit of layer 3's region -/
theorem W11_a1 : W11 m ρ c (Proc.devRef .tc main_arg1) = (arg m c main_arg1) :=
  (W11_of_ne m ρ c main_arg1 (by decide)).trans ((s4_keep_main_arg1 (W9 m ρ c)).trans (W9_a1 m ρ c))
theorem W11_a2 : W11 m ρ c (Proc.devRef .tc main_arg2) = (arg m c main_arg2) :=
  (W11_of_ne m ρ c main_arg2 (by decide)).trans ((s4_keep_main_arg2 (W9 m ρ c)).trans (W9_a2 m ρ c))
theorem W11_a7 : W11 m ρ c (Proc.devRef .tc main_arg7) = (arg m c main_arg7) :=
  (W11_of_ne m ρ c main_arg7 (by decide)).trans ((s4_keep_main_arg7 (W9 m ρ c)).trans (W9_a7 m ρ c))
theorem W11_a8 : W11 m ρ c (Proc.devRef .tc main_arg8) = (arg m c main_arg8) :=
  (W11_of_ne m ρ c main_arg8 (by decide)).trans ((s4_keep_main_arg8 (W9 m ρ c)).trans (W9_a8 m ρ c))
theorem W11_a9 : W11 m ρ c (Proc.devRef .tc main_arg9) = (arg m c main_arg9) :=
  (W11_of_ne m ρ c main_arg9 (by decide)).trans ((s4_keep_main_arg9 (W9 m ρ c)).trans (W9_a9 m ρ c))
theorem W11_a10 : W11 m ρ c (Proc.devRef .tc main_arg10) = (arg m c main_arg10) :=
  (W11_of_ne m ρ c main_arg10 (by decide)).trans ((s4_keep_main_arg10 (W9 m ρ c)).trans (W9_a10 m ρ c))
theorem W11_a11 : W11 m ρ c (Proc.devRef .tc main_arg11) = (arg m c main_arg11) :=
  (W11_of_ne m ρ c main_arg11 (by decide)).trans ((s4_keep_main_arg11 (W9 m ρ c)).trans (W9_a11 m ρ c))
theorem W11_a12 : W11 m ρ c (Proc.devRef .tc main_arg12) = (arg m c main_arg12) :=
  (W11_of_ne m ρ c main_arg12 (by decide)).trans ((s4_keep_main_arg12 (W9 m ρ c)).trans (W9_a12 m ρ c))
theorem W11_a13 : W11 m ρ c (Proc.devRef .tc main_arg13) = (arg m c main_arg13) :=
  (W11_of_ne m ρ c main_arg13 (by decide)).trans ((s4_keep_main_arg13 (W9 m ρ c)).trans (W9_a13 m ρ c))
theorem W11_a14 : W11 m ρ c (Proc.devRef .tc main_arg14) = (arg m c main_arg14) :=
  (W11_of_ne m ρ c main_arg14 (by decide)).trans ((s4_keep_main_arg14 (W9 m ρ c)).trans (W9_a14 m ρ c))
theorem W11_s9 : W11 m ρ c (Proc.devRef .tc main_v9) = sdst m c (pK m ρ c) :=
  (W11_of_ne m ρ c main_v9 (by decide)).trans ((s4_keep_main_v9 (W9 m ρ c)).trans (W9_s9 m ρ c))
theorem W11_s16 : W11 m ρ c (Proc.devRef .tc main_v16) = ssrc m c (pK m ρ c) :=
  (W11_of_ne m ρ c main_v16 (by decide)).trans ((s4_keep_main_v16 (W9 m ρ c)).trans (W9_s16 m ρ c))
theorem W11_top : W11 m ρ c (Proc.devRef .tc main_v23) = topHalf (arg m c main_arg7) :=
  (W11_of_ne m ρ c main_v23 (by decide)).trans ((s4_keep_main_v23 (W9 m ρ c)).trans (W9_top m ρ c))
theorem W11_bot : W11 m ρ c (Proc.devRef .tc main_v24) = botHalf (arg m c main_arg7) :=
  (W11_of_ne m ρ c main_v24 (by decide)).trans ((s4_keep_main_v24 (W9 m ρ c)).trans (W9_bot m ρ c))
theorem E4_dg : W10 m ρ c (Proc.devRef .tc main_v22) = degOf (sdst m c (pK m ρ c)) :=
  (s4_keep_main_v22 (W9 m ρ c)).trans (W9_dg m ρ c)
theorem W11_dg : W11 m ρ c (Proc.devRef .tc main_v22) = degOf (sdst m c (pK m ρ c)) :=
  ((W11_arr m ρ c 2).trans (((dat4 (V10 m ρ) c).arrAt_in 2 rfl _).trans (A_eq4 (V10 m ρ) c 2))).trans (E4_dg m ρ c)
theorem W11_h : W11 m ρ c (Proc.devRef .tc main_v96) = H4 m c (pK m ρ c) :=
  (W11_arr m ρ c 6).trans ((Cert.KVal.Sage4.sage_arr (V10 m ρ) c).trans
    (sageT_congr ((s4_keep_main_v78 (W9 m ρ c)).trans (W9_h m ρ c))
      ((s4_msum (W9 m ρ c)).trans (by rw [W9_h m ρ c, W9_s16 m ρ c, W9_s9 m ρ c]))
      (E4_dg m ρ c)
      ((s4_wh (W9 m ρ c)).trans (by rw [W9_top m ρ c]; exact KWeights.slab_rows (arg m c main_arg7) 3 0 (by omega) ![0, 0, 0] slices_S4x256x128_S4x128x128_0_0_0 rfl rfl rfl ![3, 0, 0] slices_S4x128x128_S1x128x128_3_0_0 rfl rfl rfl shapeCasts_S1x128x128_S128x128))
      ((s4_wc (W9 m ρ c)).trans (by rw [W9_bot m ρ c]; exact KWeights.slab_rows (arg m c main_arg7) 3 128 (by omega) ![0, 128, 0] slices_S4x256x128_S4x128x128_0_128_0 rfl rfl rfl ![3, 0, 0] slices_S4x128x128_S1x128x128_3_0_0 rfl rfl rfl shapeCasts_S1x128x128_S128x128))
      ((s4_b (W9 m ρ c)).trans (by rw [W9_a8 m ρ c]))))

/-! ## The result -/

/-- The result buffer ends at the read-out of the final table. -/
theorem result_eq : W13 m ρ c (Proc.devRef .tc main_v117) = out m c (pK m ρ c) :=
  (W13_arr m ρ c 9).trans ((Cert.KVal.Mlp.mlp_arr (V12 m ρ) c).trans
    (mlpT_congr ((s5_hs (W11 m ρ c)).trans (by rw [W11_h m ρ c, W11_a1 m ρ c]))
      ((s5_hd (W11 m ρ c)).trans (by rw [W11_h m ρ c, W11_a2 m ρ c]))
      ((s5_w0s (W11 m ρ c)).trans (by rw [W11_a9 m ρ c]))
      ((s5_w0d (W11 m ρ c)).trans (by rw [W11_a9 m ρ c]))
      ((s5_b0 (W11 m ρ c)).trans (by rw [W11_a10 m ρ c]))
      ((s5_w1 (W11 m ρ c)).trans (W11_a11 m ρ c))
      ((s5_b1 (W11 m ρ c)).trans (by rw [W11_a12 m ρ c]))
      ((s5_w2 (W11 m ρ c)).trans (W11_a13 m ρ c))
      ((s5_b2 (W11 m ρ c)).trans (by rw [W11_a14 m ρ c]))))

end Cert.KChain

end
-- ==== Proof.KRun.lean ====
/-
  THE KERNEL'S RUN WITH ITS RESULT NAMED.

  The kernel program is thirteen segments: seven stretches of host operations and six launched regions. Every
  execution terminates with every unscoped buffer holding what the fold of the segments over the launch memory leaves
  there (`W13`); read at the result buffer this is the last region's output table, and at each argument the launch
  contents. This is the run the frame claim rests on, stated with the result buffer beside the arguments.
-/
import proofs.«141839_j76785425318033_2_alg».proof.Proof.Gen.KernelIdeal.Frame

set_option maxRecDepth 16384

noncomputable section

namespace Cert.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates; the result buffer ends at the fold's contents and the arguments as launched. -/
theorem run_result : θ_run defs (onTc (τ := τ) (main (F := F))) ⟨m, fun _ => 0, ρ⟩ (fun r => ∀ c : Dev nD,
      r.2.mem ((c.tc : Thread nD τ).loc main_v117) = W13 m ρ c (Proc.devRef .tc main_v117)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v117 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c)⟩)

end Cert.KRun

end
-- ==== Proof.LibRowOps.lean ====
/-
  WHOLE-ROW GATHER AND WHOLE-ROW SCATTER-ADD OF A 2-D TABLE, READ AT AN INDEX.

  Two host operations on a table of shape `[N, C]` addressed by a column `[E, 1]` of row numbers:

  * the gather of whole rows (`rowGather`: offset axis 1, collapsed axis 0, start index map `[0]`, index vector axis 1,
    slice sizes `[1, C]`): result element `(e, c)` is the table's element `(ρ, c)`, where `ρ` is row number `e` read as a
    signed integer and clamped into `[0, N − 1]` (`gather_rows_apply`);

  * the scatter-add of whole rows (`rowScatter`: update window axis 1, inserted window axis 0, scatter axis map `[0]`,
    index vector axis 1) at the extended reals: result element `(r, c)` is the operand's element `(r, c)` plus the sum
    of the updates' elements `(e, c)` over exactly those `e` whose row number, read as a signed integer and NOT clamped,
    equals `r` (`scatterAdd_rows_apply`). A row number that is negative or at least `N` names no row: that update row
    is dropped, which the condition "equals `r`" with `r < N` already says.

  On the way: the coordinates of the scatter's start and window on each operand axis (`start_rows_zero`,
  `start_rows_one`, `window_rows_zero`, `window_rows_one`) and where an update element lands (`resultIdx?_rows`).
  All sizes `N E C` are generic; nothing enumerates an index range.
-/
import Idealize.ShloMosaic.PureOps.Ideal
import Idealize.ShloMosaic.Lib.ValueIdx

noncomputable section

open scoped BigOperators

namespace Idealize.ShloMosaic.RowOps

open Idealize.ShloMosaic Idealize.ShloMosaic.ValueIdx

/-! ## The gather of whole rows -/

/-- gather of whole rows: operand [N, C], start indices [E, 1], result [E, C] -/
abbrev rowGather (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE GATHER READ AT `(e, c)`: the table at row `idx[e, 0]`, read signed and clamped into `[0, N − 1]`, and column `c`.
    On axis 0 the operand coordinate is the clamped start alone (the axis is collapsed: no offset; nothing is batching);
    on axis 1 the start is `0` (the start index map does not name it) and the offset is the result's column. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c)
      = x (ix2 ⟨min (idx (ix2 e (0 : Fin 1))).toInt.toNat (N - 1), by omega⟩ c) := by
  unfold Host.gather
  congr 1
  funext a
  refine Fin.ext ?_
  match a with
  | ⟨0, _⟩ =>
    show (rowGather N E C wf).start (ix2 e c) idx 0 + (rowGather N E C wf).batchCoord (ix2 e c) 0
      + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    -- the start index of result element (e, c) is read at [e, 0]
    have hsi : (rowGather N E C wf).siIdx (ix2 e c) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e c) idx 1 + (rowGather N E C wf).batchCoord (ix2 e c) 1
      + (rowGather N E C wf).offCoord (ix2 e c) 1 = _
    rw [GatherDims.batchCoord_eq_zero _ _ _ List.not_mem_nil]
    unfold GatherDims.start
    rw [dif_neg (show (1 : Fin 2) ∉ (rowGather N E C wf).startIndexMap from
      fun h => absurd (List.mem_singleton.mp h) (show ¬((1 : Fin 2) = 0) by decide))]
    simp only [Nat.zero_add, Nat.add_zero]
    rfl

/-! ## The scatter-add of whole rows -/

/-- scatter-add of whole rows: operand [N, C], scatter indices [E, 1], updates [E, C] -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Coords
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c' : Fin C)

/-- On operand axis 0 the window of update element `(e, c')` starts at row number `idx[e, 0]`, read signed. -/
theorem start_rows_zero : (rowScatter N E C wf).start (ix2 e c') idx 0 = (idx (ix2 e (0 : Fin 1))).toInt := by
  unfold ScatterDims.start
  rw [dif_pos (show (0 : Fin 2) ∈ (rowScatter N E C wf).scatterDimsToOperandDims from List.mem_singleton.mpr rfl)]
  have hsi : (rowScatter N E C wf).siIdx (ix2 e c') ⟨List.idxOf (0 : Fin 2) (rowScatter N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1, which the scatter axis map does not name, the window starts at `0`. -/
theorem start_rows_one : (rowScatter N E C wf).start (ix2 e c') idx 1 = 0 := by
  unfold ScatterDims.start
  rw [dif_neg (show (1 : Fin 2) ∉ (rowScatter N E C wf).scatterDimsToOperandDims from
    fun h => absurd (List.mem_singleton.mp h) (show ¬((1 : Fin 2) = 0) by decide))]

/-- Operand axis 0 is an inserted window axis: the window coordinate there is `0`. -/
theorem window_rows_zero : (rowScatter N E C wf).window (ix2 e c') 0 = 0 := rfl

/-- On operand axis 1 the window coordinate is the update's column. -/
theorem window_rows_one : (rowScatter N E C wf).window (ix2 e c') 1 = c'.val := rfl

/-- WHERE AN UPDATE ELEMENT LANDS: update element `(e, c')` lands at operand element `(r, c)` exactly when its row number,
    read signed, is `r` and its column is `c`. (When the row number is outside `[0, N)` the element lands nowhere, and no
    `r < N` equals it.) -/
theorem resultIdx?_rows (r : Fin N) (c : Fin C) :
    (rowScatter N E C wf).resultIdx? (ix2 e c') idx = some (ix2 r c)
      ↔ (idx (ix2 e (0 : Fin 1))).toInt = (r.val : Int) ∧ c' = c := by
  have h0 := start_rows_zero wf idx e c'
  have h1 := start_rows_one wf idx e c'
  have w0 := window_rows_zero wf e c'
  have w1 := window_rows_one wf e c'
  have hr : r.val < N := r.isLt
  have hc : c'.val < C := c'.isLt
  unfold ScatterDims.resultIdx?
  split
  · -- the landing point is inside the operand: compare it with (r, c) coordinate by coordinate
    rename_i h
    rw [Option.some.injEq]
    constructor
    · intro hf
      have e0 := congrArg (fun f => (f 0).val) hf
      have e1 := congrArg (fun f => (f 1).val) hf
      simp only [h0, h1, w0, w1] at e0 e1
      have p0 := (h 0).1
      rw [h0, w0] at p0
      refine ⟨?_, Fin.ext ?_⟩
      · change ((idx (ix2 e (0 : Fin 1))).toInt + ((0 : Nat) : Int)).toNat = r.val at e0
        omega
      · change ((0 : Int) + (c'.val : Int)).toNat = c.val at e1
        omega
    · rintro ⟨hi, rfl⟩
      funext a
      refine Fin.ext ?_
      match a with
      | ⟨0, _⟩ =>
        change ((rowScatter N E C wf).start (ix2 e c') idx 0 + ((rowScatter N E C wf).window (ix2 e c') 0 : Nat)).toNat = r.val
        rw [h0, w0, hi]; omega
      | ⟨1, _⟩ =>
        change ((rowScatter N E C wf).start (ix2 e c') idx 1 + ((rowScatter N E C wf).window (ix2 e c') 1 : Nat)).toNat = c'.val
        rw [h1, w1]; omega
  · -- the landing point is outside the operand: then the row number is no r < N
    rename_i h
    constructor
    · intro hf; cases hf
    · rintro ⟨hi, rfl⟩
      exfalso; apply h
      intro a
      match a with
      | ⟨0, _⟩ =>
        change 0 ≤ (rowScatter N E C wf).start (ix2 e c') idx 0 + ((rowScatter N E C wf).window (ix2 e c') 0 : Nat)
          ∧ (rowScatter N E C wf).start (ix2 e c') idx 0 + ((rowScatter N E C wf).window (ix2 e c') 0 : Nat) < (N : Int)
        rw [h0, w0, hi]; omega
      | ⟨1, _⟩ =>
        change 0 ≤ (rowScatter N E C wf).start (ix2 e c') idx 1 + ((rowScatter N E C wf).window (ix2 e c') 1 : Nat)
          ∧ (rowScatter N E C wf).start (ix2 e c') idx 1 + ((rowScatter N E C wf).window (ix2 e c') 1 : Nat) < (C : Int)
        rw [h1, w1]; omega

end Coords

/-- THE SCATTER-ADD READ AT `(r, c)`: the operand's element plus the updates' column `c` summed over the rows `e` whose row
    number, read signed, is `r`. The sum over update elements `(e, c')` landing at `(r, c)` is split by coordinates; for
    each `e` the inner sum over `c'` keeps the one term `c' = c`, and that only when row `e`'s number is `r`. -/
theorem scatterAdd_rows_apply {N E C w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (r : Fin N) (c : Fin C) :
    Host.scatterAdd (F := Ideal) (φ := .f32) (rowScatter N E C wf) x idx upd (ix2 r c)
      = x (ix2 r c) + ∑ e ∈ Finset.univ.filter (fun e : Fin E => (idx (ix2 e (0 : Fin 1))).toInt = (r.val : Int)),
          upd (ix2 e c) := by
  show Ideal.hostScatterAdd (rowScatter N E C wf) x idx upd (ix2 r c) = _
  unfold Ideal.hostScatterAdd
  congr 1
  rw [Finset.sum_filter, Finset.sum_filter, sum_idx2]
  refine Finset.sum_congr rfl fun e _ => ?_
  simp only [resultIdx?_rows]
  by_cases hi : (idx (ix2 e (0 : Fin 1))).toInt = (r.val : Int)
  · simp only [hi, true_and, if_true]
    rw [Finset.sum_ite_eq' Finset.univ c (fun c' => upd (ix2 e c'))]
    simp only [Finset.mem_univ, if_true]
  · simp only [hi, false_and, if_false, Finset.sum_const_zero]

end Idealize.ShloMosaic.RowOps

end
-- ==== Proof.LibGatherScatterIdx.lean ====
/-
  Row gathers and row scatters read at an index.

  `x[idx]` of a table `x : [N, D]` (or of a vector `x : [N]`) at a column of start indices `idx : [E, 1]` lowers to a
  gather whose result row `e` is the operand's row at the start index `idx[e, 0]`, read as a signed integer and clamped
  into `[0, N − 1]`; `x.at[idx].add(u)` lowers to a scatter in which update row `e` lands on the operand's row
  `idx[e, 0]`, read signed and NOT clamped, and is dropped when that is no row. The lemmas below read the two
  operations' index maps at coordinates: the gather's operand index (`rowGather_operandIdx`, `vecGather_operandIdx`),
  and what it means for update `(e, d)` to land on element `i` (`rowScatter_lands`).
-/
import Idealize.ShloMosaic.PureOps.Ideal
import Idealize.ShloMosaic.Lib.ValueIdx

noncomputable section

namespace Cert.LibIdx

open Idealize.ShloMosaic Idealize.ShloMosaic.ValueIdx

/-- The dimension numbers of `x[idx]` for a table `[N, D]` and start indices `[E, 1]`: whole rows are taken. -/
abbrev rowGather (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The dimension numbers of `x[idx]` for a vector `[N]` and start indices `[E, 1]`. -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The dimension numbers of `x.at[idx].add(u)` for a table `[N, D]`, scatter indices `[E, 1]`, updates `[E, D]`. -/
abbrev rowScatter (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- THE ROW GATHER'S OPERAND INDEX at `(e, d)`: row `idx[e, 0]` read signed and clamped into `[0, N − 1]`, column `d`. -/
theorem rowGather_operandIdx {N D E w : Nat} (hN : 0 < N)
    (wf : GatherDims.WF ⟨2, ![N, D]⟩ ⟨2, ![E, 1]⟩ ⟨2, ![E, D]⟩ [1] [0] [] [0] [] 1 ![1, D])
    (idx : IVec ⟨2, ![E, 1]⟩ w) (e : Fin E) (d : Fin D) :
    (rowGather N D E wf).operandIdx (ix2 e d) idx
      = ix2 ⟨min (idx (ix2 e (0 : Fin 1))).toInt.toNat (N - 1), by omega⟩ d := by
  have h0 : ((rowGather N D E wf).operandIdx (ix2 e d) idx (0 : Fin 2)).val = min (idx (ix2 e (0 : Fin 1))).toInt.toNat (N - 1) := by
    show (rowGather N D E wf).start (ix2 e d) idx 0 + (rowGather N D E wf).batchCoord (ix2 e d) 0
      + (rowGather N D E wf).offCoord (ix2 e d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N D E wf).startIndexMap from List.mem_singleton.mpr rfl)]
    have hsi : (rowGather N D E wf).siIdx (ix2 e d) ⟨List.idxOf (0 : Fin 2) (rowGather N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : ((rowGather N D E wf).operandIdx (ix2 e d) idx (1 : Fin 2)).val = d.val := by
    show (rowGather N D E wf).start (ix2 e d) idx 1 + (rowGather N D E wf).batchCoord (ix2 e d) 1
      + (rowGather N D E wf).offCoord (ix2 e d) 1 = _
    rw [GatherDims.batchCoord_eq_zero _ _ _ List.not_mem_nil]
    unfold GatherDims.start
    rw [dif_neg (by decide : (1 : Fin 2) ∉ ([0] : List (Fin 2)))]
    unfold GatherDims.offCoord
    rw [dif_pos ((GatherDims.mem_sKept _ _).mpr ⟨(by decide : (1 : Fin 2) ∉ ([0] : List (Fin 2))), List.not_mem_nil⟩)]
    have hone : ∀ (k : Nat) (h : k < ([1] : List (Fin 2)).length), ([1] : List (Fin 2))[k] = 1 := by
      intro k h
      have hk : k = 0 := by simpa using h
      subst hk; rfl
    dsimp only
    rw [hone]
    simp
  funext a
  refine Fin.ext ?_
  match a with
  | ⟨0, _⟩ => exact h0
  | ⟨1, _⟩ => exact h1

/-- THE VECTOR GATHER'S OPERAND INDEX at `e`: element `idx[e, 0]` read signed and clamped into `[0, N − 1]`. -/
theorem vecGather_operandIdx {N E w : Nat} (hN : 0 < N)
    (wf : GatherDims.WF ⟨1, ![N]⟩ ⟨2, ![E, 1]⟩ ⟨1, ![E]⟩ [] [0] [] [0] [] 1 ![1])
    (idx : IVec ⟨2, ![E, 1]⟩ w) (e : Fin E) :
    (vecGather N E wf).operandIdx (ix1 e) idx
      = ix1 ⟨min (idx (ix2 e (0 : Fin 1))).toInt.toNat (N - 1), by omega⟩ := by
  funext a
  obtain rfl : a = 0 := Subsingleton.elim _ _
  refine Fin.ext ?_
  show (vecGather N E wf).start (ix1 e) idx 0 + (vecGather N E wf).batchCoord (ix1 e) 0
    + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- WHERE A ROW SCATTER'S UPDATE LANDS: if update `(e, d)` lands on element `i`, then the scatter index `idx[e, 0]`,
    read signed, is `i`'s row. -/
theorem rowScatter_lands {N D E w : Nat}
    (wf : ScatterDims.WF ⟨2, ![N, D]⟩ ⟨2, ![E, 1]⟩ ⟨2, ![E, D]⟩ [1] [0] [0] 1)
    (idx : IVec ⟨2, ![E, 1]⟩ w) (e : Fin E) (d : Fin D) (i : (⟨2, ![N, D]⟩ : Shape).Idx)
    (h : (rowScatter N D E wf).resultIdx? (ix2 e d) idx = some i) :
    (idx (ix2 e (0 : Fin 1))).toInt = ((i 0).val : Int) := by
  unfold ScatterDims.resultIdx? at h
  split at h
  · rename_i hb
    have hi := congrFun (Option.some.inj h) 0
    have h0 := (hb 0).1
    have hw : (rowScatter N D E wf).window (ix2 e d) 0 = 0 := by
      unfold ScatterDims.window
      rw [dif_neg (by simp [ScatterDims.sKept, Shape.kept, List.mem_filter])]
    have hs : (rowScatter N D E wf).start (ix2 e d) idx 0 = (idx (ix2 e (0 : Fin 1))).toInt := by
      unfold ScatterDims.start
      rw [dif_pos (show (0 : Fin 2) ∈ (rowScatter N D E wf).scatterDimsToOperandDims from List.mem_singleton.mpr rfl)]
      have hsi : (rowScatter N D E wf).siIdx (ix2 e d) ⟨List.idxOf (0 : Fin 2) (rowScatter N D E wf).scatterDimsToOperandDims,
          List.idxOf_lt_length_iff.2 (List.mem_singleton.mpr rfl)⟩ = ix2 e (0 : Fin 1) := by
        funext b; refine Fin.ext ?_
        match b with
        | ⟨0, _⟩ => rfl
        | ⟨1, _⟩ => rfl
      rw [hsi]
    rw [hw, hs] at h0
    have hv : ((rowScatter N D E wf).start (ix2 e d) idx 0 + ((rowScatter N D E wf).window (ix2 e d) 0 : Int)).toNat = (i 0).val :=
      congrArg Fin.val hi
    rw [hw, hs] at hv
    simp only [Nat.cast_zero, Int.add_zero] at hv h0
    omega
  · exact absurd h (by simp)

end Cert.LibIdx

end
-- ==== Proof.EdgeSums.lean ====
/-
  THE EDGE SUMS DO NOT SEE THE ORDER OF THE EDGES.

  A layer needs, for every node, the sum of the rows of the sources of its incoming edges and the number of those
  edges. One program scatters the gathered source rows onto the edges' targets in the order the edges are given. The
  other first sorts the edges by target: it takes the argsort of the target vector (a stable two-operand sort that
  carries the edge numbers), gathers the source vector and the target vector through it, and only then gathers the
  rows and scatters.

  A scatter-add of whole rows, read at an element, is the operand's element plus a SUM over the update positions whose
  row number is the element's row (`scatterAdd_rows_apply`); a sum over a finite set does not change when its index is
  carried through a bijection (`scatterAdd_rows_perm`). The argsort holds at each position the number of a position,
  each exactly once (`argsort_perm`: the stable sort permutes); such a number is a small non-negative word, so the
  wrap of negative indices and the clamp of the gather leave it alone, and the gather through the argsort reads a vector
  at the permuted position (`vecGather_argsort`). Hence the sorted program's row numbers and update rows are the other
  program's read through one permutation of the edges, and the two scatters agree (`msum_sorted`, `deg_sorted`).
-/
import proofs.«141839_j76785425318033_2_alg».proof.KernelIdeal
import proofs.«141839_j76785425318033_2_alg».proof.ReferenceIdeal
import proofs.«141839_j76785425318033_2_alg».proof.Proof.Spec
import proofs.«141839_j76785425318033_2_alg».proof.Proof.LibRowOps
import proofs.«141839_j76785425318033_2_alg».proof.Proof.LibGatherScatterIdx
import Idealize.ShloMosaic.Lib.SortFacts
import Idealize.ShloMosaic.Lib.ValueIdx
import Idealize.ShloMosaic.Lib.Pipeline.Value

noncomputable section

open scoped BigOperators

namespace Cert.EdgeSums

open Idealize.ShloMosaic Idealize.ShloMosaic.ValueIdx Idealize.ShloMosaic.RowOps Cert.Rows Cert.Net

/-! ## Words -/

/-- A natural number below `2 ^ 31`, as a 32-bit word read signed, is itself. -/
theorem toInt_ofNat_small (k : Nat) (hk : k < 2 ^ 31) : (BitVec.ofNat 32 k).toInt = (k : Int) := by
  rw [BitVec.toInt_eq_toNat_cond, BitVec.toNat_ofNat]
  have h1 : k % 2 ^ 32 = k := Nat.mod_eq_of_lt (by omega)
  rw [h1]
  split
  · rfl
  · omega

/-- The wrap of a negative index on one word: a word that is negative read signed has `n` added. -/
def wrapWord (n x : BitVec 32) : BitVec 32 := Scalar.select (IntOp.cmpi .slt x 0#32) (IntOp.addi x n) x

/-- The wrap leaves a small non-negative word alone. -/
theorem wrapWord_small (n : BitVec 32) (k : Nat) (hk : k < 2 ^ 31) : wrapWord n (BitVec.ofNat 32 k) = BitVec.ofNat 32 k := by
  have h0 : (BitVec.ofNat 32 k).slt 0#32 = false := by
    have := toInt_ofNat_small k hk
    simp [BitVec.slt, this]
  unfold wrapWord IntOp.cmpi
  simp only [h0]
  exact select_zero _ _

/-! ## The argsort is a permutation -/

/-- In a one-axis index the fiber through any index is the whole axis. -/
theorem along_ix1 {n : Nat} (j : (⟨1, ![n]⟩ : Shape).Idx) (hd : 0 < (⟨1, ![n]⟩ : Shape).rank) (k : Fin n) :
    Shape.Idx.along j ⟨0, hd⟩ k = ix1 k := by
  funext d
  match d with
  | ⟨0, _⟩ => exact Function.update_self ..

/-- THE ARGSORT IS A PERMUTATION: the second component of a two-operand sort that carries the axis's own numbering
    holds, at each position, the number of a position, and every position's number exactly once. The position is the
    stable sort's source position under the comparator on the pairs (element, number); that map is a bijection because
    the stable sort permutes the positions. -/
theorem argsort_perm {n : Nat} (cmp : BitVec 32 × BitVec 32 → BitVec 32 × BitVec 32 → BitVec 1) (x : IVec ⟨1, ![n]⟩ 32) :
    ∃ σ : Fin n ≃ Fin n, ∀ e : Fin n,
      (Host.sort2 ⟨1, ![n]⟩ 0 cmp x (iotaInDim ⟨1, ![n]⟩ 32 0)).2 (ix1 e) = BitVec.ofNat 32 (σ e).val := by
  let B : Fin n → Fin n → Bool := fun k k' =>
    cmp (x (ix1 k), BitVec.ofNat 32 k.val) (x (ix1 k'), BitVec.ofNat 32 k'.val) == 1#1
  refine ⟨Equiv.ofBijective (sortedFrom B) ⟨sortedFrom_injective B, sortedFrom_surjective B⟩, fun e => ?_⟩
  have hd : 0 < (⟨1, ![n]⟩ : Shape).rank := Nat.one_pos
  -- the comparison of two positions of the fiber through `e` is the comparison of the two positions
  have hB : (fun k k' : Fin n =>
      cmp (x (Shape.Idx.along (ix1 e) ⟨0, hd⟩ k), iotaInDim ⟨1, ![n]⟩ 32 0 (Shape.Idx.along (ix1 e) ⟨0, hd⟩ k))
        (x (Shape.Idx.along (ix1 e) ⟨0, hd⟩ k'), iotaInDim ⟨1, ![n]⟩ 32 0 (Shape.Idx.along (ix1 e) ⟨0, hd⟩ k')) == 1#1) = B := by
    funext k k'
    rw [along_ix1, along_ix1]
    rfl
  unfold Host.sort2
  rw [dif_pos hd]
  show iotaInDim ⟨1, ![n]⟩ 32 0 (Shape.Idx.along (ix1 e) ⟨0, hd⟩ (sortedFrom (fun k k' : Fin n =>
      cmp (x (Shape.Idx.along (ix1 e) ⟨0, hd⟩ k), iotaInDim ⟨1, ![n]⟩ 32 0 (Shape.Idx.along (ix1 e) ⟨0, hd⟩ k))
        (x (Shape.Idx.along (ix1 e) ⟨0, hd⟩ k'), iotaInDim ⟨1, ![n]⟩ 32 0 (Shape.Idx.along (ix1 e) ⟨0, hd⟩ k')) == 1#1) e))
    = BitVec.ofNat 32 (sortedFrom B e).val
  rw [hB]
  exact congrArg (iotaInDim ⟨1, ![n]⟩ 32 0) (along_ix1 (ix1 e) hd (sortedFrom B e))

/-! ## Gathers and scatters through a permutation -/

/-- An index vector broadcast to a column, read at `(e, 0)`, is the vector at `e`. -/
theorem column_apply {n w : Nat}
    (h : (⟨1, ![n]⟩ : Shape).BroadcastsInDim ⟨2, ![n, 1]⟩ (![0] : Fin (⟨1, ![n]⟩ : Shape).rank → Fin (⟨2, ![n, 1]⟩ : Shape).rank))
    (a : IVec ⟨1, ![n]⟩ w) (e : Fin n) :
    broadcastInDim ⟨2, ![n, 1]⟩ ![0] h a (ix2 e (0 : Fin 1)) = a (ix1 e) := by
  refine broadcastInDim_apply _ h a _ (ix1 e) (fun d => ?_)
  match d with
  | ⟨0, _⟩ =>
    show e.val = if n = 1 then 0 else e.val
    split
    · have := e.isLt; omega
    · rfl

/-- THE GATHER THROUGH AN ARGSORT: a gather of single elements of a vector whose start index at `e` is the number of
    position `σ e` reads the vector at `σ e`. The number is non-negative and below the extent, so reading it signed and
    clamping it into the extent change nothing. -/
theorem vecGather_argsort {n : Nat} (hn : 0 < n) (hn31 : n < 2 ^ 31)
    (wf : GatherDims.WF ⟨1, ![n]⟩ ⟨2, ![n, 1]⟩ ⟨1, ![n]⟩ [] [0] [] [0] [] 1 ![1])
    (a : IVec ⟨1, ![n]⟩ 32) (idx : IVec ⟨2, ![n, 1]⟩ 32) (σ : Fin n → Fin n) (e : Fin n)
    (hidx : idx (ix2 e (0 : Fin 1)) = BitVec.ofNat 32 (σ e).val) :
    Host.gather (Cert.LibIdx.vecGather n n wf) a idx (ix1 e) = a (ix1 (σ e)) := by
  unfold Host.gather
  rw [Cert.LibIdx.vecGather_operandIdx hn wf idx e]
  refine congrArg a (congrArg ix1 (Fin.ext ?_))
  show min (idx (ix2 e (0 : Fin 1))).toInt.toNat (n - 1) = (σ e).val
  have hlt := (σ e).isLt
  rw [hidx, toInt_ofNat_small _ (by omega)]
  omega

/-- Two gathers of whole rows of one table read the same row where their row numbers agree. -/
theorem gather_rows_congr {α : Type} {N E C w : Nat} (hN : 0 < N)
    (wf wf' : GatherDims.WF ⟨2, ![N, C]⟩ ⟨2, ![E, 1]⟩ ⟨2, ![E, C]⟩ [1] [0] [] [0] [] 1 ![1, C])
    (x : (⟨2, ![N, C]⟩ : Shape).Idx → α) (idx idx' : IVec ⟨2, ![E, 1]⟩ w) (e e' : Fin E) (c : Fin C)
    (h : idx' (ix2 e' (0 : Fin 1)) = idx (ix2 e (0 : Fin 1))) :
    Host.gather (rowGather N E C wf') x idx' (ix2 e' c) = Host.gather (rowGather N E C wf) x idx (ix2 e c) := by
  rw [gather_rows_apply hN wf' x idx' e' c, gather_rows_apply hN wf x idx e c]
  refine congrArg x (congrArg (fun r => ix2 r c) (Fin.ext ?_))
  show min (idx' (ix2 e' (0 : Fin 1))).toInt.toNat (N - 1) = min (idx (ix2 e (0 : Fin 1))).toInt.toNat (N - 1)
  rw [h]

/-- A SCATTER-ADD OF WHOLE ROWS DOES NOT SEE THE ORDER OF ITS UPDATES: if the row numbers and the update rows of one
    scatter are those of another read through a permutation of the update positions, the two results are equal. At
    each element both are the operand's element plus a sum over the update positions whose row number is the
    element's row; the permutation carries one sum onto the other. -/
theorem scatterAdd_rows_perm {N E C w : Nat}
    (wf wf' : ScatterDims.WF ⟨2, ![N, C]⟩ ⟨2, ![E, 1]⟩ ⟨2, ![E, C]⟩ [1] [0] [0] 1)
    (x : (⟨2, ![N, C]⟩ : Shape).Idx → EReal) (idx idx' : IVec ⟨2, ![E, 1]⟩ w)
    (upd upd' : (⟨2, ![E, C]⟩ : Shape).Idx → EReal) (σ : Fin E ≃ Fin E)
    (hidx : ∀ e : Fin E, idx' (ix2 e (0 : Fin 1)) = idx (ix2 (σ e) (0 : Fin 1)))
    (hupd : ∀ (e : Fin E) (c : Fin C), upd' (ix2 e c) = upd (ix2 (σ e) c)) :
    Host.scatterAdd (F := Ideal) (φ := .f32) (rowScatter N E C wf') x idx' upd'
      = Host.scatterAdd (F := Ideal) (φ := .f32) (rowScatter N E C wf) x idx upd := by
  funext i
  obtain ⟨r, c, rfl⟩ : ∃ (r : Fin N) (c : Fin C), i = ix2 r c := ⟨i 0, i 1, eq_ix2 i⟩
  rw [scatterAdd_rows_apply, scatterAdd_rows_apply]
  refine congrArg (fun t => x (ix2 r c) + t) ?_
  rw [Finset.sum_filter, Finset.sum_filter]
  rw [← Equiv.sum_comp σ (fun e : Fin E => if (idx (ix2 e (0 : Fin 1))).toInt = (r.val : Int) then upd (ix2 e c) else 0)]
  refine Finset.sum_congr rfl fun e _ => ?_
  rw [hidx e, hupd e c]

/-! ## The two programs' edge sums -/

section Kernel
open Cert.KernelIdeal Cert.KernelIdeal.Facts₀
variable [Cert.KernelIdeal.Facts₀]

/-- An index vector as a column. -/
def kCol (a : IVec S800000 32) : IVec S800000x1 32 := broadcastInDim S800000x1 ![0] bcast_S800000_S800000x1_0 a

/-- The wrap of negative indices: `n` is added to every word that is negative read signed. -/
def kWrap (n : BitVec 32) (a : IVec S800000 32) : IVec S800000 32 :=
  select (cmpi .slt a (broadcastInDim S800000 ![] bcast_S_S800000 (constantI S_ 32 0#32)))
    (addi a (broadcastInDim S800000 ![] bcast_S_S800000 (constantI S_ 32 n))) a

/-- The argsort of the target vector: the edge numbers, carried through the stable sort of the targets. -/
def kPerm (dst : IVec S800000 32) : IVec S800000 32 :=
  (Host.sort2 S800000 0 comparator_i32_i32_d0 dst (iotaInDim S800000 32 0)).2

/-- An edge vector read in the sorted order of the edges. -/
def kSorted (a dst : IVec S800000 32) : IVec S800000 32 :=
  Host.gather gather_S800000_S800000x1_S800000_n_0_n_n_0_1_1 a (kCol (kWrap 800000#32 (kPerm dst)))

/-- The sums of the source rows over each node's incoming edges, the edges taken in sorted order. -/
def kMsum (H : FVec Ideal S50000x128 .f32) (src dst : IVec S800000 32) : FVec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (kCol (kSorted dst dst))
    (Host.gather gather_S50000x128_S800000x1_S800000x128_1_0_n_n_0_1_1128 H (kCol (kWrap 50000#32 (kSorted src dst))))

/-- The number of each node's incoming edges, clamped below by one, the edges taken in sorted order. -/
def kDeg (dst : IVec S800000 32) : FVec Ideal S50000x1 .f32 :=
  maximumf (F := Ideal)
    (Host.scatterAdd (F := Ideal) scatter_S50000x1_S800000x1_S800000x1_1_0_0_1
      (broadcastInDim S50000x1 ![] bcast_S_S50000x1 (constant (F := Ideal) S_ .f32 0x00000000#32))
      (kCol (kSorted dst dst))
      (broadcastInDim S800000x1 ![] bcast_S_S800000x1 (constant (F := Ideal) S_ .f32 0x3F800000#32)))
    (broadcastInDim S50000x1 ![] bcast_S_S50000x1 (constant (F := Ideal) S_ .f32 0x3F800000#32))

end Kernel

section Reference
open Cert.ReferenceIdeal Cert.ReferenceIdeal.Facts₀
variable [Cert.ReferenceIdeal.Facts₀]

/-- An index vector as a column. -/
def rCol (a : IVec S800000 32) : IVec S800000x1 32 := broadcastInDim S800000x1 ![0] bcast_S800000_S800000x1_0 a

/-- The wrap of negative indices. -/
def rWrap (n : BitVec 32) (a : IVec S800000 32) : IVec S800000 32 :=
  select (cmpi .slt a (broadcastInDim S800000 ![] bcast_S_S800000 (constantI S_ 32 0#32)))
    (addi a (broadcastInDim S800000 ![] bcast_S_S800000 (constantI S_ 32 n))) a

/-- The sums of the source rows over each node's incoming edges, the edges taken as given. -/
def rMsum (H : FVec Ideal S50000x128 .f32) (src dst : IVec S800000 32) : FVec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (rCol dst)
    (Host.gather gather_S50000x128_S800000x1_S800000x128_1_0_n_n_0_1_1128 H (rCol (rWrap 50000#32 src)))

/-- The number of each node's incoming edges, clamped below by one, the edges taken as given. -/
def rDeg (dst : IVec S800000 32) : FVec Ideal S50000x1 .f32 :=
  maximumf (F := Ideal)
    (Host.scatterAdd (F := Ideal) scatter_S50000x1_S800000x1_S800000x1_1_0_0_1
      (broadcastInDim S50000x1 ![] bcast_S_S50000x1 (constant (F := Ideal) S_ .f32 0x00000000#32))
      (rCol dst)
      (broadcastInDim S800000x1 ![] bcast_S_S800000x1 (constant (F := Ideal) S_ .f32 0x3F800000#32)))
    (broadcastInDim S50000x1 ![] bcast_S_S50000x1 (constant (F := Ideal) S_ .f32 0x3F800000#32))

end Reference

section KernelReads
variable [Cert.KernelIdeal.Facts₀]

/-- The wrap acts on each word. -/
theorem kWrap_apply (n : BitVec 32) (a : IVec ⟨1, ![800000]⟩ 32) (i : (⟨1, ![800000]⟩ : Shape).Idx) :
    kWrap n a i = wrapWord n (a i) := rfl

theorem kCol_apply (a : IVec ⟨1, ![800000]⟩ 32) (e : Fin 800000) : kCol a (ix2 e (0 : Fin 1)) = a (ix1 e) :=
  column_apply Cert.KernelIdeal.Facts₀.bcast_S800000_S800000x1_0 a e

/-- THE SORTED ORDER IS A PERMUTATION OF THE EDGES: there is a bijection `σ` of the edge numbers such that every edge
    vector read in sorted order is, at `e`, the vector at `σ e`. -/
theorem sorted_perm (dst : IVec ⟨1, ![800000]⟩ 32) :
    ∃ σ : Fin 800000 ≃ Fin 800000, ∀ (a : IVec ⟨1, ![800000]⟩ 32) (e : Fin 800000), kSorted a dst (ix1 e) = a (ix1 (σ e)) := by
  obtain ⟨σ, hσ⟩ := argsort_perm Cert.KernelIdeal.comparator_i32_i32_d0 dst
  refine ⟨σ, fun a e => ?_⟩
  have hlt := (σ e).isLt
  refine vecGather_argsort (by omega) (by omega) Cert.KernelIdeal.Facts₀.gather_S800000_S800000x1_S800000_n_0_n_n_0_1_1_wf a _ σ e ?_
  rw [kCol_apply, kWrap_apply]
  show wrapWord 800000#32 ((Host.sort2 ⟨1, ![800000]⟩ 0 Cert.KernelIdeal.comparator_i32_i32_d0 dst (iotaInDim ⟨1, ![800000]⟩ 32 0)).2 (ix1 e)) = _
  rw [hσ e]
  exact wrapWord_small _ _ (by omega)

end KernelReads

section ReferenceReads
variable [Cert.ReferenceIdeal.Facts₀]

theorem rWrap_apply (n : BitVec 32) (a : IVec ⟨1, ![800000]⟩ 32) (i : (⟨1, ![800000]⟩ : Shape).Idx) :
    rWrap n a i = wrapWord n (a i) := rfl

theorem rCol_apply (a : IVec ⟨1, ![800000]⟩ 32) (e : Fin 800000) : rCol a (ix2 e (0 : Fin 1)) = a (ix1 e) :=
  column_apply Cert.ReferenceIdeal.Facts₀.bcast_S800000_S800000x1_0 a e

end ReferenceReads

variable [Cert.KernelIdeal.Facts₀] [Cert.ReferenceIdeal.Facts₀]

/-- THE ROW SUMS AGREE: scattering the gathered source rows onto the targets gives the same table whether the edges
    are taken in sorted order or as given. -/
theorem msum_sorted (H : Tbl 50000 128) (src dst : IVec ⟨1, ![800000]⟩ 32) : kMsum H src dst = rMsum H src dst := by
  obtain ⟨σ, hσ⟩ := sorted_perm dst
  unfold kMsum rMsum
  refine scatterAdd_rows_perm Cert.ReferenceIdeal.Facts₀.scatter_S50000x128_S800000x1_S800000x128_1_0_0_1_wf
    Cert.KernelIdeal.Facts₀.scatter_S50000x128_S800000x1_S800000x128_1_0_0_1_wf _ _ _ _ _ σ (fun e => ?_) (fun e c => ?_)
  · rw [kCol_apply, rCol_apply, hσ]
  · refine gather_rows_congr (by omega) Cert.ReferenceIdeal.Facts₀.gather_S50000x128_S800000x1_S800000x128_1_0_n_n_0_1_1128_wf
      Cert.KernelIdeal.Facts₀.gather_S50000x128_S800000x1_S800000x128_1_0_n_n_0_1_1128_wf H _ _ (σ e) e c ?_
    rw [kCol_apply, rCol_apply, kWrap_apply, rWrap_apply, hσ]

/-- THE EDGE COUNTS AGREE: every update is the same constant, so only the row numbers are permuted. -/
theorem deg_sorted (dst : IVec ⟨1, ![800000]⟩ 32) : kDeg dst = rDeg dst := by
  obtain ⟨σ, hσ⟩ := sorted_perm dst
  unfold kDeg rDeg
  refine congrArg (fun t => maximumf (F := Ideal) t _) ?_
  refine scatterAdd_rows_perm Cert.ReferenceIdeal.Facts₀.scatter_S50000x1_S800000x1_S800000x1_1_0_0_1_wf
    Cert.KernelIdeal.Facts₀.scatter_S50000x1_S800000x1_S800000x1_1_0_0_1_wf _ _ _ _ _ σ (fun e => ?_) (fun e c => rfl)
  rw [kCol_apply, rCol_apply, hσ]

end Cert.EdgeSums

end
-- ==== Proof.KSort.lean ====
/-
  THE SORT'S SECOND RESULT IS THE ARGSORT OF THE TARGETS, AND THE HOST'S EDGE SUMS ARE THE SORTED PROGRAM'S.

  After the three host operations of the sort — the edge numbers, then the two components of the stable two-operand
  sort of (targets, edge numbers) — the buffer of the second component holds the argsort of whatever the target buffer
  held (`sort_perm`). The operations are written over typed references, which move a value between a buffer's own type
  and the tensor type it is known to equal; at a literal reference the two types are one and the move is the identity
  (`ofBuf_toBuf`, `ofBuf_arg2`, `toBuf_v2`).
  The reordering of an edge vector by the sorted edge numbers, the row sums and the edge counts, as functions of the
  tables they read, are at the argsort the sorted program's (`sorted_eq`, `msum_eq`, `deg_eq`).
-/
import proofs.«141839_j76785425318033_2_alg».proof.Proof.Gen.KernelIdeal.Frame
import proofs.«141839_j76785425318033_2_alg».proof.Proof.EdgeSums
import proofs.«141839_j76785425318033_2_alg».proof.Proof.KGlue1

set_option maxRecDepth 16384

noncomputable section

namespace Cert.KSort

open Idealize.ShloMosaic Idealize.ShloMosaic.TcCoe Idealize.ShloMosaic.StableHlo Idealize.ShloMosaic.ValueIdx Idealize.SL.Sem
open Cert.KernelIdeal Cert.KernelIdeal.Gen Cert.EdgeSums

/-- A value moved to a typed reference's buffer type and back is the value. -/
theorem ofBuf_toBuf {Val : EltTy → Type} {T : BufTy} (t : TRef sig T) (v : T.Contents Val) : t.ofBuf (t.toBuf v) = v := by
  obtain ⟨r, h, _, _⟩ := t
  subst h
  rfl

/-- At the target buffer, whose type is the tensor type literally, the move is the identity. -/
theorem ofBuf_arg2 (h1 h2 h3) (x : (Proc.devRef (τ := τ) .tc main_arg2).ty.Contents (Elt Ideal)) :
    (TRef.of main_arg2 h1 h2 h3 : TRef sig ⟨S800000, .i32⟩).ofBuf x = x := rfl

/-- At the buffer of the sort's second result likewise. -/
theorem toBuf_v2 (h1 h2 h3) (y : (⟨S800000, .i32⟩ : BufTy).Contents (Elt Ideal)) :
    (TRef.of main_v2 h1 h2 h3 : TRef sig ⟨S800000, .i32⟩).toBuf y = y := rfl

variable (W : Valuation τ sig (Elt Ideal))

/-- AFTER THE SORT the buffer of its second result holds the argsort of the target buffer's contents. -/
theorem sort_perm : StableHlo.after (hostOps1 (F := Ideal)) W (Proc.devRef .tc main_v2) = Cert.EdgeSums.kPerm (W (Proc.devRef .tc main_arg2)) := by
  after_results_simp
  generalize W (Proc.devRef .tc main_arg2) = x
  rw [ofBuf_toBuf, ofBuf_arg2]
  refine (toBuf_v2 _ _ _ _).trans ?_
  unfold kPerm
  rfl

/-- An edge vector reordered by the argsort is the vector read in sorted order. -/
theorem sorted_eq (a dst : Cert.KGlue.IV) : Cert.KGlue.sortedWith a (kPerm dst) = kSorted a dst := rfl

/-- The row sums over the sorted sources and targets are the sorted program's. -/
theorem msum_eq (H : Cert.KGlue.NodeTbl) (src dst : Cert.KGlue.IV) :
    Cert.KGlue.msumOf H (kSorted src dst) (kSorted dst dst) = kMsum H src dst := rfl

/-- The edge counts over the sorted targets are the sorted program's. -/
theorem deg_eq (dst : Cert.KGlue.IV) : Cert.KGlue.degOf (kSorted dst dst) = kDeg dst := rfl

end Cert.KSort

end
-- ==== Proof.KFinal.lean ====
/-
  THE KERNEL'S RUN, ENDING AT ITS RESULT AS A FUNCTION OF THE ARGUMENTS.

  Every weakly fair execution of the kernel program terminates with the result buffer at `out`: the read-out of the
  fourth layer's table, the neighbour sums taken over the edges in the order an argsort of the targets gives (the sort's
  second component is that argsort), and with the arguments as launched.
-/
import proofs.«141839_j76785425318033_2_alg».proof.Proof.KChain
import proofs.«141839_j76785425318033_2_alg».proof.Proof.KRun
import proofs.«141839_j76785425318033_2_alg».proof.Proof.KSort

set_option maxRecDepth 16384

noncomputable section

namespace Cert.KFinal

open Idealize.ShloMosaic Idealize.ShloMosaic.TcCoe Idealize.ShloMosaic.StableHlo Idealize.SL.Sem
open Cert.KernelIdeal Cert.KernelIdeal.Gen Cert.KChain

variable (m : (ℓ : Loc nD τ sig) → Buf (Elt Ideal) ℓ) (ρ : Dev nD → PrngReg)

/-- What the sort leaves in its second result is the argsort of the targets. -/
theorem pK_eq (c : Dev nD) : pK m ρ c = Cert.EdgeSums.kPerm (arg m c main_arg2) :=
  (Cert.KSort.sort_perm (W2 m ρ c)).trans (by rw [W2_a2 m ρ c])

theorem kernel_run : θ_run defs (onTc (τ := τ) (main (F := Ideal))) ⟨m, fun _ => 0, ρ⟩ (fun r => ∀ c : Dev nD,
      r.2.mem ((c.tc : Thread nD τ).loc main_v117) = out m c (Cert.EdgeSums.kPerm (arg m c main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans ((result_eq m ρ c).trans (by rw [pK_eq m ρ c])), (h c).2⟩)
    (Cert.KRun.run_result (F := Ideal) m ρ)

end Cert.KFinal

end
-- ==== Proof.LibPlainDot.lean ====
/-
  A plain two-dimensional matrix product read at an index, at the ideal values.

  For a dot of an `[M, K]` table with a `[K, N]` table that contracts the left operand's last axis with the right
  operand's first and has no batch axis, the element `(p, q)` of the product is `Σ_{k < K} l[p, k] · r[k, q]`:
  for the host's `dot_general`, and for a kernel's `tpu.matmul` into the zero accumulator. The record's contraction
  index (a one-axis multi-index) is re-indexed over `Fin K`. The hypotheses are the facts about the dimension record
  that a literal record gives by computation: the contraction shape is one axis of extent `K`; the contracted axes
  are `1` on the left and `0` on the right; the left operand's row and the right operand's column are the result's.
-/
import Idealize.ShloMosaic.PureOps.Ideal.Laws
import Idealize.ShloMosaic.Lib.ValueIdx

noncomputable section

namespace Cert.PlainDot

open Idealize.ShloMosaic Idealize.ShloMosaic.ValueIdx

variable {M K N : Nat} (d : DotDims ⟨2, ![M, K]⟩ ⟨2, ![K, N]⟩ ⟨2, ![M, N]⟩)

/-- The sum over the record's contraction index is the sum over `k < K` of the row's entry times the column's. -/
theorem sum_contr (hr : d.contr.rank = 1) (hs : d.contr.size ⟨0, by omega⟩ = K)
    (hlc : d.lhsContracting = [⟨1, Nat.one_lt_two⟩]) (hrc : d.rhsContracting = [⟨0, Nat.zero_lt_two⟩])
    (hl0 : ∀ j k, (d.lhsIdx j k ⟨0, Nat.zero_lt_two⟩).val = (j ⟨0, Nat.zero_lt_two⟩).val)
    (hr1 : ∀ j k, (d.rhsIdx j k ⟨1, Nat.one_lt_two⟩).val = (j ⟨1, Nat.one_lt_two⟩).val)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- The host's `dot_general` at `(p, q)`. -/
theorem dotGeneral_apply {φ₁ φ₂ : FTy} (hr : d.contr.rank = 1) (hs : d.contr.size ⟨0, by omega⟩ = K)
    (hlc : d.lhsContracting = [⟨1, Nat.one_lt_two⟩]) (hrc : d.rhsContracting = [⟨0, Nat.zero_lt_two⟩])
    (hl0 : ∀ j k, (d.lhsIdx j k ⟨0, Nat.zero_lt_two⟩).val = (j ⟨0, Nat.zero_lt_two⟩).val)
    (hr1 : ∀ j k, (d.rhsIdx j k ⟨1, Nat.one_lt_two⟩).val = (j ⟨1, Nat.one_lt_two⟩).val)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_contr d hr hs hlc hrc hl0 hr1 l r p q)

/-- A kernel's `tpu.matmul` into the zero splat at `(p, q)`. -/
theorem matmul_zero_apply {φ₁ φ₂ : FTy} (hr : d.contr.rank = 1) (hs : d.contr.size ⟨0, by omega⟩ = K)
    (hlc : d.lhsContracting = [⟨1, Nat.one_lt_two⟩]) (hrc : d.rhsContracting = [⟨0, Nat.zero_lt_two⟩])
    (hl0 : ∀ j k, (d.lhsIdx j k ⟨0, Nat.zero_lt_two⟩).val = (j ⟨0, Nat.zero_lt_two⟩).val)
    (hr1 : ∀ j k, (d.rhsIdx j k ⟨1, Nat.one_lt_two⟩).val = (j ⟨1, Nat.one_lt_two⟩).val)
    (prec : Option ContractPrecision)
    (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) :=
  (Ideal.matmul_constant_zero_apply d prec l r (ix2 p q)).trans (sum_contr d hr hs hlc hrc hl0 hr1 l r p q)

end Cert.PlainDot

end
-- ==== Proof.RefNet.lean ====
/-
  THE REFERENCE PROGRAM'S STAGES AS THE NETWORK'S ROW FUNCTIONS.

  The reference computes the network one whole table at a time. Each theorem here reads one stage of it at a row and
  a column and finds the specification's row function there: the embedding is a row times a matrix plus a bias; a
  layer's output is the node's row plus the positive part of the normalised affine image of the row joined with the
  mean of the neighbours' rows, the 256-term contraction against the joined row splitting into the two 128-term sums
  against the upper and the lower half of the weights; the read-out is the three-layer perceptron of the two end rows.
  The tables of gathered rows, of summed neighbour rows and of clamped edge counts stay opaque.
-/
import proofs.«141839_j76785425318033_2_alg».proof.Proof.RefReadP
import proofs.«141839_j76785425318033_2_alg».proof.Proof.Spec
import proofs.«141839_j76785425318033_2_alg».proof.Proof.LibPlainDot

noncomputable section

open scoped BigOperators

namespace Cert.RefNet

open Idealize.ShloMosaic Idealize.ShloMosaic.ValueIdx Cert.Rows Cert.Net
open Cert.ReferenceIdeal Cert.ReferenceIdeal.Gen Cert.ReferenceIdeal.ReadP

/-! ## The embedding -/

/-- The embedding stage is the table of embedded rows. -/
theorem embed_eq (x0 : (⟨S50000x64, .f32⟩ : BufTy).Contents (Elt Ideal)) (x5 : (⟨S64x128, .f32⟩ : BufTy).Contents (Elt Ideal))
    (x6 : (⟨S128, .f32⟩ : BufTy).Contents (Elt Ideal)) :
    val_main_v3 (F := Ideal) x0 x5 x6 = embedT x0 x5 (vecOf x6) := by
  refine eq_ofRows _ _ fun p q => ?_
  rw [val_main_v3_apply, val_main_v0_apply, val_main_v2_apply, val_main_v1_apply]
  have e1 : ∀ k : Fin 64, lidx_main_v0 (ix2 p q) k = ix2 p k := fun k =>
    funext fun a => Fin.ext (by match a with | ⟨0, _⟩ => rfl | ⟨1, _⟩ => rfl)
  have e2 : ∀ k : Fin 64, ridx_main_v0 (ix2 p q) k = ix2 k q := fun k =>
    funext fun a => Fin.ext (by match a with | ⟨0, _⟩ => rfl | ⟨1, _⟩ => rfl)
  have e3 : idx_main_v1 (idx_main_v2 (ix2 p q)) = ix1 q :=
    funext fun a => Fin.ext (by match a with | ⟨0, _⟩ => rfl)
  simp only [e1, e2, e3]
  rfl

/-! ## Layer 0 -/

section Layer0
variable (x0 : (⟨S50000x64, .f32⟩ : BufTy).Contents (Elt Ideal)) (x1 x2 : (⟨S800000, .i32⟩ : BufTy).Contents (Elt Ideal))
  (x5 : (⟨S64x128, .f32⟩ : BufTy).Contents (Elt Ideal)) (x6 : (⟨S128, .f32⟩ : BufTy).Contents (Elt Ideal))
  (x7 : (⟨S4x256x128, .f32⟩ : BufTy).Contents (Elt Ideal)) (x8 : (⟨S4x128, .f32⟩ : BufTy).Contents (Elt Ideal))

/-- Row `k` of the layer's weight matrix, `k` below 128: the half that meets the node's own row. -/
theorem wh0 (p : Fin 50000) (q k : Fin 128) (hk : k.val < 256) :
    val_main_v5 (F := Ideal) x7 (ridx_main_v27 (ix2 p q) ⟨k.val, hk⟩) = whOf x7 0 (ix2 k q) := by
  rw [val_main_v5_apply, val_main_v4_apply]
  show x7 _ = x7 (ix3 (0 : Fin 4) (⟨k.val, by omega⟩ : Fin 256) q)
  refine congrArg x7 (funext fun a => Fin.ext ?_)
  have hk' := k.isLt
  have hq := q.isLt
  match a with
  | ⟨0, _⟩ => rfl
  | ⟨1, _⟩ => show (k.val * 128 + q.val) / 128 % 256 = k.val; omega
  | ⟨2, _⟩ => show (k.val * 128 + q.val) % 128 = q.val; omega

/-- Row `k + 128` of the layer's weight matrix: the half that meets the neighbours' mean. -/
theorem wc0 (p : Fin 50000) (q k : Fin 128) (hk : k.val + 128 < 256) :
    val_main_v5 (F := Ideal) x7 (ridx_main_v27 (ix2 p q) ⟨k.val + 128, hk⟩) = wcOf x7 0 (ix2 k q) := by
  rw [val_main_v5_apply, val_main_v4_apply]
  show x7 _ = x7 (ix3 (0 : Fin 4) (⟨k.val + 128, by omega⟩ : Fin 256) q)
  refine congrArg x7 (funext fun a => Fin.ext ?_)
  have hk' := k.isLt
  have hq := q.isLt
  match a with
  | ⟨0, _⟩ => rfl
  | ⟨1, _⟩ => show ((k.val + 128) * 128 + q.val) / 128 % 256 = k.val + 128; omega
  | ⟨2, _⟩ => show ((k.val + 128) * 128 + q.val) % 128 = q.val; omega

/-- The joined row's first 128 entries are the node's own row. -/
theorem catL0 (p : Fin 50000) (q k : Fin 128) (hk : k.val < 256) :
    val_main_v26 (F := Ideal) x0 x1 x2 x5 x6 (lidx_main_v27 (ix2 p q) ⟨k.val, hk⟩) = val_main_v3 (F := Ideal) x0 x5 x6 (ix2 p k) := by
  unfold val_main_v26
  exact concatenate_pair_apply_left (t := S50000x256) (s₁ := S50000x128) (s₂ := S50000x128) 1 _ _ concatenates_S50000x128_S50000x128_S50000x256_d1
    (lidx_main_v27 (ix2 p q) ⟨k.val, hk⟩) rfl (ix2 p k) (fun b => match b with
    | ⟨0, _⟩ => rfl
    | ⟨1, _⟩ => rfl)

/-- The joined row's last 128 entries are the neighbours' summed row divided by the clamped edge count. -/
theorem catR0 (p : Fin 50000) (q k : Fin 128) (hk : k.val + 128 < 256) :
    val_main_v26 (F := Ideal) x0 x1 x2 x5 x6 (lidx_main_v27 (ix2 p q) ⟨k.val + 128, hk⟩)
      = Ideal.div (val_main_v17 (F := Ideal) x0 x1 x2 x5 x6 (ix2 p k)) (val_main_v23 (F := Ideal) x2 (ix2 p (0 : Fin 1))) := by
  unfold val_main_v26
  refine (concatenate_pair_apply_right (t := S50000x256) (s₁ := S50000x128) (s₂ := S50000x128) 1 _ _ concatenates_S50000x128_S50000x128_S50000x256_d1
    (lidx_main_v27 (ix2 p q) ⟨k.val + 128, hk⟩) rfl rfl (ix2 p k) (fun b hb => match b, hb with
    | ⟨0, _⟩, _ => rfl
    | ⟨1, _⟩, hb => absurd rfl hb) rfl).trans ?_
  rw [val_main_v25_apply, val_main_v24_apply]
  have e : idx_main_v24 (ix2 p k) = ix2 p (0 : Fin 1) :=
    funext fun a => Fin.ext (by match a with | ⟨0, _⟩ => rfl | ⟨1, _⟩ => rfl)
  rw [e]
  rfl

/-- The layer's bias at a column. -/
theorem bias0 (p : Fin 50000) (q : Fin 128) : val_main_v29 (F := Ideal) x8 (ix2 p q) = rowAt x8 0 q := by
  rw [val_main_v29_apply, val_main_v28_apply, val_main_v7_apply, val_main_v6_apply]
  show x8 _ = x8 (ix2 (0 : Fin 4) q)
  refine congrArg x8 (funext fun a => Fin.ext ?_)
  have hq := q.isLt
  match a with
  | ⟨0, _⟩ => rfl
  | ⟨1, _⟩ => show q.val % 128 = q.val; omega

/-- The affine image of the joined row, at a node and a column. -/
theorem bundle0 (p : Fin 50000) (q : Fin 128) :
    val_main_v30 (F := Ideal) x0 x1 x2 x5 x6 x7 x8 (ix2 p q)
      = bundleRow (rowAt (val_main_v3 (F := Ideal) x0 x5 x6) p)
          (fun k => Ideal.div (rowAt (val_main_v17 (F := Ideal) x0 x1 x2 x5 x6) p k) (val_main_v23 (F := Ideal) x2 (ix2 p (0 : Fin 1))))
          (whOf x7 0) (wcOf x7 0) (rowAt x8 0) q := by
  rw [val_main_v30_apply, val_main_v27_apply, bias0, sum_256_split]
  simp only [wh0, wc0, catL0, catR0]
  rfl

/-- The layer's output is the layer's row function at every node. -/
theorem layer0_eq :
    val_main_v37 (F := Ideal) x0 x1 x2 x5 x6 x7 x8 = sageT (val_main_v3 (F := Ideal) x0 x5 x6) (val_main_v17 (F := Ideal) x0 x1 x2 x5 x6) (val_main_v23 (F := Ideal) x2) (whOf x7 0) (wcOf x7 0) (rowAt x8 0) := by
  refine eq_ofRows _ _ fun p q => ?_
  rw [val_main_v37_apply, val_main_v36_apply, val_main_v35_apply, val_main_v34_apply, val_main_v33_apply,
    val_main_v32_apply, val_main_v31_apply, val_main_call0_v2_apply, val_main_call0_v1_apply, val_main_call1_v0_apply,
    val_main_call0_cst_apply, val_main_call1_cst_apply, val_main_cst_4_apply]
  have es : ∀ k : Fin 128, idx_main_call0_v1 (idx_main_call0_v2 (idx_main_v34 (ix2 p q))) k = ix2 p k := fun k =>
    funext fun a => Fin.ext (by match a with | ⟨0, _⟩ => rfl | ⟨1, _⟩ => rfl)
  simp only [es, val_main_call0_v0_apply, bundle0]
  show _ + max (Ideal.div _ (max (Ideal.sqrt (Ideal.ofBits .f32 0x00000000#32 + _)) _)) (Ideal.ofBits .f32 0x00000000#32) = _
  rw [Ideal.ofBits_zero_f32, zero_add]
  rfl

end Layer0

/-! ## Layer 1 -/

section Layer1
variable (x0 : (⟨S50000x64, .f32⟩ : BufTy).Contents (Elt Ideal)) (x1 x2 : (⟨S800000, .i32⟩ : BufTy).Contents (Elt Ideal))
  (x5 : (⟨S64x128, .f32⟩ : BufTy).Contents (Elt Ideal)) (x6 : (⟨S128, .f32⟩ : BufTy).Contents (Elt Ideal))
  (x7 : (⟨S4x256x128, .f32⟩ : BufTy).Contents (Elt Ideal)) (x8 : (⟨S4x128, .f32⟩ : BufTy).Contents (Elt Ideal))

/-- Row `k` of the layer's weight matrix, `k` below 128: the half that meets the node's own row. -/
theorem wh1 (p : Fin 50000) (q k : Fin 128) (hk : k.val < 256) :
    val_main_v39 (F := Ideal) x7 (ridx_main_v61 (ix2 p q) ⟨k.val, hk⟩) = whOf x7 1 (ix2 k q) := by
  rw [val_main_v39_apply, val_main_v38_apply]
  show x7 _ = x7 (ix3 (1 : Fin 4) (⟨k.val, by omega⟩ : Fin 256) q)
  refine congrArg x7 (funext fun a => Fin.ext ?_)
  have hk' := k.isLt
  have hq := q.isLt
  match a with
  | ⟨0, _⟩ => rfl
  | ⟨1, _⟩ => show (k.val * 128 + q.val) / 128 % 256 = k.val; omega
  | ⟨2, _⟩ => show (k.val * 128 + q.val) % 128 = q.val; omega

/-- Row `k + 128` of the layer's weight matrix: the half that meets the neighbours' mean. -/
theorem wc1 (p : Fin 50000) (q k : Fin 128) (hk : k.val + 128 < 256) :
    val_main_v39 (F := Ideal) x7 (ridx_main_v61 (ix2 p q) ⟨k.val + 128, hk⟩) = wcOf x7 1 (ix2 k q) := by
  rw [val_main_v39_apply, val_main_v38_apply]
  show x7 _ = x7 (ix3 (1 : Fin 4) (⟨k.val + 128, by omega⟩ : Fin 256) q)
  refine congrArg x7 (funext fun a => Fin.ext ?_)
  have hk' := k.isLt
  have hq := q.isLt
  match a with
  | ⟨0, _⟩ => rfl
  | ⟨1, _⟩ => show ((k.val + 128) * 128 + q.val) / 128 % 256 = k.val + 128; omega
  | ⟨2, _⟩ => show ((k.val + 128) * 128 + q.val) % 128 = q.val; omega

/-- The joined row's first 128 entries are the node's own row. -/
theorem catL1 (p : Fin 50000) (q k : Fin 128) (hk : k.val < 256) :
    val_main_v60 (F := Ideal) x0 x1 x2 x5 x6 x7 x8 (lidx_main_v61 (ix2 p q) ⟨k.val, hk⟩) = val_main_v37 (F := Ideal) x0 x1 x2 x5 x6 x7 x8 (ix2 p k) := by
  unfold val_main_v60
  exact concatenate_pair_apply_left (t := S50000x256) (s₁ := S50000x128) (s₂ := S50000x128) 1 _ _ concatenates_S50000x128_S50000x128_S50000x256_d1
    (lidx_main_v61 (ix2 p q) ⟨k.val, hk⟩) rfl (ix2 p k) (fun b => match b with
    | ⟨0, _⟩ => rfl
    | ⟨1, _⟩ => rfl)

/-- The joined row's last 128 entries are the neighbours' summed row divided by the clamped edge count. -/
theorem catR1 (p : Fin 50000) (q k : Fin 128) (hk : k.val + 128 < 256) :
    val_main_v60 (F := Ideal) x0 x1 x2 x5 x6 x7 x8 (lidx_main_v61 (ix2 p q) ⟨k.val + 128, hk⟩)
      = Ideal.div (val_main_v51 (F := Ideal) x0 x1 x2 x5 x6 x7 x8 (ix2 p k)) (val_main_v57 (F := Ideal) x2 (ix2 p (0 : Fin 1))) := by
  unfold val_main_v60
  refine (concatenate_pair_apply_right (t := S50000x256) (s₁ := S50000x128) (s₂ := S50000x128) 1 _ _ concatenates_S50000x128_S50000x128_S50000x256_d1
    (lidx_main_v61 (ix2 p q) ⟨k.val + 128, hk⟩) rfl rfl (ix2 p k) (fun b hb => match b, hb with
    | ⟨0, _⟩, _ => rfl
    | ⟨1, _⟩, hb => absurd rfl hb) rfl).trans ?_
  rw [val_main_v59_apply, val_main_v58_apply]
  have e : idx_main_v58 (ix2 p k) = ix2 p (0 : Fin 1) :=
    funext fun a => Fin.ext (by match a with | ⟨0, _⟩ => rfl | ⟨1, _⟩ => rfl)
  rw [e]
  rfl

/-- The layer's bias at a column. -/
theorem bias1 (p : Fin 50000) (q : Fin 128) : val_main_v63 (F := Ideal) x8 (ix2 p q) = rowAt x8 1 q := by
  rw [val_main_v63_apply, val_main_v62_apply, val_main_v41_apply, val_main_v40_apply]
  show x8 _ = x8 (ix2 (1 : Fin 4) q)
  refine congrArg x8 (funext fun a => Fin.ext ?_)
  have hq := q.isLt
  match a with
  | ⟨0, _⟩ => rfl
  | ⟨1, _⟩ => show q.val % 128 = q.val; omega

/-- The affine image of the joined row, at a node and a column. -/
theorem bundle1 (p : Fin 50000) (q : Fin 128) :
    val_main_v64 (F := Ideal) x0 x1 x2 x5 x6 x7 x8 (ix2 p q)
      = bundleRow (rowAt (val_main_v37 (F := Ideal) x0 x1 x2 x5 x6 x7 x8) p)
          (fun k => Ideal.div (rowAt (val_main_v51 (F := Ideal) x0 x1 x2 x5 x6 x7 x8) p k) (val_main_v57 (F := Ideal) x2 (ix2 p (0 : Fin 1))))
          (whOf x7 1) (wcOf x7 1) (rowAt x8 1) q := by
  rw [val_main_v64_apply, val_main_v61_apply, bias1, sum_256_split]
  simp only [wh1, wc1, catL1, catR1]
  rfl

/-- The layer's output is the layer's row function at every node. -/
theorem layer1_eq :
    val_main_v71 (F := Ideal) x0 x1 x2 x5 x6 x7 x8 = sageT (val_main_v37 (F := Ideal) x0 x1 x2 x5 x6 x7 x8) (val_main_v51 (F := Ideal) x0 x1 x2 x5 x6 x7 x8) (val_main_v57 (F := Ideal) x2) (whOf x7 1) (wcOf x7 1) (rowAt x8 1) := by
  refine eq_ofRows _ _ fun p q => ?_
  rw [val_main_v71_apply, val_main_v70_apply, val_main_v69_apply, val_main_v68_apply, val_main_v67_apply,
    val_main_v66_apply, val_main_v65_apply, val_main_call2_v2_apply, val_main_call2_v1_apply, val_main_call3_v0_apply,
    val_main_call2_cst_apply, val_main_call3_cst_apply, val_main_cst_11_apply]
  have es : ∀ k : Fin 128, idx_main_call2_v1 (idx_main_call2_v2 (idx_main_v68 (ix2 p q))) k = ix2 p k := fun k =>
    funext fun a => Fin.ext (by match a with | ⟨0, _⟩ => rfl | ⟨1, _⟩ => rfl)
  simp only [es, val_main_call2_v0_apply, bundle1]
  show _ + max (Ideal.div _ (max (Ideal.sqrt (Ideal.ofBits .f32 0x00000000#32 + _)) _)) (Ideal.ofBits .f32 0x00000000#32) = _
  rw [Ideal.ofBits_zero_f32, zero_add]
  rfl

end Layer1

/-! ## Layer 2 -/

section Layer2
variable (x0 : (⟨S50000x64, .f32⟩ : BufTy).Contents (Elt Ideal)) (x1 x2 : (⟨S800000, .i32⟩ : BufTy).Contents (Elt Ideal))
  (x5 : (⟨S64x128, .f32⟩ : BufTy).Contents (Elt Ideal)) (x6 : (⟨S128, .f32⟩ : BufTy).Contents (Elt Ideal))
  (x7 : (⟨S4x256x128, .f32⟩ : BufTy).Contents (Elt Ideal)) (x8 : (⟨S4x128, .f32⟩ : BufTy).Contents (Elt Ideal))

/-- Row `k` of the layer's weight matrix, `k` below 128: the half that meets the node's own row. -/
theorem wh2 (p : Fin 50000) (q k : Fin 128) (hk : k.val < 256) :
    val_main_v73 (F := Ideal) x7 (ridx_main_v95 (ix2 p q) ⟨k.val, hk⟩) = whOf x7 2 (ix2 k q) := by
  rw [val_main_v73_apply, val_main_v72_apply]
  show x7 _ = x7 (ix3 (2 : Fin 4) (⟨k.val, by omega⟩ : Fin 256) q)
  refine congrArg x7 (funext fun a => Fin.ext ?_)
  have hk' := k.isLt
  have hq := q.isLt
  match a with
  | ⟨0, _⟩ => rfl
  | ⟨1, _⟩ => show (k.val * 128 + q.val) / 128 % 256 = k.val; omega
  | ⟨2, _⟩ => show (k.val * 128 + q.val) % 128 = q.val; omega

/-- Row `k + 128` of the layer's weight matrix: the half that meets the neighbours' mean. -/
theorem wc2 (p : Fin 50000) (q k : Fin 128) (hk : k.val + 128 < 256) :
    val_main_v73 (F := Ideal) x7 (ridx_main_v95 (ix2 p q) ⟨k.val + 128, hk⟩) = wcOf x7 2 (ix2 k q) := by
  rw [val_main_v73_apply, val_main_v72_apply]
  show x7 _ = x7 (ix3 (2 : Fin 4) (⟨k.val + 128, by omega⟩ : Fin 256) q)
  refine congrArg x7 (funext fun a => Fin.ext ?_)
  have hk' := k.isLt
  have hq := q.isLt
  match a with
  | ⟨0, _⟩ => rfl
  | ⟨1, _⟩ => show ((k.val + 128) * 128 + q.val) / 128 % 256 = k.val + 128; omega
  | ⟨2, _⟩ => show ((k.val + 128) * 128 + q.val) % 128 = q.val; omega

/-- The joined row's first 128 entries are the node's own row. -/
theorem catL2 (p : Fin 50000) (q k : Fin 128) (hk : k.val < 256) :
    val_main_v94 (F := Ideal) x0 x1 x2 x5 x6 x7 x8 (lidx_main_v95 (ix2 p q) ⟨k.val, hk⟩) = val_main_v71 (F := Ideal) x0 x1 x2 x5 x6 x7 x8 (ix2 p k) := by
  unfold val_main_v94
  exact concatenate_pair_apply_left (t := S50000x256) (s₁ := S50000x128) (s₂ := S50000x128) 1 _ _ concatenates_S50000x128_S50000x128_S50000x256_d1
    (lidx_main_v95 (ix2 p q) ⟨k.val, hk⟩) rfl (ix2 p k) (fun b => match b with
    | ⟨0, _⟩ => rfl
    | ⟨1, _⟩ => rfl)

/-- The joined row's last 128 entries are the neighbours' summed row divided by the clamped edge count. -/
theorem catR2 (p : Fin 50000) (q k : Fin 128) (hk : k.val + 128 < 256) :
    val_main_v94 (F := Ideal) x0 x1 x2 x5 x6 x7 x8 (lidx_main_v95 (ix2 p q) ⟨k.val + 128, hk⟩)
      = Ideal.div (val_main_v85 (F := Ideal) x0 x1 x2 x5 x6 x7 x8 (ix2 p k)) (val_main_v91 (F := Ideal) x2 (ix2 p (0 : Fin 1))) := by
  unfold val_main_v94
  refine (concatenate_pair_apply_right (t := S50000x256) (s₁ := S50000x128) (s₂ := S50000x128) 1 _ _ concatenates_S50000x128_S50000x128_S50000x256_d1
    (lidx_main_v95 (ix2 p q) ⟨k.val + 128, hk⟩) rfl rfl (ix2 p k) (fun b hb => match b, hb with
    | ⟨0, _⟩, _ => rfl
    | ⟨1, _⟩, hb => absurd rfl hb) rfl).trans ?_
  rw [val_main_v93_apply, val_main_v92_apply]
  have e : idx_main_v92 (ix2 p k) = ix2 p (0 : Fin 1) :=
    funext fun a => Fin.ext (by match a with | ⟨0, _⟩ => rfl | ⟨1, _⟩ => rfl)
  rw [e]
  rfl

/-- The layer's bias at a column. -/
theorem bias2 (p : Fin 50000) (q : Fin 128) : val_main_v97 (F := Ideal) x8 (ix2 p q) = rowAt x8 2 q := by
  rw [val_main_v97_apply, val_main_v96_apply, val_main_v75_apply, val_main_v74_apply]
  show x8 _ = x8 (ix2 (2 : Fin 4) q)
  refine congrArg x8 (funext fun a => Fin.ext ?_)
  have hq := q.isLt
  match a with
  | ⟨0, _⟩ => rfl
  | ⟨1, _⟩ => show q.val % 128 = q.val; omega

/-- The affine image of the joined row, at a node and a column. -/
theorem bundle2 (p : Fin 50000) (q : Fin 128) :
    val_main_v98 (F := Ideal) x0 x1 x2 x5 x6 x7 x8 (ix2 p q)
      = bundleRow (rowAt (val_main_v71 (F := Ideal) x0 x1 x2 x5 x6 x7 x8) p)
          (fun k => Ideal.div (rowAt (val_main_v85 (F := Ideal) x0 x1 x2 x5 x6 x7 x8) p k) (val_main_v91 (F := Ideal) x2 (ix2 p (0 : Fin 1))))
          (whOf x7 2) (wcOf x7 2) (rowAt x8 2) q := by
  rw [val_main_v98_apply, val_main_v95_apply, bias2, sum_256_split]
  simp only [wh2, wc2, catL2, catR2]
  rfl

/-- The layer's output is the layer's row function at every node. -/
theorem layer2_eq :
    val_main_v105 (F := Ideal) x0 x1 x2 x5 x6 x7 x8 = sageT (val_main_v71 (F := Ideal) x0 x1 x2 x5 x6 x7 x8) (val_main_v85 (F := Ideal) x0 x1 x2 x5 x6 x7 x8) (val_main_v91 (F := Ideal) x2) (whOf x7 2) (wcOf x7 2) (rowAt x8 2) := by
  refine eq_ofRows _ _ fun p q => ?_
  rw [val_main_v105_apply, val_main_v104_apply, val_main_v103_apply, val_main_v102_apply, val_main_v101_apply,
    val_main_v100_apply, val_main_v99_apply, val_main_call4_v2_apply, val_main_call4_v1_apply, val_main_call5_v0_apply,
    val_main_call4_cst_apply, val_main_call5_cst_apply, val_main_cst_18_apply]
  have es : ∀ k : Fin 128, idx_main_call4_v1 (idx_main_call4_v2 (idx_main_v102 (ix2 p q))) k = ix2 p k := fun k =>
    funext fun a => Fin.ext (by match a with | ⟨0, _⟩ => rfl | ⟨1, _⟩ => rfl)
  simp only [es, val_main_call4_v0_apply, bundle2]
  show _ + max (Ideal.div _ (max (Ideal.sqrt (Ideal.ofBits .f32 0x00000000#32 + _)) _)) (Ideal.ofBits .f32 0x00000000#32) = _
  rw [Ideal.ofBits_zero_f32, zero_add]
  rfl

end Layer2

/-! ## Layer 3 -/

section Layer3
variable (x0 : (⟨S50000x64, .f32⟩ : BufTy).Contents (Elt Ideal)) (x1 x2 : (⟨S800000, .i32⟩ : BufTy).Contents (Elt Ideal))
  (x5 : (⟨S64x128, .f32⟩ : BufTy).Contents (Elt Ideal)) (x6 : (⟨S128, .f32⟩ : BufTy).Contents (Elt Ideal))
  (x7 : (⟨S4x256x128, .f32⟩ : BufTy).Contents (Elt Ideal)) (x8 : (⟨S4x128, .f32⟩ : BufTy).Contents (Elt Ideal))

/-- Row `k` of the layer's weight matrix, `k` below 128: the half that meets the node's own row. -/
theorem wh3 (p : Fin 50000) (q k : Fin 128) (hk : k.val < 256) :
    val_main_v107 (F := Ideal) x7 (ridx_main_v129 (ix2 p q) ⟨k.val, hk⟩) = whOf x7 3 (ix2 k q) := by
  rw [val_main_v107_apply, val_main_v106_apply]
  show x7 _ = x7 (ix3 (3 : Fin 4) (⟨k.val, by omega⟩ : Fin 256) q)
  refine congrArg x7 (funext fun a => Fin.ext ?_)
  have hk' := k.isLt
  have hq := q.isLt
  match a with
  | ⟨0, _⟩ => rfl
  | ⟨1, _⟩ => show (k.val * 128 + q.val) / 128 % 256 = k.val; omega
  | ⟨2, _⟩ => show (k.val * 128 + q.val) % 128 = q.val; omega

/-- Row `k + 128` of the layer's weight matrix: the half that meets the neighbours' mean. -/
theorem wc3 (p : Fin 50000) (q k : Fin 128) (hk : k.val + 128 < 256) :
    val_main_v107 (F := Ideal) x7 (ridx_main_v129 (ix2 p q) ⟨k.val + 128, hk⟩) = wcOf x7 3 (ix2 k q) := by
  rw [val_main_v107_apply, val_main_v106_apply]
  show x7 _ = x7 (ix3 (3 : Fin 4) (⟨k.val + 128, by omega⟩ : Fin 256) q)
  refine congrArg x7 (funext fun a => Fin.ext ?_)
  have hk' := k.isLt
  have hq := q.isLt
  match a with
  | ⟨0, _⟩ => rfl
  | ⟨1, _⟩ => show ((k.val + 128) * 128 + q.val) / 128 % 256 = k.val + 128; omega
  | ⟨2, _⟩ => show ((k.val + 128) * 128 + q.val) % 128 = q.val; omega

/-- The joined row's first 128 entries are the node's own row. -/
theorem catL3 (p : Fin 50000) (q k : Fin 128) (hk : k.val < 256) :
    val_main_v128 (F := Ideal) x0 x1 x2 x5 x6 x7 x8 (lidx_main_v129 (ix2 p q) ⟨k.val, hk⟩) = val_main_v105 (F := Ideal) x0 x1 x2 x5 x6 x7 x8 (ix2 p k) := by
  unfold val_main_v128
  exact concatenate_pair_apply_left (t := S50000x256) (s₁ := S50000x128) (s₂ := S50000x128) 1 _ _ concatenates_S50000x128_S50000x128_S50000x256_d1
    (lidx_main_v129 (ix2 p q) ⟨k.val, hk⟩) rfl (ix2 p k) (fun b => match b with
    | ⟨0, _⟩ => rfl
    | ⟨1, _⟩ => rfl)

/-- The joined row's last 128 entries are the neighbours' summed row divided by the clamped edge count. -/
theorem catR3 (p : Fin 50000) (q k : Fin 128) (hk : k.val + 128 < 256) :
    val_main_v128 (F := Ideal) x0 x1 x2 x5 x6 x7 x8 (lidx_main_v129 (ix2 p q) ⟨k.val + 128, hk⟩)
      = Ideal.div (val_main_v119 (F := Ideal) x0 x1 x2 x5 x6 x7 x8 (ix2 p k)) (val_main_v125 (F := Ideal) x2 (ix2 p (0 : Fin 1))) := by
  unfold val_main_v128
  refine (concatenate_pair_apply_right (t := S50000x256) (s₁ := S50000x128) (s₂ := S50000x128) 1 _ _ concatenates_S50000x128_S50000x128_S50000x256_d1
    (lidx_main_v129 (ix2 p q) ⟨k.val + 128, hk⟩) rfl rfl (ix2 p k) (fun b hb => match b, hb with
    | ⟨0, _⟩, _ => rfl
    | ⟨1, _⟩, hb => absurd rfl hb) rfl).trans ?_
  rw [val_main_v127_apply, val_main_v126_apply]
  have e : idx_main_v126 (ix2 p k) = ix2 p (0 : Fin 1) :=
    funext fun a => Fin.ext (by match a with | ⟨0, _⟩ => rfl | ⟨1, _⟩ => rfl)
  rw [e]
  rfl

/-- The layer's bias at a column. -/
theorem bias3 (p : Fin 50000) (q : Fin 128) : val_main_v131 (F := Ideal) x8 (ix2 p q) = rowAt x8 3 q := by
  rw [val_main_v131_apply, val_main_v130_apply, val_main_v109_apply, val_main_v108_apply]
  show x8 _ = x8 (ix2 (3 : Fin 4) q)
  refine congrArg x8 (funext fun a => Fin.ext ?_)
  have hq := q.isLt
  match a with
  | ⟨0, _⟩ => rfl
  | ⟨1, _⟩ => show q.val % 128 = q.val; omega

/-- The affine image of the joined row, at a node and a column. -/
theorem bundle3 (p : Fin 50000) (q : Fin 128) :
    val_main_v132 (F := Ideal) x0 x1 x2 x5 x6 x7 x8 (ix2 p q)
      = bundleRow (rowAt (val_main_v105 (F := Ideal) x0 x1 x2 x5 x6 x7 x8) p)
          (fun k => Ideal.div (rowAt (val_main_v119 (F := Ideal) x0 x1 x2 x5 x6 x7 x8) p k) (val_main_v125 (F := Ideal) x2 (ix2 p (0 : Fin 1))))
          (whOf x7 3) (wcOf x7 3) (rowAt x8 3) q := by
  rw [val_main_v132_apply, val_main_v129_apply, bias3, sum_256_split]
  simp only [wh3, wc3, catL3, catR3]
  rfl

/-- The layer's output is the layer's row function at every node. -/
theorem layer3_eq :
    val_main_v139 (F := Ideal) x0 x1 x2 x5 x6 x7 x8 = sageT (val_main_v105 (F := Ideal) x0 x1 x2 x5 x6 x7 x8) (val_main_v119 (F := Ideal) x0 x1 x2 x5 x6 x7 x8) (val_main_v125 (F := Ideal) x2) (whOf x7 3) (wcOf x7 3) (rowAt x8 3) := by
  refine eq_ofRows _ _ fun p q => ?_
  rw [val_main_v139_apply, val_main_v138_apply, val_main_v137_apply, val_main_v136_apply, val_main_v135_apply,
    val_main_v134_apply, val_main_v133_apply, val_main_call6_v2_apply, val_main_call6_v1_apply, val_main_call7_v0_apply,
    val_main_call6_cst_apply, val_main_call7_cst_apply, val_main_cst_25_apply]
  have es : ∀ k : Fin 128, idx_main_call6_v1 (idx_main_call6_v2 (idx_main_v136 (ix2 p q))) k = ix2 p k := fun k =>
    funext fun a => Fin.ext (by match a with | ⟨0, _⟩ => rfl | ⟨1, _⟩ => rfl)
  simp only [es, val_main_call6_v0_apply, bundle3]
  show _ + max (Ideal.div _ (max (Ideal.sqrt (Ideal.ofBits .f32 0x00000000#32 + _)) _)) (Ideal.ofBits .f32 0x00000000#32) = _
  rw [Ideal.ofBits_zero_f32, zero_add]
  rfl

end Layer3

/-! ## The read-out -/

section Readout
variable (x0 : (⟨S50000x64, .f32⟩ : BufTy).Contents (Elt Ideal)) (x1 x2 : (⟨S800000, .i32⟩ : BufTy).Contents (Elt Ideal))
  (x5 : (⟨S64x128, .f32⟩ : BufTy).Contents (Elt Ideal)) (x6 : (⟨S128, .f32⟩ : BufTy).Contents (Elt Ideal))
  (x7 : (⟨S4x256x128, .f32⟩ : BufTy).Contents (Elt Ideal)) (x8 : (⟨S4x128, .f32⟩ : BufTy).Contents (Elt Ideal))
variable (x9 : (⟨S256x128, .f32⟩ : BufTy).Contents (Elt Ideal)) (x10 : (⟨S128, .f32⟩ : BufTy).Contents (Elt Ideal))
  (x11 : (⟨S128x64, .f32⟩ : BufTy).Contents (Elt Ideal)) (x12 : (⟨S64, .f32⟩ : BufTy).Contents (Elt Ideal))
  (x13 : (⟨S64x2, .f32⟩ : BufTy).Contents (Elt Ideal)) (x14 : (⟨S2, .f32⟩ : BufTy).Contents (Elt Ideal))

/-- The joined row's first 128 entries are the row of the edge's source. -/
theorem rcatL (e : Fin 800000) (q k : Fin 128) (hk : k.val < 256) :
    val_main_v154 (F := Ideal) x0 x1 x2 x5 x6 x7 x8 (lidx_main_v155 (ix2 e q) ⟨k.val, hk⟩) = val_main_v146 (F := Ideal) x0 x1 x2 x5 x6 x7 x8 (ix2 e k) := by
  unfold val_main_v154
  exact concatenate_pair_apply_left (t := S800000x256) (s₁ := S800000x128) (s₂ := S800000x128) 1 _ _ concatenates_S800000x128_S800000x128_S800000x256_d1
    (lidx_main_v155 (ix2 e q) ⟨k.val, hk⟩) rfl (ix2 e k) (fun b => match b with
    | ⟨0, _⟩ => rfl
    | ⟨1, _⟩ => rfl)

/-- The joined row's last 128 entries are the row of the edge's target. -/
theorem rcatR (e : Fin 800000) (q k : Fin 128) (hk : k.val + 128 < 256) :
    val_main_v154 (F := Ideal) x0 x1 x2 x5 x6 x7 x8 (lidx_main_v155 (ix2 e q) ⟨k.val + 128, hk⟩) = val_main_v153 (F := Ideal) x0 x1 x2 x5 x6 x7 x8 (ix2 e k) := by
  unfold val_main_v154
  exact concatenate_pair_apply_right (t := S800000x256) (s₁ := S800000x128) (s₂ := S800000x128) 1 _ _ concatenates_S800000x128_S800000x128_S800000x256_d1
    (lidx_main_v155 (ix2 e q) ⟨k.val + 128, hk⟩) rfl rfl (ix2 e k) (fun b hb => match b, hb with
    | ⟨0, _⟩, _ => rfl
    | ⟨1, _⟩, hb => absurd rfl hb) rfl

/-- Row `k` of the first weight matrix, `k` below 128: the half that meets the source's row. -/
theorem rtop (e : Fin 800000) (q k : Fin 128) (hk : k.val < 256) :
    x9 (ridx_main_v155 (ix2 e q) ⟨k.val, hk⟩) = topOf x9 (ix2 k q) := by
  show x9 _ = x9 (ix2 (⟨k.val, by omega⟩ : Fin 256) q)
  exact congrArg x9 (funext fun a => Fin.ext (by match a with | ⟨0, _⟩ => rfl | ⟨1, _⟩ => rfl))

/-- Row `k + 128` of the first weight matrix: the half that meets the target's row. -/
theorem rbot (e : Fin 800000) (q k : Fin 128) (hk : k.val + 128 < 256) :
    x9 (ridx_main_v155 (ix2 e q) ⟨k.val + 128, hk⟩) = botOf x9 (ix2 k q) := by
  show x9 _ = x9 (ix2 (⟨k.val + 128, by omega⟩ : Fin 256) q)
  exact congrArg x9 (funext fun a => Fin.ext (by match a with | ⟨0, _⟩ => rfl | ⟨1, _⟩ => rfl))

/-- The first affine layer at an edge and a column. -/
theorem hid0 (e : Fin 800000) (i : Fin 128) :
    val_main_v158 (F := Ideal) x0 x1 x2 x5 x6 x7 x8 x9 x10 (ix2 e i)
      = mv (rowAt (val_main_v146 (F := Ideal) x0 x1 x2 x5 x6 x7 x8) e) (topOf x9) i + mv (rowAt (val_main_v153 (F := Ideal) x0 x1 x2 x5 x6 x7 x8) e) (botOf x9) i + vecOf x10 i := by
  rw [val_main_v158_apply, val_main_v155_apply, val_main_v157_apply, val_main_v156_apply, sum_256_split]
  have eb : idx_main_v156 (idx_main_v157 (ix2 e i)) = ix1 i :=
    funext fun a => Fin.ext (by match a with | ⟨0, _⟩ => rfl)
  simp only [rcatL, rcatR, rtop, rbot, eb]
  rfl

/-- The first layer's positive part. -/
theorem act0 (e : Fin 800000) (k : Fin 128) :
    val_main_v159 (F := Ideal) x0 x1 x2 x5 x6 x7 x8 x9 x10 (ix2 e k)
      = relu (fun i => mv (rowAt (val_main_v146 (F := Ideal) x0 x1 x2 x5 x6 x7 x8) e) (topOf x9) i + mv (rowAt (val_main_v153 (F := Ideal) x0 x1 x2 x5 x6 x7 x8) e) (botOf x9) i + vecOf x10 i) k := by
  rw [val_main_v159_apply, val_main_call8_v0_apply, val_main_call8_cst_apply, hid0]
  show max _ (Ideal.ofBits .f32 0x00000000#32) = _
  rw [Ideal.ofBits_zero_f32]
  rfl

/-- The second affine layer at an edge and a column. -/
theorem hid1 (e : Fin 800000) (a : Fin 64) :
    val_main_v163 (F := Ideal) x0 x1 x2 x5 x6 x7 x8 x9 x10 x11 x12 (ix2 e a)
      = mv (relu fun i => mv (rowAt (val_main_v146 (F := Ideal) x0 x1 x2 x5 x6 x7 x8) e) (topOf x9) i + mv (rowAt (val_main_v153 (F := Ideal) x0 x1 x2 x5 x6 x7 x8) e) (botOf x9) i + vecOf x10 i) x11 a + vecOf x12 a := by
  rw [val_main_v163_apply, val_main_v160_apply, val_main_v162_apply, val_main_v161_apply]
  have el : ∀ k : Fin 128, lidx_main_v160 (ix2 e a) k = ix2 e k := fun k =>
    funext fun c => Fin.ext (by match c with | ⟨0, _⟩ => rfl | ⟨1, _⟩ => rfl)
  have er : ∀ k : Fin 128, ridx_main_v160 (ix2 e a) k = ix2 k a := fun k =>
    funext fun c => Fin.ext (by match c with | ⟨0, _⟩ => rfl | ⟨1, _⟩ => rfl)
  have eb : idx_main_v161 (idx_main_v162 (ix2 e a)) = ix1 a :=
    funext fun c => Fin.ext (by match c with | ⟨0, _⟩ => rfl)
  simp only [el, er, eb, act0]
  rfl

/-- The second layer's positive part. -/
theorem act1 (e : Fin 800000) (k : Fin 64) :
    val_main_v164 (F := Ideal) x0 x1 x2 x5 x6 x7 x8 x9 x10 x11 x12 (ix2 e k)
      = relu (fun a => mv (relu fun i => mv (rowAt (val_main_v146 (F := Ideal) x0 x1 x2 x5 x6 x7 x8) e) (topOf x9) i + mv (rowAt (val_main_v153 (F := Ideal) x0 x1 x2 x5 x6 x7 x8) e) (botOf x9) i + vecOf x10 i) x11 a + vecOf x12 a) k := by
  rw [val_main_v164_apply, val_main_call9_v0_apply, val_main_call9_cst_apply, hid1]
  show max _ (Ideal.ofBits .f32 0x00000000#32) = _
  rw [Ideal.ofBits_zero_f32]
  rfl

/-- The read-out stage is the perceptron of the two end rows at every edge. -/
theorem readout_eq :
    val_main_v168 (F := Ideal) x0 x1 x2 x5 x6 x7 x8 x9 x10 x11 x12 x13 x14
      = mlpT (val_main_v146 (F := Ideal) x0 x1 x2 x5 x6 x7 x8) (val_main_v153 (F := Ideal) x0 x1 x2 x5 x6 x7 x8) (topOf x9) (botOf x9) (vecOf x10) x11 (vecOf x12) x13 (vecOf x14) := by
  refine eq_ofRows _ _ fun e j => ?_
  rw [val_main_v168_apply, val_main_v165_apply, val_main_v167_apply, val_main_v166_apply]
  have el : ∀ k : Fin 64, lidx_main_v165 (ix2 e j) k = ix2 e k := fun k =>
    funext fun c => Fin.ext (by match c with | ⟨0, _⟩ => rfl | ⟨1, _⟩ => rfl)
  have er : ∀ k : Fin 64, ridx_main_v165 (ix2 e j) k = ix2 k j := fun k =>
    funext fun c => Fin.ext (by match c with | ⟨0, _⟩ => rfl | ⟨1, _⟩ => rfl)
  have eb : idx_main_v166 (idx_main_v167 (ix2 e j)) = ix1 j :=
    funext fun c => Fin.ext (by match c with | ⟨0, _⟩ => rfl)
  simp only [el, er, eb, act1]
  rfl

end Readout

end Cert.RefNet

end
-- ==== Proof.RefChain.lean ====
/-
  THE REFERENCE'S RESULT AS ONE FUNCTION OF ITS ARGUMENTS.

  The reference program gathers the rows of the edges' sources, sums them into the rows of the edges' targets, counts
  each node's incoming edges and clamps the count below by one. Those edge operations are named here as functions of
  a node table and the two edge-index vectors (`rRowsAt`, `rMsumOf`, `rDegOf`): they are the program's own gather
  and scatter records applied to variables. With them the network is a chain: the embedding `R0`, four layers
  `R1 … R4`, each the layer's row function over the previous table, its summed neighbour rows and the clamped counts,
  and the read-out `rOut` over the rows of the last table at the edges' two ends. The theorem `ref_result` says the
  reference's last stage is `rOut` of the arguments.
-/
import proofs.«141839_j76785425318033_2_alg».proof.Proof.RefNet
import proofs.«141839_j76785425318033_2_alg».proof.Proof.RefReadP
import proofs.«141839_j76785425318033_2_alg».proof.Proof.Spec

noncomputable section

open scoped BigOperators

namespace Cert.RefChain

open Idealize.ShloMosaic Idealize.ShloMosaic.ValueIdx Cert.Rows Cert.Net
open Cert.ReferenceIdeal Cert.ReferenceIdeal.Gen Cert.ReferenceIdeal.ReadP Cert.RefNet

/-- A vector of edge indices. -/
abbrev IV : Type := (⟨S800000, .i32⟩ : BufTy).Contents (Elt Ideal)

/-- A table of node rows. -/
abbrev NT : Type := (⟨S50000x128, .f32⟩ : BufTy).Contents (Elt Ideal)

/-- An index vector as a column. -/
def col (a : IV) : (⟨S800000x1, .i32⟩ : BufTy).Contents (Elt Ideal) :=
  broadcastInDim S800000x1 ![0] bcast_S800000_S800000x1_0 a

/-- Negative indices moved up by `n`, the others kept. -/
def wrap (n : BitVec 32) (a : IV) : IV :=
  select (cmpi .slt a (broadcastInDim S800000 ![] bcast_S_S800000 (constantI S_ 32 0#32)))
    (addi a (broadcastInDim S800000 ![] bcast_S_S800000 (constantI S_ 32 n))) a

/-- The rows of a node table at the nodes an index vector names. -/
def rRowsAt (H : NT) (s : IV) : (⟨S800000x128, .f32⟩ : BufTy).Contents (Elt Ideal) :=
  Host.gather gather_S50000x128_S800000x1_S800000x128_1_0_n_n_0_1_1128 H (col (wrap 50000#32 s))

/-- For every node, the sum of the rows of the sources of its incoming edges. -/
def rMsumOf (H : NT) (s t : IV) : NT :=
  Host.scatterAdd (F := Ideal) scatter_S50000x128_S800000x1_S800000x128_1_0_0_1
    (broadcastInDim S50000x128 ![] bcast_S_S50000x128 (constant (F := Ideal) S_ .f32 0x00000000#32))
    (col t) (rRowsAt H s)

/-- For every node, the number of its incoming edges, clamped below by one. -/
def rDegOf (t : IV) : (⟨S50000x1, .f32⟩ : BufTy).Contents (Elt Ideal) :=
  maximumf (F := Ideal)
    (Host.scatterAdd (F := Ideal) scatter_S50000x1_S800000x1_S800000x1_1_0_0_1
      (broadcastInDim S50000x1 ![] bcast_S_S50000x1 (constant (F := Ideal) S_ .f32 0x00000000#32))
      (col t) (broadcastInDim S800000x1 ![] bcast_S_S800000x1 (constant (F := Ideal) S_ .f32 0x3F800000#32)))
    (broadcastInDim S50000x1 ![] bcast_S_S50000x1 (constant (F := Ideal) S_ .f32 0x3F800000#32))

/-- Layer `l` over a node table. -/
def rlayer (l : Fin 4) (H : NT) (s t : IV) (W : (⟨S4x256x128, .f32⟩ : BufTy).Contents (Elt Ideal)) (b : (⟨S4x128, .f32⟩ : BufTy).Contents (Elt Ideal)) : NT :=
  sageT H (rMsumOf H s t) (rDegOf t) (whOf W l) (wcOf W l) (rowAt b l)

section Chain
variable (x0 : (⟨S50000x64, .f32⟩ : BufTy).Contents (Elt Ideal)) (x1 x2 : (⟨S800000, .i32⟩ : BufTy).Contents (Elt Ideal))
  (x5 : (⟨S64x128, .f32⟩ : BufTy).Contents (Elt Ideal)) (x6 : (⟨S128, .f32⟩ : BufTy).Contents (Elt Ideal))
  (x7 : (⟨S4x256x128, .f32⟩ : BufTy).Contents (Elt Ideal)) (x8 : (⟨S4x128, .f32⟩ : BufTy).Contents (Elt Ideal))
  (x9 : (⟨S256x128, .f32⟩ : BufTy).Contents (Elt Ideal)) (x10 : (⟨S128, .f32⟩ : BufTy).Contents (Elt Ideal))
  (x11 : (⟨S128x64, .f32⟩ : BufTy).Contents (Elt Ideal)) (x12 : (⟨S64, .f32⟩ : BufTy).Contents (Elt Ideal))
  (x13 : (⟨S64x2, .f32⟩ : BufTy).Contents (Elt Ideal)) (x14 : (⟨S2, .f32⟩ : BufTy).Contents (Elt Ideal))

/-- The embedding. -/
def R0 : NT := embedT x0 x5 (vecOf x6)
/-- The table after the first layer. -/
def R1 : NT := rlayer 0 (R0 x0 x5 x6) x1 x2 x7 x8
/-- The table after the second layer. -/
def R2 : NT := rlayer 1 (R1 x0 x1 x2 x5 x6 x7 x8) x1 x2 x7 x8
/-- The table after the third layer. -/
def R3 : NT := rlayer 2 (R2 x0 x1 x2 x5 x6 x7 x8) x1 x2 x7 x8
/-- The table after the fourth layer. -/
def R4 : NT := rlayer 3 (R3 x0 x1 x2 x5 x6 x7 x8) x1 x2 x7 x8

/-- The read-out of every edge from the last table's rows at the edge's two ends. -/
def rOut : (⟨S800000x2, .f32⟩ : BufTy).Contents (Elt Ideal) :=
  mlpT (rRowsAt (R4 x0 x1 x2 x5 x6 x7 x8) x1) (rRowsAt (R4 x0 x1 x2 x5 x6 x7 x8) x2) (topOf x9) (botOf x9) (vecOf x10) x11
    (vecOf x12) x13 (vecOf x14)

/-! The reference's own edge stages are these functions of its node stages. -/

theorem msum0 : val_main_v17 (F := Ideal) x0 x1 x2 x5 x6 = rMsumOf (val_main_v3 (F := Ideal) x0 x5 x6) x1 x2 := rfl
theorem deg0 : val_main_v23 (F := Ideal) x2 = rDegOf x2 := rfl
theorem msum1 : val_main_v51 (F := Ideal) x0 x1 x2 x5 x6 x7 x8 = rMsumOf (val_main_v37 (F := Ideal) x0 x1 x2 x5 x6 x7 x8) x1 x2 := rfl
theorem deg1 : val_main_v57 (F := Ideal) x2 = rDegOf x2 := rfl
theorem msum2 : val_main_v85 (F := Ideal) x0 x1 x2 x5 x6 x7 x8 = rMsumOf (val_main_v71 (F := Ideal) x0 x1 x2 x5 x6 x7 x8) x1 x2 := rfl
theorem deg2 : val_main_v91 (F := Ideal) x2 = rDegOf x2 := rfl
theorem msum3 : val_main_v119 (F := Ideal) x0 x1 x2 x5 x6 x7 x8 = rMsumOf (val_main_v105 (F := Ideal) x0 x1 x2 x5 x6 x7 x8) x1 x2 := rfl
theorem deg3 : val_main_v125 (F := Ideal) x2 = rDegOf x2 := rfl
theorem rowsS : val_main_v146 (F := Ideal) x0 x1 x2 x5 x6 x7 x8 = rRowsAt (val_main_v139 (F := Ideal) x0 x1 x2 x5 x6 x7 x8) x1 := rfl
theorem rowsT : val_main_v153 (F := Ideal) x0 x1 x2 x5 x6 x7 x8 = rRowsAt (val_main_v139 (F := Ideal) x0 x1 x2 x5 x6 x7 x8) x2 := rfl

/-! The node stages are the chain's tables. -/

theorem stage0 : val_main_v3 (F := Ideal) x0 x5 x6 = R0 x0 x5 x6 := embed_eq x0 x5 x6

theorem stage1 : val_main_v37 (F := Ideal) x0 x1 x2 x5 x6 x7 x8 = R1 x0 x1 x2 x5 x6 x7 x8 := by
  rw [layer0_eq, msum0, deg0, stage0]
  rfl

theorem stage2 : val_main_v71 (F := Ideal) x0 x1 x2 x5 x6 x7 x8 = R2 x0 x1 x2 x5 x6 x7 x8 := by
  rw [layer1_eq, msum1, deg1, stage1]
  rfl

theorem stage3 : val_main_v105 (F := Ideal) x0 x1 x2 x5 x6 x7 x8 = R3 x0 x1 x2 x5 x6 x7 x8 := by
  rw [layer2_eq, msum2, deg2, stage2]
  rfl

theorem stage4 : val_main_v139 (F := Ideal) x0 x1 x2 x5 x6 x7 x8 = R4 x0 x1 x2 x5 x6 x7 x8 := by
  rw [layer3_eq, msum3, deg3, stage3]
  rfl

/-- The reference's result is the read-out of the chain. -/
theorem ref_result : val_main_v168 (F := Ideal) x0 x1 x2 x5 x6 x7 x8 x9 x10 x11 x12 x13 x14 = rOut x0 x1 x2 x5 x6 x7 x8 x9 x10 x11 x12 x13 x14 := by
  rw [readout_eq, rowsS, rowsT, stage4]
  rfl

end Chain

end Cert.RefChain

end
-- ==== Proof.RefFinal.lean ====
/-
  THE REFERENCE PROGRAM'S RUN, ITS RESULT NAMED.

  Every weakly fair execution of the reference program terminates; its result buffer then holds the read-out of the
  chain of the embedding and the four layers over the program's arguments (`Cert.RefChain.rOut`), and every argument
  buffer holds what it held at the start.

  The run leaves the result buffer at the fold of the program's operations over the launch contents. The fold is read
  piece by piece: the operation list is cut after the embedding, before each joining of two tables and after each
  layer, and each piece is read from any contents, so that no layer's table is ever written out at each of its uses.
  A buffer a piece writes is the reference's stage of the arguments once the contents hold the stages and arguments the
  piece reads; a buffer it does not write keeps its contents. The pieces in a row, from the launch contents, put the
  reference's last stage in the result buffer, and the last stage is the chain's read-out.
-/
import proofs.«141839_j76785425318033_2_alg».proof.Proof.RefRunP
import proofs.«141839_j76785425318033_2_alg».proof.Proof.RefReadP
import proofs.«141839_j76785425318033_2_alg».proof.Proof.RefChain

noncomputable section

namespace Cert.RefFinal

open Cert.ReferenceIdeal Cert.ReferenceIdeal.Gen Idealize.ShloMosaic Idealize.ShloMosaic.TcCoe Idealize.SL.Sem
  Idealize.ShloMosaic.StableHlo Cert.ReferenceIdeal.ValueP

section Pieces

variable {F : FTy → Type} [FloatOps F]

/-! ## The fold in pieces

The operation list is cut after the embedding, before each joining of two tables and after each layer. Each piece is
read from ANY contents `V`: a buffer it writes is the reference's stage of the arguments once `V` holds the stages
and the arguments the piece reads, and a buffer it does not write keeps its contents. -/

/-- The fold over two lists in a row. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

set_option maxRecDepth 8192 in
theorem opsS0_out (V : Valuation τ sig (Elt F)) :
    after opsS0 V (Proc.devRef .tc main_v3) = ReadP.val_main_v3 (F := F) (V (Proc.devRef .tc main_arg0)) (V (Proc.devRef .tc main_arg5)) (V (Proc.devRef .tc main_arg6)) := by
  after_results_simp <;> rfl

set_option maxRecDepth 8192 in
theorem opsA1_w (V : Valuation τ sig (Elt F)) (x7 : (⟨S4x256x128, .f32⟩ : BufTy).Contents (Elt F))
    (h7 : V (Proc.devRef .tc main_arg7) = x7) :
    after opsA1 V (Proc.devRef .tc main_v5) = ReadP.val_main_v5 (F := F) x7 := by
  after_results_simp
  rw [h7]
  rfl

set_option maxRecDepth 8192 in
theorem opsA1_b (V : Valuation τ sig (Elt F)) (x8 : (⟨S4x128, .f32⟩ : BufTy).Contents (Elt F))
    (h8 : V (Proc.devRef .tc main_arg8) = x8) :
    after opsA1 V (Proc.devRef .tc main_v7) = ReadP.val_main_v7 (F := F) x8 := by
  after_results_simp
  rw [h8]
  rfl

set_option maxRecDepth 8192 in
theorem opsA1_c (V : Valuation τ sig (Elt F)) (x0 : (⟨S50000x64, .f32⟩ : BufTy).Contents (Elt F)) (x1 : (⟨S800000, .i32⟩ : BufTy).Contents (Elt F)) (x2 : (⟨S800000, .i32⟩ : BufTy).Contents (Elt F)) (x5 : (⟨S64x128, .f32⟩ : BufTy).Contents (Elt F)) (x6 : (⟨S128, .f32⟩ : BufTy).Contents (Elt F))
    (hH : V (Proc.devRef .tc main_v3) = ReadP.val_main_v3 (F := F) x0 x5 x6) (h1 : V (Proc.devRef .tc main_arg1) = x1) (h2 : V (Proc.devRef .tc main_arg2) = x2) :
    after opsA1 V (Proc.devRef .tc main_v25) = ReadP.val_main_v25 (F := F) x0 x1 x2 x5 x6 := by
  after_results_simp
  rw [hH, h1, h2]
  rfl

set_option maxRecDepth 8192 in
theorem opsB1_out (V : Valuation τ sig (Elt F)) (x0 : (⟨S50000x64, .f32⟩ : BufTy).Contents (Elt F)) (x1 : (⟨S800000, .i32⟩ : BufTy).Contents (Elt F)) (x2 : (⟨S800000, .i32⟩ : BufTy).Contents (Elt F)) (x5 : (⟨S64x128, .f32⟩ : BufTy).Contents (Elt F)) (x6 : (⟨S128, .f32⟩ : BufTy).Contents (Elt F)) (x7 : (⟨S4x256x128, .f32⟩ : BufTy).Contents (Elt F)) (x8 : (⟨S4x128, .f32⟩ : BufTy).Contents (Elt F))
    (hH : V (Proc.devRef .tc main_v3) = ReadP.val_main_v3 (F := F) x0 x5 x6) (hw : V (Proc.devRef .tc main_v5) = ReadP.val_main_v5 (F := F) x7) (hb : V (Proc.devRef .tc main_v7) = ReadP.val_main_v7 (F := F) x8) (hc : V (Proc.devRef .tc main_v25) = ReadP.val_main_v25 (F := F) x0 x1 x2 x5 x6) :
    after opsB1 V (Proc.devRef .tc main_v37) = ReadP.val_main_v37 (F := F) x0 x1 x2 x5 x6 x7 x8 := by
  after_results_simp
  rw [hH, hw, hb, hc]
  rfl

set_option maxRecDepth 8192 in
theorem opsA2_w (V : Valuation τ sig (Elt F)) (x7 : (⟨S4x256x128, .f32⟩ : BufTy).Contents (Elt F))
    (h7 : V (Proc.devRef .tc main_arg7) = x7) :
    after opsA2 V (Proc.devRef .tc main_v39) = ReadP.val_main_v39 (F := F) x7 := by
  after_results_simp
  rw [h7]
  rfl

set_option maxRecDepth 8192 in
theorem opsA2_b (V : Valuation τ sig (Elt F)) (x8 : (⟨S4x128, .f32⟩ : BufTy).Contents (Elt F))
    (h8 : V (Proc.devRef .tc main_arg8) = x8) :
    after opsA2 V (Proc.devRef .tc main_v41) = ReadP.val_main_v41 (F := F) x8 := by
  after_results_simp
  rw [h8]
  rfl

set_option maxRecDepth 8192 in
theorem opsA2_c (V : Valuation τ sig (Elt F)) (x0 : (⟨S50000x64, .f32⟩ : BufTy).Contents (Elt F)) (x1 : (⟨S800000, .i32⟩ : BufTy).Contents (Elt F)) (x2 : (⟨S800000, .i32⟩ : BufTy).Contents (Elt F)) (x5 : (⟨S64x128, .f32⟩ : BufTy).Contents (Elt F)) (x6 : (⟨S128, .f32⟩ : BufTy).Contents (Elt F)) (x7 : (⟨S4x256x128, .f32⟩ : BufTy).Contents (Elt F)) (x8 : (⟨S4x128, .f32⟩ : BufTy).Contents (Elt F))
    (hH : V (Proc.devRef .tc main_v37) = ReadP.val_main_v37 (F := F) x0 x1 x2 x5 x6 x7 x8) (h1 : V (Proc.devRef .tc main_arg1) = x1) (h2 : V (Proc.devRef .tc main_arg2) = x2) :
    after opsA2 V (Proc.devRef .tc main_v59) = ReadP.val_main_v59 (F := F) x0 x1 x2 x5 x6 x7 x8 := by
  after_results_simp
  rw [hH, h1, h2]
  rfl

set_option maxRecDepth 8192 in
theorem opsB2_out (V : Valuation τ sig (Elt F)) (x0 : (⟨S50000x64, .f32⟩ : BufTy).Contents (Elt F)) (x1 : (⟨S800000, .i32⟩ : BufTy).Contents (Elt F)) (x2 : (⟨S800000, .i32⟩ : BufTy).Contents (Elt F)) (x5 : (⟨S64x128, .f32⟩ : BufTy).Contents (Elt F)) (x6 : (⟨S128, .f32⟩ : BufTy).Contents (Elt F)) (x7 : (⟨S4x256x128, .f32⟩ : BufTy).Contents (Elt F)) (x8 : (⟨S4x128, .f32⟩ : BufTy).Contents (Elt F))
    (hH : V (Proc.devRef .tc main_v37) = ReadP.val_main_v37 (F := F) x0 x1 x2 x5 x6 x7 x8) (hw : V (Proc.devRef .tc main_v39) = ReadP.val_main_v39 (F := F) x7) (hb : V (Proc.devRef .tc main_v41) = ReadP.val_main_v41 (F := F) x8) (hc : V (Proc.devRef .tc main_v59) = ReadP.val_main_v59 (F := F) x0 x1 x2 x5 x6 x7 x8) :
    after opsB2 V (Proc.devRef .tc main_v71) = ReadP.val_main_v71 (F := F) x0 x1 x2 x5 x6 x7 x8 := by
  after_results_simp
  rw [hH, hw, hb, hc]
  rfl

set_option maxRecDepth 8192 in
theorem opsA3_w (V : Valuation τ sig (Elt F)) (x7 : (⟨S4x256x128, .f32⟩ : BufTy).Contents (Elt F))
    (h7 : V (Proc.devRef .tc main_arg7) = x7) :
    after opsA3 V (Proc.devRef .tc main_v73) = ReadP.val_main_v73 (F := F) x7 := by
  after_results_simp
  rw [h7]
  rfl

set_option maxRecDepth 8192 in
theorem opsA3_b (V : Valuation τ sig (Elt F)) (x8 : (⟨S4x128, .f32⟩ : BufTy).Contents (Elt F))
    (h8 : V (Proc.devRef .tc main_arg8) = x8) :
    after opsA3 V (Proc.devRef .tc main_v75) = ReadP.val_main_v75 (F := F) x8 := by
  after_results_simp
  rw [h8]
  rfl

set_option maxRecDepth 8192 in
theorem opsA3_c (V : Valuation τ sig (Elt F)) (x0 : (⟨S50000x64, .f32⟩ : BufTy).Contents (Elt F)) (x1 : (⟨S800000, .i32⟩ : BufTy).Contents (Elt F)) (x2 : (⟨S800000, .i32⟩ : BufTy).Contents (Elt F)) (x5 : (⟨S64x128, .f32⟩ : BufTy).Contents (Elt F)) (x6 : (⟨S128, .f32⟩ : BufTy).Contents (Elt F)) (x7 : (⟨S4x256x128, .f32⟩ : BufTy).Contents (Elt F)) (x8 : (⟨S4x128, .f32⟩ : BufTy).Contents (Elt F))
    (hH : V (Proc.devRef .tc main_v71) = ReadP.val_main_v71 (F := F) x0 x1 x2 x5 x6 x7 x8) (h1 : V (Proc.devRef .tc main_arg1) = x1) (h2 : V (Proc.devRef .tc main_arg2) = x2) :
    after opsA3 V (Proc.devRef .tc main_v93) = ReadP.val_main_v93 (F := F) x0 x1 x2 x5 x6 x7 x8 := by
  after_results_simp
  rw [hH, h1, h2]
  rfl

set_option maxRecDepth 8192 in
theorem opsB3_out (V : Valuation τ sig (Elt F)) (x0 : (⟨S50000x64, .f32⟩ : BufTy).Contents (Elt F)) (x1 : (⟨S800000, .i32⟩ : BufTy).Contents (Elt F)) (x2 : (⟨S800000, .i32⟩ : BufTy).Contents (Elt F)) (x5 : (⟨S64x128, .f32⟩ : BufTy).Contents (Elt F)) (x6 : (⟨S128, .f32⟩ : BufTy).Contents (Elt F)) (x7 : (⟨S4x256x128, .f32⟩ : BufTy).Contents (Elt F)) (x8 : (⟨S4x128, .f32⟩ : BufTy).Contents (Elt F))
    (hH : V (Proc.devRef .tc main_v71) = ReadP.val_main_v71 (F := F) x0 x1 x2 x5 x6 x7 x8) (hw : V (Proc.devRef .tc main_v73) = ReadP.val_main_v73 (F := F) x7) (hb : V (Proc.devRef .tc main_v75) = ReadP.val_main_v75 (F := F) x8) (hc : V (Proc.devRef .tc main_v93) = ReadP.val_main_v93 (F := F) x0 x1 x2 x5 x6 x7 x8) :
    after opsB3 V (Proc.devRef .tc main_v105) = ReadP.val_main_v105 (F := F) x0 x1 x2 x5 x6 x7 x8 := by
  after_results_simp
  rw [hH, hw, hb, hc]
  rfl

set_option maxRecDepth 8192 in
theorem opsA4_w (V : Valuation τ sig (Elt F)) (x7 : (⟨S4x256x128, .f32⟩ : BufTy).Contents (Elt F))
    (h7 : V (Proc.devRef .tc main_arg7) = x7) :
    after opsA4 V (Proc.devRef .tc main_v107) = ReadP.val_main_v107 (F := F) x7 := by
  after_results_simp
  rw [h7]
  rfl

set_option maxRecDepth 8192 in
theorem opsA4_b (V : Valuation τ sig (Elt F)) (x8 : (⟨S4x128, .f32⟩ : BufTy).Contents (Elt F))
    (h8 : V (Proc.devRef .tc main_arg8) = x8) :
    after opsA4 V (Proc.devRef .tc main_v109) = ReadP.val_main_v109 (F := F) x8 := by
  after_results_simp
  rw [h8]
  rfl

set_option maxRecDepth 8192 in
theorem opsA4_c (V : Valuation τ sig (Elt F)) (x0 : (⟨S50000x64, .f32⟩ : BufTy).Contents (Elt F)) (x1 : (⟨S800000, .i32⟩ : BufTy).Contents (Elt F)) (x2 : (⟨S800000, .i32⟩ : BufTy).Contents (Elt F)) (x5 : (⟨S64x128, .f32⟩ : BufTy).Contents (Elt F)) (x6 : (⟨S128, .f32⟩ : BufTy).Contents (Elt F)) (x7 : (⟨S4x256x128, .f32⟩ : BufTy).Contents (Elt F)) (x8 : (⟨S4x128, .f32⟩ : BufTy).Contents (Elt F))
    (hH : V (Proc.devRef .tc main_v105) = ReadP.val_main_v105 (F := F) x0 x1 x2 x5 x6 x7 x8) (h1 : V (Proc.devRef .tc main_arg1) = x1) (h2 : V (Proc.devRef .tc main_arg2) = x2) :
    after opsA4 V (Proc.devRef .tc main_v127) = ReadP.val_main_v127 (F := F) x0 x1 x2 x5 x6 x7 x8 := by
  after_results_simp
  rw [hH, h1, h2]
  rfl

set_option maxRecDepth 8192 in
theorem opsB4_out (V : Valuation τ sig (Elt F)) (x0 : (⟨S50000x64, .f32⟩ : BufTy).Contents (Elt F)) (x1 : (⟨S800000, .i32⟩ : BufTy).Contents (Elt F)) (x2 : (⟨S800000, .i32⟩ : BufTy).Contents (Elt F)) (x5 : (⟨S64x128, .f32⟩ : BufTy).Contents (Elt F)) (x6 : (⟨S128, .f32⟩ : BufTy).Contents (Elt F)) (x7 : (⟨S4x256x128, .f32⟩ : BufTy).Contents (Elt F)) (x8 : (⟨S4x128, .f32⟩ : BufTy).Contents (Elt F))
    (hH : V (Proc.devRef .tc main_v105) = ReadP.val_main_v105 (F := F) x0 x1 x2 x5 x6 x7 x8) (hw : V (Proc.devRef .tc main_v107) = ReadP.val_main_v107 (F := F) x7) (hb : V (Proc.devRef .tc main_v109) = ReadP.val_main_v109 (F := F) x8) (hc : V (Proc.devRef .tc main_v127) = ReadP.val_main_v127 (F := F) x0 x1 x2 x5 x6 x7 x8) :
    after opsB4 V (Proc.devRef .tc main_v139) = ReadP.val_main_v139 (F := F) x0 x1 x2 x5 x6 x7 x8 := by
  after_results_simp
  rw [hH, hw, hb, hc]
  rfl

set_option maxRecDepth 8192 in
theorem opsA5_s (V : Valuation τ sig (Elt F)) (x0 : (⟨S50000x64, .f32⟩ : BufTy).Contents (Elt F)) (x1 : (⟨S800000, .i32⟩ : BufTy).Contents (Elt F)) (x2 : (⟨S800000, .i32⟩ : BufTy).Contents (Elt F)) (x5 : (⟨S64x128, .f32⟩ : BufTy).Contents (Elt F)) (x6 : (⟨S128, .f32⟩ : BufTy).Contents (Elt F)) (x7 : (⟨S4x256x128, .f32⟩ : BufTy).Contents (Elt F)) (x8 : (⟨S4x128, .f32⟩ : BufTy).Contents (Elt F))
    (hH : V (Proc.devRef .tc main_v139) = ReadP.val_main_v139 (F := F) x0 x1 x2 x5 x6 x7 x8) (h1 : V (Proc.devRef .tc main_arg1) = x1) :
    after opsA5 V (Proc.devRef .tc main_v146) = ReadP.val_main_v146 (F := F) x0 x1 x2 x5 x6 x7 x8 := by
  after_results_simp
  rw [hH, h1]
  rfl

set_option maxRecDepth 8192 in
theorem opsA5_t (V : Valuation τ sig (Elt F)) (x0 : (⟨S50000x64, .f32⟩ : BufTy).Contents (Elt F)) (x1 : (⟨S800000, .i32⟩ : BufTy).Contents (Elt F)) (x2 : (⟨S800000, .i32⟩ : BufTy).Contents (Elt F)) (x5 : (⟨S64x128, .f32⟩ : BufTy).Contents (Elt F)) (x6 : (⟨S128, .f32⟩ : BufTy).Contents (Elt F)) (x7 : (⟨S4x256x128, .f32⟩ : BufTy).Contents (Elt F)) (x8 : (⟨S4x128, .f32⟩ : BufTy).Contents (Elt F))
    (hH : V (Proc.devRef .tc main_v139) = ReadP.val_main_v139 (F := F) x0 x1 x2 x5 x6 x7 x8) (h2 : V (Proc.devRef .tc main_arg2) = x2) :
    after opsA5 V (Proc.devRef .tc main_v153) = ReadP.val_main_v153 (F := F) x0 x1 x2 x5 x6 x7 x8 := by
  after_results_simp
  rw [hH, h2]
  rfl

set_option maxRecDepth 8192 in
theorem opsB5_out (V : Valuation τ sig (Elt F)) (x0 : (⟨S50000x64, .f32⟩ : BufTy).Contents (Elt F)) (x1 : (⟨S800000, .i32⟩ : BufTy).Contents (Elt F)) (x2 : (⟨S800000, .i32⟩ : BufTy).Contents (Elt F)) (x5 : (⟨S64x128, .f32⟩ : BufTy).Contents (Elt F)) (x6 : (⟨S128, .f32⟩ : BufTy).Contents (Elt F)) (x7 : (⟨S4x256x128, .f32⟩ : BufTy).Contents (Elt F)) (x8 : (⟨S4x128, .f32⟩ : BufTy).Contents (Elt F)) (x9 : (⟨S256x128, .f32⟩ : BufTy).Contents (Elt F)) (x10 : (⟨S128, .f32⟩ : BufTy).Contents (Elt F)) (x11 : (⟨S128x64, .f32⟩ : BufTy).Contents (Elt F)) (x12 : (⟨S64, .f32⟩ : BufTy).Contents (Elt F)) (x13 : (⟨S64x2, .f32⟩ : BufTy).Contents (Elt F)) (x14 : (⟨S2, .f32⟩ : BufTy).Contents (Elt F))
    (hs : V (Proc.devRef .tc main_v146) = ReadP.val_main_v146 (F := F) x0 x1 x2 x5 x6 x7 x8) (ht : V (Proc.devRef .tc main_v153) = ReadP.val_main_v153 (F := F) x0 x1 x2 x5 x6 x7 x8) (h9 : V (Proc.devRef .tc main_arg9) = x9) (h10 : V (Proc.devRef .tc main_arg10) = x10) (h11 : V (Proc.devRef .tc main_arg11) = x11) (h12 : V (Proc.devRef .tc main_arg12) = x12) (h13 : V (Proc.devRef .tc main_arg13) = x13) (h14 : V (Proc.devRef .tc main_arg14) = x14) :
    after opsB5 V (Proc.devRef .tc main_v168) = ReadP.val_main_v168 (F := F) x0 x1 x2 x5 x6 x7 x8 x9 x10 x11 x12 x13 x14 := by
  after_results_simp
  rw [hs, ht, h9, h10, h11, h12, h13, h14]
  rfl

/-! ### Buffers a piece does not write -/

set_option maxRecDepth 8192 in
theorem keepS0_arg1 (V : Valuation τ sig (Elt F)) : after opsS0 V (Proc.devRef .tc main_arg1) = V (Proc.devRef .tc main_arg1) := by
  after_results_simp <;> rfl

set_option maxRecDepth 8192 in
theorem keepA1_arg1 (V : Valuation τ sig (Elt F)) : after opsA1 V (Proc.devRef .tc main_arg1) = V (Proc.devRef .tc main_arg1) := by
  after_results_simp <;> rfl

set_option maxRecDepth 8192 in
theorem keepB1_arg1 (V : Valuation τ sig (Elt F)) : after opsB1 V (Proc.devRef .tc main_arg1) = V (Proc.devRef .tc main_arg1) := by
  after_results_simp <;> rfl

set_option maxRecDepth 8192 in
theorem keepA2_arg1 (V : Valuation τ sig (Elt F)) : after opsA2 V (Proc.devRef .tc main_arg1) = V (Proc.devRef .tc main_arg1) := by
  after_results_simp <;> rfl

set_option maxRecDepth 8192 in
theorem keepB2_arg1 (V : Valuation τ sig (Elt F)) : after opsB2 V (Proc.devRef .tc main_arg1) = V (Proc.devRef .tc main_arg1) := by
  after_results_simp <;> rfl

set_option maxRecDepth 8192 in
theorem keepA3_arg1 (V : Valuation τ sig (Elt F)) : after opsA3 V (Proc.devRef .tc main_arg1) = V (Proc.devRef .tc main_arg1) := by
  after_results_simp <;> rfl

set_option maxRecDepth 8192 in
theorem keepB3_arg1 (V : Valuation τ sig (Elt F)) : after opsB3 V (Proc.devRef .tc main_arg1) = V (Proc.devRef .tc main_arg1) := by
  after_results_simp <;> rfl

set_option maxRecDepth 8192 in
theorem keepA4_arg1 (V : Valuation τ sig (Elt F)) : after opsA4 V (Proc.devRef .tc main_arg1) = V (Proc.devRef .tc main_arg1) := by
  after_results_simp <;> rfl

set_option maxRecDepth 8192 in
theorem keepB4_arg1 (V : Valuation τ sig (Elt F)) : after opsB4 V (Proc.devRef .tc main_arg1) = V (Proc.devRef .tc main_arg1) := by
  after_results_simp <;> rfl

set_option maxRecDepth 8192 in
theorem keepS0_arg2 (V : Valuation τ sig (Elt F)) : after opsS0 V (Proc.devRef .tc main_arg2) = V (Proc.devRef .tc main_arg2) := by
  after_results_simp <;> rfl

set_option maxRecDepth 8192 in
theorem keepA1_arg2 (V : Valuation τ sig (Elt F)) : after opsA1 V (Proc.devRef .tc main_arg2) = V (Proc.devRef .tc main_arg2) := by
  after_results_simp <;> rfl

set_option maxRecDepth 8192 in
theorem keepB1_arg2 (V : Valuation τ sig (Elt F)) : after opsB1 V (Proc.devRef .tc main_arg2) = V (Proc.devRef .tc main_arg2) := by
  after_results_simp <;> rfl

set_option maxRecDepth 8192 in
theorem keepA2_arg2 (V : Valuation τ sig (Elt F)) : after opsA2 V (Proc.devRef .tc main_arg2) = V (Proc.devRef .tc main_arg2) := by
  after_results_simp <;> rfl

set_option maxRecDepth 8192 in
theorem keepB2_arg2 (V : Valuation τ sig (Elt F)) : after opsB2 V (Proc.devRef .tc main_arg2) = V (Proc.devRef .tc main_arg2) := by
  after_results_simp <;> rfl

set_option maxRecDepth 8192 in
theorem keepA3_arg2 (V : Valuation τ sig (Elt F)) : after opsA3 V (Proc.devRef .tc main_arg2) = V (Proc.devRef .tc main_arg2) := by
  after_results_simp <;> rfl

set_option maxRecDepth 8192 in
theorem keepB3_arg2 (V : Valuation τ sig (Elt F)) : after opsB3 V (Proc.devRef .tc main_arg2) = V (Proc.devRef .tc main_arg2) := by
  after_results_simp <;> rfl

set_option maxRecDepth 8192 in
theorem keepA4_arg2 (V : Valuation τ sig (Elt F)) : after opsA4 V (Proc.devRef .tc main_arg2) = V (Proc.devRef .tc main_arg2) := by
  after_results_simp <;> rfl

set_option maxRecDepth 8192 in
theorem keepB4_arg2 (V : Valuation τ sig (Elt F)) : after opsB4 V (Proc.devRef .tc main_arg2) = V (Proc.devRef .tc main_arg2) := by
  after_results_simp <;> rfl

set_option maxRecDepth 8192 in
theorem keepS0_arg7 (V : Valuation τ sig (Elt F)) : after opsS0 V (Proc.devRef .tc main_arg7) = V (Proc.devRef .tc main_arg7) := by
  after_results_simp <;> rfl

set_option maxRecDepth 8192 in
theorem keepA1_arg7 (V : Valuation τ sig (Elt F)) : after opsA1 V (Proc.devRef .tc main_arg7) = V (Proc.devRef .tc main_arg7) := by
  after_results_simp <;> rfl

set_option maxRecDepth 8192 in
theorem keepB1_arg7 (V : Valuation τ sig (Elt F)) : after opsB1 V (Proc.devRef .tc main_arg7) = V (Proc.devRef .tc main_arg7) := by
  after_results_simp <;> rfl

set_option maxRecDepth 8192 in
theorem keepA2_arg7 (V : Valuation τ sig (Elt F)) : after opsA2 V (Proc.devRef .tc main_arg7) = V (Proc.devRef .tc main_arg7) := by
  after_results_simp <;> rfl

set_option maxRecDepth 8192 in
theorem keepB2_arg7 (V : Valuation τ sig (Elt F)) : after opsB2 V (Proc.devRef .tc main_arg7) = V (Proc.devRef .tc main_arg7) := by
  after_results_simp <;> rfl

set_option maxRecDepth 8192 in
theorem keepA3_arg7 (V : Valuation τ sig (Elt F)) : after opsA3 V (Proc.devRef .tc main_arg7) = V (Proc.devRef .tc main_arg7) := by
  after_results_simp <;> rfl

set_option maxRecDepth 8192 in
theorem keepB3_arg7 (V : Valuation τ sig (Elt F)) : after opsB3 V (Proc.devRef .tc main_arg7) = V (Proc.devRef .tc main_arg7) := by
  after_results_simp <;> rfl

set_option maxRecDepth 8192 in
theorem keepS0_arg8 (V : Valuation τ sig (Elt F)) : after opsS0 V (Proc.devRef .tc main_arg8) = V (Proc.devRef .tc main_arg8) := by
  after_results_simp <;> rfl

set_option maxRecDepth 8192 in
theorem keepA1_arg8 (V : Valuation τ sig (Elt F)) : after opsA1 V (Proc.devRef .tc main_arg8) = V (Proc.devRef .tc main_arg8) := by
  after_results_simp <;> rfl

set_option maxRecDepth 8192 in
theorem keepB1_arg8 (V : Valuation τ sig (Elt F)) : after opsB1 V (Proc.devRef .tc main_arg8) = V (Proc.devRef .tc main_arg8) := by
  after_results_simp <;> rfl

set_option maxRecDepth 8192 in
theorem keepA2_arg8 (V : Valuation τ sig (Elt F)) : after opsA2 V (Proc.devRef .tc main_arg8) = V (Proc.devRef .tc main_arg8) := by
  after_results_simp <;> rfl

set_option maxRecDepth 8192 in
theorem keepB2_arg8 (V : Valuation τ sig (Elt F)) : after opsB2 V (Proc.devRef .tc main_arg8) = V (Proc.devRef .tc main_arg8) := by
  after_results_simp <;> rfl

set_option maxRecDepth 8192 in
theorem keepA3_arg8 (V : Valuation τ sig (Elt F)) : after opsA3 V (Proc.devRef .tc main_arg8) = V (Proc.devRef .tc main_arg8) := by
  after_results_simp <;> rfl

set_option maxRecDepth 8192 in
theorem keepB3_arg8 (V : Valuation τ sig (Elt F)) : after opsB3 V (Proc.devRef .tc main_arg8) = V (Proc.devRef .tc main_arg8) := by
  after_results_simp <;> rfl

set_option maxRecDepth 8192 in
theorem keepS0_arg9 (V : Valuation τ sig (Elt F)) : after opsS0 V (Proc.devRef .tc main_arg9) = V (Proc.devRef .tc main_arg9) := by
  after_results_simp <;> rfl

set_option maxRecDepth 8192 in
theorem keepA1_arg9 (V : Valuation τ sig (Elt F)) : after opsA1 V (Proc.devRef .tc main_arg9) = V (Proc.devRef .tc main_arg9) := by
  after_results_simp <;> rfl

set_option maxRecDepth 8192 in
theorem keepB1_arg9 (V : Valuation τ sig (Elt F)) : after opsB1 V (Proc.devRef .tc main_arg9) = V (Proc.devRef .tc main_arg9) := by
  after_results_simp <;> rfl

set_option maxRecDepth 8192 in
theorem keepA2_arg9 (V : Valuation τ sig (Elt F)) : after opsA2 V (Proc.devRef .tc main_arg9) = V (Proc.devRef .tc main_arg9) := by
  after_results_simp <;> rfl

set_option maxRecDepth 8192 in
theorem keepB2_arg9 (V : Valuation τ sig (Elt F)) : after opsB2 V (Proc.devRef .tc main_arg9) = V (Proc.devRef .tc main_arg9) := by
  after_results_simp <;> rfl

set_option maxRecDepth 8192 in
theorem keepA3_arg9 (V : Valuation τ sig (Elt F)) : after opsA3 V (Proc.devRef .tc main_arg9) = V (Proc.devRef .tc main_arg9) := by
  after_results_simp <;> rfl

set_option maxRecDepth 8192 in
theorem keepB3_arg9 (V : Valuation τ sig (Elt F)) : after opsB3 V (Proc.devRef .tc main_arg9) = V (Proc.devRef .tc main_arg9) := by
  after_results_simp <;> rfl

set_option maxRecDepth 8192 in
theorem keepA4_arg9 (V : Valuation τ sig (Elt F)) : after opsA4 V (Proc.devRef .tc main_arg9) = V (Proc.devRef .tc main_arg9) := by
  after_results_simp <;> rfl

set_option maxRecDepth 8192 in
theorem keepB4_arg9 (V : Valuation τ sig (Elt F)) : after opsB4 V (Proc.devRef .tc main_arg9) = V (Proc.devRef .tc main_arg9) := by
  after_results_simp <;> rfl

set_option maxRecDepth 8192 in
theorem keepA5_arg9 (V : Valuation τ sig (Elt F)) : after opsA5 V (Proc.devRef .tc main_arg9) = V (Proc.devRef .tc main_arg9) := by
  after_results_simp <;> rfl

set_option maxRecDepth 8192 in
theorem keepS0_arg10 (V : Valuation τ sig (Elt F)) : after opsS0 V (Proc.devRef .tc main_arg10) = V (Proc.devRef .tc main_arg10) := by
  after_results_simp <;> rfl

set_option maxRecDepth 8192 in
theorem keepA1_arg10 (V : Valuation τ sig (Elt F)) : after opsA1 V (Proc.devRef .tc main_arg10) = V (Proc.devRef .tc main_arg10) := by
  after_results_simp <;> rfl

set_option maxRecDepth 8192 in
theorem keepB1_arg10 (V : Valuation τ sig (Elt F)) : after opsB1 V (Proc.devRef .tc main_arg10) = V (Proc.devRef .tc main_arg10) := by
  after_results_simp <;> rfl

set_option maxRecDepth 8192 in
theorem keepA2_arg10 (V : Valuation τ sig (Elt F)) : after opsA2 V (Proc.devRef .tc main_arg10) = V (Proc.devRef .tc main_arg10) := by
  after_results_simp <;> rfl

set_option maxRecDepth 8192 in
theorem keepB2_arg10 (V : Valuation τ sig (Elt F)) : after opsB2 V (Proc.devRef .tc main_arg10) = V (Proc.devRef .tc main_arg10) := by
  after_results_simp <;> rfl

set_option maxRecDepth 8192 in
theorem keepA3_arg10 (V : Valuation τ sig (Elt F)) : after opsA3 V (Proc.devRef .tc main_arg10) = V (Proc.devRef .tc main_arg10) := by
  after_results_simp <;> rfl

set_option maxRecDepth 8192 in
theorem keepB3_arg10 (V : Valuation τ sig (Elt F)) : after opsB3 V (Proc.devRef .tc main_arg10) = V (Proc.devRef .tc main_arg10) := by
  after_results_simp <;> rfl

set_option maxRecDepth 8192 in
theorem keepA4_arg10 (V : Valuation τ sig (Elt F)) : after opsA4 V (Proc.devRef .tc main_arg10) = V (Proc.devRef .tc main_arg10) := by
  after_results_simp <;> rfl

set_option maxRecDepth 8192 in
theorem keepB4_arg10 (V : Valuation τ sig (Elt F)) : after opsB4 V (Proc.devRef .tc main_arg10) = V (Proc.devRef .tc main_arg10) := by
  after_results_simp <;> rfl

set_option maxRecDepth 8192 in
theorem keepA5_arg10 (V : Valuation τ sig (Elt F)) : after opsA5 V (Proc.devRef .tc main_arg10) = V (Proc.devRef .tc main_arg10) := by
  after_results_simp <;> rfl

set_option maxRecDepth 8192 in
theorem keepS0_arg11 (V : Valuation τ sig (Elt F)) : after opsS0 V (Proc.devRef .tc main_arg11) = V (Proc.devRef .tc main_arg11) := by
  after_results_simp <;> rfl

set_option maxRecDepth 8192 in
theorem keepA1_arg11 (V : Valuation τ sig (Elt F)) : after opsA1 V (Proc.devRef .tc main_arg11) = V (Proc.devRef .tc main_arg11) := by
  after_results_simp <;> rfl

set_option maxRecDepth 8192 in
theorem keepB1_arg11 (V : Valuation τ sig (Elt F)) : after opsB1 V (Proc.devRef .tc main_arg11) = V (Proc.devRef .tc main_arg11) := by
  after_results_simp <;> rfl

set_option maxRecDepth 8192 in
theorem keepA2_arg11 (V : Valuation τ sig (Elt F)) : after opsA2 V (Proc.devRef .tc main_arg11) = V (Proc.devRef .tc main_arg11) := by
  after_results_simp <;> rfl

set_option maxRecDepth 8192 in
theorem keepB2_arg11 (V : Valuation τ sig (Elt F)) : after opsB2 V (Proc.devRef .tc main_arg11) = V (Proc.devRef .tc main_arg11) := by
  after_results_simp <;> rfl

set_option maxRecDepth 8192 in
theorem keepA3_arg11 (V : Valuation τ sig (Elt F)) : after opsA3 V (Proc.devRef .tc main_arg11) = V (Proc.devRef .tc main_arg11) := by
  after_results_simp <;> rfl

set_option maxRecDepth 8192 in
theorem keepB3_arg11 (V : Valuation τ sig (Elt F)) : after opsB3 V (Proc.devRef .tc main_arg11) = V (Proc.devRef .tc main_arg11) := by
  after_results_simp <;> rfl

set_option maxRecDepth 8192 in
theorem keepA4_arg11 (V : Valuation τ sig (Elt F)) : after opsA4 V (Proc.devRef .tc main_arg11) = V (Proc.devRef .tc main_arg11) := by
  after_results_simp <;> rfl

set_option maxRecDepth 8192 in
theorem keepB4_arg11 (V : Valuation τ sig (Elt F)) : after opsB4 V (Proc.devRef .tc main_arg11) = V (Proc.devRef .tc main_arg11) := by
  after_results_simp <;> rfl

set_option maxRecDepth 8192 in
theorem keepA5_arg11 (V : Valuation τ sig (Elt F)) : after opsA5 V (Proc.devRef .tc main_arg11) = V (Proc.devRef .tc main_arg11) := by
  after_results_simp <;> rfl

set_option maxRecDepth 8192 in
theorem keepS0_arg12 (V : Valuation τ sig (Elt F)) : after opsS0 V (Proc.devRef .tc main_arg12) = V (Proc.devRef .tc main_arg12) := by
  after_results_simp <;> rfl

set_option maxRecDepth 8192 in
theorem keepA1_arg12 (V : Valuation τ sig (Elt F)) : after opsA1 V (Proc.devRef .tc main_arg12) = V (Proc.devRef .tc main_arg12) := by
  after_results_simp <;> rfl

set_option maxRecDepth 8192 in
theorem keepB1_arg12 (V : Valuation τ sig (Elt F)) : after opsB1 V (Proc.devRef .tc main_arg12) = V (Proc.devRef .tc main_arg12) := by
  after_results_simp <;> rfl

set_option maxRecDepth 8192 in
theorem keepA2_arg12 (V : Valuation τ sig (Elt F)) : after opsA2 V (Proc.devRef .tc main_arg12) = V (Proc.devRef .tc main_arg12) := by
  after_results_simp <;> rfl

set_option maxRecDepth 8192 in
theorem keepB2_arg12 (V : Valuation τ sig (Elt F)) : after opsB2 V (Proc.devRef .tc main_arg12) = V (Proc.devRef .tc main_arg12) := by
  after_results_simp <;> rfl

set_option maxRecDepth 8192 in
theorem keepA3_arg12 (V : Valuation τ sig (Elt F)) : after opsA3 V (Proc.devRef .tc main_arg12) = V (Proc.devRef .tc main_arg12) := by
  after_results_simp <;> rfl

set_option maxRecDepth 8192 in
theorem keepB3_arg12 (V : Valuation τ sig (Elt F)) : after opsB3 V (Proc.devRef .tc main_arg12) = V (Proc.devRef .tc main_arg12) := by
  after_results_simp <;> rfl

set_option maxRecDepth 8192 in
theorem keepA4_arg12 (V : Valuation τ sig (Elt F)) : after opsA4 V (Proc.devRef .tc main_arg12) = V (Proc.devRef .tc main_arg12) := by
  after_results_simp <;> rfl

set_option maxRecDepth 8192 in
theorem keepB4_arg12 (V : Valuation τ sig (Elt F)) : after opsB4 V (Proc.devRef .tc main_arg12) = V (Proc.devRef .tc main_arg12) := by
  after_results_simp <;> rfl

set_option maxRecDepth 8192 in
theorem keepA5_arg12 (V : Valuation τ sig (Elt F)) : after opsA5 V (Proc.devRef .tc main_arg12) = V (Proc.devRef .tc main_arg12) := by
  after_results_simp <;> rfl

set_option maxRecDepth 8192 in
theorem keepS0_arg13 (V : Valuation τ sig (Elt F)) : after opsS0 V (Proc.devRef .tc main_arg13) = V (Proc.devRef .tc main_arg13) := by
  after_results_simp <;> rfl

set_option maxRecDepth 8192 in
theorem keepA1_arg13 (V : Valuation τ sig (Elt F)) : after opsA1 V (Proc.devRef .tc main_arg13) = V (Proc.devRef .tc main_arg13) := by
  after_results_simp <;> rfl

set_option maxRecDepth 8192 in
theorem keepB1_arg13 (V : Valuation τ sig (Elt F)) : after opsB1 V (Proc.devRef .tc main_arg13) = V (Proc.devRef .tc main_arg13) := by
  after_results_simp <;> rfl

set_option maxRecDepth 8192 in
theorem keepA2_arg13 (V : Valuation τ sig (Elt F)) : after opsA2 V (Proc.devRef .tc main_arg13) = V (Proc.devRef .tc main_arg13) := by
  after_results_simp <;> rfl

set_option maxRecDepth 8192 in
theorem keepB2_arg13 (V : Valuation τ sig (Elt F)) : after opsB2 V (Proc.devRef .tc main_arg13) = V (Proc.devRef .tc main_arg13) := by
  after_results_simp <;> rfl

set_option maxRecDepth 8192 in
theorem keepA3_arg13 (V : Valuation τ sig (Elt F)) : after opsA3 V (Proc.devRef .tc main_arg13) = V (Proc.devRef .tc main_arg13) := by
  after_results_simp <;> rfl

set_option maxRecDepth 8192 in
theorem keepB3_arg13 (V : Valuation τ sig (Elt F)) : after opsB3 V (Proc.devRef .tc main_arg13) = V (Proc.devRef .tc main_arg13) := by
  after_results_simp <;> rfl

set_option maxRecDepth 8192 in
theorem keepA4_arg13 (V : Valuation τ sig (Elt F)) : after opsA4 V (Proc.devRef .tc main_arg13) = V (Proc.devRef .tc main_arg13) := by
  after_results_simp <;> rfl

set_option maxRecDepth 8192 in
theorem keepB4_arg13 (V : Valuation τ sig (Elt F)) : after opsB4 V (Proc.devRef .tc main_arg13) = V (Proc.devRef .tc main_arg13) := by
  after_results_simp <;> rfl

set_option maxRecDepth 8192 in
theorem keepA5_arg13 (V : Valuation τ sig (Elt F)) : after opsA5 V (Proc.devRef .tc main_arg13) = V (Proc.devRef .tc main_arg13) := by
  after_results_simp <;> rfl

set_option maxRecDepth 8192 in
theorem keepS0_arg14 (V : Valuation τ sig (Elt F)) : after opsS0 V (Proc.devRef .tc main_arg14) = V (Proc.devRef .tc main_arg14) := by
  after_results_simp <;> rfl

set_option maxRecDepth 8192 in
theorem keepA1_arg14 (V : Valuation τ sig (Elt F)) : after opsA1 V (Proc.devRef .tc main_arg14) = V (Proc.devRef .tc main_arg14) := by
  after_results_simp <;> rfl

set_option maxRecDepth 8192 in
theorem keepB1_arg14 (V : Valuation τ sig (Elt F)) : after opsB1 V (Proc.devRef .tc main_arg14) = V (Proc.devRef .tc main_arg14) := by
  after_results_simp <;> rfl

set_option maxRecDepth 8192 in
theorem keepA2_arg14 (V : Valuation τ sig (Elt F)) : after opsA2 V (Proc.devRef .tc main_arg14) = V (Proc.devRef .tc main_arg14) := by
  after_results_simp <;> rfl

set_option maxRecDepth 8192 in
theorem keepB2_arg14 (V : Valuation τ sig (Elt F)) : after opsB2 V (Proc.devRef .tc main_arg14) = V (Proc.devRef .tc main_arg14) := by
  after_results_simp <;> rfl

set_option maxRecDepth 8192 in
theorem keepA3_arg14 (V : Valuation τ sig (Elt F)) : after opsA3 V (Proc.devRef .tc main_arg14) = V (Proc.devRef .tc main_arg14) := by
  after_results_simp <;> rfl

set_option maxRecDepth 8192 in
theorem keepB3_arg14 (V : Valuation τ sig (Elt F)) : after opsB3 V (Proc.devRef .tc main_arg14) = V (Proc.devRef .tc main_arg14) := by
  after_results_simp <;> rfl

set_option maxRecDepth 8192 in
theorem keepA4_arg14 (V : Valuation τ sig (Elt F)) : after opsA4 V (Proc.devRef .tc main_arg14) = V (Proc.devRef .tc main_arg14) := by
  after_results_simp <;> rfl

set_option maxRecDepth 8192 in
theorem keepB4_arg14 (V : Valuation τ sig (Elt F)) : after opsB4 V (Proc.devRef .tc main_arg14) = V (Proc.devRef .tc main_arg14) := by
  after_results_simp <;> rfl

set_option maxRecDepth 8192 in
theorem keepA5_arg14 (V : Valuation τ sig (Elt F)) : after opsA5 V (Proc.devRef .tc main_arg14) = V (Proc.devRef .tc main_arg14) := by
  after_results_simp <;> rfl

set_option maxRecDepth 8192 in
theorem keepA1_v3 (V : Valuation τ sig (Elt F)) : after opsA1 V (Proc.devRef .tc main_v3) = V (Proc.devRef .tc main_v3) := by
  after_results_simp <;> rfl

set_option maxRecDepth 8192 in
theorem keepA2_v37 (V : Valuation τ sig (Elt F)) : after opsA2 V (Proc.devRef .tc main_v37) = V (Proc.devRef .tc main_v37) := by
  after_results_simp <;> rfl

set_option maxRecDepth 8192 in
theorem keepA3_v71 (V : Valuation τ sig (Elt F)) : after opsA3 V (Proc.devRef .tc main_v71) = V (Proc.devRef .tc main_v71) := by
  after_results_simp <;> rfl

set_option maxRecDepth 8192 in
theorem keepA4_v105 (V : Valuation τ sig (Elt F)) : after opsA4 V (Proc.devRef .tc main_v105) = V (Proc.devRef .tc main_v105) := by
  after_results_simp <;> rfl

end Pieces

/-! ## The pieces in a row, from the launch contents

`W0` is the device's buffer contents at launch and `W(i+1)` the contents after piece `i`. Every argument buffer
keeps its launch contents through the pieces, and the buffers the pieces hand on hold the reference's stages of the
arguments. -/

/-- The device's buffer contents at launch. -/
def W0 (m : (ℓ : Loc nD τ sig) → Buf (Elt Ideal) ℓ) (c : Dev nD) : Valuation τ sig (Elt Ideal) := launchContents m c
/-- The contents after the first 1 piece. -/
def W1 (m : (ℓ : Loc nD τ sig) → Buf (Elt Ideal) ℓ) (c : Dev nD) : Valuation τ sig (Elt Ideal) := after opsS0 (W0 m c)
/-- The contents after the first 2 pieces. -/
def W2 (m : (ℓ : Loc nD τ sig) → Buf (Elt Ideal) ℓ) (c : Dev nD) : Valuation τ sig (Elt Ideal) := after opsA1 (W1 m c)
/-- The contents after the first 3 pieces. -/
def W3 (m : (ℓ : Loc nD τ sig) → Buf (Elt Ideal) ℓ) (c : Dev nD) : Valuation τ sig (Elt Ideal) := after opsB1 (W2 m c)
/-- The contents after the first 4 pieces. -/
def W4 (m : (ℓ : Loc nD τ sig) → Buf (Elt Ideal) ℓ) (c : Dev nD) : Valuation τ sig (Elt Ideal) := after opsA2 (W3 m c)
/-- The contents after the first 5 pieces. -/
def W5 (m : (ℓ : Loc nD τ sig) → Buf (Elt Ideal) ℓ) (c : Dev nD) : Valuation τ sig (Elt Ideal) := after opsB2 (W4 m c)
/-- The contents after the first 6 pieces. -/
def W6 (m : (ℓ : Loc nD τ sig) → Buf (Elt Ideal) ℓ) (c : Dev nD) : Valuation τ sig (Elt Ideal) := after opsA3 (W5 m c)
/-- The contents after the first 7 pieces. -/
def W7 (m : (ℓ : Loc nD τ sig) → Buf (Elt Ideal) ℓ) (c : Dev nD) : Valuation τ sig (Elt Ideal) := after opsB3 (W6 m c)
/-- The contents after the first 8 pieces. -/
def W8 (m : (ℓ : Loc nD τ sig) → Buf (Elt Ideal) ℓ) (c : Dev nD) : Valuation τ sig (Elt Ideal) := after opsA4 (W7 m c)
/-- The contents after the first 9 pieces. -/
def W9 (m : (ℓ : Loc nD τ sig) → Buf (Elt Ideal) ℓ) (c : Dev nD) : Valuation τ sig (Elt Ideal) := after opsB4 (W8 m c)
/-- The contents after the first 10 pieces. -/
def W10 (m : (ℓ : Loc nD τ sig) → Buf (Elt Ideal) ℓ) (c : Dev nD) : Valuation τ sig (Elt Ideal) := after opsA5 (W9 m c)
/-- The contents after the first 11 pieces. -/
def W11 (m : (ℓ : Loc nD τ sig) → Buf (Elt Ideal) ℓ) (c : Dev nD) : Valuation τ sig (Elt Ideal) := after opsB5 (W10 m c)

theorem W0_arg1 (m : (ℓ : Loc nD τ sig) → Buf (Elt Ideal) ℓ) (c : Dev nD) :
    W0 m c (Proc.devRef .tc main_arg1) = m ((c.tc : Thread nD τ).loc main_arg1) :=
  rfl
theorem W1_arg1 (m : (ℓ : Loc nD τ sig) → Buf (Elt Ideal) ℓ) (c : Dev nD) :
    W1 m c (Proc.devRef .tc main_arg1) = m ((c.tc : Thread nD τ).loc main_arg1) :=
  (keepS0_arg1 _).trans (W0_arg1 m c)
theorem W2_arg1 (m : (ℓ : Loc nD τ sig) → Buf (Elt Ideal) ℓ) (c : Dev nD) :
    W2 m c (Proc.devRef .tc main_arg1) = m ((c.tc : Thread nD τ).loc main_arg1) :=
  (keepA1_arg1 _).trans (W1_arg1 m c)
theorem W3_arg1 (m : (ℓ : Loc nD τ sig) → Buf (Elt Ideal) ℓ) (c : Dev nD) :
    W3 m c (Proc.devRef .tc main_arg1) = m ((c.tc : Thread nD τ).loc main_arg1) :=
  (keepB1_arg1 _).trans (W2_arg1 m c)
theorem W4_arg1 (m : (ℓ : Loc nD τ sig) → Buf (Elt Ideal) ℓ) (c : Dev nD) :
    W4 m c (Proc.devRef .tc main_arg1) = m ((c.tc : Thread nD τ).loc main_arg1) :=
  (keepA2_arg1 _).trans (W3_arg1 m c)
theorem W5_arg1 (m : (ℓ : Loc nD τ sig) → Buf (Elt Ideal) ℓ) (c : Dev nD) :
    W5 m c (Proc.devRef .tc main_arg1) = m ((c.tc : Thread nD τ).loc main_arg1) :=
  (keepB2_arg1 _).trans (W4_arg1 m c)
theorem W6_arg1 (m : (ℓ : Loc nD τ sig) → Buf (Elt Ideal) ℓ) (c : Dev nD) :
    W6 m c (Proc.devRef .tc main_arg1) = m ((c.tc : Thread nD τ).loc main_arg1) :=
  (keepA3_arg1 _).trans (W5_arg1 m c)
theorem W7_arg1 (m : (ℓ : Loc nD τ sig) → Buf (Elt Ideal) ℓ) (c : Dev nD) :
    W7 m c (Proc.devRef .tc main_arg1) = m ((c.tc : Thread nD τ).loc main_arg1) :=
  (keepB3_arg1 _).trans (W6_arg1 m c)
theorem W8_arg1 (m : (ℓ : Loc nD τ sig) → Buf (Elt Ideal) ℓ) (c : Dev nD) :
    W8 m c (Proc.devRef .tc main_arg1) = m ((c.tc : Thread nD τ).loc main_arg1) :=
  (keepA4_arg1 _).trans (W7_arg1 m c)
theorem W9_arg1 (m : (ℓ : Loc nD τ sig) → Buf (Elt Ideal) ℓ) (c : Dev nD) :
    W9 m c (Proc.devRef .tc main_arg1) = m ((c.tc : Thread nD τ).loc main_arg1) :=
  (keepB4_arg1 _).trans (W8_arg1 m c)

theorem W0_arg2 (m : (ℓ : Loc nD τ sig) → Buf (Elt Ideal) ℓ) (c : Dev nD) :
    W0 m c (Proc.devRef .tc main_arg2) = m ((c.tc : Thread nD τ).loc main_arg2) :=
  rfl
theorem W1_arg2 (m : (ℓ : Loc nD τ sig) → Buf (Elt Ideal) ℓ) (c : Dev nD) :
    W1 m c (Proc.devRef .tc main_arg2) = m ((c.tc : Thread nD τ).loc main_arg2) :=
  (keepS0_arg2 _).trans (W0_arg2 m c)
theorem W2_arg2 (m : (ℓ : Loc nD τ sig) → Buf (Elt Ideal) ℓ) (c : Dev nD) :
    W2 m c (Proc.devRef .tc main_arg2) = m ((c.tc : Thread nD τ).loc main_arg2) :=
  (keepA1_arg2 _).trans (W1_arg2 m c)
theorem W3_arg2 (m : (ℓ : Loc nD τ sig) → Buf (Elt Ideal) ℓ) (c : Dev nD) :
    W3 m c (Proc.devRef .tc main_arg2) = m ((c.tc : Thread nD τ).loc main_arg2) :=
  (keepB1_arg2 _).trans (W2_arg2 m c)
theorem W4_arg2 (m : (ℓ : Loc nD τ sig) → Buf (Elt Ideal) ℓ) (c : Dev nD) :
    W4 m c (Proc.devRef .tc main_arg2) = m ((c.tc : Thread nD τ).loc main_arg2) :=
  (keepA2_arg2 _).trans (W3_arg2 m c)
theorem W5_arg2 (m : (ℓ : Loc nD τ sig) → Buf (Elt Ideal) ℓ) (c : Dev nD) :
    W5 m c (Proc.devRef .tc main_arg2) = m ((c.tc : Thread nD τ).loc main_arg2) :=
  (keepB2_arg2 _).trans (W4_arg2 m c)
theorem W6_arg2 (m : (ℓ : Loc nD τ sig) → Buf (Elt Ideal) ℓ) (c : Dev nD) :
    W6 m c (Proc.devRef .tc main_arg2) = m ((c.tc : Thread nD τ).loc main_arg2) :=
  (keepA3_arg2 _).trans (W5_arg2 m c)
theorem W7_arg2 (m : (ℓ : Loc nD τ sig) → Buf (Elt Ideal) ℓ) (c : Dev nD) :
    W7 m c (Proc.devRef .tc main_arg2) = m ((c.tc : Thread nD τ).loc main_arg2) :=
  (keepB3_arg2 _).trans (W6_arg2 m c)
theorem W8_arg2 (m : (ℓ : Loc nD τ sig) → Buf (Elt Ideal) ℓ) (c : Dev nD) :
    W8 m c (Proc.devRef .tc main_arg2) = m ((c.tc : Thread nD τ).loc main_arg2) :=
  (keepA4_arg2 _).trans (W7_arg2 m c)
theorem W9_arg2 (m : (ℓ : Loc nD τ sig) → Buf (Elt Ideal) ℓ) (c : Dev nD) :
    W9 m c (Proc.devRef .tc main_arg2) = m ((c.tc : Thread nD τ).loc main_arg2) :=
  (keepB4_arg2 _).trans (W8_arg2 m c)

theorem W0_arg7 (m : (ℓ : Loc nD τ sig) → Buf (Elt Ideal) ℓ) (c : Dev nD) :
    W0 m c (Proc.devRef .tc main_arg7) = m ((c.tc : Thread nD τ).loc main_arg7) :=
  rfl
theorem W1_arg7 (m : (ℓ : Loc nD τ sig) → Buf (Elt Ideal) ℓ) (c : Dev nD) :
    W1 m c (Proc.devRef .tc main_arg7) = m ((c.tc : Thread nD τ).loc main_arg7) :=
  (keepS0_arg7 _).trans (W0_arg7 m c)
theorem W2_arg7 (m : (ℓ : Loc nD τ sig) → Buf (Elt Ideal) ℓ) (c : Dev nD) :
    W2 m c (Proc.devRef .tc main_arg7) = m ((c.tc : Thread nD τ).loc main_arg7) :=
  (keepA1_arg7 _).trans (W1_arg7 m c)
theorem W3_arg7 (m : (ℓ : Loc nD τ sig) → Buf (Elt Ideal) ℓ) (c : Dev nD) :
    W3 m c (Proc.devRef .tc main_arg7) = m ((c.tc : Thread nD τ).loc main_arg7) :=
  (keepB1_arg7 _).trans (W2_arg7 m c)
theorem W4_arg7 (m : (ℓ : Loc nD τ sig) → Buf (Elt Ideal) ℓ) (c : Dev nD) :
    W4 m c (Proc.devRef .tc main_arg7) = m ((c.tc : Thread nD τ).loc main_arg7) :=
  (keepA2_arg7 _).trans (W3_arg7 m c)
theorem W5_arg7 (m : (ℓ : Loc nD τ sig) → Buf (Elt Ideal) ℓ) (c : Dev nD) :
    W5 m c (Proc.devRef .tc main_arg7) = m ((c.tc : Thread nD τ).loc main_arg7) :=
  (keepB2_arg7 _).trans (W4_arg7 m c)
theorem W6_arg7 (m : (ℓ : Loc nD τ sig) → Buf (Elt Ideal) ℓ) (c : Dev nD) :
    W6 m c (Proc.devRef .tc main_arg7) = m ((c.tc : Thread nD τ).loc main_arg7) :=
  (keepA3_arg7 _).trans (W5_arg7 m c)
theorem W7_arg7 (m : (ℓ : Loc nD τ sig) → Buf (Elt Ideal) ℓ) (c : Dev nD) :
    W7 m c (Proc.devRef .tc main_arg7) = m ((c.tc : Thread nD τ).loc main_arg7) :=
  (keepB3_arg7 _).trans (W6_arg7 m c)

theorem W0_arg8 (m : (ℓ : Loc nD τ sig) → Buf (Elt Ideal) ℓ) (c : Dev nD) :
    W0 m c (Proc.devRef .tc main_arg8) = m ((c.tc : Thread nD τ).loc main_arg8) :=
  rfl
theorem W1_arg8 (m : (ℓ : Loc nD τ sig) → Buf (Elt Ideal) ℓ) (c : Dev nD) :
    W1 m c (Proc.devRef .tc main_arg8) = m ((c.tc : Thread nD τ).loc main_arg8) :=
  (keepS0_arg8 _).trans (W0_arg8 m c)
theorem W2_arg8 (m : (ℓ : Loc nD τ sig) → Buf (Elt Ideal) ℓ) (c : Dev nD) :
    W2 m c (Proc.devRef .tc main_arg8) = m ((c.tc : Thread nD τ).loc main_arg8) :=
  (keepA1_arg8 _).trans (W1_arg8 m c)
theorem W3_arg8 (m : (ℓ : Loc nD τ sig) → Buf (Elt Ideal) ℓ) (c : Dev nD) :
    W3 m c (Proc.devRef .tc main_arg8) = m ((c.tc : Thread nD τ).loc main_arg8) :=
  (keepB1_arg8 _).trans (W2_arg8 m c)
theorem W4_arg8 (m : (ℓ : Loc nD τ sig) → Buf (Elt Ideal) ℓ) (c : Dev nD) :
    W4 m c (Proc.devRef .tc main_arg8) = m ((c.tc : Thread nD τ).loc main_arg8) :=
  (keepA2_arg8 _).trans (W3_arg8 m c)
theorem W5_arg8 (m : (ℓ : Loc nD τ sig) → Buf (Elt Ideal) ℓ) (c : Dev nD) :
    W5 m c (Proc.devRef .tc main_arg8) = m ((c.tc : Thread nD τ).loc main_arg8) :=
  (keepB2_arg8 _).trans (W4_arg8 m c)
theorem W6_arg8 (m : (ℓ : Loc nD τ sig) → Buf (Elt Ideal) ℓ) (c : Dev nD) :
    W6 m c (Proc.devRef .tc main_arg8) = m ((c.tc : Thread nD τ).loc main_arg8) :=
  (keepA3_arg8 _).trans (W5_arg8 m c)
theorem W7_arg8 (m : (ℓ : Loc nD τ sig) → Buf (Elt Ideal) ℓ) (c : Dev nD) :
    W7 m c (Proc.devRef .tc main_arg8) = m ((c.tc : Thread nD τ).loc main_arg8) :=
  (keepB3_arg8 _).trans (W6_arg8 m c)

theorem W0_arg9 (m : (ℓ : Loc nD τ sig) → Buf (Elt Ideal) ℓ) (c : Dev nD) :
    W0 m c (Proc.devRef .tc main_arg9) = m ((c.tc : Thread nD τ).loc main_arg9) :=
  rfl
theorem W1_arg9 (m : (ℓ : Loc nD τ sig) → Buf (Elt Ideal) ℓ) (c : Dev nD) :
    W1 m c (Proc.devRef .tc main_arg9) = m ((c.tc : Thread nD τ).loc main_arg9) :=
  (keepS0_arg9 _).trans (W0_arg9 m c)
theorem W2_arg9 (m : (ℓ : Loc nD τ sig) → Buf (Elt Ideal) ℓ) (c : Dev nD) :
    W2 m c (Proc.devRef .tc main_arg9) = m ((c.tc : Thread nD τ).loc main_arg9) :=
  (keepA1_arg9 _).trans (W1_arg9 m c)
theorem W3_arg9 (m : (ℓ : Loc nD τ sig) → Buf (Elt Ideal) ℓ) (c : Dev nD) :
    W3 m c (Proc.devRef .tc main_arg9) = m ((c.tc : Thread nD τ).loc main_arg9) :=
  (keepB1_arg9 _).trans (W2_arg9 m c)
theorem W4_arg9 (m : (ℓ : Loc nD τ sig) → Buf (Elt Ideal) ℓ) (c : Dev nD) :
    W4 m c (Proc.devRef .tc main_arg9) = m ((c.tc : Thread nD τ).loc main_arg9) :=
  (keepA2_arg9 _).trans (W3_arg9 m c)
theorem W5_arg9 (m : (ℓ : Loc nD τ sig) → Buf (Elt Ideal) ℓ) (c : Dev nD) :
    W5 m c (Proc.devRef .tc main_arg9) = m ((c.tc : Thread nD τ).loc main_arg9) :=
  (keepB2_arg9 _).trans (W4_arg9 m c)
theorem W6_arg9 (m : (ℓ : Loc nD τ sig) → Buf (Elt Ideal) ℓ) (c : Dev nD) :
    W6 m c (Proc.devRef .tc main_arg9) = m ((c.tc : Thread nD τ).loc main_arg9) :=
  (keepA3_arg9 _).trans (W5_arg9 m c)
theorem W7_arg9 (m : (ℓ : Loc nD τ sig) → Buf (Elt Ideal) ℓ) (c : Dev nD) :
    W7 m c (Proc.devRef .tc main_arg9) = m ((c.tc : Thread nD τ).loc main_arg9) :=
  (keepB3_arg9 _).trans (W6_arg9 m c)
theorem W8_arg9 (m : (ℓ : Loc nD τ sig) → Buf (Elt Ideal) ℓ) (c : Dev nD) :
    W8 m c (Proc.devRef .tc main_arg9) = m ((c.tc : Thread nD τ).loc main_arg9) :=
  (keepA4_arg9 _).trans (W7_arg9 m c)
theorem W9_arg9 (m : (ℓ : Loc nD τ sig) → Buf (Elt Ideal) ℓ) (c : Dev nD) :
    W9 m c (Proc.devRef .tc main_arg9) = m ((c.tc : Thread nD τ).loc main_arg9) :=
  (keepB4_arg9 _).trans (W8_arg9 m c)
theorem W10_arg9 (m : (ℓ : Loc nD τ sig) → Buf (Elt Ideal) ℓ) (c : Dev nD) :
    W10 m c (Proc.devRef .tc main_arg9) = m ((c.tc : Thread nD τ).loc main_arg9) :=
  (keepA5_arg9 _).trans (W9_arg9 m c)

theorem W0_arg10 (m : (ℓ : Loc nD τ sig) → Buf (Elt Ideal) ℓ) (c : Dev nD) :
    W0 m c (Proc.devRef .tc main_arg10) = m ((c.tc : Thread nD τ).loc main_arg10) :=
  rfl
theorem W1_arg10 (m : (ℓ : Loc nD τ sig) → Buf (Elt Ideal) ℓ) (c : Dev nD) :
    W1 m c (Proc.devRef .tc main_arg10) = m ((c.tc : Thread nD τ).loc main_arg10) :=
  (keepS0_arg10 _).trans (W0_arg10 m c)
theorem W2_arg10 (m : (ℓ : Loc nD τ sig) → Buf (Elt Ideal) ℓ) (c : Dev nD) :
    W2 m c (Proc.devRef .tc main_arg10) = m ((c.tc : Thread nD τ).loc main_arg10) :=
  (keepA1_arg10 _).trans (W1_arg10 m c)
theorem W3_arg10 (m : (ℓ : Loc nD τ sig) → Buf (Elt Ideal) ℓ) (c : Dev nD) :
    W3 m c (Proc.devRef .tc main_arg10) = m ((c.tc : Thread nD τ).loc main_arg10) :=
  (keepB1_arg10 _).trans (W2_arg10 m c)
theorem W4_arg10 (m : (ℓ : Loc nD τ sig) → Buf (Elt Ideal) ℓ) (c : Dev nD) :
    W4 m c (Proc.devRef .tc main_arg10) = m ((c.tc : Thread nD τ).loc main_arg10) :=
  (keepA2_arg10 _).trans (W3_arg10 m c)
theorem W5_arg10 (m : (ℓ : Loc nD τ sig) → Buf (Elt Ideal) ℓ) (c : Dev nD) :
    W5 m c (Proc.devRef .tc main_arg10) = m ((c.tc : Thread nD τ).loc main_arg10) :=
  (keepB2_arg10 _).trans (W4_arg10 m c)
theorem W6_arg10 (m : (ℓ : Loc nD τ sig) → Buf (Elt Ideal) ℓ) (c : Dev nD) :
    W6 m c (Proc.devRef .tc main_arg10) = m ((c.tc : Thread nD τ).loc main_arg10) :=
  (keepA3_arg10 _).trans (W5_arg10 m c)
theorem W7_arg10 (m : (ℓ : Loc nD τ sig) → Buf (Elt Ideal) ℓ) (c : Dev nD) :
    W7 m c (Proc.devRef .tc main_arg10) = m ((c.tc : Thread nD τ).loc main_arg10) :=
  (keepB3_arg10 _).trans (W6_arg10 m c)
theorem W8_arg10 (m : (ℓ : Loc nD τ sig) → Buf (Elt Ideal) ℓ) (c : Dev nD) :
    W8 m c (Proc.devRef .tc main_arg10) = m ((c.tc : Thread nD τ).loc main_arg10) :=
  (keepA4_arg10 _).trans (W7_arg10 m c)
theorem W9_arg10 (m : (ℓ : Loc nD τ sig) → Buf (Elt Ideal) ℓ) (c : Dev nD) :
    W9 m c (Proc.devRef .tc main_arg10) = m ((c.tc : Thread nD τ).loc main_arg10) :=
  (keepB4_arg10 _).trans (W8_arg10 m c)
theorem W10_arg10 (m : (ℓ : Loc nD τ sig) → Buf (Elt Ideal) ℓ) (c : Dev nD) :
    W10 m c (Proc.devRef .tc main_arg10) = m ((c.tc : Thread nD τ).loc main_arg10) :=
  (keepA5_arg10 _).trans (W9_arg10 m c)

theorem W0_arg11 (m : (ℓ : Loc nD τ sig) → Buf (Elt Ideal) ℓ) (c : Dev nD) :
    W0 m c (Proc.devRef .tc main_arg11) = m ((c.tc : Thread nD τ).loc main_arg11) :=
  rfl
theorem W1_arg11 (m : (ℓ : Loc nD τ sig) → Buf (Elt Ideal) ℓ) (c : Dev nD) :
    W1 m c (Proc.devRef .tc main_arg11) = m ((c.tc : Thread nD τ).loc main_arg11) :=
  (keepS0_arg11 _).trans (W0_arg11 m c)
theorem W2_arg11 (m : (ℓ : Loc nD τ sig) → Buf (Elt Ideal) ℓ) (c : Dev nD) :
    W2 m c (Proc.devRef .tc main_arg11) = m ((c.tc : Thread nD τ).loc main_arg11) :=
  (keepA1_arg11 _).trans (W1_arg11 m c)
theorem W3_arg11 (m : (ℓ : Loc nD τ sig) → Buf (Elt Ideal) ℓ) (c : Dev nD) :
    W3 m c (Proc.devRef .tc main_arg11) = m ((c.tc : Thread nD τ).loc main_arg11) :=
  (keepB1_arg11 _).trans (W2_arg11 m c)
theorem W4_arg11 (m : (ℓ : Loc nD τ sig) → Buf (Elt Ideal) ℓ) (c : Dev nD) :
    W4 m c (Proc.devRef .tc main_arg11) = m ((c.tc : Thread nD τ).loc main_arg11) :=
  (keepA2_arg11 _).trans (W3_arg11 m c)
theorem W5_arg11 (m : (ℓ : Loc nD τ sig) → Buf (Elt Ideal) ℓ) (c : Dev nD) :
    W5 m c (Proc.devRef .tc main_arg11) = m ((c.tc : Thread nD τ).loc main_arg11) :=
  (keepB2_arg11 _).trans (W4_arg11 m c)
theorem W6_arg11 (m : (ℓ : Loc nD τ sig) → Buf (Elt Ideal) ℓ) (c : Dev nD) :
    W6 m c (Proc.devRef .tc main_arg11) = m ((c.tc : Thread nD τ).loc main_arg11) :=
  (keepA3_arg11 _).trans (W5_arg11 m c)
theorem W7_arg11 (m : (ℓ : Loc nD τ sig) → Buf (Elt Ideal) ℓ) (c : Dev nD) :
    W7 m c (Proc.devRef .tc main_arg11) = m ((c.tc : Thread nD τ).loc main_arg11) :=
  (keepB3_arg11 _).trans (W6_arg11 m c)
theorem W8_arg11 (m : (ℓ : Loc nD τ sig) → Buf (Elt Ideal) ℓ) (c : Dev nD) :
    W8 m c (Proc.devRef .tc main_arg11) = m ((c.tc : Thread nD τ).loc main_arg11) :=
  (keepA4_arg11 _).trans (W7_arg11 m c)
theorem W9_arg11 (m : (ℓ : Loc nD τ sig) → Buf (Elt Ideal) ℓ) (c : Dev nD) :
    W9 m c (Proc.devRef .tc main_arg11) = m ((c.tc : Thread nD τ).loc main_arg11) :=
  (keepB4_arg11 _).trans (W8_arg11 m c)
theorem W10_arg11 (m : (ℓ : Loc nD τ sig) → Buf (Elt Ideal) ℓ) (c : Dev nD) :
    W10 m c (Proc.devRef .tc main_arg11) = m ((c.tc : Thread nD τ).loc main_arg11) :=
  (keepA5_arg11 _).trans (W9_arg11 m c)

theorem W0_arg12 (m : (ℓ : Loc nD τ sig) → Buf (Elt Ideal) ℓ) (c : Dev nD) :
    W0 m c (Proc.devRef .tc main_arg12) = m ((c.tc : Thread nD τ).loc main_arg12) :=
  rfl
theorem W1_arg12 (m : (ℓ : Loc nD τ sig) → Buf (Elt Ideal) ℓ) (c : Dev nD) :
    W1 m c (Proc.devRef .tc main_arg12) = m ((c.tc : Thread nD τ).loc main_arg12) :=
  (keepS0_arg12 _).trans (W0_arg12 m c)
theorem W2_arg12 (m : (ℓ : Loc nD τ sig) → Buf (Elt Ideal) ℓ) (c : Dev nD) :
    W2 m c (Proc.devRef .tc main_arg12) = m ((c.tc : Thread nD τ).loc main_arg12) :=
  (keepA1_arg12 _).trans (W1_arg12 m c)
theorem W3_arg12 (m : (ℓ : Loc nD τ sig) → Buf (Elt Ideal) ℓ) (c : Dev nD) :
    W3 m c (Proc.devRef .tc main_arg12) = m ((c.tc : Thread nD τ).loc main_arg12) :=
  (keepB1_arg12 _).trans (W2_arg12 m c)
theorem W4_arg12 (m : (ℓ : Loc nD τ sig) → Buf (Elt Ideal) ℓ) (c : Dev nD) :
    W4 m c (Proc.devRef .tc main_arg12) = m ((c.tc : Thread nD τ).loc main_arg12) :=
  (keepA2_arg12 _).trans (W3_arg12 m c)
theorem W5_arg12 (m : (ℓ : Loc nD τ sig) → Buf (Elt Ideal) ℓ) (c : Dev nD) :
    W5 m c (Proc.devRef .tc main_arg12) = m ((c.tc : Thread nD τ).loc main_arg12) :=
  (keepB2_arg12 _).trans (W4_arg12 m c)
theorem W6_arg12 (m : (ℓ : Loc nD τ sig) → Buf (Elt Ideal) ℓ) (c : Dev nD) :
    W6 m c (Proc.devRef .tc main_arg12) = m ((c.tc : Thread nD τ).loc main_arg12) :=
  (keepA3_arg12 _).trans (W5_arg12 m c)
theorem W7_arg12 (m : (ℓ : Loc nD τ sig) → Buf (Elt Ideal) ℓ) (c : Dev nD) :
    W7 m c (Proc.devRef .tc main_arg12) = m ((c.tc : Thread nD τ).loc main_arg12) :=
  (keepB3_arg12 _).trans (W6_arg12 m c)
theorem W8_arg12 (m : (ℓ : Loc nD τ sig) → Buf (Elt Ideal) ℓ) (c : Dev nD) :
    W8 m c (Proc.devRef .tc main_arg12) = m ((c.tc : Thread nD τ).loc main_arg12) :=
  (keepA4_arg12 _).trans (W7_arg12 m c)
theorem W9_arg12 (m : (ℓ : Loc nD τ sig) → Buf (Elt Ideal) ℓ) (c : Dev nD) :
    W9 m c (Proc.devRef .tc main_arg12) = m ((c.tc : Thread nD τ).loc main_arg12) :=
  (keepB4_arg12 _).trans (W8_arg12 m c)
theorem W10_arg12 (m : (ℓ : Loc nD τ sig) → Buf (Elt Ideal) ℓ) (c : Dev nD) :
    W10 m c (Proc.devRef .tc main_arg12) = m ((c.tc : Thread nD τ).loc main_arg12) :=
  (keepA5_arg12 _).trans (W9_arg12 m c)

theorem W0_arg13 (m : (ℓ : Loc nD τ sig) → Buf (Elt Ideal) ℓ) (c : Dev nD) :
    W0 m c (Proc.devRef .tc main_arg13) = m ((c.tc : Thread nD τ).loc main_arg13) :=
  rfl
theorem W1_arg13 (m : (ℓ : Loc nD τ sig) → Buf (Elt Ideal) ℓ) (c : Dev nD) :
    W1 m c (Proc.devRef .tc main_arg13) = m ((c.tc : Thread nD τ).loc main_arg13) :=
  (keepS0_arg13 _).trans (W0_arg13 m c)
theorem W2_arg13 (m : (ℓ : Loc nD τ sig) → Buf (Elt Ideal) ℓ) (c : Dev nD) :
    W2 m c (Proc.devRef .tc main_arg13) = m ((c.tc : Thread nD τ).loc main_arg13) :=
  (keepA1_arg13 _).trans (W1_arg13 m c)
theorem W3_arg13 (m : (ℓ : Loc nD τ sig) → Buf (Elt Ideal) ℓ) (c : Dev nD) :
    W3 m c (Proc.devRef .tc main_arg13) = m ((c.tc : Thread nD τ).loc main_arg13) :=
  (keepB1_arg13 _).trans (W2_arg13 m c)
theorem W4_arg13 (m : (ℓ : Loc nD τ sig) → Buf (Elt Ideal) ℓ) (c : Dev nD) :
    W4 m c (Proc.devRef .tc main_arg13) = m ((c.tc : Thread nD τ).loc main_arg13) :=
  (keepA2_arg13 _).trans (W3_arg13 m c)
theorem W5_arg13 (m : (ℓ : Loc nD τ sig) → Buf (Elt Ideal) ℓ) (c : Dev nD) :
    W5 m c (Proc.devRef .tc main_arg13) = m ((c.tc : Thread nD τ).loc main_arg13) :=
  (keepB2_arg13 _).trans (W4_arg13 m c)
theorem W6_arg13 (m : (ℓ : Loc nD τ sig) → Buf (Elt Ideal) ℓ) (c : Dev nD) :
    W6 m c (Proc.devRef .tc main_arg13) = m ((c.tc : Thread nD τ).loc main_arg13) :=
  (keepA3_arg13 _).trans (W5_arg13 m c)
theorem W7_arg13 (m : (ℓ : Loc nD τ sig) → Buf (Elt Ideal) ℓ) (c : Dev nD) :
    W7 m c (Proc.devRef .tc main_arg13) = m ((c.tc : Thread nD τ).loc main_arg13) :=
  (keepB3_arg13 _).trans (W6_arg13 m c)
theorem W8_arg13 (m : (ℓ : Loc nD τ sig) → Buf (Elt Ideal) ℓ) (c : Dev nD) :
    W8 m c (Proc.devRef .tc main_arg13) = m ((c.tc : Thread nD τ).loc main_arg13) :=
  (keepA4_arg13 _).trans (W7_arg13 m c)
theorem W9_arg13 (m : (ℓ : Loc nD τ sig) → Buf (Elt Ideal) ℓ) (c : Dev nD) :
    W9 m c (Proc.devRef .tc main_arg13) = m ((c.tc : Thread nD τ).loc main_arg13) :=
  (keepB4_arg13 _).trans (W8_arg13 m c)
theorem W10_arg13 (m : (ℓ : Loc nD τ sig) → Buf (Elt Ideal) ℓ) (c : Dev nD) :
    W10 m c (Proc.devRef .tc main_arg13) = m ((c.tc : Thread nD τ).loc main_arg13) :=
  (keepA5_arg13 _).trans (W9_arg13 m c)

theorem W0_arg14 (m : (ℓ : Loc nD τ sig) → Buf (Elt Ideal) ℓ) (c : Dev nD) :
    W0 m c (Proc.devRef .tc main_arg14) = m ((c.tc : Thread nD τ).loc main_arg14) :=
  rfl
theorem W1_arg14 (m : (ℓ : Loc nD τ sig) → Buf (Elt Ideal) ℓ) (c : Dev nD) :
    W1 m c (Proc.devRef .tc main_arg14) = m ((c.tc : Thread nD τ).loc main_arg14) :=
  (keepS0_arg14 _).trans (W0_arg14 m c)
theorem W2_arg14 (m : (ℓ : Loc nD τ sig) → Buf (Elt Ideal) ℓ) (c : Dev nD) :
    W2 m c (Proc.devRef .tc main_arg14) = m ((c.tc : Thread nD τ).loc main_arg14) :=
  (keepA1_arg14 _).trans (W1_arg14 m c)
theorem W3_arg14 (m : (ℓ : Loc nD τ sig) → Buf (Elt Ideal) ℓ) (c : Dev nD) :
    W3 m c (Proc.devRef .tc main_arg14) = m ((c.tc : Thread nD τ).loc main_arg14) :=
  (keepB1_arg14 _).trans (W2_arg14 m c)
theorem W4_arg14 (m : (ℓ : Loc nD τ sig) → Buf (Elt Ideal) ℓ) (c : Dev nD) :
    W4 m c (Proc.devRef .tc main_arg14) = m ((c.tc : Thread nD τ).loc main_arg14) :=
  (keepA2_arg14 _).trans (W3_arg14 m c)
theorem W5_arg14 (m : (ℓ : Loc nD τ sig) → Buf (Elt Ideal) ℓ) (c : Dev nD) :
    W5 m c (Proc.devRef .tc main_arg14) = m ((c.tc : Thread nD τ).loc main_arg14) :=
  (keepB2_arg14 _).trans (W4_arg14 m c)
theorem W6_arg14 (m : (ℓ : Loc nD τ sig) → Buf (Elt Ideal) ℓ) (c : Dev nD) :
    W6 m c (Proc.devRef .tc main_arg14) = m ((c.tc : Thread nD τ).loc main_arg14) :=
  (keepA3_arg14 _).trans (W5_arg14 m c)
theorem W7_arg14 (m : (ℓ : Loc nD τ sig) → Buf (Elt Ideal) ℓ) (c : Dev nD) :
    W7 m c (Proc.devRef .tc main_arg14) = m ((c.tc : Thread nD τ).loc main_arg14) :=
  (keepB3_arg14 _).trans (W6_arg14 m c)
theorem W8_arg14 (m : (ℓ : Loc nD τ sig) → Buf (Elt Ideal) ℓ) (c : Dev nD) :
    W8 m c (Proc.devRef .tc main_arg14) = m ((c.tc : Thread nD τ).loc main_arg14) :=
  (keepA4_arg14 _).trans (W7_arg14 m c)
theorem W9_arg14 (m : (ℓ : Loc nD τ sig) → Buf (Elt Ideal) ℓ) (c : Dev nD) :
    W9 m c (Proc.devRef .tc main_arg14) = m ((c.tc : Thread nD τ).loc main_arg14) :=
  (keepB4_arg14 _).trans (W8_arg14 m c)
theorem W10_arg14 (m : (ℓ : Loc nD τ sig) → Buf (Elt Ideal) ℓ) (c : Dev nD) :
    W10 m c (Proc.devRef .tc main_arg14) = m ((c.tc : Thread nD τ).loc main_arg14) :=
  (keepA5_arg14 _).trans (W9_arg14 m c)

theorem W1_v3 (m : (ℓ : Loc nD τ sig) → Buf (Elt Ideal) ℓ) (c : Dev nD) :
    W1 m c (Proc.devRef .tc main_v3) = ReadP.val_main_v3 (F := Ideal) (m ((c.tc : Thread nD τ).loc main_arg0)) (m ((c.tc : Thread nD τ).loc main_arg5)) (m ((c.tc : Thread nD τ).loc main_arg6)) :=
  opsS0_out (W0 m c)
theorem W2_v3 (m : (ℓ : Loc nD τ sig) → Buf (Elt Ideal) ℓ) (c : Dev nD) :
    W2 m c (Proc.devRef .tc main_v3) = ReadP.val_main_v3 (F := Ideal) (m ((c.tc : Thread nD τ).loc main_arg0)) (m ((c.tc : Thread nD τ).loc main_arg5)) (m ((c.tc : Thread nD τ).loc main_arg6)) :=
  (keepA1_v3 _).trans (W1_v3 m c)
theorem W2_v5 (m : (ℓ : Loc nD τ sig) → Buf (Elt Ideal) ℓ) (c : Dev nD) :
    W2 m c (Proc.devRef .tc main_v5) = ReadP.val_main_v5 (F := Ideal) (m ((c.tc : Thread nD τ).loc main_arg7)) :=
  opsA1_w (W1 m c) (m ((c.tc : Thread nD τ).loc main_arg7)) (W1_arg7 m c)
theorem W2_v7 (m : (ℓ : Loc nD τ sig) → Buf (Elt Ideal) ℓ) (c : Dev nD) :
    W2 m c (Proc.devRef .tc main_v7) = ReadP.val_main_v7 (F := Ideal) (m ((c.tc : Thread nD τ).loc main_arg8)) :=
  opsA1_b (W1 m c) (m ((c.tc : Thread nD τ).loc main_arg8)) (W1_arg8 m c)
theorem W2_v25 (m : (ℓ : Loc nD τ sig) → Buf (Elt Ideal) ℓ) (c : Dev nD) :
    W2 m c (Proc.devRef .tc main_v25) = ReadP.val_main_v25 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) :=
  opsA1_c (W1 m c) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6))
    (W1_v3 m c) (W1_arg1 m c) (W1_arg2 m c)
theorem W3_v37 (m : (ℓ : Loc nD τ sig) → Buf (Elt Ideal) ℓ) (c : Dev nD) :
    W3 m c (Proc.devRef .tc main_v37) = ReadP.val_main_v37 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) :=
  opsB1_out (W2 m c) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8))
    (W2_v3 m c) (W2_v5 m c) (W2_v7 m c) (W2_v25 m c)

theorem W4_v37 (m : (ℓ : Loc nD τ sig) → Buf (Elt Ideal) ℓ) (c : Dev nD) :
    W4 m c (Proc.devRef .tc main_v37) = ReadP.val_main_v37 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) :=
  (keepA2_v37 _).trans (W3_v37 m c)
theorem W4_v39 (m : (ℓ : Loc nD τ sig) → Buf (Elt Ideal) ℓ) (c : Dev nD) :
    W4 m c (Proc.devRef .tc main_v39) = ReadP.val_main_v39 (F := Ideal) (m ((c.tc : Thread nD τ).loc main_arg7)) :=
  opsA2_w (W3 m c) (m ((c.tc : Thread nD τ).loc main_arg7)) (W3_arg7 m c)
theorem W4_v41 (m : (ℓ : Loc nD τ sig) → Buf (Elt Ideal) ℓ) (c : Dev nD) :
    W4 m c (Proc.devRef .tc main_v41) = ReadP.val_main_v41 (F := Ideal) (m ((c.tc : Thread nD τ).loc main_arg8)) :=
  opsA2_b (W3 m c) (m ((c.tc : Thread nD τ).loc main_arg8)) (W3_arg8 m c)
theorem W4_v59 (m : (ℓ : Loc nD τ sig) → Buf (Elt Ideal) ℓ) (c : Dev nD) :
    W4 m c (Proc.devRef .tc main_v59) = ReadP.val_main_v59 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) :=
  opsA2_c (W3 m c) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8))
    (W3_v37 m c) (W3_arg1 m c) (W3_arg2 m c)
theorem W5_v71 (m : (ℓ : Loc nD τ sig) → Buf (Elt Ideal) ℓ) (c : Dev nD) :
    W5 m c (Proc.devRef .tc main_v71) = ReadP.val_main_v71 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) :=
  opsB2_out (W4 m c) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8))
    (W4_v37 m c) (W4_v39 m c) (W4_v41 m c) (W4_v59 m c)

theorem W6_v71 (m : (ℓ : Loc nD τ sig) → Buf (Elt Ideal) ℓ) (c : Dev nD) :
    W6 m c (Proc.devRef .tc main_v71) = ReadP.val_main_v71 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) :=
  (keepA3_v71 _).trans (W5_v71 m c)
theorem W6_v73 (m : (ℓ : Loc nD τ sig) → Buf (Elt Ideal) ℓ) (c : Dev nD) :
    W6 m c (Proc.devRef .tc main_v73) = ReadP.val_main_v73 (F := Ideal) (m ((c.tc : Thread nD τ).loc main_arg7)) :=
  opsA3_w (W5 m c) (m ((c.tc : Thread nD τ).loc main_arg7)) (W5_arg7 m c)
theorem W6_v75 (m : (ℓ : Loc nD τ sig) → Buf (Elt Ideal) ℓ) (c : Dev nD) :
    W6 m c (Proc.devRef .tc main_v75) = ReadP.val_main_v75 (F := Ideal) (m ((c.tc : Thread nD τ).loc main_arg8)) :=
  opsA3_b (W5 m c) (m ((c.tc : Thread nD τ).loc main_arg8)) (W5_arg8 m c)
theorem W6_v93 (m : (ℓ : Loc nD τ sig) → Buf (Elt Ideal) ℓ) (c : Dev nD) :
    W6 m c (Proc.devRef .tc main_v93) = ReadP.val_main_v93 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) :=
  opsA3_c (W5 m c) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8))
    (W5_v71 m c) (W5_arg1 m c) (W5_arg2 m c)
theorem W7_v105 (m : (ℓ : Loc nD τ sig) → Buf (Elt Ideal) ℓ) (c : Dev nD) :
    W7 m c (Proc.devRef .tc main_v105) = ReadP.val_main_v105 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) :=
  opsB3_out (W6 m c) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8))
    (W6_v71 m c) (W6_v73 m c) (W6_v75 m c) (W6_v93 m c)

theorem W8_v105 (m : (ℓ : Loc nD τ sig) → Buf (Elt Ideal) ℓ) (c : Dev nD) :
    W8 m c (Proc.devRef .tc main_v105) = ReadP.val_main_v105 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) :=
  (keepA4_v105 _).trans (W7_v105 m c)
theorem W8_v107 (m : (ℓ : Loc nD τ sig) → Buf (Elt Ideal) ℓ) (c : Dev nD) :
    W8 m c (Proc.devRef .tc main_v107) = ReadP.val_main_v107 (F := Ideal) (m ((c.tc : Thread nD τ).loc main_arg7)) :=
  opsA4_w (W7 m c) (m ((c.tc : Thread nD τ).loc main_arg7)) (W7_arg7 m c)
theorem W8_v109 (m : (ℓ : Loc nD τ sig) → Buf (Elt Ideal) ℓ) (c : Dev nD) :
    W8 m c (Proc.devRef .tc main_v109) = ReadP.val_main_v109 (F := Ideal) (m ((c.tc : Thread nD τ).loc main_arg8)) :=
  opsA4_b (W7 m c) (m ((c.tc : Thread nD τ).loc main_arg8)) (W7_arg8 m c)
theorem W8_v127 (m : (ℓ : Loc nD τ sig) → Buf (Elt Ideal) ℓ) (c : Dev nD) :
    W8 m c (Proc.devRef .tc main_v127) = ReadP.val_main_v127 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) :=
  opsA4_c (W7 m c) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8))
    (W7_v105 m c) (W7_arg1 m c) (W7_arg2 m c)
theorem W9_v139 (m : (ℓ : Loc nD τ sig) → Buf (Elt Ideal) ℓ) (c : Dev nD) :
    W9 m c (Proc.devRef .tc main_v139) = ReadP.val_main_v139 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) :=
  opsB4_out (W8 m c) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8))
    (W8_v105 m c) (W8_v107 m c) (W8_v109 m c) (W8_v127 m c)

theorem W10_v146 (m : (ℓ : Loc nD τ sig) → Buf (Elt Ideal) ℓ) (c : Dev nD) :
    W10 m c (Proc.devRef .tc main_v146) = ReadP.val_main_v146 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) :=
  opsA5_s (W9 m c) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8))
    (W9_v139 m c) (W9_arg1 m c)
theorem W10_v153 (m : (ℓ : Loc nD τ sig) → Buf (Elt Ideal) ℓ) (c : Dev nD) :
    W10 m c (Proc.devRef .tc main_v153) = ReadP.val_main_v153 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) :=
  opsA5_t (W9 m c) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8))
    (W9_v139 m c) (W9_arg2 m c)
theorem W11_v168 (m : (ℓ : Loc nD τ sig) → Buf (Elt Ideal) ℓ) (c : Dev nD) :
    W11 m c (Proc.devRef .tc main_v168) = ReadP.val_main_v168 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  opsB5_out (W10 m c) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
    (W10_v146 m c) (W10_v153 m c) (W10_arg9 m c) (W10_arg10 m c) (W10_arg11 m c) (W10_arg12 m c) (W10_arg13 m c) (W10_arg14 m c)

/-- The fold of the whole operation list is the pieces in a row. -/
theorem fold_eq (m : (ℓ : Loc nD τ sig) → Buf (Elt Ideal) ℓ) (c : Dev nD) : after ops (launchContents m c) = W11 m c := by
  rw [ops_split]
  simp only [after_app]
  rfl

/-- The fold leaves the chain's read-out of the arguments in the result buffer. -/
theorem result_eq (m : (ℓ : Loc nD τ sig) → Buf (Elt Ideal) ℓ) (c : Dev nD) :
    after ops (launchContents m c) (Proc.devRef .tc main_v168)
      = Cert.RefChain.rOut (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  rw [fold_eq]
  exact (W11_v168 m c).trans (Cert.RefChain.ref_result _ _ _ _ _ _ _ _ _ _ _ _ _)

/-- On every device, from any memory with zero counters: every weakly fair execution of the reference terminates with
    the result buffer at the chain's read-out of the arguments, and the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v168)
          = Cert.RefChain.rOut (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c).1.trans (result_eq m c), (h c).2⟩)
    (Cert.ReferenceIdeal.ValueP.run m ρ)

end Cert.RefFinal

end
-- ==== Proof.Bridge.lean ====
/-
  THE TWO PROGRAMS COMPUTE THE SAME NETWORK.

  One program's result is a chain over its arguments in which the neighbour sums and the edge counts of every layer are
  taken over the edges reordered by the argsort of their targets; the other's is the same chain with the edges taken as
  given. A sum over the edges does not see their order, so the row sums and the counts agree, layer by layer the
  node tables agree, and the read-outs of the last table's rows at the edges' two ends agree. The rows gathered for
  the read-out are first rounded to the shorter float format in one program, which changes nothing on the extended
  reals.
-/
import proofs.«141839_j76785425318033_2_alg».proof.Proof.KDefs
import proofs.«141839_j76785425318033_2_alg».proof.Proof.RefChain
import proofs.«141839_j76785425318033_2_alg».proof.Proof.EdgeSums
import proofs.«141839_j76785425318033_2_alg».proof.Proof.KSort

noncomputable section

open scoped BigOperators

namespace Cert.Bridge

open Idealize.ShloMosaic Idealize.ShloMosaic.TcCoe Idealize.ShloMosaic.ValueIdx Cert.Rows Cert.Net
open Cert.KernelIdeal Cert.KernelIdeal.Gen Cert.KGlue Cert.KChain Cert.EdgeSums

/-! ## The edge operations -/

/-- The row sums over the edges sorted by target are the row sums over the edges as given. -/
theorem msum_bridge (H : NodeTbl) (src dst : IV) :
    msumOf H (sortedWith src (kPerm dst)) (sortedWith dst (kPerm dst)) = Cert.RefChain.rMsumOf H src dst := by
  rw [Cert.KSort.sorted_eq src dst, Cert.KSort.sorted_eq dst dst, Cert.KSort.msum_eq H src dst]
  exact (msum_sorted H src dst).trans rfl

/-- The edge counts over the edges sorted by target are the edge counts over the edges as given. -/
theorem deg_bridge (dst : IV) : degOf (sortedWith dst (kPerm dst)) = Cert.RefChain.rDegOf dst := by
  rw [Cert.KSort.sorted_eq dst dst, Cert.KSort.deg_eq dst]
  exact (deg_sorted dst).trans rfl

/-- The rows of a table at the nodes an index vector names: the rounding of the table is the identity. -/
theorem rows_bridge (H : NodeTbl) (s : IV) : (rowsAt H s : Tbl 800000 128) = Cert.RefChain.rRowsAt H s := rfl

/-! ## The chain -/

variable (m : (ℓ : Loc nD τ sig) → Buf (Elt Ideal) ℓ) (c : Dev nD)

/-- A layer over the sorted edges is the layer over the edges as given, whatever the table. -/
theorem layer_bridge (l : Fin 4) (H : Tbl 50000 128) :
    layer m c (kPerm (arg m c main_arg2)) l H
      = Cert.RefChain.rlayer l H (arg m c main_arg1) (arg m c main_arg2) (arg m c main_arg7) (arg m c main_arg8) := by
  unfold Cert.KChain.layer Cert.RefChain.rlayer
  exact sageT_congr rfl (msum_bridge H (arg m c main_arg1) (arg m c main_arg2)) (deg_bridge (arg m c main_arg2)) rfl rfl rfl

theorem H0_bridge : H0 m c = Cert.RefChain.R0 (arg m c main_arg0) (arg m c main_arg5) (arg m c main_arg6) := rfl

theorem H1_bridge : H1 m c (kPerm (arg m c main_arg2)) = Cert.RefChain.R1 (arg m c main_arg0) (arg m c main_arg1) (arg m c main_arg2) (arg m c main_arg5) (arg m c main_arg6) (arg m c main_arg7) (arg m c main_arg8) := by
  unfold Cert.KChain.H1 Cert.RefChain.R1
  rw [layer_bridge, H0_bridge]

theorem H2_bridge : H2 m c (kPerm (arg m c main_arg2)) = Cert.RefChain.R2 (arg m c main_arg0) (arg m c main_arg1) (arg m c main_arg2) (arg m c main_arg5) (arg m c main_arg6) (arg m c main_arg7) (arg m c main_arg8) := by
  unfold Cert.KChain.H2 Cert.RefChain.R2
  rw [layer_bridge, H1_bridge]

theorem H3_bridge : H3 m c (kPerm (arg m c main_arg2)) = Cert.RefChain.R3 (arg m c main_arg0) (arg m c main_arg1) (arg m c main_arg2) (arg m c main_arg5) (arg m c main_arg6) (arg m c main_arg7) (arg m c main_arg8) := by
  unfold Cert.KChain.H3 Cert.RefChain.R3
  rw [layer_bridge, H2_bridge]

theorem H4_bridge : H4 m c (kPerm (arg m c main_arg2)) = Cert.RefChain.R4 (arg m c main_arg0) (arg m c main_arg1) (arg m c main_arg2) (arg m c main_arg5) (arg m c main_arg6) (arg m c main_arg7) (arg m c main_arg8) := by
  unfold Cert.KChain.H4 Cert.RefChain.R4
  rw [layer_bridge, H3_bridge]

/-- THE TWO RESULTS AGREE: the read-out of the chain over the sorted edges is the read-out of the chain over the edges
    as given. -/
theorem out_eq : Cert.KChain.out m c (kPerm (arg m c main_arg2))
    = Cert.RefChain.rOut (arg m c main_arg0) (arg m c main_arg1) (arg m c main_arg2) (arg m c main_arg5) (arg m c main_arg6) (arg m c main_arg7) (arg m c main_arg8) (arg m c main_arg9) (arg m c main_arg10) (arg m c main_arg11) (arg m c main_arg12) (arg m c main_arg13) (arg m c main_arg14) := by
  unfold Cert.KChain.out Cert.RefChain.rOut
  rw [H4_bridge]
  exact mlpT_congr (rows_bridge _ _) (rows_bridge _ _) rfl rfl rfl rfl rfl rfl rfl

end Cert.Bridge

end
-- ==== Proof.lean ====
/-
  The certificate: a graph network of four neighbourhood-averaging layers and an edge read-out, as a kernel of six launched
  regions against its plain reference, equal on the extended reals.

  Both programs compute, for every edge, a three-layer perceptron of the rows of its two end nodes in the table `h₄`, where
  `h₀ = x·W + b` and `h_{l+1} = h_l + max(u / max(‖u‖, ε), 0)` with `u = [h_l, s_l / d]·W_l + b_l`, `s_l` the sum of
  `h_l`'s rows over a node's incoming edges and `d` their number clamped below by one. The kernel program splits each
  weight matrix of a concatenation into the two halves that meet the two parts (a sum over 256 indices is the sum over
  the first 128 plus the sum over the last 128), rounds to a shorter float format before its matrix products (the
  identity on the extended reals), and sorts the edges by target before summing over them (a sum over the edges whose
  target is a given node does not depend on the order of the edges: the argsort is a permutation). Nothing here needs
  the inputs to be finite: only commutativity and associativity of the extended reals' sum are used.

  The three frames are the generated frame proofs (the reference's is its run with the result dropped); the
  idealization rewrote nothing, so `preserves` is trivial; `algebraic` puts the two runs side by side at one table.
-/
import proofs.«141839_j76785425318033_2_alg».proof.Defs
import proofs.«141839_j76785425318033_2_alg».proof.Proof.Gen.Kernel
import proofs.«141839_j76785425318033_2_alg».proof.Proof.Gen.Kernel.Frame
import proofs.«141839_j76785425318033_2_alg».proof.Proof.Gen.KernelIdeal
import proofs.«141839_j76785425318033_2_alg».proof.Proof.Gen.KernelIdeal.Frame
import proofs.«141839_j76785425318033_2_alg».proof.Proof.Gen.ReferenceIdeal
import proofs.«141839_j76785425318033_2_alg».proof.Proof.Gen.Pre_finite_inputs
import proofs.«141839_j76785425318033_2_alg».proof.Proof.KFinal
import proofs.«141839_j76785425318033_2_alg».proof.Proof.RefFinal
import proofs.«141839_j76785425318033_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.RefFinal.ref_run m ρ)

/-- From memories agreeing on the arguments both programs end at one table: the kernel's result as a function of its
    arguments, which is the reference's function of the same arguments. -/
theorem algebraic : Cert.algebraic_KernelIdeal_ReferenceIdeal := by
  intro m ρ m' ρ' _ hagree
  refine ⟨fun c => Cert.KChain.out m c (Cert.EdgeSums.kPerm (Cert.KChain.arg m c Cert.KernelIdeal.main_arg2)),
    Cert.KFinal.kernel_run m ρ, ?_⟩
  refine (θ_run Cert.ReferenceIdeal.defs _ _).mono (fun r h c => ⟨(h c).1.trans ?_, (h c).2⟩) (Cert.RefFinal.ref_run m' ρ')
  obtain ⟨e0, e1, e2, e3, e4, e5, e6, e7, e8, e9, e10, e11, e12, e13, e14⟩ := hagree c
  rw [e0, e1, e2, e5, e6, e7, e8, e9, e10, e11, e12, e13, e14]
  exact (Cert.Bridge.out_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
